-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v86)) (v1 : (c : Dev Cert.KernelIdeal.nD) → Buf (Elt Ideal) ((c.tc : Thread Cert.KernelIdeal.nD Cert.KernelIdeal.τ).loc Cert.KernelIdeal.main_v93)) (v2 : (c : Dev Cert.KernelIdeal.nD) → Buf (Elt Ideal) ((c.tc : Thread Cert.KernelIdeal.nD Cert.KernelIdeal.τ).loc Cert.KernelIdeal.main_v100)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v86) = v0 c
          ∧ r.2.mem ((c.tc : Thread Cert.KernelIdeal.nD Cert.KernelIdeal.τ).loc Cert.KernelIdeal.main_v93) = v1 c
          ∧ r.2.mem ((c.tc : Thread Cert.KernelIdeal.nD Cert.KernelIdeal.τ).loc Cert.KernelIdeal.main_v100) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_v111) = v1 c
          ∧ r.2.mem ((c.tc : Thread Cert.ReferenceIdeal.nD Cert.ReferenceIdeal.τ).loc Cert.ReferenceIdeal.main_v118) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S3200000 : Shape := ⟨1, ![3200000]⟩
abbrev S100000x1 : Shape := ⟨2, ![100000, 1]⟩
abbrev S50000x1 : Shape := ⟨2, ![50000, 1]⟩
abbrev S100000x64 : Shape := ⟨2, ![100000, 64]⟩
abbrev S50000x64 : Shape := ⟨2, ![50000, 64]⟩
abbrev S16384 : Shape := ⟨1, ![16384]⟩
abbrev S_ : Shape := ⟨0, ![]⟩

class Facts : Prop where
  bcast_S_S3200000 : S_.BroadcastsInDim S3200000 (![] : Fin 0 → Fin S3200000.rank)
  reducesTo_S3200000_S_d0 : S3200000.ReducesTo [0] S_
  h_S_ : 0 < S_.numel
  bcast_S_S100000x1 : S_.BroadcastsInDim S100000x1 (![] : Fin 0 → Fin S100000x1.rank)
  reducesTo_S100000x1_S_d0_1 : S100000x1.ReducesTo [0, 1] S_
  bcast_S_S50000x1 : S_.BroadcastsInDim S50000x1 (![] : Fin 0 → Fin S50000x1.rank)
  reducesTo_S50000x1_S_d0_1 : S50000x1.ReducesTo [0, 1] S_
  bcast_S_S100000x64 : S_.BroadcastsInDim S100000x64 (![] : Fin 0 → Fin S100000x64.rank)
  reducesTo_S100000x64_S_d0_1 : S100000x64.ReducesTo [0, 1] S_
  bcast_S_S50000x64 : S_.BroadcastsInDim S50000x64 (![] : Fin 0 → Fin S50000x64.rank)
  reducesTo_S50000x64_S_d0_1 : S50000x64.ReducesTo [0, 1] S_

variable [Facts]

def fn_part1 {F : FTy → Type} [FloatOps F] (main_arg6 : FVec F S100000x64 .f32) (main_arg7 : FVec F S50000x64 .f32) (main_v13 : IVec S_ 1) (main_v16 : IVec S50000x1 1) : IVec S_ 1 :=
  let main_c_5 : IVec S_ 1 := constantI S_ 1 1#1
  let main_v17 : IVec S_ 1 := (fun x v => Host.reduce IntOp.andi x v reducesTo_S50000x1_S_d0_1 h_S_) main_v16 main_c_5
  let main_v18 : IVec S_ 1 := andi main_v13 main_v17
  let main_v19 : FVec F S100000x64 .f32 := Host.absf main_arg6
  let main_cst_6 : FVec F S_ .f32 := constant S_ .f32 0x7F800000#32
  let main_v20 : FVec F S100000x64 .f32 := broadcastInDim S100000x64 ![] bcast_S_S100000x64 main_cst_6
  let main_v21 : IVec S100000x64 1 := cmpf .olt main_v19 main_v20
  let main_c_7 : IVec S_ 1 := constantI S_ 1 1#1
  let main_v22 : IVec S_ 1 := (fun x v => Host.reduce IntOp.andi x v reducesTo_S100000x64_S_d0_1 h_S_) main_v21 main_c_7
  let main_v23 : IVec S_ 1 := andi main_v18 main_v22
  let main_v24 : FVec F S50000x64 .f32 := Host.absf main_arg7
  let main_cst_8 : FVec F S_ .f32 := constant S_ .f32 0x7F800000#32
  let main_v25 : FVec F S50000x64 .f32 := broadcastInDim S50000x64 ![] bcast_S_S50000x64 main_cst_8
  let main_v26 : IVec S50000x64 1 := cmpf .olt main_v24 main_v25
  let main_c_9 : IVec S_ 1 := constantI S_ 1 1#1
  let main_v27 : IVec S_ 1 := (fun x v => Host.reduce IntOp.andi x v reducesTo_S50000x64_S_d0_1 h_S_) main_v26 main_c_9
  let main_v28 : IVec S_ 1 := andi main_v23 main_v27
  main_v28

def fn {F : FTy → Type} [FloatOps F] (main_arg0 : IVec S3200000 32) (main_arg1 : IVec S3200000 32) (main_arg2 : FVec F S3200000 .f32) (main_arg3 : FVec F S3200000 .f32) (main_arg4 : FVec F S100000x1 .f32) (main_arg5 : FVec F S50000x1 .f32) (main_arg6 : FVec F S100000x64 .f32) (main_arg7 : FVec F S50000x64 .f32) (main_arg8 : IVec S16384 32) (main_arg9 : IVec S16384 32) (main_arg10 : IVec S16384 32) : IVec S_ 1 :=
  let main_v0 : FVec F S3200000 .f32 := Host.absf main_arg2
  let main_cst : FVec F S_ .f32 := constant S_ .f32 0x7F800000#32
  let main_v1 : FVec F S3200000 .f32 := broadcastInDim S3200000 ![] bcast_S_S3200000 main_cst
  let main_v2 : IVec S3200000 1 := cmpf .olt main_v0 main_v1
  let main_c : IVec S_ 1 := constantI S_ 1 1#1
  let main_v3 : IVec S_ 1 := (fun x v => Host.reduce IntOp.andi x v reducesTo_S3200000_S_d0 h_S_) main_v2 main_c
  let main_v4 : FVec F S3200000 .f32 := Host.absf main_arg3
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S100000x1 .f32 := Host.absf main_arg4
  let main_cst_2 : FVec F S_ .f32 := constant S_ .f32 0x7F800000#32
  let main_v10 : FVec F S100000x1 .f32 := broadcastInDim S100000x1 ![] bcast_S_S100000x1 main_cst_2
  let main_v11 : IVec S100000x1 1 := cmpf .olt main_v9 main_v10
  let main_c_3 : IVec S_ 1 := constantI S_ 1 1#1
  let main_v12 : IVec S_ 1 := (fun x v => Host.reduce IntOp.andi x v reducesTo_S100000x1_S_d0_1 h_S_) main_v11 main_c_3
  let main_v13 : IVec S_ 1 := andi main_v8 main_v12
  let main_v14 : FVec F S50000x1 .f32 := Host.absf main_arg5
  let main_cst_4 : FVec F S_ .f32 := constant S_ .f32 0x7F800000#32
  let main_v15 : FVec F S50000x1 .f32 := broadcastInDim S50000x1 ![] bcast_S_S50000x1 main_cst_4
  let main_v16 : IVec S50000x1 1 := cmpf .olt main_v14 main_v15
  fn_part1 (F := F) main_arg6 main_arg7 main_v13 main_v16
-- ==== Kernel.lean ====
abbrev S3200000 : Shape := ⟨1, ![3200000]⟩
abbrev S100000x1 : Shape := ⟨2, ![100000, 1]⟩
abbrev S50000x1 : Shape := ⟨2, ![50000, 1]⟩
abbrev S100000x64 : Shape := ⟨2, ![100000, 64]⟩
abbrev S50000x64 : Shape := ⟨2, ![50000, 64]⟩
abbrev S16384 : Shape := ⟨1, ![16384]⟩
abbrev S_ : Shape := ⟨0, ![]⟩
abbrev S3200000x1 : Shape := ⟨2, ![3200000, 1]⟩
abbrev S3200000x64 : Shape := ⟨2, ![3200000, 64]⟩
abbrev S8000x1 : Shape := ⟨2, ![8000, 1]⟩
abbrev S8000x64 : Shape := ⟨2, ![8000, 64]⟩
abbrev S5000x64 : Shape := ⟨2, ![5000, 64]⟩
abbrev S5000x1 : Shape := ⟨2, ![5000, 1]⟩
abbrev S100000x256 : Shape := ⟨2, ![100000, 256]⟩
abbrev S50000x256 : Shape := ⟨2, ![50000, 256]⟩
abbrev S16384x1 : Shape := ⟨2, ![16384, 1]⟩
abbrev S16384x256 : Shape := ⟨2, ![16384, 256]⟩

abbrev nBuf : Space → Nat
  | .hbm => 136
  | .vmem => 84
  | .smem => 0
  | _ => 0

abbrev hbmTy0_0 (i : Nat) : BufTy := match i % 128 with
  | 0 => ⟨S3200000, .i32⟩
  | 1 => ⟨S3200000, .i32⟩
  | 2 => ⟨S3200000, .f32⟩
  | 3 => ⟨S3200000, .f32⟩
  | 4 => ⟨S100000x1, .f32⟩
  | 5 => ⟨S50000x1, .f32⟩
  | 6 => ⟨S100000x64, .f32⟩
  | 7 => ⟨S50000x64, .f32⟩
  | 8 => ⟨S16384, .i32⟩
  | 9 => ⟨S16384, .i32⟩
  | 10 => ⟨S16384, .i32⟩
  | 11 => ⟨S_, .i32⟩
  | 12 => ⟨S3200000, .i32⟩
  | 13 => ⟨S3200000, .i1⟩
  | 14 => ⟨S_, .i32⟩
  | 15 => ⟨S3200000, .i32⟩
  | 16 => ⟨S3200000, .i32⟩
  | 17 => ⟨S3200000, .i32⟩
  | 18 => ⟨S3200000x1, .i32⟩
  | 19 => ⟨S3200000x64, .f32⟩
  | 20 => ⟨S3200000x1, .f32⟩
  | 21 => ⟨S3200000x64, .f32⟩
  | 22 => ⟨S_, .f32⟩
  | 23 => ⟨S100000x64, .f32⟩
  | 24 => ⟨S3200000x1, .i32⟩
  | 25 => ⟨S100000x64, .f32⟩
  | 26 => ⟨S100000x64, .f32⟩
  | 27 => ⟨S_, .i32⟩
  | 28 => ⟨S3200000, .i32⟩
  | 29 => ⟨S3200000, .i1⟩
  | 30 => ⟨S_, .i32⟩
  | 31 => ⟨S3200000, .i32⟩
  | 32 => ⟨S3200000, .i32⟩
  | 33 => ⟨S3200000, .i32⟩
  | 34 => ⟨S3200000x1, .i32⟩
  | 35 => ⟨S3200000x64, .f32⟩
  | 36 => ⟨S3200000x1, .f32⟩
  | 37 => ⟨S3200000x64, .f32⟩
  | 38 => ⟨S_, .f32⟩
  | 39 => ⟨S50000x64, .f32⟩
  | 40 => ⟨S3200000x1, .i32⟩
  | 41 => ⟨S50000x64, .f32⟩
  | 42 => ⟨S50000x64, .f32⟩
  | 43 => ⟨S_, .i32⟩
  | 44 => ⟨S3200000, .i32⟩
  | 45 => ⟨S3200000, .i1⟩
  | 46 => ⟨S_, .i32⟩
  | 47 => ⟨S3200000, .i32⟩
  | 48 => ⟨S3200000, .i32⟩
  | 49 => ⟨S3200000, .i32⟩
  | 50 => ⟨S3200000x1, .i32⟩
  | 51 => ⟨S3200000x64, .f32⟩
  | 52 => ⟨S3200000x1, .f32⟩
  | 53 => ⟨S3200000x64, .f32⟩
  | 54 => ⟨S_, .f32⟩
  | 55 => ⟨S100000x64, .f32⟩
  | 56 => ⟨S3200000x1, .i32⟩
  | 57 => ⟨S100000x64, .f32⟩
  | 58 => ⟨S100000x64, .f32⟩
  | 59 => ⟨S_, .i32⟩
  | 60 => ⟨S3200000, .i32⟩
  | 61 => ⟨S3200000, .i1⟩
  | 62 => ⟨S_, .i32⟩
  | 63 => ⟨S3200000, .i32⟩
  | 64 => ⟨S3200000, .i32⟩
  | 65 => ⟨S3200000, .i32⟩
  | 66 => ⟨S3200000x1, .i32⟩
  | 67 => ⟨S3200000x64, .f32⟩
  | 68 => ⟨S3200000x1, .f32⟩
  | 69 => ⟨S3200000x64, .f32⟩
  | 70 => ⟨S_, .f32⟩
  | 71 => ⟨S50000x64, .f32⟩
  | 72 => ⟨S3200000x1, .i32⟩
  | 73 => ⟨S50000x64, .f32⟩
  | 74 => ⟨S50000x64, .f32⟩
  | 75 => ⟨S_, .i32⟩
  | 76 => ⟨S3200000, .i32⟩
  | 77 => ⟨S3200000, .i1⟩
  | 78 => ⟨S_, .i32⟩
  | 79 => ⟨S3200000, .i32⟩
  | 80 => ⟨S3200000, .i32⟩
  | 81 => ⟨S3200000, .i32⟩
  | 82 => ⟨S3200000x1, .i32⟩
  | 83 => ⟨S3200000x64, .f32⟩
  | 84 => ⟨S3200000x1, .f32⟩
  | 85 => ⟨S3200000x64, .f32⟩
  | 86 => ⟨S_, .f32⟩
  | 87 => ⟨S100000x64, .f32⟩
  | 88 => ⟨S3200000x1, .i32⟩
  | 89 => ⟨S100000x64, .f32⟩
  | 90 => ⟨S100000x64, .f32⟩
  | 91 => ⟨S_, .i32⟩
  | 92 => ⟨S3200000, .i32⟩
  | 93 => ⟨S3200000, .i1⟩
  | 94 => ⟨S_, .i32⟩
  | 95 => ⟨S3200000, .i32⟩
  | 96 => ⟨S3200000, .i32⟩
  | 97 => ⟨S3200000, .i32⟩
  | 98 => ⟨S3200000x1, .i32⟩
  | 99 => ⟨S3200000x64, .f32⟩
  | 100 => ⟨S3200000x1, .f32⟩
  | 101 => ⟨S3200000x64, .f32⟩
  | 102 => ⟨S_, .f32⟩
  | 103 => ⟨S50000x64, .f32⟩
  | 104 => ⟨S3200000x1, .i32⟩
  | 105 => ⟨S50000x64, .f32⟩
  | 106 => ⟨S50000x64, .f32⟩
  | 107 => ⟨S100000x256, .f32⟩
  | 108 => ⟨S50000x256, .f32⟩
  | 109 => ⟨S_, .i32⟩
  | 110 => ⟨S16384, .i32⟩
  | 111 => ⟨S16384, .i1⟩
  | 112 => ⟨S_, .i32⟩
  | 113 => ⟨S16384, .i32⟩
  | 114 => ⟨S16384, .i32⟩
  | 115 => ⟨S16384, .i32⟩
  | 116 => ⟨S16384x1, .i32⟩
  | 117 => ⟨S16384x256, .f32⟩
  | 118 => ⟨S_, .i32⟩
  | 119 => ⟨S16384, .i32⟩
  | 120 => ⟨S16384, .i1⟩
  | 121 => ⟨S_, .i32⟩
  | 122 => ⟨S16384, .i32⟩
  | 123 => ⟨S16384, .i32⟩
  | 124 => ⟨S16384, .i32⟩
  | 125 => ⟨S16384x1, .i32⟩
  | 126 => ⟨S16384x256, .f32⟩
  | 127 => ⟨S_, .i32⟩
  | _ => ⟨S3200000, .i32⟩

abbrev hbmTy0_1 (i : Nat) : BufTy := match i % 128 with
  | 0 => ⟨S16384, .i32⟩
  | 1 => ⟨S16384, .i1⟩
  | 2 => ⟨S_, .i32⟩
  | 3 => ⟨S16384, .i32⟩
  | 4 => ⟨S16384, .i32⟩
  | 5 => ⟨S16384, .i32⟩
  | 6 => ⟨S16384x1, .i32⟩
  | 7 => ⟨S16384x256, .f32⟩
  | _ => ⟨S3200000, .i32⟩

abbrev hbmTy (i : Nat) : BufTy := match i / 128 with
  | 0 => hbmTy0_0 i
  | 1 => hbmTy0_1 i
  | _ => ⟨S3200000, .i32⟩

abbrev bufTy : (tb : Table) → Fin (tcTables nBuf tb) → BufTy
  | .hbm, ⟨i, _⟩ => hbmTy i
  | .local _ .vmem, ⟨0, _⟩ => ⟨S8000x1, .f32⟩
  | .local _ .vmem, ⟨1, _⟩ => ⟨S8000x1, .f32⟩
  | .local _ .vmem, ⟨2, _⟩ => ⟨S8000x64, .f32⟩
  | .local _ .vmem, ⟨3, _⟩ => ⟨S8000x64, .f32⟩
  | .local _ .vmem, ⟨4, _⟩ => ⟨S8000x64, .f32⟩
  | .local _ .vmem, ⟨5, _⟩ => ⟨S8000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x1, .f32⟩
  | .local _ .vmem, ⟨11, _⟩ => ⟨S5000x1, .f32⟩
  | .local _ .vmem, ⟨12, _⟩ => ⟨S5000x64, .f32⟩
  | .local _ .vmem, ⟨13, _⟩ => ⟨S5000x64, .f32⟩
  | .local _ .vmem, ⟨14, _⟩ => ⟨S8000x1, .f32⟩
  | .local _ .vmem, ⟨15, _⟩ => ⟨S8000x1, .f32⟩
  | .local _ .vmem, ⟨16, _⟩ => ⟨S8000x64, .f32⟩
  | .local _ .vmem, ⟨17, _⟩ => ⟨S8000x64, .f32⟩
  | .local _ .vmem, ⟨18, _⟩ => ⟨S8000x64, .f32⟩
  | .local _ .vmem, ⟨19, _⟩ => ⟨S8000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x1, .f32⟩
  | .local _ .vmem, ⟨25, _⟩ => ⟨S5000x1, .f32⟩
  | .local _ .vmem, ⟨26, _⟩ => ⟨S5000x64, .f32⟩
  | .local _ .vmem, ⟨27, _⟩ => ⟨S5000x64, .f32⟩
  | .local _ .vmem, ⟨28, _⟩ => ⟨S8000x1, .f32⟩
  | .local _ .vmem, ⟨29, _⟩ => ⟨S8000x1, .f32⟩
  | .local _ .vmem, ⟨30, _⟩ => ⟨S8000x64, .f32⟩
  | .local _ .vmem, ⟨31, _⟩ => ⟨S8000x64, .f32⟩
  | .local _ .vmem, ⟨32, _⟩ => ⟨S8000x64, .f32⟩
  | .local _ .vmem, ⟨33, _⟩ => ⟨S8000x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S5000x64, .f32⟩
  | .local _ .vmem, ⟨38, _⟩ => ⟨S5000x1, .f32⟩
  | .local _ .vmem, ⟨39, _⟩ => ⟨S5000x1, .f32⟩
  | .local _ .vmem, ⟨40, _⟩ => ⟨S5000x64, .f32⟩
  | .local _ .vmem, ⟨41, _⟩ => ⟨S5000x64, .f32⟩
  | .local _ .vmem, ⟨42, _⟩ => ⟨S8000x1, .f32⟩
  | .local _ .vmem, ⟨43, _⟩ => ⟨S8000x1, .f32⟩
  | .local _ .vmem, ⟨44, _⟩ => ⟨S8000x64, .f32⟩
  | .local _ .vmem, ⟨45, _⟩ => ⟨S8000x64, .f32⟩
  | .local _ .vmem, ⟨46, _⟩ => ⟨S8000x64, .f32⟩
  | .local _ .vmem, ⟨47, _⟩ => ⟨S8000x64, .f32⟩
  | .local _ .vmem, ⟨48, _⟩ => ⟨S5000x64, .f32⟩
  | .local _ .vmem, ⟨49, _⟩ => ⟨S5000x64, .f32⟩
  | .local _ .vmem, ⟨50, _⟩ => ⟨S5000x64, .f32⟩
  | .local _ .vmem, ⟨51, _⟩ => ⟨S5000x64, .f32⟩
  | .local _ .vmem, ⟨52, _⟩ => ⟨S5000x1, .f32⟩
  | .local _ .vmem, ⟨53, _⟩ => ⟨S5000x1, .f32⟩
  | .local _ .vmem, ⟨54, _⟩ => ⟨S5000x64, .f32⟩
  | .local _ .vmem, ⟨55, _⟩ => ⟨S5000x64, .f32⟩
  | .local _ .vmem, ⟨56, _⟩ => ⟨S8000x1, .f32⟩
  | .local _ .vmem, ⟨57, _⟩ => ⟨S8000x1, .f32⟩
  | .local _ .vmem, ⟨58, _⟩ => ⟨S8000x64, .f32⟩
  | .local _ .vmem, ⟨59, _⟩ => ⟨S8000x64, .f32⟩
  | .local _ .vmem, ⟨60, _⟩ => ⟨S8000x64, .f32⟩
  | .local _ .vmem, ⟨61, _⟩ => ⟨S8000x64, .f32⟩
  | .local _ .vmem, ⟨62, _⟩ => ⟨S5000x64, .f32⟩
  | .local _ .vmem, ⟨63, _⟩ => ⟨S5000x64, .f32⟩
  | .local _ .vmem, ⟨64, _⟩ => ⟨S5000x64, .f32⟩
  | .local _ .vmem, ⟨65, _⟩ => ⟨S5000x64, .f32⟩
  | .local _ .vmem, ⟨66, _⟩ => ⟨S5000x1, .f32⟩
  | .local _ .vmem, ⟨67, _⟩ => ⟨S5000x1, .f32⟩
  | .local _ .vmem, ⟨68, _⟩ => ⟨S5000x64, .f32⟩
  | .local _ .vmem, ⟨69, _⟩ => ⟨S5000x64, .f32⟩
  | .local _ .vmem, ⟨70, _⟩ => ⟨S8000x1, .f32⟩
  | .local _ .vmem, ⟨71, _⟩ => ⟨S8000x1, .f32⟩
  | .local _ .vmem, ⟨72, _⟩ => ⟨S8000x64, .f32⟩
  | .local _ .vmem, ⟨73, _⟩ => ⟨S8000x64, .f32⟩
  | .local _ .vmem, ⟨74, _⟩ => ⟨S8000x64, .f32⟩
  | .local _ .vmem, ⟨75, _⟩ => ⟨S8000x64, .f32⟩
  | .local _ .vmem, ⟨76, _⟩ => ⟨S5000x64, .f32⟩
  | .local _ .vmem, ⟨77, _⟩ => ⟨S5000x64, .f32⟩
  | .local _ .vmem, ⟨78, _⟩ => ⟨S5000x64, .f32⟩
  | .local _ .vmem, ⟨79, _⟩ => ⟨S5000x64, .f32⟩
  | .local _ .vmem, ⟨80, _⟩ => ⟨S5000x1, .f32⟩
  | .local _ .vmem, ⟨81, _⟩ => ⟨S5000x1, .f32⟩
  | .local _ .vmem, ⟨82, _⟩ => ⟨S5000x64, .f32⟩
  | .local _ .vmem, ⟨83, _⟩ => ⟨S5000x64, .f32⟩
  | _, _ => ⟨S3200000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | _, _ => false

abbrev semScoped : Fin 0 → Bool
  | ⟨_, h⟩ => absurd h (Nat.not_lt_zero _)

abbrev dmaSemScoped : Fin 84 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | _ => false

abbrev sig : RefSig :=
  ofTc nBuf bufTy 0 84 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c_1 : Ref sig .tc := ⟨.hbm, 27, rfl⟩
abbrev main_v13 : Ref sig .tc := ⟨.hbm, 28, rfl⟩
abbrev main_v14 : Ref sig .tc := ⟨.hbm, 29, rfl⟩
abbrev main_c_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_3 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_4 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_6 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_c_7 : Ref sig .tc := ⟨.hbm, 59, rfl⟩
abbrev main_v39 : Ref sig .tc := ⟨.hbm, 60, rfl⟩
abbrev main_v40 : Ref sig .tc := ⟨.hbm, 61, rfl⟩
abbrev main_c_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_9 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_c_10 : Ref sig .tc := ⟨.hbm, 75, rfl⟩
abbrev main_v52 : Ref sig .tc := ⟨.hbm, 76, rfl⟩
abbrev main_v53 : Ref sig .tc := ⟨.hbm, 77, rfl⟩
abbrev main_c_11 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_12 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_c_13 : Ref sig .tc := ⟨.hbm, 91, rfl⟩
abbrev main_v65 : Ref sig .tc := ⟨.hbm, 92, rfl⟩
abbrev main_v66 : Ref sig .tc := ⟨.hbm, 93, rfl⟩
abbrev main_c_14 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_15 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_c_16 : Ref sig .tc := ⟨.hbm, 109, rfl⟩
abbrev main_v80 : Ref sig .tc := ⟨.hbm, 110, rfl⟩
abbrev main_v81 : Ref sig .tc := ⟨.hbm, 111, rfl⟩
abbrev main_c_17 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_c_18 : Ref sig .tc := ⟨.hbm, 118, rfl⟩
abbrev main_v87 : Ref sig .tc := ⟨.hbm, 119, rfl⟩
abbrev main_v88 : Ref sig .tc := ⟨.hbm, 120, rfl⟩
abbrev main_c_19 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_c_20 : Ref sig .tc := ⟨.hbm, 127, rfl⟩
abbrev main_v94 : Ref sig .tc := ⟨.hbm, 128, rfl⟩
abbrev main_v95 : Ref sig .tc := ⟨.hbm, 129, rfl⟩
abbrev main_c_21 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg2_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg1_1 : Ref sig .tc := ⟨.vmem, 37, rfl⟩
abbrev cc5_stg2_0 : Ref sig .tc := ⟨.vmem, 38, rfl⟩
abbrev cc5_stg2_1 : Ref sig .tc := ⟨.vmem, 39, rfl⟩
abbrev cc5_stg3_0 : Ref sig .tc := ⟨.vmem, 40, rfl⟩
abbrev cc5_stg3_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg1_1 : Ref sig .tc := ⟨.vmem, 45, rfl⟩
abbrev cc6_stg2_0 : Ref sig .tc := ⟨.vmem, 46, rfl⟩
abbrev cc6_stg2_1 : Ref sig .tc := ⟨.vmem, 47, rfl⟩
abbrev cc7_stg0_0 : Ref sig .tc := ⟨.vmem, 48, rfl⟩
abbrev cc7_stg0_1 : Ref sig .tc := ⟨.vmem, 49, rfl⟩
abbrev cc7_stg1_0 : Ref sig .tc := ⟨.vmem, 50, rfl⟩
abbrev cc7_stg1_1 : Ref sig .tc := ⟨.vmem, 51, rfl⟩
abbrev cc7_stg2_0 : Ref sig .tc := ⟨.vmem, 52, rfl⟩
abbrev cc7_stg2_1 : Ref sig .tc := ⟨.vmem, 53, rfl⟩
abbrev cc7_stg3_0 : Ref sig .tc := ⟨.vmem, 54, rfl⟩
abbrev cc7_stg3_1 : Ref sig .tc := ⟨.vmem, 55, rfl⟩
abbrev cc8_stg0_0 : Ref sig .tc := ⟨.vmem, 56, rfl⟩
abbrev cc8_stg0_1 : Ref sig .tc := ⟨.vmem, 57, rfl⟩
abbrev cc8_stg1_0 : Ref sig .tc := ⟨.vmem, 58, rfl⟩
abbrev cc8_stg1_1 : Ref sig .tc := ⟨.vmem, 59, rfl⟩
abbrev cc8_stg2_0 : Ref sig .tc := ⟨.vmem, 60, rfl⟩
abbrev cc8_stg2_1 : Ref sig .tc := ⟨.vmem, 61, rfl⟩
abbrev cc9_stg0_0 : Ref sig .tc := ⟨.vmem, 62, rfl⟩
abbrev cc9_stg0_1 : Ref sig .tc := ⟨.vmem, 63, rfl⟩
abbrev cc9_stg1_0 : Ref sig .tc := ⟨.vmem, 64, rfl⟩
abbrev cc9_stg1_1 : Ref sig .tc := ⟨.vmem, 65, rfl⟩
abbrev cc9_stg2_0 : Ref sig .tc := ⟨.vmem, 66, rfl⟩
abbrev cc9_stg2_1 : Ref sig .tc := ⟨.vmem, 67, rfl⟩
abbrev cc9_stg3_0 : Ref sig .tc := ⟨.vmem, 68, rfl⟩
abbrev cc9_stg3_1 : Ref sig .tc := ⟨.vmem, 69, rfl⟩
abbrev cc10_stg0_0 : Ref sig .tc := ⟨.vmem, 70, rfl⟩
abbrev cc10_stg0_1 : Ref sig .tc := ⟨.vmem, 71, rfl⟩
abbrev cc10_stg1_0 : Ref sig .tc := ⟨.vmem, 72, rfl⟩
abbrev cc10_stg1_1 : Ref sig .tc := ⟨.vmem, 73, rfl⟩
abbrev cc10_stg2_0 : Ref sig .tc := ⟨.vmem, 74, rfl⟩
abbrev cc10_stg2_1 : Ref sig .tc := ⟨.vmem, 75, rfl⟩
abbrev cc11_stg0_0 : Ref sig .tc := ⟨.vmem, 76, rfl⟩
abbrev cc11_stg0_1 : Ref sig .tc := ⟨.vmem, 77, rfl⟩
abbrev cc11_stg1_0 : Ref sig .tc := ⟨.vmem, 78, rfl⟩
abbrev cc11_stg1_1 : Ref sig .tc := ⟨.vmem, 79, rfl⟩
abbrev cc11_stg2_0 : Ref sig .tc := ⟨.vmem, 80, rfl⟩
abbrev cc11_stg2_1 : Ref sig .tc := ⟨.vmem, 81, rfl⟩
abbrev cc11_stg3_0 : Ref sig .tc := ⟨.vmem, 82, rfl⟩
abbrev cc11_stg3_1 : Ref sig .tc := ⟨.vmem, 83, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem2_1 : DmaSem sig := 33
abbrev cc5_sem0_0 : DmaSem sig := 34
abbrev cc5_sem0_1 : DmaSem sig := 35
abbrev cc5_sem1_0 : DmaSem sig := 36
abbrev cc5_sem1_1 : DmaSem sig := 37
abbrev cc5_sem2_0 : DmaSem sig := 38
abbrev cc5_sem2_1 : DmaSem sig := 39
abbrev cc5_sem3_0 : DmaSem sig := 40
abbrev cc5_sem3_1 : DmaSem sig := 41
abbrev cc6_sem0_0 : DmaSem sig := 42
abbrev cc6_sem0_1 : DmaSem sig := 43
abbrev cc6_sem1_0 : DmaSem sig := 44
abbrev cc6_sem1_1 : DmaSem sig := 45
abbrev cc6_sem2_0 : DmaSem sig := 46
abbrev cc6_sem2_1 : DmaSem sig := 47
abbrev cc7_sem0_0 : DmaSem sig := 48
abbrev cc7_sem0_1 : DmaSem sig := 49
abbrev cc7_sem1_0 : DmaSem sig := 50
abbrev cc7_sem1_1 : DmaSem sig := 51
abbrev cc7_sem2_0 : DmaSem sig := 52
abbrev cc7_sem2_1 : DmaSem sig := 53
abbrev cc7_sem3_0 : DmaSem sig := 54
abbrev cc7_sem3_1 : DmaSem sig := 55
abbrev cc8_sem0_0 : DmaSem sig := 56
abbrev cc8_sem0_1 : DmaSem sig := 57
abbrev cc8_sem1_0 : DmaSem sig := 58
abbrev cc8_sem1_1 : DmaSem sig := 59
abbrev cc8_sem2_0 : DmaSem sig := 60
abbrev cc8_sem2_1 : DmaSem sig := 61
abbrev cc9_sem0_0 : DmaSem sig := 62
abbrev cc9_sem0_1 : DmaSem sig := 63
abbrev cc9_sem1_0 : DmaSem sig := 64
abbrev cc9_sem1_1 : DmaSem sig := 65
abbrev cc9_sem2_0 : DmaSem sig := 66
abbrev cc9_sem2_1 : DmaSem sig := 67
abbrev cc9_sem3_0 : DmaSem sig := 68
abbrev cc9_sem3_1 : DmaSem sig := 69
abbrev cc10_sem0_0 : DmaSem sig := 70
abbrev cc10_sem0_1 : DmaSem sig := 71
abbrev cc10_sem1_0 : DmaSem sig := 72
abbrev cc10_sem1_1 : DmaSem sig := 73
abbrev cc10_sem2_0 : DmaSem sig := 74
abbrev cc10_sem2_1 : DmaSem sig := 75
abbrev cc11_sem0_0 : DmaSem sig := 76
abbrev cc11_sem0_1 : DmaSem sig := 77
abbrev cc11_sem1_0 : DmaSem sig := 78
abbrev cc11_sem1_1 : DmaSem sig := 79
abbrev cc11_sem2_0 : DmaSem sig := 80
abbrev cc11_sem2_1 : DmaSem sig := 81
abbrev cc11_sem3_0 : DmaSem sig := 82
abbrev cc11_sem3_1 : DmaSem sig := 83

abbrev nD : Nat := 1
abbrev τ : Topo := Topo.v7x

variable {F : FTy → Type} [FloatOps F]

abbrev grid0 : Pipeline.Grid := ⟨1, ![400], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![400], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x1 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![400], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8000x1 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S8000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S5000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![400], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S8000x1 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S8000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S8000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S5000x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S5000x64 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![400], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S8000x1 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S8000x64 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S8000x64 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![20], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S5000x64 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S5000x1 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 2 → Memref sig .tc .vmem S5000x64 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev grid10 : Pipeline.Grid := ⟨1, ![400], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S8000x1 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S8000x64 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 2 → Memref sig .tc .vmem S8000x64 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev grid11 : Pipeline.Grid := ⟨1, ![10], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S5000x64 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S5000x64 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 2 → Memref sig .tc .vmem S5000x1 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev stage11_3 : Fin 2 → Memref sig .tc .vmem S5000x64 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true]

class Facts₀ : Prop where
  bcast_S_S3200000 : S_.BroadcastsInDim S3200000 (![] : Fin 0 → Fin S3200000.rank)
  bcast_S3200000_S3200000x1_0 : S3200000.BroadcastsInDim S3200000x1 (![0] : Fin 1 → Fin S3200000x1.rank)
  shapeCasts_S3200000_S3200000x1 : S3200000.ShapeCasts S3200000x1
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  broadcasts_S8000x1_S8000x64 : S8000x1.Broadcasts S8000x64
  bcast_S_S100000x64 : S_.BroadcastsInDim S100000x64 (![] : Fin 0 → Fin S100000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  broadcasts_S5000x1_S5000x64 : S5000x1.Broadcasts S5000x64
  bcast_S_S50000x64 : S_.BroadcastsInDim S50000x64 (![] : Fin 0 → Fin S50000x64.rank)
  concatenates_S100000x64_S100000x64_S100000x64_S100000x64_S100000x256_d1 : Shape.Concatenates [S100000x64, S100000x64, S100000x64, S100000x64] S100000x256 1
  concatenates_S50000x64_S50000x64_S50000x64_S50000x64_S50000x256_d1 : Shape.Concatenates [S50000x64, S50000x64, S50000x64, S50000x64] S50000x256 1
  bcast_S_S16384 : S_.BroadcastsInDim S16384 (![] : Fin 0 → Fin S16384.rank)
  bcast_S16384_S16384x1_0 : S16384.BroadcastsInDim S16384x1 (![0] : Fin 1 → Fin S16384x1.rank)
  gather_S50000x64_S3200000x1_S3200000x64_1_0_n_n_0_1_164_wf : GatherDims.WF S50000x64 S3200000x1 S3200000x64 [1] [0] [] [0] [] 1 ![1, 64]
  scatter_S100000x64_S3200000x1_S3200000x64_1_0_0_1_wf : ScatterDims.WF S100000x64 S3200000x1 S3200000x64 [1] [0] [0] 1
  gather_S100000x64_S3200000x1_S3200000x64_1_0_n_n_0_1_164_wf : GatherDims.WF S100000x64 S3200000x1 S3200000x64 [1] [0] [] [0] [] 1 ![1, 64]
  scatter_S50000x64_S3200000x1_S3200000x64_1_0_0_1_wf : ScatterDims.WF S50000x64 S3200000x1 S3200000x64 [1] [0] [0] 1
  gather_S100000x256_S16384x1_S16384x256_1_0_n_n_0_1_1256_wf : GatherDims.WF S100000x256 S16384x1 S16384x256 [1] [0] [] [0] [] 1 ![1, 256]
  gather_S50000x256_S16384x1_S16384x256_1_0_n_n_0_1_1256_wf : GatherDims.WF S50000x256 S16384x1 S16384x256 [1] [0] [] [0] [] 1 ![1, 256]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x1.size a ≤ S3200000x1.size a
  hwx0_0 : ∀ i : grid0.Coords, EltTy.bits .f32 = 32 ∨ (Rect.block (s := S3200000x1) S8000x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S3200000x64.size a
  hwx0_1 : ∀ i : grid0.Coords, EltTy.bits .f32 = 32 ∨ (Rect.block (s := S3200000x64) S8000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x64.size a ≤ S3200000x64.size a
  hwx0_2 : ∀ i : grid0.Coords, EltTy.bits .f32 = 32 ∨ (Rect.block (s := S3200000x64) S8000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x1.size a ≤ S3200000x1.size a
  hwx2_0 : ∀ i : grid2.Coords, EltTy.bits .f32 = 32 ∨ (Rect.block (s := S3200000x1) S8000x1.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x64.size a ≤ S3200000x64.size a
  hwx2_1 : ∀ i : grid2.Coords, EltTy.bits .f32 = 32 ∨ (Rect.block (s := S3200000x64) S8000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8000x64.size a ≤ S3200000x64.size a
  hwx2_2 : ∀ i : grid2.Coords, EltTy.bits .f32 = 32 ∨ (Rect.block (s := S3200000x64) S8000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S50000x64.size a
  hwx3_1 : ∀ i : grid3.Coords, EltTy.bits .f32 = 32 ∨ (Rect.block (s := S50000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S50000x64.size a
  hwx3_3 : ∀ i : grid3.Coords, EltTy.bits .f32 = 32 ∨ (Rect.block (s := S50000x64) S5000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8000x1.size a ≤ S3200000x1.size a
  hwx4_0 : ∀ i : grid4.Coords, EltTy.bits .f32 = 32 ∨ (Rect.block (s := S3200000x1) S8000x1.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8000x64.size a ≤ S3200000x64.size a
  hwx4_1 : ∀ i : grid4.Coords, EltTy.bits .f32 = 32 ∨ (Rect.block (s := S3200000x64) S8000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S8000x64.size a ≤ S3200000x64.size a
  hwx4_2 : ∀ i : grid4.Coords, EltTy.bits .f32 = 32 ∨ (Rect.block (s := S3200000x64) S8000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S100000x64.size a
  hwx5_1 : ∀ i : grid5.Coords, EltTy.bits .f32 = 32 ∨ (Rect.block (s := S100000x64) S5000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S100000x1.size a
  hwx5_2 : ∀ i : grid5.Coords, EltTy.bits .f32 = 32 ∨ (Rect.block (s := S100000x1) S5000x1.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x64.size a ≤ S100000x64.size a
  hwx5_3 : ∀ i : grid5.Coords, EltTy.bits .f32 = 32 ∨ (Rect.block (s := S100000x64) S5000x64.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S8000x1.size a ≤ S3200000x1.size a
  hwx6_0 : ∀ i : grid6.Coords, EltTy.bits .f32 = 32 ∨ (Rect.block (s := S3200000x1) S8000x1.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S8000x64.size a ≤ S3200000x64.size a
  hwx6_1 : ∀ i : grid6.Coords, EltTy.bits .f32 = 32 ∨ (Rect.block (s := S3200000x64) S8000x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S8000x64.size a ≤ S3200000x64.size a
  hwx6_2 : ∀ i : grid6.Coords, EltTy.bits .f32 = 32 ∨ (Rect.block (s := S3200000x64) S8000x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S50000x64.size a
  hwx7_0 : ∀ i : grid7.Coords, EltTy.bits .f32 = 32 ∨ (Rect.block (s := S50000x64) S5000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x64.size a ≤ S50000x64.size a
  hwx7_1 : ∀ i : grid7.Coords, EltTy.bits .f32 = 32 ∨ (Rect.block (s := S50000x64) S5000x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x1.size a ≤ S50000x1.size a
  hwx7_2 : ∀ i : grid7.Coords, EltTy.bits .f32 = 32 ∨ (Rect.block (s := S50000x1) S5000x1.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x64.size a ≤ S50000x64.size a
  hwx7_3 : ∀ i : grid7.Coords, EltTy.bits .f32 = 32 ∨ (Rect.block (s := S50000x64) S5000x64.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S8000x1.size a ≤ S3200000x1.size a
  hwx8_0 : ∀ i : grid8.Coords, EltTy.bits .f32 = 32 ∨ (Rect.block (s := S3200000x1) S8000x1.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S8000x64.size a ≤ S3200000x64.size a
  hwx8_1 : ∀ i : grid8.Coords, EltTy.bits .f32 = 32 ∨ (Rect.block (s := S3200000x64) S8000x64.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S8000x64.size a ≤ S3200000x64.size a
  hwx8_2 : ∀ i : grid8.Coords, EltTy.bits .f32 = 32 ∨ (Rect.block (s := S3200000x64) S8000x64.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x64.size a ≤ S100000x64.size a
  hwx9_0 : ∀ i : grid9.Coords, EltTy.bits .f32 = 32 ∨ (Rect.block (s := S100000x64) S5000x64.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S5000x64.size a ≤ S100000x64.size a
  hwx9_1 : ∀ i : grid9.Coords, EltTy.bits .f32 = 32 ∨ (Rect.block (s := S100000x64) S5000x64.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S5000x1.size a ≤ S100000x1.size a
  hwx9_2 : ∀ i : grid9.Coords, EltTy.bits .f32 = 32 ∨ (Rect.block (s := S100000x1) S5000x1.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S5000x64.size a ≤ S100000x64.size a
  hwx9_3 : ∀ i : grid9.Coords, EltTy.bits .f32 = 32 ∨ (Rect.block (s := S100000x64) S5000x64.size (cc9_transform_3 i) (hinb9_3 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S8000x1.size a ≤ S3200000x1.size a
  hwx10_0 : ∀ i : grid10.Coords, EltTy.bits .f32 = 32 ∨ (Rect.block (s := S3200000x1) S8000x1.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S8000x64.size a ≤ S3200000x64.size a
  hwx10_1 : ∀ i : grid10.Coords, EltTy.bits .f32 = 32 ∨ (Rect.block (s := S3200000x64) S8000x64.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S8000x64.size a ≤ S3200000x64.size a
  hwx10_2 : ∀ i : grid10.Coords, EltTy.bits .f32 = 32 ∨ (Rect.block (s := S3200000x64) S8000x64.size (cc10_transform_2 i) (hinb10_2 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x64.size a ≤ S50000x64.size a
  hwx11_0 : ∀ i : grid11.Coords, EltTy.bits .f32 = 32 ∨ (Rect.block (s := S50000x64) S5000x64.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S5000x64.size a ≤ S50000x64.size a
  hwx11_1 : ∀ i : grid11.Coords, EltTy.bits .f32 = 32 ∨ (Rect.block (s := S50000x64) S5000x64.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S5000x1.size a ≤ S50000x1.size a
  hwx11_2 : ∀ i : grid11.Coords, EltTy.bits .f32 = 32 ∨ (Rect.block (s := S50000x1) S5000x1.size (cc11_transform_2 i) (hinb11_2 i)).WholeWords (EltTy.packing .f32)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S5000x64.size a ≤ S50000x64.size a
  hwx11_3 : ∀ i : grid11.Coords, EltTy.bits .f32 = 32 ∨ (Rect.block (s := S50000x64) S5000x64.size (cc11_transform_3 i) (hinb11_3 i)).WholeWords (EltTy.packing .f32)

variable [Facts₀]

def gather_S50000x64_S3200000x1_S3200000x64_1_0_n_n_0_1_164 : GatherDims S50000x64 S3200000x1 S3200000x64 where
  offsetDims := [1]
  collapsedSliceDims := [0]
  operandBatchingDims := []
  startIndicesBatchingDims := []
  startIndexMap := [0]
  indexVectorDim := 1
  sliceSizes := ![1, 64]
  wf := gather_S50000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S50000x64_S3200000x1_S3200000x64_1_0_0_1 : ScatterDims S50000x64 S3200000x1 S3200000x64 where
  updateWindowDims := [1]
  insertedWindowDims := [0]
  scatterDimsToOperandDims := [0]
  indexVectorDim := 1
  wf := scatter_S50000x64_S3200000x1_S3200000x64_1_0_0_1_wf
def gather_S100000x256_S16384x1_S16384x256_1_0_n_n_0_1_1256 : GatherDims S100000x256 S16384x1 S16384x256 where
  offsetDims := [1]
  collapsedSliceDims := [0]
  operandBatchingDims := []
  startIndicesBatchingDims := []
  startIndexMap := [0]
  indexVectorDim := 1
  sliceSizes := ![1, 256]
  wf := gather_S100000x256_S16384x1_S16384x256_1_0_n_n_0_1_1256_wf
def gather_S50000x256_S16384x1_S16384x256_1_0_n_n_0_1_1256 : GatherDims S50000x256 S16384x1 S16384x256 where
  offsetDims := [1]
  collapsedSliceDims := [0]
  operandBatchingDims := []
  startIndicesBatchingDims := []
  startIndexMap := [0]
  indexVectorDim := 1
  sliceSizes := ![1, 256]
  wf := gather_S50000x256_S16384x1_S16384x256_1_0_n_n_0_1_1256_wf

abbrev win0_0 : Pipeline.Window sig grid0 :=
  Pipeline.Window.ofSpec (Memref.whole main_v7) S8000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S8000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S8000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v11) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v12) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v20) S8000x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v19) S8000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v21) S8000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v24) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg5) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v25) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v33) S8000x1.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v32) S8000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v34) S8000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v37) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v12) S5000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg4) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v38) S5000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v46) S8000x1.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v45) S8000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v47) S8000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v50) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v25) S5000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_arg5) S5000x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v51) S5000x64.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v59) S8000x1.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v58) S8000x64.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v60) S8000x64.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v63) S5000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v38) S5000x64.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_arg4) S5000x1.size cc9_transform_2 reads9_2 false false 2 stage9_2 sem9_2
    hrank9 hreads9_2 hinb9_2 nbuf9_2 (Memref.isWhole_whole _) hwx9_2 hstage9_2

abbrev win9_3 : Pipeline.Window sig grid9 :=
  Pipeline.Window.ofSpec (Memref.whole main_v64) S5000x64.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev win10_0 : Pipeline.Window sig grid10 :=
  Pipeline.Window.ofSpec (Memref.whole main_v72) S8000x1.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v71) S8000x64.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v73) S8000x64.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev win11_0 : Pipeline.Window sig grid11 :=
  Pipeline.Window.ofSpec (Memref.whole main_v76) S5000x64.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v51) S5000x64.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_arg5) S5000x1.size cc11_transform_2 reads11_2 false false 2 stage11_2 sem11_2
    hrank11 hreads11_2 hinb11_2 nbuf11_2 (Memref.isWhole_whole _) hwx11_2 hstage11_2

abbrev win11_3 : Pipeline.Window sig grid11 :=
  Pipeline.Window.ofSpec (Memref.whole main_v77) S5000x64.size cc11_transform_3 reads11_3 true false 2 stage11_3 sem11_3
    hrank11 hreads11_3 hinb11_3 nbuf11_3 (Memref.isWhole_whole _) hwx11_3 hstage11_3

abbrev win11 : Fin 4 → Pipeline.Window sig grid11 := fun | 0 => win11_0 | 1 => win11_1 | 2 => win11_2 | 3 => win11_3 | ⟨_ + 4, h⟩ => absurd h (Nat.not_lt.2 (Nat.le_add_left _ _))
abbrev spec11 : Fin 4 → Pipeline.WinSpec sig grid11.rank := fun w => (win11 w).toWinSpec

class Facts : Prop extends Facts₀ where

variable [Facts]
-- ==== ReferenceIdeal.lean ====
abbrev S3200000 : Shape := ⟨1, ![3200000]⟩
abbrev S100000x1 : Shape := ⟨2, ![100000, 1]⟩
abbrev S50000x1 : Shape := ⟨2, ![50000, 1]⟩
abbrev S100000x64 : Shape := ⟨2, ![100000, 64]⟩
abbrev S50000x64 : Shape := ⟨2, ![50000, 64]⟩
abbrev S16384 : Shape := ⟨1, ![16384]⟩
abbrev S3200000x1 : Shape := ⟨2, ![3200000, 1]⟩
abbrev S_ : Shape := ⟨0, ![]⟩
abbrev S3200000x64 : Shape := ⟨2, ![3200000, 64]⟩
abbrev S100000x256 : Shape := ⟨2, ![100000, 256]⟩
abbrev S50000x256 : Shape := ⟨2, ![50000, 256]⟩
abbrev S16384x1 : Shape := ⟨2, ![16384, 1]⟩
abbrev S16384x256 : Shape := ⟨2, ![16384, 256]⟩

abbrev nBuf : Space → Nat
  | .hbm => 154
  | .vmem => 0
  | .smem => 0
  | _ => 0

abbrev hbmTy0_0 (i : Nat) : BufTy := match i % 128 with
  | 0 => ⟨S3200000, .i32⟩
  | 1 => ⟨S3200000, .i32⟩
  | 2 => ⟨S3200000, .f32⟩
  | 3 => ⟨S3200000, .f32⟩
  | 4 => ⟨S100000x1, .f32⟩
  | 5 => ⟨S50000x1, .f32⟩
  | 6 => ⟨S100000x64, .f32⟩
  | 7 => ⟨S50000x64, .f32⟩
  | 8 => ⟨S16384, .i32⟩
  | 9 => ⟨S16384, .i32⟩
  | 10 => ⟨S16384, .i32⟩
  | 11 => ⟨S3200000x1, .f32⟩
  | 12 => ⟨S_, .i32⟩
  | 13 => ⟨S3200000, .i32⟩
  | 14 => ⟨S3200000, .i1⟩
  | 15 => ⟨S_, .i32⟩
  | 16 => ⟨S3200000, .i32⟩
  | 17 => ⟨S3200000, .i32⟩
  | 18 => ⟨S3200000, .i32⟩
  | 19 => ⟨S3200000x1, .i32⟩
  | 20 => ⟨S3200000x64, .f32⟩
  | 21 => ⟨S3200000x64, .f32⟩
  | 22 => ⟨S3200000x64, .f32⟩
  | 23 => ⟨S_, .f32⟩
  | 24 => ⟨S100000x64, .f32⟩
  | 25 => ⟨S3200000x1, .i32⟩
  | 26 => ⟨S100000x64, .f32⟩
  | 27 => ⟨S100000x64, .f32⟩
  | 28 => ⟨S100000x64, .f32⟩
  | 29 => ⟨S100000x64, .f32⟩
  | 30 => ⟨S3200000x1, .f32⟩
  | 31 => ⟨S_, .i32⟩
  | 32 => ⟨S3200000, .i32⟩
  | 33 => ⟨S3200000, .i1⟩
  | 34 => ⟨S_, .i32⟩
  | 35 => ⟨S3200000, .i32⟩
  | 36 => ⟨S3200000, .i32⟩
  | 37 => ⟨S3200000, .i32⟩
  | 38 => ⟨S3200000x1, .i32⟩
  | 39 => ⟨S3200000x64, .f32⟩
  | 40 => ⟨S3200000x64, .f32⟩
  | 41 => ⟨S3200000x64, .f32⟩
  | 42 => ⟨S_, .f32⟩
  | 43 => ⟨S50000x64, .f32⟩
  | 44 => ⟨S3200000x1, .i32⟩
  | 45 => ⟨S50000x64, .f32⟩
  | 46 => ⟨S50000x64, .f32⟩
  | 47 => ⟨S50000x64, .f32⟩
  | 48 => ⟨S50000x64, .f32⟩
  | 49 => ⟨S3200000x1, .f32⟩
  | 50 => ⟨S_, .i32⟩
  | 51 => ⟨S3200000, .i32⟩
  | 52 => ⟨S3200000, .i1⟩
  | 53 => ⟨S_, .i32⟩
  | 54 => ⟨S3200000, .i32⟩
  | 55 => ⟨S3200000, .i32⟩
  | 56 => ⟨S3200000, .i32⟩
  | 57 => ⟨S3200000x1, .i32⟩
  | 58 => ⟨S3200000x64, .f32⟩
  | 59 => ⟨S3200000x64, .f32⟩
  | 60 => ⟨S3200000x64, .f32⟩
  | 61 => ⟨S_, .f32⟩
  | 62 => ⟨S100000x64, .f32⟩
  | 63 => ⟨S3200000x1, .i32⟩
  | 64 => ⟨S100000x64, .f32⟩
  | 65 => ⟨S100000x64, .f32⟩
  | 66 => ⟨S100000x64, .f32⟩
  | 67 => ⟨S100000x64, .f32⟩
  | 68 => ⟨S3200000x1, .f32⟩
  | 69 => ⟨S_, .i32⟩
  | 70 => ⟨S3200000, .i32⟩
  | 71 => ⟨S3200000, .i1⟩
  | 72 => ⟨S_, .i32⟩
  | 73 => ⟨S3200000, .i32⟩
  | 74 => ⟨S3200000, .i32⟩
  | 75 => ⟨S3200000, .i32⟩
  | 76 => ⟨S3200000x1, .i32⟩
  | 77 => ⟨S3200000x64, .f32⟩
  | 78 => ⟨S3200000x64, .f32⟩
  | 79 => ⟨S3200000x64, .f32⟩
  | 80 => ⟨S_, .f32⟩
  | 81 => ⟨S50000x64, .f32⟩
  | 82 => ⟨S3200000x1, .i32⟩
  | 83 => ⟨S50000x64, .f32⟩
  | 84 => ⟨S50000x64, .f32⟩
  | 85 => ⟨S50000x64, .f32⟩
  | 86 => ⟨S50000x64, .f32⟩
  | 87 => ⟨S3200000x1, .f32⟩
  | 88 => ⟨S_, .i32⟩
  | 89 => ⟨S3200000, .i32⟩
  | 90 => ⟨S3200000, .i1⟩
  | 91 => ⟨S_, .i32⟩
  | 92 => ⟨S3200000, .i32⟩
  | 93 => ⟨S3200000, .i32⟩
  | 94 => ⟨S3200000, .i32⟩
  | 95 => ⟨S3200000x1, .i32⟩
  | 96 => ⟨S3200000x64, .f32⟩
  | 97 => ⟨S3200000x64, .f32⟩
  | 98 => ⟨S3200000x64, .f32⟩
  | 99 => ⟨S_, .f32⟩
  | 100 => ⟨S100000x64, .f32⟩
  | 101 => ⟨S3200000x1, .i32⟩
  | 102 => ⟨S100000x64, .f32⟩
  | 103 => ⟨S100000x64, .f32⟩
  | 104 => ⟨S100000x64, .f32⟩
  | 105 => ⟨S100000x64, .f32⟩
  | 106 => ⟨S3200000x1, .f32⟩
  | 107 => ⟨S_, .i32⟩
  | 108 => ⟨S3200000, .i32⟩
  | 109 => ⟨S3200000, .i1⟩
  | 110 => ⟨S_, .i32⟩
  | 111 => ⟨S3200000, .i32⟩
  | 112 => ⟨S3200000, .i32⟩
  | 113 => ⟨S3200000, .i32⟩
  | 114 => ⟨S3200000x1, .i32⟩
  | 115 => ⟨S3200000x64, .f32⟩
  | 116 => ⟨S3200000x64, .f32⟩
  | 117 => ⟨S3200000x64, .f32⟩
  | 118 => ⟨S_, .f32⟩
  | 119 => ⟨S50000x64, .f32⟩
  | 120 => ⟨S3200000x1, .i32⟩
  | 121 => ⟨S50000x64, .f32⟩
  | 122 => ⟨S50000x64, .f32⟩
  | 123 => ⟨S50000x64, .f32⟩
  | 124 => ⟨S50000x64, .f32⟩
  | 125 => ⟨S100000x256, .f32⟩
  | 126 => ⟨S50000x256, .f32⟩
  | 127 => ⟨S_, .i32⟩
  | _ => ⟨S3200000, .i32⟩

abbrev hbmTy0_1 (i : Nat) : BufTy := match i % 128 with
  | 0 => ⟨S16384, .i32⟩
  | 1 => ⟨S16384, .i1⟩
  | 2 => ⟨S_, .i32⟩
  | 3 => ⟨S16384, .i32⟩
  | 4 => ⟨S16384, .i32⟩
  | 5 => ⟨S16384, .i32⟩
  | 6 => ⟨S16384x1, .i32⟩
  | 7 => ⟨S16384x256, .f32⟩
  | 8 => ⟨S_, .i32⟩
  | 9 => ⟨S16384, .i32⟩
  | 10 => ⟨S16384, .i1⟩
  | 11 => ⟨S_, .i32⟩
  | 12 => ⟨S16384, .i32⟩
  | 13 => ⟨S16384, .i32⟩
  | 14 => ⟨S16384, .i32⟩
  | 15 => ⟨S16384x1, .i32⟩
  | 16 => ⟨S16384x256, .f32⟩
  | 17 => ⟨S_, .i32⟩
  | 18 => ⟨S16384, .i32⟩
  | 19 => ⟨S16384, .i1⟩
  | 20 => ⟨S_, .i32⟩
  | 21 => ⟨S16384, .i32⟩
  | 22 => ⟨S16384, .i32⟩
  | 23 => ⟨S16384, .i32⟩
  | 24 => ⟨S16384x1, .i32⟩
  | 25 => ⟨S16384x256, .f32⟩
  | _ => ⟨S3200000, .i32⟩

abbrev hbmTy (i : Nat) : BufTy := match i / 128 with
  | 0 => hbmTy0_0 i
  | 1 => hbmTy0_1 i
  | _ => ⟨S3200000, .i32⟩

abbrev bufTy : (tb : Table) → Fin (tcTables nBuf tb) → BufTy
  | .hbm, ⟨i, _⟩ => hbmTy i
  | _, _ => ⟨S3200000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c_1 : Ref sig .tc := ⟨.hbm, 31, rfl⟩
abbrev main_v17 : Ref sig .tc := ⟨.hbm, 32, rfl⟩
abbrev main_v18 : Ref sig .tc := ⟨.hbm, 33, rfl⟩
abbrev main_c_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_3 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_4 : Ref sig .tc := ⟨.hbm, 50, rfl⟩
abbrev main_v33 : Ref sig .tc := ⟨.hbm, 51, rfl⟩
abbrev main_v34 : Ref sig .tc := ⟨.hbm, 52, rfl⟩
abbrev main_c_5 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_6 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_7 : Ref sig .tc := ⟨.hbm, 69, rfl⟩
abbrev main_v49 : Ref sig .tc := ⟨.hbm, 70, rfl⟩
abbrev main_v50 : Ref sig .tc := ⟨.hbm, 71, rfl⟩
abbrev main_c_8 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_9 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_c_10 : Ref sig .tc := ⟨.hbm, 88, rfl⟩
abbrev main_v65 : Ref sig .tc := ⟨.hbm, 89, rfl⟩
abbrev main_v66 : Ref sig .tc := ⟨.hbm, 90, rfl⟩
abbrev main_c_11 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_12 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_c_13 : Ref sig .tc := ⟨.hbm, 107, rfl⟩
abbrev main_v81 : Ref sig .tc := ⟨.hbm, 108, rfl⟩
abbrev main_v82 : Ref sig .tc := ⟨.hbm, 109, rfl⟩
abbrev main_c_14 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_cst_15 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_c_16 : Ref sig .tc := ⟨.hbm, 127, rfl⟩
abbrev main_v98 : Ref sig .tc := ⟨.hbm, 128, rfl⟩
abbrev main_v99 : Ref sig .tc := ⟨.hbm, 129, rfl⟩
abbrev main_c_17 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_c_18 : Ref sig .tc := ⟨.hbm, 136, rfl⟩
abbrev main_v105 : Ref sig .tc := ⟨.hbm, 137, rfl⟩
abbrev main_v106 : Ref sig .tc := ⟨.hbm, 138, rfl⟩
abbrev main_c_19 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_c_20 : Ref sig .tc := ⟨.hbm, 145, rfl⟩
abbrev main_v112 : Ref sig .tc := ⟨.hbm, 146, rfl⟩
abbrev main_v113 : Ref sig .tc := ⟨.hbm, 147, rfl⟩
abbrev main_c_21 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩

abbrev nD : Nat := 1
abbrev τ : Topo := Topo.v7x

variable {F : FTy → Type} [FloatOps F]

class Facts₀ : Prop where
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  concatenates_S100000x64_S100000x64_S100000x64_S100000x64_S100000x256_d1 : Shape.Concatenates [S100000x64, S100000x64, S100000x64, S100000x64] S100000x256 1
  concatenates_S50000x64_S50000x64_S50000x64_S50000x64_S50000x256_d1 : Shape.Concatenates [S50000x64, S50000x64, S50000x64, S50000x64] S50000x256 1
  bcast_S_S16384 : S_.BroadcastsInDim S16384 (![] : Fin 0 → Fin S16384.rank)
  bcast_S16384_S16384x1_0 : S16384.BroadcastsInDim S16384x1 (![0] : Fin 1 → Fin S16384x1.rank)
  gather_S50000x64_S3200000x1_S3200000x64_1_0_n_n_0_1_164_wf : GatherDims.WF S50000x64 S3200000x1 S3200000x64 [1] [0] [] [0] [] 1 ![1, 64]
  scatter_S100000x64_S3200000x1_S3200000x64_1_0_0_1_wf : ScatterDims.WF S100000x64 S3200000x1 S3200000x64 [1] [0] [0] 1
  gather_S100000x64_S3200000x1_S3200000x64_1_0_n_n_0_1_164_wf : GatherDims.WF S100000x64 S3200000x1 S3200000x64 [1] [0] [] [0] [] 1 ![1, 64]
  scatter_S50000x64_S3200000x1_S3200000x64_1_0_0_1_wf : ScatterDims.WF S50000x64 S3200000x1 S3200000x64 [1] [0] [0] 1
  gather_S100000x256_S16384x1_S16384x256_1_0_n_n_0_1_1256_wf : GatherDims.WF S100000x256 S16384x1 S16384x256 [1] [0] [] [0] [] 1 ![1, 256]
  gather_S50000x256_S16384x1_S16384x256_1_0_n_n_0_1_1256_wf : GatherDims.WF S50000x256 S16384x1 S16384x256 [1] [0] [] [0] [] 1 ![1, 256]

variable [Facts₀]

def gather_S50000x64_S3200000x1_S3200000x64_1_0_n_n_0_1_164 : GatherDims S50000x64 S3200000x1 S3200000x64 where
  offsetDims := [1]
  collapsedSliceDims := [0]
  operandBatchingDims := []
  startIndicesBatchingDims := []
  startIndexMap := [0]
  indexVectorDim := 1
  sliceSizes := ![1, 64]
  wf := gather_S50000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S50000x64_S3200000x1_S3200000x64_1_0_0_1 : ScatterDims S50000x64 S3200000x1 S3200000x64 where
  updateWindowDims := [1]
  insertedWindowDims := [0]
  scatterDimsToOperandDims := [0]
  indexVectorDim := 1
  wf := scatter_S50000x64_S3200000x1_S3200000x64_1_0_0_1_wf
def gather_S100000x256_S16384x1_S16384x256_1_0_n_n_0_1_1256 : GatherDims S100000x256 S16384x1 S16384x256 where
  offsetDims := [1]
  collapsedSliceDims := [0]
  operandBatchingDims := []
  startIndicesBatchingDims := []
  startIndexMap := [0]
  indexVectorDim := 1
  sliceSizes := ![1, 256]
  wf := gather_S100000x256_S16384x1_S16384x256_1_0_n_n_0_1_1256_wf
def gather_S50000x256_S16384x1_S16384x256_1_0_n_n_0_1_1256 : GatherDims S50000x256 S16384x1 S16384x256 where
  offsetDims := [1]
  collapsedSliceDims := [0]
  operandBatchingDims := []
  startIndicesBatchingDims := []
  startIndexMap := [0]
  indexVectorDim := 1
  sliceSizes := ![1, 256]
  wf := gather_S50000x256_S16384x1_S16384x256_1_0_n_n_0_1_1256_wf

class Facts : Prop extends Facts₀ where

variable [Facts]
-- ==== Proof.K.Body0.lean ====
/- Region 0: the per-edge product. A block of 8000 edges: the weights as a column [8000,1], the gathered rows [8000,64]; the body
   stores, whole, the column spread over the 64 lanes times the rows.
   Stated at a PARAMETER `V`, the contents of the core's buffers when the region is entered: each window's block at a grid
   point is a rectangle of its array; the body's one store covers the output's staging buffer, so that buffer after the body is
   a function of the input blocks alone; the proof data of the pipeline and the body obligation at every point follow. -/
import proofs.«166112_j80350248174014_2_alg».proof.Proof.Gen.Kernel.Launch
import proofs.«166112_j80350248174014_2_alg».proof.Proof.Gen.Kernel.Skeleton
import proofs.«166112_j80350248174014_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rectangle of its array, as the region finds the array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether or not the block was fetched there, for any
    proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its block at every point, whether or not the block was fetched there, for any
    proof data whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole rectangle of a S8000x1 staging buffer. -/
abbrev r0_S8000x1 : Rect S8000x1 := Rect.unit (s := S8000x1) ![0, 0] S8000x1.size inb_S8000x1_S8000x1_0_0

/-- The whole rectangle of a S8000x64 staging buffer. -/
abbrev r0_S8000x64 : Rect S8000x64 := Rect.unit (s := S8000x64) ![0, 0] S8000x64.size inb_S8000x64_S8000x64_0_0

/-- The output's staging buffer after the body, from the input blocks: the one store, of the whole buffer. -/
def out0_2 (x0 : Vec F S8000x1 .f32) (x1 : Vec F S8000x64 .f32) : Vec F S8000x64 .f32 :=
  View.canon [⟨r0_S8000x64, k0_pay1 (View.ld x0 r0_S8000x1) (View.ld x1 r0_S8000x64)⟩]

/-- The one store covers the buffer. -/
theorem cover0_2 (p0 : Vec F S8000x64 .f32) (y : S8000x64.Idx) :
    ∃ pc ∈ ([⟨r0_S8000x64, p0⟩] : List (View.Piece (Elt F) S8000x64 .f32)), y ∈ pc.1.set :=
  View.cover_of_tiled [⟨r0_S8000x64, p0⟩] S8000x64.size (by rfl) y

set_option maxHeartbeats 1000000 in
/-- The body on whole staging buffers, the inputs' at contents `x` and the output's at anything, runs to the continuation
    with the inputs' buffers as they were and the output's at `out0_2` of the inputs'. -/
theorem sound_kernel0 (c : Dev nD) (E : Set ℕ) (i : grid0.Coords) (arg1 : Memref sig .tc .vmem S8000x1 .f32) (harg1 : arg1.IsWhole) (arg2 : Memref sig .tc .vmem S8000x64 .f32) (harg2 : arg2.IsWhole) (arg3 : Memref sig .tc .vmem S8000x64 .f32) (harg3 : arg3.IsWhole)
    (x0 : Vec F S8000x1 .f32) (x1 : Vec F S8000x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__weighted_mul_kernel i arg1 harg1 arg2 harg2 arg3 harg3) K := by
  simp only [cc0__weighted_mul_kernel_eq_skeleton]; unfold cc0__weighted_mul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of pipeline 0 on core `c`: the arrays as the region finds them; after the body at point `t` each input's
    buffer at its block and the output's at `out0_2` of the input blocks; the invariant keeps the scoped rest and the generator
    register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so `sound_kernel0` applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Body1.lean ====
/- Region 1: the residual combine. A block of 5000 nodes: the neighbourhood sums [5000,64], the previous features [5000,64], the degrees as
   a column [5000,1]; the body stores, whole, the sums plus the previous features times the column spread over the 64 lanes.
   Stated at a PARAMETER `V`, the contents of the core's buffers when the region is entered: each window's block at a grid
   point is a rectangle of its array; the body's one store covers the output's staging buffer, so that buffer after the body is
   a function of the input blocks alone; the proof data of the pipeline and the body obligation at every point follow. -/
import proofs.«166112_j80350248174014_2_alg».proof.Proof.Gen.Kernel.Launch
import proofs.«166112_j80350248174014_2_alg».proof.Proof.Gen.Kernel.Skeleton
import proofs.«166112_j80350248174014_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rectangle of its array, as the region finds the array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, whether or not the block was fetched there, for any
    proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds its block at every point, whether or not the block was fetched there, for any
    proof data whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds its block at every point, whether or not the block was fetched there, for any
    proof data whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole rectangle of a S5000x64 staging buffer. -/
abbrev r1_S5000x64 : Rect S5000x64 := Rect.unit (s := S5000x64) ![0, 0] S5000x64.size inb_S5000x64_S5000x64_0_0

/-- The whole rectangle of a S5000x1 staging buffer. -/
abbrev r1_S5000x1 : Rect S5000x1 := Rect.unit (s := S5000x1) ![0, 0] S5000x1.size inb_S5000x1_S5000x1_0_0

/-- The output's staging buffer after the body, from the input blocks: the one store, of the whole buffer. -/
def out1_3 (x0 : Vec F S5000x64 .f32) (x1 : Vec F S5000x64 .f32) (x2 : Vec F S5000x1 .f32) : Vec F S5000x64 .f32 :=
  View.canon [⟨r1_S5000x64, k1_pay1 (View.ld x0 r1_S5000x64) (View.ld x1 r1_S5000x64) (View.ld x2 r1_S5000x1)⟩]

/-- The one store covers the buffer. -/
theorem cover1_3 (p0 : Vec F S5000x64 .f32) (y : S5000x64.Idx) :
    ∃ pc ∈ ([⟨r1_S5000x64, p0⟩] : List (View.Piece (Elt F) S5000x64 .f32)), y ∈ pc.1.set :=
  View.cover_of_tiled [⟨r1_S5000x64, p0⟩] S5000x64.size (by rfl) y

set_option maxHeartbeats 1000000 in
/-- The body on whole staging buffers, the inputs' at contents `x` and the output's at anything, runs to the continuation
    with the inputs' buffers as they were and the output's at `out1_3` of the inputs'. -/
theorem sound_kernel1 (c : Dev nD) (E : Set ℕ) (i : grid1.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S5000x64 .f32) (harg4 : arg4.IsWhole)
    (x0 : Vec F S5000x64 .f32) (x1 : Vec F S5000x64 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__degree_residual_kernel i arg1 harg1 arg2 harg2 arg3 harg3 arg4 harg4) K := by
  simp only [cc1__degree_residual_kernel_eq_skeleton]; unfold cc1__degree_residual_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of pipeline 1 on core `c`: the arrays as the region finds them; after the body at point `t` each input's
    buffer at its block and the output's at `out1_3` of the input blocks; the invariant keeps the scoped rest and the generator
    register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so `sound_kernel1` applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Body2.lean ====
/- Region 2: the per-edge product. A block of 8000 edges: the weights as a column [8000,1], the gathered rows [8000,64]; the body
   stores, whole, the column spread over the 64 lanes times the rows.
   Stated at a PARAMETER `V`, the contents of the core's buffers when the region is entered: each window's block at a grid
   point is a rectangle of its array; the body's one store covers the output's staging buffer, so that buffer after the body is
   a function of the input blocks alone; the proof data of the pipeline and the body obligation at every point follow. -/
import proofs.«166112_j80350248174014_2_alg».proof.Proof.Gen.Kernel.Launch
import proofs.«166112_j80350248174014_2_alg».proof.Proof.Gen.Kernel.Skeleton
import proofs.«166112_j80350248174014_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rectangle of its array, as the region finds the array. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, whether or not the block was fetched there, for any
    proof data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- An input window's staging buffer holds its block at every point, whether or not the block was fetched there, for any
    proof data whose array is `V`'s and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole rectangle of a S8000x1 staging buffer. -/
abbrev r2_S8000x1 : Rect S8000x1 := Rect.unit (s := S8000x1) ![0, 0] S8000x1.size inb_S8000x1_S8000x1_0_0

/-- The whole rectangle of a S8000x64 staging buffer. -/
abbrev r2_S8000x64 : Rect S8000x64 := Rect.unit (s := S8000x64) ![0, 0] S8000x64.size inb_S8000x64_S8000x64_0_0

/-- The output's staging buffer after the body, from the input blocks: the one store, of the whole buffer. -/
def out2_2 (x0 : Vec F S8000x1 .f32) (x1 : Vec F S8000x64 .f32) : Vec F S8000x64 .f32 :=
  View.canon [⟨r2_S8000x64, k2_pay1 (View.ld x0 r2_S8000x1) (View.ld x1 r2_S8000x64)⟩]

/-- The one store covers the buffer. -/
theorem cover2_2 (p0 : Vec F S8000x64 .f32) (y : S8000x64.Idx) :
    ∃ pc ∈ ([⟨r2_S8000x64, p0⟩] : List (View.Piece (Elt F) S8000x64 .f32)), y ∈ pc.1.set :=
  View.cover_of_tiled [⟨r2_S8000x64, p0⟩] S8000x64.size (by rfl) y

set_option maxHeartbeats 1000000 in
/-- The body on whole staging buffers, the inputs' at contents `x` and the output's at anything, runs to the continuation
    with the inputs' buffers as they were and the output's at `out2_2` of the inputs'. -/
theorem sound_kernel2 (c : Dev nD) (E : Set ℕ) (i : grid2.Coords) (arg1 : Memref sig .tc .vmem S8000x1 .f32) (harg1 : arg1.IsWhole) (arg2 : Memref sig .tc .vmem S8000x64 .f32) (harg2 : arg2.IsWhole) (arg3 : Memref sig .tc .vmem S8000x64 .f32) (harg3 : arg3.IsWhole)
    (x0 : Vec F S8000x1 .f32) (x1 : Vec F S8000x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__weighted_mul_kernel i arg1 harg1 arg2 harg2 arg3 harg3) K := by
  simp only [cc2__weighted_mul_kernel_eq_skeleton]; unfold cc2__weighted_mul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of pipeline 2 on core `c`: the arrays as the region finds them; after the body at point `t` each input's
    buffer at its block and the output's at `out2_2` of the input blocks; the invariant keeps the scoped rest and the generator
    register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so `sound_kernel2` applies; the invariant and what the
    core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Body3.lean ====
/- Region 3: the residual combine. A block of 5000 nodes: the neighbourhood sums [5000,64], the previous features [5000,64], the degrees as
   a column [5000,1]; the body stores, whole, the sums plus the previous features times the column spread over the 64 lanes.
   Stated at a PARAMETER `V`, the contents of the core's buffers when the region is entered: each window's block at a grid
   point is a rectangle of its array; the body's one store covers the output's staging buffer, so that buffer after the body is
   a function of the input blocks alone; the proof data of the pipeline and the body obligation at every point follow. -/
import proofs.«166112_j80350248174014_2_alg».proof.Proof.Gen.Kernel.Launch
import proofs.«166112_j80350248174014_2_alg».proof.Proof.Gen.Kernel.Skeleton
import proofs.«166112_j80350248174014_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rectangle of its array, as the region finds the array. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds its block at every point, whether or not the block was fetched there, for any
    proof data whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- An input window's staging buffer holds its block at every point, whether or not the block was fetched there, for any
    proof data whose array is `V`'s and whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- An input window's staging buffer holds its block at every point, whether or not the block was fetched there, for any
    proof data whose array is `V`'s and whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The whole rectangle of a S5000x64 staging buffer. -/
abbrev r3_S5000x64 : Rect S5000x64 := Rect.unit (s := S5000x64) ![0, 0] S5000x64.size inb_S5000x64_S5000x64_0_0

/-- The whole rectangle of a S5000x1 staging buffer. -/
abbrev r3_S5000x1 : Rect S5000x1 := Rect.unit (s := S5000x1) ![0, 0] S5000x1.size inb_S5000x1_S5000x1_0_0

/-- The output's staging buffer after the body, from the input blocks: the one store, of the whole buffer. -/
def out3_3 (x0 : Vec F S5000x64 .f32) (x1 : Vec F S5000x64 .f32) (x2 : Vec F S5000x1 .f32) : Vec F S5000x64 .f32 :=
  View.canon [⟨r3_S5000x64, k3_pay1 (View.ld x0 r3_S5000x64) (View.ld x1 r3_S5000x64) (View.ld x2 r3_S5000x1)⟩]

/-- The one store covers the buffer. -/
theorem cover3_3 (p0 : Vec F S5000x64 .f32) (y : S5000x64.Idx) :
    ∃ pc ∈ ([⟨r3_S5000x64, p0⟩] : List (View.Piece (Elt F) S5000x64 .f32)), y ∈ pc.1.set :=
  View.cover_of_tiled [⟨r3_S5000x64, p0⟩] S5000x64.size (by rfl) y

set_option maxHeartbeats 1000000 in
/-- The body on whole staging buffers, the inputs' at contents `x` and the output's at anything, runs to the continuation
    with the inputs' buffers as they were and the output's at `out3_3` of the inputs'. -/
theorem sound_kernel3 (c : Dev nD) (E : Set ℕ) (i : grid3.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S5000x64 .f32) (harg4 : arg4.IsWhole)
    (x0 : Vec F S5000x64 .f32) (x1 : Vec F S5000x64 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3__degree_residual_kernel i arg1 harg1 arg2 harg2 arg3 harg3 arg4 harg4) K := by
  simp only [cc3__degree_residual_kernel_eq_skeleton]; unfold cc3__degree_residual_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-- The proof data of pipeline 3 on core `c`: the arrays as the region finds them; after the body at point `t` each input's
    buffer at its block and the output's at `out3_3` of the input blocks; the invariant keeps the scoped rest and the generator
    register untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' buffers hold their blocks, so `sound_kernel3` applies; the invariant and what the
    core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ (grid3.coords t) _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Body4.lean ====
/- Region 4: the per-edge product. A block of 8000 edges: the weights as a column [8000,1], the gathered rows [8000,64]; the body
   stores, whole, the column spread over the 64 lanes times the rows.
   Stated at a PARAMETER `V`, the contents of the core's buffers when the region is entered: each window's block at a grid
   point is a rectangle of its array; the body's one store covers the output's staging buffer, so that buffer after the body is
   a function of the input blocks alone; the proof data of the pipeline and the body obligation at every point follow. -/
import proofs.«166112_j80350248174014_2_alg».proof.Proof.Gen.Kernel.Launch
import proofs.«166112_j80350248174014_2_alg».proof.Proof.Gen.Kernel.Skeleton
import proofs.«166112_j80350248174014_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rectangle of its array, as the region finds the array. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's staging buffer holds its block at every point, whether or not the block was fetched there, for any
    proof data whose array is `V`'s and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- An input window's staging buffer holds its block at every point, whether or not the block was fetched there, for any
    proof data whose array is `V`'s and whose body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The whole rectangle of a S8000x1 staging buffer. -/
abbrev r4_S8000x1 : Rect S8000x1 := Rect.unit (s := S8000x1) ![0, 0] S8000x1.size inb_S8000x1_S8000x1_0_0

/-- The whole rectangle of a S8000x64 staging buffer. -/
abbrev r4_S8000x64 : Rect S8000x64 := Rect.unit (s := S8000x64) ![0, 0] S8000x64.size inb_S8000x64_S8000x64_0_0

/-- The output's staging buffer after the body, from the input blocks: the one store, of the whole buffer. -/
def out4_2 (x0 : Vec F S8000x1 .f32) (x1 : Vec F S8000x64 .f32) : Vec F S8000x64 .f32 :=
  View.canon [⟨r4_S8000x64, k4_pay1 (View.ld x0 r4_S8000x1) (View.ld x1 r4_S8000x64)⟩]

/-- The one store covers the buffer. -/
theorem cover4_2 (p0 : Vec F S8000x64 .f32) (y : S8000x64.Idx) :
    ∃ pc ∈ ([⟨r4_S8000x64, p0⟩] : List (View.Piece (Elt F) S8000x64 .f32)), y ∈ pc.1.set :=
  View.cover_of_tiled [⟨r4_S8000x64, p0⟩] S8000x64.size (by rfl) y

set_option maxHeartbeats 1000000 in
/-- The body on whole staging buffers, the inputs' at contents `x` and the output's at anything, runs to the continuation
    with the inputs' buffers as they were and the output's at `out4_2` of the inputs'. -/
theorem sound_kernel4 (c : Dev nD) (E : Set ℕ) (i : grid4.Coords) (arg1 : Memref sig .tc .vmem S8000x1 .f32) (harg1 : arg1.IsWhole) (arg2 : Memref sig .tc .vmem S8000x64 .f32) (harg2 : arg2.IsWhole) (arg3 : Memref sig .tc .vmem S8000x64 .f32) (harg3 : arg3.IsWhole)
    (x0 : Vec F S8000x1 .f32) (x1 : Vec F S8000x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out4_2 x0 x1)) -∗ K ⟨⟩))
      ⊢ wp frame (wpE (defs₀ (F := F)) Variants.none c none) E (cc4__weighted_mul_kernel i arg1 harg1 arg2 harg2 arg3 harg3) K := by
  simp only [cc4__weighted_mul_kernel_eq_skeleton]; unfold cc4__weighted_mul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-- The proof data of pipeline 4 on core `c`: the arrays as the region finds them; after the body at point `t` each input's
    buffer at its block and the output's at `out4_2` of the input blocks; the invariant keeps the scoped rest and the generator
    register untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the inputs' buffers hold their blocks, so `sound_kernel4` applies; the invariant and what the
    core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ (grid4.coords t) _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.Body5.lean ====
/- Region 5: the residual combine. A block of 5000 nodes: the neighbourhood sums [5000,64], the previous features [5000,64], the degrees as
   a column [5000,1]; the body stores, whole, the sums plus the previous features times the column spread over the 64 lanes.
   Stated at a PARAMETER `V`, the contents of the core's buffers when the region is entered: each window's block at a grid
   point is a rectangle of its array; the body's one store covers the output's staging buffer, so that buffer after the body is
   a function of the input blocks alone; the proof data of the pipeline and the body obligation at every point follow. -/
import proofs.«166112_j80350248174014_2_alg».proof.Proof.Gen.Kernel.Launch
import proofs.«166112_j80350248174014_2_alg».proof.Proof.Gen.Kernel.Skeleton
import proofs.«166112_j80350248174014_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rectangle of its array, as the region finds the array. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's staging buffer holds its block at every point, whether or not the block was fetched there, for any
    proof data whose array is `V`'s and whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- An input window's staging buffer holds its block at every point, whether or not the block was fetched there, for any
    proof data whose array is `V`'s and whose body leaves the block in place. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- An input window's staging buffer holds its block at every point, whether or not the block was fetched there, for any
    proof data whose array is `V`'s and whose body leaves the block in place. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- The whole rectangle of a S5000x64 staging buffer. -/
abbrev r5_S5000x64 : Rect S5000x64 := Rect.unit (s := S5000x64) ![0, 0] S5000x64.size inb_S5000x64_S5000x64_0_0

/-- The whole rectangle of a S5000x1 staging buffer. -/
abbrev r5_S5000x1 : Rect S5000x1 := Rect.unit (s := S5000x1) ![0, 0] S5000x1.size inb_S5000x1_S5000x1_0_0

/-- The output's staging buffer after the body, from the input blocks: the one store, of the whole buffer. -/
def out5_3 (x0 : Vec F S5000x64 .f32) (x1 : Vec F S5000x64 .f32) (x2 : Vec F S5000x1 .f32) : Vec F S5000x64 .f32 :=
  View.canon [⟨r5_S5000x64, k5_pay1 (View.ld x0 r5_S5000x64) (View.ld x1 r5_S5000x64) (View.ld x2 r5_S5000x1)⟩]

/-- The one store covers the buffer. -/
theorem cover5_3 (p0 : Vec F S5000x64 .f32) (y : S5000x64.Idx) :
    ∃ pc ∈ ([⟨r5_S5000x64, p0⟩] : List (View.Piece (Elt F) S5000x64 .f32)), y ∈ pc.1.set :=
  View.cover_of_tiled [⟨r5_S5000x64, p0⟩] S5000x64.size (by rfl) y

set_option maxHeartbeats 1000000 in
/-- The body on whole staging buffers, the inputs' at contents `x` and the output's at anything, runs to the continuation
    with the inputs' buffers as they were and the output's at `out5_3` of the inputs'. -/
theorem sound_kernel5 (c : Dev nD) (E : Set ℕ) (i : grid5.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S5000x64 .f32) (harg4 : arg4.IsWhole)
    (x0 : Vec F S5000x64 .f32) (x1 : Vec F S5000x64 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out5_3 x0 x1 x2)) -∗ K ⟨⟩))
      ⊢ wp frame (wpE (defs₀ (F := F)) Variants.none c none) E (cc5__degree_residual_kernel i arg1 harg1 arg2 harg2 arg3 harg3 arg4 harg4) K := by
  simp only [cc5__degree_residual_kernel_eq_skeleton]; unfold cc5__degree_residual_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-- The proof data of pipeline 5 on core `c`: the arrays as the region finds them; after the body at point `t` each input's
    buffer at its block and the output's at `out5_3` of the input blocks; the invariant keeps the scoped rest and the generator
    register untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5_3 (iblk5 V c 0 t) (iblk5 V c 1 t) (iblk5 V c 2 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the inputs' buffers hold their blocks, so `sound_kernel5` applies; the invariant and what the
    core owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ (grid5.coords t) _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.K.Body6.lean ====
/- Region 6: the per-edge product. A block of 8000 edges: the weights as a column [8000,1], the gathered rows [8000,64]; the body
   stores, whole, the column spread over the 64 lanes times the rows.
   Stated at a PARAMETER `V`, the contents of the core's buffers when the region is entered: each window's block at a grid
   point is a rectangle of its array; the body's one store covers the output's staging buffer, so that buffer after the body is
   a function of the input blocks alone; the proof data of the pipeline and the body obligation at every point follow. -/
import proofs.«166112_j80350248174014_2_alg».proof.Proof.Gen.Kernel.Launch
import proofs.«166112_j80350248174014_2_alg».proof.Proof.Gen.Kernel.Skeleton
import proofs.«166112_j80350248174014_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rectangle of its array, as the region finds the array. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's staging buffer holds its block at every point, whether or not the block was fetched there, for any
    proof data whose array is `V`'s and whose body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- An input window's staging buffer holds its block at every point, whether or not the block was fetched there, for any
    proof data whose array is `V`'s and whose body leaves the block in place. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- The whole rectangle of a S8000x1 staging buffer. -/
abbrev r6_S8000x1 : Rect S8000x1 := Rect.unit (s := S8000x1) ![0, 0] S8000x1.size inb_S8000x1_S8000x1_0_0

/-- The whole rectangle of a S8000x64 staging buffer. -/
abbrev r6_S8000x64 : Rect S8000x64 := Rect.unit (s := S8000x64) ![0, 0] S8000x64.size inb_S8000x64_S8000x64_0_0

/-- The output's staging buffer after the body, from the input blocks: the one store, of the whole buffer. -/
def out6_2 (x0 : Vec F S8000x1 .f32) (x1 : Vec F S8000x64 .f32) : Vec F S8000x64 .f32 :=
  View.canon [⟨r6_S8000x64, k6_pay1 (View.ld x0 r6_S8000x1) (View.ld x1 r6_S8000x64)⟩]

/-- The one store covers the buffer. -/
theorem cover6_2 (p0 : Vec F S8000x64 .f32) (y : S8000x64.Idx) :
    ∃ pc ∈ ([⟨r6_S8000x64, p0⟩] : List (View.Piece (Elt F) S8000x64 .f32)), y ∈ pc.1.set :=
  View.cover_of_tiled [⟨r6_S8000x64, p0⟩] S8000x64.size (by rfl) y

set_option maxHeartbeats 1000000 in
/-- The body on whole staging buffers, the inputs' at contents `x` and the output's at anything, runs to the continuation
    with the inputs' buffers as they were and the output's at `out6_2` of the inputs'. -/
theorem sound_kernel6 (c : Dev nD) (E : Set ℕ) (i : grid6.Coords) (arg1 : Memref sig .tc .vmem S8000x1 .f32) (harg1 : arg1.IsWhole) (arg2 : Memref sig .tc .vmem S8000x64 .f32) (harg2 : arg2.IsWhole) (arg3 : Memref sig .tc .vmem S8000x64 .f32) (harg3 : arg3.IsWhole)
    (x0 : Vec F S8000x1 .f32) (x1 : Vec F S8000x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out6_2 x0 x1)) -∗ K ⟨⟩))
      ⊢ wp frame (wpE (defs₀ (F := F)) Variants.none c none) E (cc6__weighted_mul_kernel i arg1 harg1 arg2 harg2 arg3 harg3) K := by
  simp only [cc6__weighted_mul_kernel_eq_skeleton]; unfold cc6__weighted_mul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6_2 _)

/-- The proof data of pipeline 6 on core `c`: the arrays as the region finds them; after the body at point `t` each input's
    buffer at its block and the output's at `out6_2` of the input blocks; the invariant keeps the scoped rest and the generator
    register untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

/-- The body at any point: the inputs' buffers hold their blocks, so `sound_kernel6` applies; the invariant and what the
    core owes pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ (grid6.coords t) _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline, at every point. -/
theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.K.Body7.lean ====
/- Region 7: the residual combine. A block of 5000 nodes: the neighbourhood sums [5000,64], the previous features [5000,64], the degrees as
   a column [5000,1]; the body stores, whole, the sums plus the previous features times the column spread over the 64 lanes.
   Stated at a PARAMETER `V`, the contents of the core's buffers when the region is entered: each window's block at a grid
   point is a rectangle of its array; the body's one store covers the output's staging buffer, so that buffer after the body is
   a function of the input blocks alone; the proof data of the pipeline and the body obligation at every point follow. -/
import proofs.«166112_j80350248174014_2_alg».proof.Proof.Gen.Kernel.Launch
import proofs.«166112_j80350248174014_2_alg».proof.Proof.Gen.Kernel.Skeleton
import proofs.«166112_j80350248174014_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rectangle of its array, as the region finds the array. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- An input window's staging buffer holds its block at every point, whether or not the block was fetched there, for any
    proof data whose array is `V`'s and whose body leaves the block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- An input window's staging buffer holds its block at every point, whether or not the block was fetched there, for any
    proof data whose array is `V`'s and whose body leaves the block in place. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- An input window's staging buffer holds its block at every point, whether or not the block was fetched there, for any
    proof data whose array is `V`'s and whose body leaves the block in place. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- The whole rectangle of a S5000x64 staging buffer. -/
abbrev r7_S5000x64 : Rect S5000x64 := Rect.unit (s := S5000x64) ![0, 0] S5000x64.size inb_S5000x64_S5000x64_0_0

/-- The whole rectangle of a S5000x1 staging buffer. -/
abbrev r7_S5000x1 : Rect S5000x1 := Rect.unit (s := S5000x1) ![0, 0] S5000x1.size inb_S5000x1_S5000x1_0_0

/-- The output's staging buffer after the body, from the input blocks: the one store, of the whole buffer. -/
def out7_3 (x0 : Vec F S5000x64 .f32) (x1 : Vec F S5000x64 .f32) (x2 : Vec F S5000x1 .f32) : Vec F S5000x64 .f32 :=
  View.canon [⟨r7_S5000x64, k7_pay1 (View.ld x0 r7_S5000x64) (View.ld x1 r7_S5000x64) (View.ld x2 r7_S5000x1)⟩]

/-- The one store covers the buffer. -/
theorem cover7_3 (p0 : Vec F S5000x64 .f32) (y : S5000x64.Idx) :
    ∃ pc ∈ ([⟨r7_S5000x64, p0⟩] : List (View.Piece (Elt F) S5000x64 .f32)), y ∈ pc.1.set :=
  View.cover_of_tiled [⟨r7_S5000x64, p0⟩] S5000x64.size (by rfl) y

set_option maxHeartbeats 1000000 in
/-- The body on whole staging buffers, the inputs' at contents `x` and the output's at anything, runs to the continuation
    with the inputs' buffers as they were and the output's at `out7_3` of the inputs'. -/
theorem sound_kernel7 (c : Dev nD) (E : Set ℕ) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S5000x64 .f32) (harg4 : arg4.IsWhole)
    (x0 : Vec F S5000x64 .f32) (x1 : Vec F S5000x64 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out7_3 x0 x1 x2)) -∗ K ⟨⟩))
      ⊢ wp frame (wpE (defs₀ (F := F)) Variants.none c none) E (cc7__degree_residual_kernel i arg1 harg1 arg2 harg2 arg3 harg3 arg4 harg4) K := by
  simp only [cc7__degree_residual_kernel_eq_skeleton]; unfold cc7__degree_residual_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover7_3 _)

/-- The proof data of pipeline 7 on core `c`: the arrays as the region finds them; after the body at point `t` each input's
    buffer at its block and the output's at `out7_3` of the input blocks; the invariant keeps the scoped rest and the generator
    register untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = out7_3 (iblk7 V c 0 t) (iblk7 V c 1 t) (iblk7 V c 2 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t))

/-- The body at any point: the inputs' buffers hold their blocks, so `sound_kernel7` applies; the invariant and what the
    core owes pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3]
  iintro ⟨HΦ, Ho, ⟨%d0, H0⟩, ⟨%d1, H1⟩, ⟨%d2, H2⟩, ⟨%d3, H3⟩⟩
  iapply (sound_kernel7 c Set.univ (grid7.coords t) _ _ _ _ _ _ _ _ (iblk7 V c 0 t) (iblk7 V c 1 t) (iblk7 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline, at every point. -/
theorem body_obligation7 (c : Dev nD) : BodyObligation (dat7 (F := F) V c) (defs₀ (F := F)) Variants.none () Set.univ := fun t => by
  rw [bigSep_W7, bigSep_W7]
  exact sound_body7 V c t

end Cert.Kernel.Hand

end
-- ==== Proof.K.Body8.lean ====
/- Region 8: the per-edge product. A block of 8000 edges: the weights as a column [8000,1], the gathered rows [8000,64]; the body
   stores, whole, the column spread over the 64 lanes times the rows.
   Stated at a PARAMETER `V`, the contents of the core's buffers when the region is entered: each window's block at a grid
   point is a rectangle of its array; the body's one store covers the output's staging buffer, so that buffer after the body is
   a function of the input blocks alone; the proof data of the pipeline and the body obligation at every point follow. -/
import proofs.«166112_j80350248174014_2_alg».proof.Proof.Gen.Kernel.Launch
import proofs.«166112_j80350248174014_2_alg».proof.Proof.Gen.Kernel.Skeleton
import proofs.«166112_j80350248174014_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rectangle of its array, as the region finds the array. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- An input window's staging buffer holds its block at every point, whether or not the block was fetched there, for any
    proof data whose array is `V`'s and whose body leaves the block in place. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- An input window's staging buffer holds its block at every point, whether or not the block was fetched there, for any
    proof data whose array is `V`'s and whose body leaves the block in place. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- The whole rectangle of a S8000x1 staging buffer. -/
abbrev r8_S8000x1 : Rect S8000x1 := Rect.unit (s := S8000x1) ![0, 0] S8000x1.size inb_S8000x1_S8000x1_0_0

/-- The whole rectangle of a S8000x64 staging buffer. -/
abbrev r8_S8000x64 : Rect S8000x64 := Rect.unit (s := S8000x64) ![0, 0] S8000x64.size inb_S8000x64_S8000x64_0_0

/-- The output's staging buffer after the body, from the input blocks: the one store, of the whole buffer. -/
def out8_2 (x0 : Vec F S8000x1 .f32) (x1 : Vec F S8000x64 .f32) : Vec F S8000x64 .f32 :=
  View.canon [⟨r8_S8000x64, k8_pay1 (View.ld x0 r8_S8000x1) (View.ld x1 r8_S8000x64)⟩]

/-- The one store covers the buffer. -/
theorem cover8_2 (p0 : Vec F S8000x64 .f32) (y : S8000x64.Idx) :
    ∃ pc ∈ ([⟨r8_S8000x64, p0⟩] : List (View.Piece (Elt F) S8000x64 .f32)), y ∈ pc.1.set :=
  View.cover_of_tiled [⟨r8_S8000x64, p0⟩] S8000x64.size (by rfl) y

set_option maxHeartbeats 1000000 in
/-- The body on whole staging buffers, the inputs' at contents `x` and the output's at anything, runs to the continuation
    with the inputs' buffers as they were and the output's at `out8_2` of the inputs'. -/
theorem sound_kernel8 (c : Dev nD) (E : Set ℕ) (i : grid8.Coords) (arg1 : Memref sig .tc .vmem S8000x1 .f32) (harg1 : arg1.IsWhole) (arg2 : Memref sig .tc .vmem S8000x64 .f32) (harg2 : arg2.IsWhole) (arg3 : Memref sig .tc .vmem S8000x64 .f32) (harg3 : arg3.IsWhole)
    (x0 : Vec F S8000x1 .f32) (x1 : Vec F S8000x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out8_2 x0 x1)) -∗ K ⟨⟩))
      ⊢ wp frame (wpE (defs₀ (F := F)) Variants.none c none) E (cc8__weighted_mul_kernel i arg1 harg1 arg2 harg2 arg3 harg3) K := by
  simp only [cc8__weighted_mul_kernel_eq_skeleton]; unfold cc8__weighted_mul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover8_2 _)

/-- The proof data of pipeline 8 on core `c`: the arrays as the region finds them; after the body at point `t` each input's
    buffer at its block and the output's at `out8_2` of the input blocks; the invariant keeps the scoped rest and the generator
    register untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => out8_2 (iblk8 V c 0 t) (iblk8 V c 1 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = out8_2 (iblk8 V c 0 t) (iblk8 V c 1 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t))

/-- The body at any point: the inputs' buffers hold their blocks, so `sound_kernel8` applies; the invariant and what the
    core owes pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1]
  rw [show (dat8 V c).Φ t.succ = (dat8 V c).Φ t.castSucc from rfl,
    show (dat8 V c).owesAt () t.succ = (dat8 V c).owesAt () t.castSucc from rfl,
    after8_0, after8_1, after8_2]
  iintro ⟨HΦ, Ho, ⟨%d0, H0⟩, ⟨%d1, H1⟩, ⟨%d2, H2⟩⟩
  iapply (sound_kernel8 c Set.univ (grid8.coords t) _ _ _ _ _ _ (iblk8 V c 0 t) (iblk8 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline, at every point. -/
theorem body_obligation8 (c : Dev nD) : BodyObligation (dat8 (F := F) V c) (defs₀ (F := F)) Variants.none () Set.univ := fun t => by
  rw [bigSep_W8, bigSep_W8]
  exact sound_body8 V c t

end Cert.Kernel.Hand

end
-- ==== Proof.K.Body9.lean ====
/- Region 9: the residual combine. A block of 5000 nodes: the neighbourhood sums [5000,64], the previous features [5000,64], the degrees as
   a column [5000,1]; the body stores, whole, the sums plus the previous features times the column spread over the 64 lanes.
   Stated at a PARAMETER `V`, the contents of the core's buffers when the region is entered: each window's block at a grid
   point is a rectangle of its array; the body's one store covers the output's staging buffer, so that buffer after the body is
   a function of the input blocks alone; the proof data of the pipeline and the body obligation at every point follow. -/
import proofs.«166112_j80350248174014_2_alg».proof.Proof.Gen.Kernel.Launch
import proofs.«166112_j80350248174014_2_alg».proof.Proof.Gen.Kernel.Skeleton
import proofs.«166112_j80350248174014_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rectangle of its array, as the region finds the array. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- An input window's staging buffer holds its block at every point, whether or not the block was fetched there, for any
    proof data whose array is `V`'s and whose body leaves the block in place. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- An input window's staging buffer holds its block at every point, whether or not the block was fetched there, for any
    proof data whose array is `V`'s and whose body leaves the block in place. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- An input window's staging buffer holds its block at every point, whether or not the block was fetched there, for any
    proof data whose array is `V`'s and whose body leaves the block in place. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-- The whole rectangle of a S5000x64 staging buffer. -/
abbrev r9_S5000x64 : Rect S5000x64 := Rect.unit (s := S5000x64) ![0, 0] S5000x64.size inb_S5000x64_S5000x64_0_0

/-- The whole rectangle of a S5000x1 staging buffer. -/
abbrev r9_S5000x1 : Rect S5000x1 := Rect.unit (s := S5000x1) ![0, 0] S5000x1.size inb_S5000x1_S5000x1_0_0

/-- The output's staging buffer after the body, from the input blocks: the one store, of the whole buffer. -/
def out9_3 (x0 : Vec F S5000x64 .f32) (x1 : Vec F S5000x64 .f32) (x2 : Vec F S5000x1 .f32) : Vec F S5000x64 .f32 :=
  View.canon [⟨r9_S5000x64, k9_pay1 (View.ld x0 r9_S5000x64) (View.ld x1 r9_S5000x64) (View.ld x2 r9_S5000x1)⟩]

/-- The one store covers the buffer. -/
theorem cover9_3 (p0 : Vec F S5000x64 .f32) (y : S5000x64.Idx) :
    ∃ pc ∈ ([⟨r9_S5000x64, p0⟩] : List (View.Piece (Elt F) S5000x64 .f32)), y ∈ pc.1.set :=
  View.cover_of_tiled [⟨r9_S5000x64, p0⟩] S5000x64.size (by rfl) y

set_option maxHeartbeats 1000000 in
/-- The body on whole staging buffers, the inputs' at contents `x` and the output's at anything, runs to the continuation
    with the inputs' buffers as they were and the output's at `out9_3` of the inputs'. -/
theorem sound_kernel9 (c : Dev nD) (E : Set ℕ) (i : grid9.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S5000x64 .f32) (harg4 : arg4.IsWhole)
    (x0 : Vec F S5000x64 .f32) (x1 : Vec F S5000x64 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out9_3 x0 x1 x2)) -∗ K ⟨⟩))
      ⊢ wp frame (wpE (defs₀ (F := F)) Variants.none c none) E (cc9__degree_residual_kernel i arg1 harg1 arg2 harg2 arg3 harg3 arg4 harg4) K := by
  simp only [cc9__degree_residual_kernel_eq_skeleton]; unfold cc9__degree_residual_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover9_3 _)

/-- The proof data of pipeline 9 on core `c`: the arrays as the region finds them; after the body at point `t` each input's
    buffer at its block and the output's at `out9_3` of the input blocks; the invariant keeps the scoped rest and the generator
    register untouched; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => out9_3 (iblk9 V c 0 t) (iblk9 V c 1 t) (iblk9 V c 2 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = out9_3 (iblk9 V c 0 t) (iblk9 V c 1 t) (iblk9 V c 2 t) := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t))

/-- The body at any point: the inputs' buffers hold their blocks, so `sound_kernel9` applies; the invariant and what the
    core owes pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2]
  rw [show (dat9 V c).Φ t.succ = (dat9 V c).Φ t.castSucc from rfl,
    show (dat9 V c).owesAt () t.succ = (dat9 V c).owesAt () t.castSucc from rfl,
    after9_0, after9_1, after9_2, after9_3]
  iintro ⟨HΦ, Ho, ⟨%d0, H0⟩, ⟨%d1, H1⟩, ⟨%d2, H2⟩, ⟨%d3, H3⟩⟩
  iapply (sound_kernel9 c Set.univ (grid9.coords t) _ _ _ _ _ _ _ _ (iblk9 V c 0 t) (iblk9 V c 1 t) (iblk9 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline, at every point. -/
theorem body_obligation9 (c : Dev nD) : BodyObligation (dat9 (F := F) V c) (defs₀ (F := F)) Variants.none () Set.univ := fun t => by
  rw [bigSep_W9, bigSep_W9]
  exact sound_body9 V c t

end Cert.Kernel.Hand

end
-- ==== Proof.K.Body10.lean ====
/- Region 10: the per-edge product. A block of 8000 edges: the weights as a column [8000,1], the gathered rows [8000,64]; the body
   stores, whole, the column spread over the 64 lanes times the rows.
   Stated at a PARAMETER `V`, the contents of the core's buffers when the region is entered: each window's block at a grid
   point is a rectangle of its array; the body's one store covers the output's staging buffer, so that buffer after the body is
   a function of the input blocks alone; the proof data of the pipeline and the body obligation at every point follow. -/
import proofs.«166112_j80350248174014_2_alg».proof.Proof.Gen.Kernel.Launch
import proofs.«166112_j80350248174014_2_alg».proof.Proof.Gen.Kernel.Skeleton
import proofs.«166112_j80350248174014_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rectangle of its array, as the region finds the array. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- An input window's staging buffer holds its block at every point, whether or not the block was fetched there, for any
    proof data whose array is `V`'s and whose body leaves the block in place. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- An input window's staging buffer holds its block at every point, whether or not the block was fetched there, for any
    proof data whose array is `V`'s and whose body leaves the block in place. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-- The whole rectangle of a S8000x1 staging buffer. -/
abbrev r10_S8000x1 : Rect S8000x1 := Rect.unit (s := S8000x1) ![0, 0] S8000x1.size inb_S8000x1_S8000x1_0_0

/-- The whole rectangle of a S8000x64 staging buffer. -/
abbrev r10_S8000x64 : Rect S8000x64 := Rect.unit (s := S8000x64) ![0, 0] S8000x64.size inb_S8000x64_S8000x64_0_0

/-- The output's staging buffer after the body, from the input blocks: the one store, of the whole buffer. -/
def out10_2 (x0 : Vec F S8000x1 .f32) (x1 : Vec F S8000x64 .f32) : Vec F S8000x64 .f32 :=
  View.canon [⟨r10_S8000x64, k10_pay1 (View.ld x0 r10_S8000x1) (View.ld x1 r10_S8000x64)⟩]

/-- The one store covers the buffer. -/
theorem cover10_2 (p0 : Vec F S8000x64 .f32) (y : S8000x64.Idx) :
    ∃ pc ∈ ([⟨r10_S8000x64, p0⟩] : List (View.Piece (Elt F) S8000x64 .f32)), y ∈ pc.1.set :=
  View.cover_of_tiled [⟨r10_S8000x64, p0⟩] S8000x64.size (by rfl) y

set_option maxHeartbeats 1000000 in
/-- The body on whole staging buffers, the inputs' at contents `x` and the output's at anything, runs to the continuation
    with the inputs' buffers as they were and the output's at `out10_2` of the inputs'. -/
theorem sound_kernel10 (c : Dev nD) (E : Set ℕ) (i : grid10.Coords) (arg1 : Memref sig .tc .vmem S8000x1 .f32) (harg1 : arg1.IsWhole) (arg2 : Memref sig .tc .vmem S8000x64 .f32) (harg2 : arg2.IsWhole) (arg3 : Memref sig .tc .vmem S8000x64 .f32) (harg3 : arg3.IsWhole)
    (x0 : Vec F S8000x1 .f32) (x1 : Vec F S8000x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out10_2 x0 x1)) -∗ K ⟨⟩))
      ⊢ wp frame (wpE (defs₀ (F := F)) Variants.none c none) E (cc10__weighted_mul_kernel i arg1 harg1 arg2 harg2 arg3 harg3) K := by
  simp only [cc10__weighted_mul_kernel_eq_skeleton]; unfold cc10__weighted_mul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover10_2 _)

/-- The proof data of pipeline 10 on core `c`: the arrays as the region finds them; after the body at point `t` each input's
    buffer at its block and the output's at `out10_2` of the input blocks; the invariant keeps the scoped rest and the generator
    register untouched; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => out10_2 (iblk10 V c 0 t) (iblk10 V c 1 t)
  Φ _ := Pipeline.ΦA spec10 c
  q _ := fullShare
  owed _ := 0

theorem A_eq10 (c : Dev nD) (w : Fin cfg10.W) : (dat10 V c).A w = V c (Pipeline.arrRef spec10 w) := by
  dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = out10_2 (iblk10 V c 0 t) (iblk10 V c 1 t) := by dsimp only [dat10]

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d

/-- What the body is called with at point `t`, the windows one by one, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t))

/-- The body at any point: the inputs' buffers hold their blocks, so `sound_kernel10` applies; the invariant and what the
    core owes pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1]
  rw [show (dat10 V c).Φ t.succ = (dat10 V c).Φ t.castSucc from rfl,
    show (dat10 V c).owesAt () t.succ = (dat10 V c).owesAt () t.castSucc from rfl,
    after10_0, after10_1, after10_2]
  iintro ⟨HΦ, Ho, ⟨%d0, H0⟩, ⟨%d1, H1⟩, ⟨%d2, H2⟩⟩
  iapply (sound_kernel10 c Set.univ (grid10.coords t) _ _ _ _ _ _ (iblk10 V c 0 t) (iblk10 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline, at every point. -/
theorem body_obligation10 (c : Dev nD) : BodyObligation (dat10 (F := F) V c) (defs₀ (F := F)) Variants.none () Set.univ := fun t => by
  rw [bigSep_W10, bigSep_W10]
  exact sound_body10 V c t

end Cert.Kernel.Hand

end
-- ==== Proof.K.Body11.lean ====
/- Region 11: the residual combine. A block of 5000 nodes: the neighbourhood sums [5000,64], the previous features [5000,64], the degrees as
   a column [5000,1]; the body stores, whole, the sums plus the previous features times the column spread over the 64 lanes.
   Stated at a PARAMETER `V`, the contents of the core's buffers when the region is entered: each window's block at a grid
   point is a rectangle of its array; the body's one store covers the output's staging buffer, so that buffer after the body is
   a function of the input blocks alone; the proof data of the pipeline and the body obligation at every point follow. -/
import proofs.«166112_j80350248174014_2_alg».proof.Proof.Gen.Kernel.Launch
import proofs.«166112_j80350248174014_2_alg».proof.Proof.Gen.Kernel.Skeleton
import proofs.«166112_j80350248174014_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rectangle of its array, as the region finds the array. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- An input window's staging buffer holds its block at every point, whether or not the block was fetched there, for any
    proof data whose array is `V`'s and whose body leaves the block in place. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

/-- An input window's staging buffer holds its block at every point, whether or not the block was fetched there, for any
    proof data whose array is `V`'s and whose body leaves the block in place. -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

/-- An input window's staging buffer holds its block at every point, whether or not the block was fetched there, for any
    proof data whose array is `V`'s and whose body leaves the block in place. -/
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

/-- The whole rectangle of a S5000x64 staging buffer. -/
abbrev r11_S5000x64 : Rect S5000x64 := Rect.unit (s := S5000x64) ![0, 0] S5000x64.size inb_S5000x64_S5000x64_0_0

/-- The whole rectangle of a S5000x1 staging buffer. -/
abbrev r11_S5000x1 : Rect S5000x1 := Rect.unit (s := S5000x1) ![0, 0] S5000x1.size inb_S5000x1_S5000x1_0_0

/-- The output's staging buffer after the body, from the input blocks: the one store, of the whole buffer. -/
def out11_3 (x0 : Vec F S5000x64 .f32) (x1 : Vec F S5000x64 .f32) (x2 : Vec F S5000x1 .f32) : Vec F S5000x64 .f32 :=
  View.canon [⟨r11_S5000x64, k11_pay1 (View.ld x0 r11_S5000x64) (View.ld x1 r11_S5000x64) (View.ld x2 r11_S5000x1)⟩]

/-- The one store covers the buffer. -/
theorem cover11_3 (p0 : Vec F S5000x64 .f32) (y : S5000x64.Idx) :
    ∃ pc ∈ ([⟨r11_S5000x64, p0⟩] : List (View.Piece (Elt F) S5000x64 .f32)), y ∈ pc.1.set :=
  View.cover_of_tiled [⟨r11_S5000x64, p0⟩] S5000x64.size (by rfl) y

set_option maxHeartbeats 1000000 in
/-- The body on whole staging buffers, the inputs' at contents `x` and the output's at anything, runs to the continuation
    with the inputs' buffers as they were and the output's at `out11_3` of the inputs'. -/
theorem sound_kernel11 (c : Dev nD) (E : Set ℕ) (i : grid11.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S5000x64 .f32) (harg4 : arg4.IsWhole)
    (x0 : Vec F S5000x64 .f32) (x1 : Vec F S5000x64 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out11_3 x0 x1 x2)) -∗ K ⟨⟩))
      ⊢ wp frame (wpE (defs₀ (F := F)) Variants.none c none) E (cc11__degree_residual_kernel i arg1 harg1 arg2 harg2 arg3 harg3 arg4 harg4) K := by
  simp only [cc11__degree_residual_kernel_eq_skeleton]; unfold cc11__degree_residual_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover11_3 _)

/-- The proof data of pipeline 11 on core `c`: the arrays as the region finds them; after the body at point `t` each input's
    buffer at its block and the output's at `out11_3` of the input blocks; the invariant keeps the scoped rest and the generator
    register untouched; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => out11_3 (iblk11 V c 0 t) (iblk11 V c 1 t) (iblk11 V c 2 t)
  Φ _ := Pipeline.ΦA spec11 c
  q _ := fullShare
  owed _ := 0

theorem A_eq11 (c : Dev nD) (w : Fin cfg11.W) : (dat11 V c).A w = V c (Pipeline.arrRef spec11 w) := by
  dsimp only [dat11]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = out11_3 (iblk11 V c 0 t) (iblk11 V c 1 t) (iblk11 V c 2 t) := by dsimp only [dat11]

theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d

/-- What the body is called with at point `t`, the windows one by one, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t))

/-- The body at any point: the inputs' buffers hold their blocks, so `sound_kernel11` applies; the invariant and what the
    core owes pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2]
  rw [show (dat11 V c).Φ t.succ = (dat11 V c).Φ t.castSucc from rfl,
    show (dat11 V c).owesAt () t.succ = (dat11 V c).owesAt () t.castSucc from rfl,
    after11_0, after11_1, after11_2, after11_3]
  iintro ⟨HΦ, Ho, ⟨%d0, H0⟩, ⟨%d1, H1⟩, ⟨%d2, H2⟩, ⟨%d3, H3⟩⟩
  iapply (sound_kernel11 c Set.univ (grid11.coords t) _ _ _ _ _ _ _ _ (iblk11 V c 0 t) (iblk11 V c 1 t) (iblk11 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline, at every point. -/
theorem body_obligation11 (c : Dev nD) : BodyObligation (dat11 (F := F) V c) (defs₀ (F := F)) Variants.none () Set.univ := fun t => by
  rw [bigSep_W11, bigSep_W11]
  exact sound_body11 V c t

end Cert.Kernel.Hand

end
-- ==== Proof.K.Fold.lean ====
/- The contents of a core's buffers at every boundary of @main: a fold from the launch memory. A host stretch takes the
   contents to what its operations compute from them; a kernel region takes its windows' arrays to what the pipeline's
   write-backs leave (the inputs as entered, each output's blocks folded over the grid) and leaves every other buffer alone.
   Then: each argument array read back through the fold holds its launch contents (no stretch writes one, no region has one
   as an output); the family of the twelve pipelines' proof data, each at its region's entry contents; and the thread state
   carried between segments. -/
import proofs.«166112_j80350248174014_2_alg».proof.Proof.K.Body0
import proofs.«166112_j80350248174014_2_alg».proof.Proof.K.Body1
import proofs.«166112_j80350248174014_2_alg».proof.Proof.K.Body2
import proofs.«166112_j80350248174014_2_alg».proof.Proof.K.Body3
import proofs.«166112_j80350248174014_2_alg».proof.Proof.K.Body4
import proofs.«166112_j80350248174014_2_alg».proof.Proof.K.Body5
import proofs.«166112_j80350248174014_2_alg».proof.Proof.K.Body6
import proofs.«166112_j80350248174014_2_alg».proof.Proof.K.Body7
import proofs.«166112_j80350248174014_2_alg».proof.Proof.K.Body8
import proofs.«166112_j80350248174014_2_alg».proof.Proof.K.Body9
import proofs.«166112_j80350248174014_2_alg».proof.Proof.K.Body10
import proofs.«166112_j80350248174014_2_alg».proof.Proof.K.Body11
import proofs.«166112_j80350248174014_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The fold -/

/-- Core `c`'s buffers at launch. -/
abbrev W0 : Dev nD → Valuation τ sig (Elt F) := fun c b => (s₀ m ρ).mem ((c : Dev nD), b)

/-- After host stretch 0: the contents region 0 is entered with. -/
abbrev W1 : Dev nD → Valuation τ sig (Elt F) := fun c => StableHlo.after hostOps0 (W0 m ρ c)
/-- A buffer host stretch 0 does not write keeps its contents. -/
theorem W1_of (c : Dev nD) (r : Ref sig .tc) (h : r ∉ (hostOps0_W : List (Ref sig .tc))) :
    W1 m ρ c (Proc.devRef .tc r) = W0 m ρ c (Proc.devRef .tc r) :=
  StableHlo.after_of_writes_sub hostOps0 _ hostOps0_writes h
/-- The same contents read at the TensorCore's references: what region 0's proof data take. -/
abbrev V1 : (c : Dev nD) → (b : Ref sig .tc) → Buf (Elt F) ((c : Thread nD τ).loc b) := fun c b => W1 m ρ c b
/-- At region 0's exit: its windows' arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- An input window's array leaves region 0 as it entered: no write-back touches it. -/
theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin _).trans (A_eq0 (V1 m ρ) c w))
/-- Region 0's exit contents read at the TensorCore's references. -/
abbrev V2 : (c : Dev nD) → (b : Ref sig .tc) → Buf (Elt F) ((c : Thread nD τ).loc b) := fun c b => W2 m ρ c b
/-- At region 0's exit each of its arrays holds what the pipeline leaves, and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After host stretch 1: the contents region 1 is entered with. -/
abbrev W3 : Dev nD → Valuation τ sig (Elt F) := fun c => StableHlo.after hostOps1 (W2 m ρ c)
/-- A buffer host stretch 1 does not write keeps its contents. -/
theorem W3_of (c : Dev nD) (r : Ref sig .tc) (h : r ∉ (hostOps1_W : List (Ref sig .tc))) :
    W3 m ρ c (Proc.devRef .tc r) = W2 m ρ c (Proc.devRef .tc r) :=
  StableHlo.after_of_writes_sub hostOps1 _ hostOps1_writes h
/-- The same contents read at the TensorCore's references: what region 1's proof data take. -/
abbrev V3 : (c : Dev nD) → (b : Ref sig .tc) → Buf (Elt F) ((c : Thread nD τ).loc b) := fun c b => W3 m ρ c b
/-- At region 1's exit: its windows' arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- An input window's array leaves region 1 as it entered: no write-back touches it. -/
theorem W4_in (c : Dev nD) (w : Fin cfg1.W) (hin : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hin _).trans (A_eq1 (V3 m ρ) c w))
/-- Region 1's exit contents read at the TensorCore's references. -/
abbrev V4 : (c : Dev nD) → (b : Ref sig .tc) → Buf (Elt F) ((c : Thread nD τ).loc b) := fun c b => W4 m ρ c b
/-- At region 1's exit each of its arrays holds what the pipeline leaves, and every other buffer what it held at entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After host stretch 2: the contents region 2 is entered with. -/
abbrev W5 : Dev nD → Valuation τ sig (Elt F) := fun c => StableHlo.after hostOps2 (W4 m ρ c)
/-- A buffer host stretch 2 does not write keeps its contents. -/
theorem W5_of (c : Dev nD) (r : Ref sig .tc) (h : r ∉ (hostOps2_W : List (Ref sig .tc))) :
    W5 m ρ c (Proc.devRef .tc r) = W4 m ρ c (Proc.devRef .tc r) :=
  StableHlo.after_of_writes_sub hostOps2 _ hostOps2_writes h
/-- The same contents read at the TensorCore's references: what region 2's proof data take. -/
abbrev V5 : (c : Dev nD) → (b : Ref sig .tc) → Buf (Elt F) ((c : Thread nD τ).loc b) := fun c b => W5 m ρ c b
/-- At region 2's exit: its windows' arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- An input window's array leaves region 2 as it entered: no write-back touches it. -/
theorem W6_in (c : Dev nD) (w : Fin cfg2.W) (hin : (cfg2.win w).isOut = false) :
    W6 m ρ c (Proc.devRef .tc (Pipeline.arrRef spec2 w)) = W5 m ρ c (Proc.devRef .tc (Pipeline.arrRef spec2 w)) :=
  (W6_arr m ρ c w).trans (((dat2 (V5 m ρ) c).arrAt_in w hin _).trans (A_eq2 (V5 m ρ) c w))
/-- Region 2's exit contents read at the TensorCore's references. -/
abbrev V6 : (c : Dev nD) → (b : Ref sig .tc) → Buf (Elt F) ((c : Thread nD τ).loc b) := fun c b => W6 m ρ c b
/-- At region 2's exit each of its arrays holds what the pipeline leaves, and every other buffer what it held at entry. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After host stretch 3: the contents region 3 is entered with. -/
abbrev W7 : Dev nD → Valuation τ sig (Elt F) := fun c => StableHlo.after hostOps3 (W6 m ρ c)
/-- A buffer host stretch 3 does not write keeps its contents. -/
theorem W7_of (c : Dev nD) (r : Ref sig .tc) (h : r ∉ (hostOps3_W : List (Ref sig .tc))) :
    W7 m ρ c (Proc.devRef .tc r) = W6 m ρ c (Proc.devRef .tc r) :=
  StableHlo.after_of_writes_sub hostOps3 _ hostOps3_writes h
/-- The same contents read at the TensorCore's references: what region 3's proof data take. -/
abbrev V7 : (c : Dev nD) → (b : Ref sig .tc) → Buf (Elt F) ((c : Thread nD τ).loc b) := fun c b => W7 m ρ c b
/-- At region 3's exit: its windows' arrays at what the pipeline leaves, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- An input window's array leaves region 3 as it entered: no write-back touches it. -/
theorem W8_in (c : Dev nD) (w : Fin cfg3.W) (hin : (cfg3.win w).isOut = false) :
    W8 m ρ c (Proc.devRef .tc (Pipeline.arrRef spec3 w)) = W7 m ρ c (Proc.devRef .tc (Pipeline.arrRef spec3 w)) :=
  (W8_arr m ρ c w).trans (((dat3 (V7 m ρ) c).arrAt_in w hin _).trans (A_eq3 (V7 m ρ) c w))
/-- Region 3's exit contents read at the TensorCore's references. -/
abbrev V8 : (c : Dev nD) → (b : Ref sig .tc) → Buf (Elt F) ((c : Thread nD τ).loc b) := fun c b => W8 m ρ c b
/-- At region 3's exit each of its arrays holds what the pipeline leaves, and every other buffer what it held at entry. -/
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After host stretch 4: the contents region 4 is entered with. -/
abbrev W9 : Dev nD → Valuation τ sig (Elt F) := fun c => StableHlo.after hostOps4 (W8 m ρ c)
/-- A buffer host stretch 4 does not write keeps its contents. -/
theorem W9_of (c : Dev nD) (r : Ref sig .tc) (h : r ∉ (hostOps4_W : List (Ref sig .tc))) :
    W9 m ρ c (Proc.devRef .tc r) = W8 m ρ c (Proc.devRef .tc r) :=
  StableHlo.after_of_writes_sub hostOps4 _ hostOps4_writes h
/-- The same contents read at the TensorCore's references: what region 4's proof data take. -/
abbrev V9 : (c : Dev nD) → (b : Ref sig .tc) → Buf (Elt F) ((c : Thread nD τ).loc b) := fun c b => W9 m ρ c b
/-- At region 4's exit: its windows' arrays at what the pipeline leaves, every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
/-- An input window's array leaves region 4 as it entered: no write-back touches it. -/
theorem W10_in (c : Dev nD) (w : Fin cfg4.W) (hin : (cfg4.win w).isOut = false) :
    W10 m ρ c (Proc.devRef .tc (Pipeline.arrRef spec4 w)) = W9 m ρ c (Proc.devRef .tc (Pipeline.arrRef spec4 w)) :=
  (W10_arr m ρ c w).trans (((dat4 (V9 m ρ) c).arrAt_in w hin _).trans (A_eq4 (V9 m ρ) c w))
/-- Region 4's exit contents read at the TensorCore's references. -/
abbrev V10 : (c : Dev nD) → (b : Ref sig .tc) → Buf (Elt F) ((c : Thread nD τ).loc b) := fun c b => W10 m ρ c b
/-- At region 4's exit each of its arrays holds what the pipeline leaves, and every other buffer what it held at entry. -/
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

/-- After host stretch 5: the contents region 5 is entered with. -/
abbrev W11 : Dev nD → Valuation τ sig (Elt F) := fun c => StableHlo.after hostOps5 (W10 m ρ c)
/-- A buffer host stretch 5 does not write keeps its contents. -/
theorem W11_of (c : Dev nD) (r : Ref sig .tc) (h : r ∉ (hostOps5_W : List (Ref sig .tc))) :
    W11 m ρ c (Proc.devRef .tc r) = W10 m ρ c (Proc.devRef .tc r) :=
  StableHlo.after_of_writes_sub hostOps5 _ hostOps5_writes h
/-- The same contents read at the TensorCore's references: what region 5's proof data take. -/
abbrev V11 : (c : Dev nD) → (b : Ref sig .tc) → Buf (Elt F) ((c : Thread nD τ).loc b) := fun c b => W11 m ρ c b
/-- At region 5's exit: its windows' arrays at what the pipeline leaves, every other buffer as entered. -/
def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
/-- An input window's array leaves region 5 as it entered: no write-back touches it. -/
theorem W12_in (c : Dev nD) (w : Fin cfg5.W) (hin : (cfg5.win w).isOut = false) :
    W12 m ρ c (Proc.devRef .tc (Pipeline.arrRef spec5 w)) = W11 m ρ c (Proc.devRef .tc (Pipeline.arrRef spec5 w)) :=
  (W12_arr m ρ c w).trans (((dat5 (V11 m ρ) c).arrAt_in w hin _).trans (A_eq5 (V11 m ρ) c w))
/-- Region 5's exit contents read at the TensorCore's references. -/
abbrev V12 : (c : Dev nD) → (b : Ref sig .tc) → Buf (Elt F) ((c : Thread nD τ).loc b) := fun c b => W12 m ρ c b
/-- At region 5's exit each of its arrays holds what the pipeline leaves, and every other buffer what it held at entry. -/
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)

/-- After host stretch 6: the contents region 6 is entered with. -/
abbrev W13 : Dev nD → Valuation τ sig (Elt F) := fun c => StableHlo.after hostOps6 (W12 m ρ c)
/-- A buffer host stretch 6 does not write keeps its contents. -/
theorem W13_of (c : Dev nD) (r : Ref sig .tc) (h : r ∉ (hostOps6_W : List (Ref sig .tc))) :
    W13 m ρ c (Proc.devRef .tc r) = W12 m ρ c (Proc.devRef .tc r) :=
  StableHlo.after_of_writes_sub hostOps6 _ hostOps6_writes h
/-- The same contents read at the TensorCore's references: what region 6's proof data take. -/
abbrev V13 : (c : Dev nD) → (b : Ref sig .tc) → Buf (Elt F) ((c : Thread nD τ).loc b) := fun c b => W13 m ρ c b
/-- At region 6's exit: its windows' arrays at what the pipeline leaves, every other buffer as entered. -/
def W14 (c : Dev nD) : Valuation τ sig (Elt F) :=
  Pipeline.withArrays spec6 c (W13 m ρ c) fun w => (dat6 (V13 m ρ) c).arrAt w cfg6.N
theorem W14_arr (c : Dev nD) (w : Fin cfg6.W) :
    W14 m ρ c (Proc.devRef .tc (Pipeline.arrRef spec6 w)) = (dat6 (V13 m ρ) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
/-- An input window's array leaves region 6 as it entered: no write-back touches it. -/
theorem W14_in (c : Dev nD) (w : Fin cfg6.W) (hin : (cfg6.win w).isOut = false) :
    W14 m ρ c (Proc.devRef .tc (Pipeline.arrRef spec6 w)) = W13 m ρ c (Proc.devRef .tc (Pipeline.arrRef spec6 w)) :=
  (W14_arr m ρ c w).trans (((dat6 (V13 m ρ) c).arrAt_in w hin _).trans (A_eq6 (V13 m ρ) c w))
/-- Region 6's exit contents read at the TensorCore's references. -/
abbrev V14 : (c : Dev nD) → (b : Ref sig .tc) → Buf (Elt F) ((c : Thread nD τ).loc b) := fun c b => W14 m ρ c b
/-- At region 6's exit each of its arrays holds what the pipeline leaves, and every other buffer what it held at entry. -/
theorem hF6 (c : Dev nD) (w : Fin cfg6.W) : (dat6 (V13 m ρ) c).arrAt w cfg6.N = V14 m ρ c (Pipeline.arrRef spec6 w) :=
  (W14_arr m ρ c w).symm
theorem hrest6 (c : Dev nD) : ∀ b, b ∉ Finset.univ.image (Pipeline.arrRef spec6) → V14 m ρ c b = V13 m ρ c b :=
  fun b hb => W14_of_ne m ρ c b fun w e => hb (Finset.mem_image.mpr ⟨w, Finset.mem_univ _, e⟩)

/-- After host stretch 7: the contents region 7 is entered with. -/
abbrev W15 : Dev nD → Valuation τ sig (Elt F) := fun c => StableHlo.after hostOps7 (W14 m ρ c)
/-- A buffer host stretch 7 does not write keeps its contents. -/
theorem W15_of (c : Dev nD) (r : Ref sig .tc) (h : r ∉ (hostOps7_W : List (Ref sig .tc))) :
    W15 m ρ c (Proc.devRef .tc r) = W14 m ρ c (Proc.devRef .tc r) :=
  StableHlo.after_of_writes_sub hostOps7 _ hostOps7_writes h
/-- The same contents read at the TensorCore's references: what region 7's proof data take. -/
abbrev V15 : (c : Dev nD) → (b : Ref sig .tc) → Buf (Elt F) ((c : Thread nD τ).loc b) := fun c b => W15 m ρ c b
/-- At region 7's exit: its windows' arrays at what the pipeline leaves, every other buffer as entered. -/
def W16 (c : Dev nD) : Valuation τ sig (Elt F) :=
  Pipeline.withArrays spec7 c (W15 m ρ c) fun w => (dat7 (V15 m ρ) c).arrAt w cfg7.N
theorem W16_arr (c : Dev nD) (w : Fin cfg7.W) :
    W16 m ρ c (Proc.devRef .tc (Pipeline.arrRef spec7 w)) = (dat7 (V15 m ρ) c).arrAt w cfg7.N := by
  unfold W16; exact Pipeline.withArrays_arr spec7 launch7.win.arr_inj c _ _ w
theorem W16_of_ne (c : Dev nD) (b : Ref sig .tc) (hb : ∀ w, Pipeline.arrRef spec7 w ≠ b) :
    W16 m ρ c (Proc.devRef .tc b) = W15 m ρ c (Proc.devRef .tc b) := by
  unfold W16; exact Pipeline.withArrays_of_ne spec7 c _ _ b hb
/-- An input window's array leaves region 7 as it entered: no write-back touches it. -/
theorem W16_in (c : Dev nD) (w : Fin cfg7.W) (hin : (cfg7.win w).isOut = false) :
    W16 m ρ c (Proc.devRef .tc (Pipeline.arrRef spec7 w)) = W15 m ρ c (Proc.devRef .tc (Pipeline.arrRef spec7 w)) :=
  (W16_arr m ρ c w).trans (((dat7 (V15 m ρ) c).arrAt_in w hin _).trans (A_eq7 (V15 m ρ) c w))
/-- Region 7's exit contents read at the TensorCore's references. -/
abbrev V16 : (c : Dev nD) → (b : Ref sig .tc) → Buf (Elt F) ((c : Thread nD τ).loc b) := fun c b => W16 m ρ c b
/-- At region 7's exit each of its arrays holds what the pipeline leaves, and every other buffer what it held at entry. -/
theorem hF7 (c : Dev nD) (w : Fin cfg7.W) : (dat7 (V15 m ρ) c).arrAt w cfg7.N = V16 m ρ c (Pipeline.arrRef spec7 w) :=
  (W16_arr m ρ c w).symm
theorem hrest7 (c : Dev nD) : ∀ b, b ∉ Finset.univ.image (Pipeline.arrRef spec7) → V16 m ρ c b = V15 m ρ c b :=
  fun b hb => W16_of_ne m ρ c b fun w e => hb (Finset.mem_image.mpr ⟨w, Finset.mem_univ _, e⟩)

/-- After host stretch 8: the contents region 8 is entered with. -/
abbrev W17 : Dev nD → Valuation τ sig (Elt F) := fun c => StableHlo.after hostOps8 (W16 m ρ c)
/-- A buffer host stretch 8 does not write keeps its contents. -/
theorem W17_of (c : Dev nD) (r : Ref sig .tc) (h : r ∉ (hostOps8_W : List (Ref sig .tc))) :
    W17 m ρ c (Proc.devRef .tc r) = W16 m ρ c (Proc.devRef .tc r) :=
  StableHlo.after_of_writes_sub hostOps8 _ hostOps8_writes h
/-- The same contents read at the TensorCore's references: what region 8's proof data take. -/
abbrev V17 : (c : Dev nD) → (b : Ref sig .tc) → Buf (Elt F) ((c : Thread nD τ).loc b) := fun c b => W17 m ρ c b
/-- At region 8's exit: its windows' arrays at what the pipeline leaves, every other buffer as entered. -/
def W18 (c : Dev nD) : Valuation τ sig (Elt F) :=
  Pipeline.withArrays spec8 c (W17 m ρ c) fun w => (dat8 (V17 m ρ) c).arrAt w cfg8.N
theorem W18_arr (c : Dev nD) (w : Fin cfg8.W) :
    W18 m ρ c (Proc.devRef .tc (Pipeline.arrRef spec8 w)) = (dat8 (V17 m ρ) c).arrAt w cfg8.N := by
  unfold W18; exact Pipeline.withArrays_arr spec8 launch8.win.arr_inj c _ _ w
theorem W18_of_ne (c : Dev nD) (b : Ref sig .tc) (hb : ∀ w, Pipeline.arrRef spec8 w ≠ b) :
    W18 m ρ c (Proc.devRef .tc b) = W17 m ρ c (Proc.devRef .tc b) := by
  unfold W18; exact Pipeline.withArrays_of_ne spec8 c _ _ b hb
/-- An input window's array leaves region 8 as it entered: no write-back touches it. -/
theorem W18_in (c : Dev nD) (w : Fin cfg8.W) (hin : (cfg8.win w).isOut = false) :
    W18 m ρ c (Proc.devRef .tc (Pipeline.arrRef spec8 w)) = W17 m ρ c (Proc.devRef .tc (Pipeline.arrRef spec8 w)) :=
  (W18_arr m ρ c w).trans (((dat8 (V17 m ρ) c).arrAt_in w hin _).trans (A_eq8 (V17 m ρ) c w))
/-- Region 8's exit contents read at the TensorCore's references. -/
abbrev V18 : (c : Dev nD) → (b : Ref sig .tc) → Buf (Elt F) ((c : Thread nD τ).loc b) := fun c b => W18 m ρ c b
/-- At region 8's exit each of its arrays holds what the pipeline leaves, and every other buffer what it held at entry. -/
theorem hF8 (c : Dev nD) (w : Fin cfg8.W) : (dat8 (V17 m ρ) c).arrAt w cfg8.N = V18 m ρ c (Pipeline.arrRef spec8 w) :=
  (W18_arr m ρ c w).symm
theorem hrest8 (c : Dev nD) : ∀ b, b ∉ Finset.univ.image (Pipeline.arrRef spec8) → V18 m ρ c b = V17 m ρ c b :=
  fun b hb => W18_of_ne m ρ c b fun w e => hb (Finset.mem_image.mpr ⟨w, Finset.mem_univ _, e⟩)

/-- After host stretch 9: the contents region 9 is entered with. -/
abbrev W19 : Dev nD → Valuation τ sig (Elt F) := fun c => StableHlo.after hostOps9 (W18 m ρ c)
/-- A buffer host stretch 9 does not write keeps its contents. -/
theorem W19_of (c : Dev nD) (r : Ref sig .tc) (h : r ∉ (hostOps9_W : List (Ref sig .tc))) :
    W19 m ρ c (Proc.devRef .tc r) = W18 m ρ c (Proc.devRef .tc r) :=
  StableHlo.after_of_writes_sub hostOps9 _ hostOps9_writes h
/-- The same contents read at the TensorCore's references: what region 9's proof data take. -/
abbrev V19 : (c : Dev nD) → (b : Ref sig .tc) → Buf (Elt F) ((c : Thread nD τ).loc b) := fun c b => W19 m ρ c b
/-- At region 9's exit: its windows' arrays at what the pipeline leaves, every other buffer as entered. -/
def W20 (c : Dev nD) : Valuation τ sig (Elt F) :=
  Pipeline.withArrays spec9 c (W19 m ρ c) fun w => (dat9 (V19 m ρ) c).arrAt w cfg9.N
theorem W20_arr (c : Dev nD) (w : Fin cfg9.W) :
    W20 m ρ c (Proc.devRef .tc (Pipeline.arrRef spec9 w)) = (dat9 (V19 m ρ) c).arrAt w cfg9.N := by
  unfold W20; exact Pipeline.withArrays_arr spec9 launch9.win.arr_inj c _ _ w
theorem W20_of_ne (c : Dev nD) (b : Ref sig .tc) (hb : ∀ w, Pipeline.arrRef spec9 w ≠ b) :
    W20 m ρ c (Proc.devRef .tc b) = W19 m ρ c (Proc.devRef .tc b) := by
  unfold W20; exact Pipeline.withArrays_of_ne spec9 c _ _ b hb
/-- An input window's array leaves region 9 as it entered: no write-back touches it. -/
theorem W20_in (c : Dev nD) (w : Fin cfg9.W) (hin : (cfg9.win w).isOut = false) :
    W20 m ρ c (Proc.devRef .tc (Pipeline.arrRef spec9 w)) = W19 m ρ c (Proc.devRef .tc (Pipeline.arrRef spec9 w)) :=
  (W20_arr m ρ c w).trans (((dat9 (V19 m ρ) c).arrAt_in w hin _).trans (A_eq9 (V19 m ρ) c w))
/-- Region 9's exit contents read at the TensorCore's references. -/
abbrev V20 : (c : Dev nD) → (b : Ref sig .tc) → Buf (Elt F) ((c : Thread nD τ).loc b) := fun c b => W20 m ρ c b
/-- At region 9's exit each of its arrays holds what the pipeline leaves, and every other buffer what it held at entry. -/
theorem hF9 (c : Dev nD) (w : Fin cfg9.W) : (dat9 (V19 m ρ) c).arrAt w cfg9.N = V20 m ρ c (Pipeline.arrRef spec9 w) :=
  (W20_arr m ρ c w).symm
theorem hrest9 (c : Dev nD) : ∀ b, b ∉ Finset.univ.image (Pipeline.arrRef spec9) → V20 m ρ c b = V19 m ρ c b :=
  fun b hb => W20_of_ne m ρ c b fun w e => hb (Finset.mem_image.mpr ⟨w, Finset.mem_univ _, e⟩)

/-- After host stretch 10: the contents region 10 is entered with. -/
abbrev W21 : Dev nD → Valuation τ sig (Elt F) := fun c => StableHlo.after hostOps10 (W20 m ρ c)
/-- A buffer host stretch 10 does not write keeps its contents. -/
theorem W21_of (c : Dev nD) (r : Ref sig .tc) (h : r ∉ (hostOps10_W : List (Ref sig .tc))) :
    W21 m ρ c (Proc.devRef .tc r) = W20 m ρ c (Proc.devRef .tc r) :=
  StableHlo.after_of_writes_sub hostOps10 _ hostOps10_writes h
/-- The same contents read at the TensorCore's references: what region 10's proof data take. -/
abbrev V21 : (c : Dev nD) → (b : Ref sig .tc) → Buf (Elt F) ((c : Thread nD τ).loc b) := fun c b => W21 m ρ c b
/-- At region 10's exit: its windows' arrays at what the pipeline leaves, every other buffer as entered. -/
def W22 (c : Dev nD) : Valuation τ sig (Elt F) :=
  Pipeline.withArrays spec10 c (W21 m ρ c) fun w => (dat10 (V21 m ρ) c).arrAt w cfg10.N
theorem W22_arr (c : Dev nD) (w : Fin cfg10.W) :
    W22 m ρ c (Proc.devRef .tc (Pipeline.arrRef spec10 w)) = (dat10 (V21 m ρ) c).arrAt w cfg10.N := by
  unfold W22; exact Pipeline.withArrays_arr spec10 launch10.win.arr_inj c _ _ w
theorem W22_of_ne (c : Dev nD) (b : Ref sig .tc) (hb : ∀ w, Pipeline.arrRef spec10 w ≠ b) :
    W22 m ρ c (Proc.devRef .tc b) = W21 m ρ c (Proc.devRef .tc b) := by
  unfold W22; exact Pipeline.withArrays_of_ne spec10 c _ _ b hb
/-- An input window's array leaves region 10 as it entered: no write-back touches it. -/
theorem W22_in (c : Dev nD) (w : Fin cfg10.W) (hin : (cfg10.win w).isOut = false) :
    W22 m ρ c (Proc.devRef .tc (Pipeline.arrRef spec10 w)) = W21 m ρ c (Proc.devRef .tc (Pipeline.arrRef spec10 w)) :=
  (W22_arr m ρ c w).trans (((dat10 (V21 m ρ) c).arrAt_in w hin _).trans (A_eq10 (V21 m ρ) c w))
/-- Region 10's exit contents read at the TensorCore's references. -/
abbrev V22 : (c : Dev nD) → (b : Ref sig .tc) → Buf (Elt F) ((c : Thread nD τ).loc b) := fun c b => W22 m ρ c b
/-- At region 10's exit each of its arrays holds what the pipeline leaves, and every other buffer what it held at entry. -/
theorem hF10 (c : Dev nD) (w : Fin cfg10.W) : (dat10 (V21 m ρ) c).arrAt w cfg10.N = V22 m ρ c (Pipeline.arrRef spec10 w) :=
  (W22_arr m ρ c w).symm
theorem hrest10 (c : Dev nD) : ∀ b, b ∉ Finset.univ.image (Pipeline.arrRef spec10) → V22 m ρ c b = V21 m ρ c b :=
  fun b hb => W22_of_ne m ρ c b fun w e => hb (Finset.mem_image.mpr ⟨w, Finset.mem_univ _, e⟩)

/-- After host stretch 11: the contents region 11 is entered with. -/
abbrev W23 : Dev nD → Valuation τ sig (Elt F) := fun c => StableHlo.after hostOps11 (W22 m ρ c)
/-- A buffer host stretch 11 does not write keeps its contents. -/
theorem W23_of (c : Dev nD) (r : Ref sig .tc) (h : r ∉ (hostOps11_W : List (Ref sig .tc))) :
    W23 m ρ c (Proc.devRef .tc r) = W22 m ρ c (Proc.devRef .tc r) :=
  StableHlo.after_of_writes_sub hostOps11 _ hostOps11_writes h
/-- The same contents read at the TensorCore's references: what region 11's proof data take. -/
abbrev V23 : (c : Dev nD) → (b : Ref sig .tc) → Buf (Elt F) ((c : Thread nD τ).loc b) := fun c b => W23 m ρ c b
/-- At region 11's exit: its windows' arrays at what the pipeline leaves, every other buffer as entered. -/
def W24 (c : Dev nD) : Valuation τ sig (Elt F) :=
  Pipeline.withArrays spec11 c (W23 m ρ c) fun w => (dat11 (V23 m ρ) c).arrAt w cfg11.N
theorem W24_arr (c : Dev nD) (w : Fin cfg11.W) :
    W24 m ρ c (Proc.devRef .tc (Pipeline.arrRef spec11 w)) = (dat11 (V23 m ρ) c).arrAt w cfg11.N := by
  unfold W24; exact Pipeline.withArrays_arr spec11 launch11.win.arr_inj c _ _ w
theorem W24_of_ne (c : Dev nD) (b : Ref sig .tc) (hb : ∀ w, Pipeline.arrRef spec11 w ≠ b) :
    W24 m ρ c (Proc.devRef .tc b) = W23 m ρ c (Proc.devRef .tc b) := by
  unfold W24; exact Pipeline.withArrays_of_ne spec11 c _ _ b hb
/-- An input window's array leaves region 11 as it entered: no write-back touches it. -/
theorem W24_in (c : Dev nD) (w : Fin cfg11.W) (hin : (cfg11.win w).isOut = false) :
    W24 m ρ c (Proc.devRef .tc (Pipeline.arrRef spec11 w)) = W23 m ρ c (Proc.devRef .tc (Pipeline.arrRef spec11 w)) :=
  (W24_arr m ρ c w).trans (((dat11 (V23 m ρ) c).arrAt_in w hin _).trans (A_eq11 (V23 m ρ) c w))
/-- Region 11's exit contents read at the TensorCore's references. -/
abbrev V24 : (c : Dev nD) → (b : Ref sig .tc) → Buf (Elt F) ((c : Thread nD τ).loc b) := fun c b => W24 m ρ c b
/-- At region 11's exit each of its arrays holds what the pipeline leaves, and every other buffer what it held at entry. -/
theorem hF11 (c : Dev nD) (w : Fin cfg11.W) : (dat11 (V23 m ρ) c).arrAt w cfg11.N = V24 m ρ c (Pipeline.arrRef spec11 w) :=
  (W24_arr m ρ c w).symm
theorem hrest11 (c : Dev nD) : ∀ b, b ∉ Finset.univ.image (Pipeline.arrRef spec11) → V24 m ρ c b = V23 m ρ c b :=
  fun b hb => W24_of_ne m ρ c b fun w e => hb (Finset.mem_image.mpr ⟨w, Finset.mem_univ _, e⟩)

/-- After host stretch 12: the contents @main returns with. -/
abbrev W25 : Dev nD → Valuation τ sig (Elt F) := fun c => StableHlo.after hostOps12 (W24 m ρ c)
/-- A buffer host stretch 12 does not write keeps its contents. -/
theorem W25_of (c : Dev nD) (r : Ref sig .tc) (h : r ∉ (hostOps12_W : List (Ref sig .tc))) :
    W25 m ρ c (Proc.devRef .tc r) = W24 m ρ c (Proc.devRef .tc r) :=
  StableHlo.after_of_writes_sub hostOps12 _ hostOps12_writes h

/-! ## The arguments end as launched

No host stretch writes an argument, and a region reads one through an input window or not at all; so the fold at an argument's
buffer walks back, boundary by boundary, to the launch memory. -/

theorem W25_main_arg0 (c : Dev nD) : W25 m ρ c (Proc.devRef .tc main_arg0) = m ((c : Thread nD τ).loc main_arg0) :=
  calc W25 m ρ c (Proc.devRef .tc main_arg0)
    _ = W24 m ρ c (Proc.devRef .tc main_arg0) := W25_of m ρ c main_arg0 (by decide)
    _ = W23 m ρ c (Proc.devRef .tc main_arg0) := W24_of_ne m ρ c main_arg0 (by decide)
    _ = W22 m ρ c (Proc.devRef .tc main_arg0) := W23_of m ρ c main_arg0 (by decide)
    _ = W21 m ρ c (Proc.devRef .tc main_arg0) := W22_of_ne m ρ c main_arg0 (by decide)
    _ = W20 m ρ c (Proc.devRef .tc main_arg0) := W21_of m ρ c main_arg0 (by decide)
    _ = W19 m ρ c (Proc.devRef .tc main_arg0) := W20_of_ne m ρ c main_arg0 (by decide)
    _ = W18 m ρ c (Proc.devRef .tc main_arg0) := W19_of m ρ c main_arg0 (by decide)
    _ = W17 m ρ c (Proc.devRef .tc main_arg0) := W18_of_ne m ρ c main_arg0 (by decide)
    _ = W16 m ρ c (Proc.devRef .tc main_arg0) := W17_of m ρ c main_arg0 (by decide)
    _ = W15 m ρ c (Proc.devRef .tc main_arg0) := W16_of_ne m ρ c main_arg0 (by decide)
    _ = W14 m ρ c (Proc.devRef .tc main_arg0) := W15_of m ρ c main_arg0 (by decide)
    _ = W13 m ρ c (Proc.devRef .tc main_arg0) := W14_of_ne m ρ c main_arg0 (by decide)
    _ = W12 m ρ c (Proc.devRef .tc main_arg0) := W13_of m ρ c main_arg0 (by decide)
    _ = W11 m ρ c (Proc.devRef .tc main_arg0) := W12_of_ne m ρ c main_arg0 (by decide)
    _ = W10 m ρ c (Proc.devRef .tc main_arg0) := W11_of m ρ c main_arg0 (by decide)
    _ = W9 m ρ c (Proc.devRef .tc main_arg0) := W10_of_ne m ρ c main_arg0 (by decide)
    _ = W8 m ρ c (Proc.devRef .tc main_arg0) := W9_of m ρ c main_arg0 (by decide)
    _ = W7 m ρ c (Proc.devRef .tc main_arg0) := W8_of_ne m ρ c main_arg0 (by decide)
    _ = W6 m ρ c (Proc.devRef .tc main_arg0) := W7_of m ρ c main_arg0 (by decide)
    _ = W5 m ρ c (Proc.devRef .tc main_arg0) := W6_of_ne m ρ c main_arg0 (by decide)
    _ = W4 m ρ c (Proc.devRef .tc main_arg0) := W5_of m ρ c main_arg0 (by decide)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := W2_of_ne m ρ c main_arg0 (by decide)
    _ = W0 m ρ c (Proc.devRef .tc main_arg0) := W1_of m ρ c main_arg0 (by decide)
    _ = m ((c : Thread nD τ).loc main_arg0) := rfl

theorem W25_main_arg1 (c : Dev nD) : W25 m ρ c (Proc.devRef .tc main_arg1) = m ((c : Thread nD τ).loc main_arg1) :=
  calc W25 m ρ c (Proc.devRef .tc main_arg1)
    _ = W24 m ρ c (Proc.devRef .tc main_arg1) := W25_of m ρ c main_arg1 (by decide)
    _ = W23 m ρ c (Proc.devRef .tc main_arg1) := W24_of_ne m ρ c main_arg1 (by decide)
    _ = W22 m ρ c (Proc.devRef .tc main_arg1) := W23_of m ρ c main_arg1 (by decide)
    _ = W21 m ρ c (Proc.devRef .tc main_arg1) := W22_of_ne m ρ c main_arg1 (by decide)
    _ = W20 m ρ c (Proc.devRef .tc main_arg1) := W21_of m ρ c main_arg1 (by decide)
    _ = W19 m ρ c (Proc.devRef .tc main_arg1) := W20_of_ne m ρ c main_arg1 (by decide)
    _ = W18 m ρ c (Proc.devRef .tc main_arg1) := W19_of m ρ c main_arg1 (by decide)
    _ = W17 m ρ c (Proc.devRef .tc main_arg1) := W18_of_ne m ρ c main_arg1 (by decide)
    _ = W16 m ρ c (Proc.devRef .tc main_arg1) := W17_of m ρ c main_arg1 (by decide)
    _ = W15 m ρ c (Proc.devRef .tc main_arg1) := W16_of_ne m ρ c main_arg1 (by decide)
    _ = W14 m ρ c (Proc.devRef .tc main_arg1) := W15_of m ρ c main_arg1 (by decide)
    _ = W13 m ρ c (Proc.devRef .tc main_arg1) := W14_of_ne m ρ c main_arg1 (by decide)
    _ = W12 m ρ c (Proc.devRef .tc main_arg1) := W13_of m ρ c main_arg1 (by decide)
    _ = W11 m ρ c (Proc.devRef .tc main_arg1) := W12_of_ne m ρ c main_arg1 (by decide)
    _ = W10 m ρ c (Proc.devRef .tc main_arg1) := W11_of m ρ c main_arg1 (by decide)
    _ = W9 m ρ c (Proc.devRef .tc main_arg1) := W10_of_ne m ρ c main_arg1 (by decide)
    _ = W8 m ρ c (Proc.devRef .tc main_arg1) := W9_of m ρ c main_arg1 (by decide)
    _ = W7 m ρ c (Proc.devRef .tc main_arg1) := W8_of_ne m ρ c main_arg1 (by decide)
    _ = W6 m ρ c (Proc.devRef .tc main_arg1) := W7_of m ρ c main_arg1 (by decide)
    _ = W5 m ρ c (Proc.devRef .tc main_arg1) := W6_of_ne m ρ c main_arg1 (by decide)
    _ = W4 m ρ c (Proc.devRef .tc main_arg1) := W5_of m ρ c main_arg1 (by decide)
    _ = W3 m ρ c (Proc.devRef .tc main_arg1) := W4_of_ne m ρ c main_arg1 (by decide)
    _ = W2 m ρ c (Proc.devRef .tc main_arg1) := W3_of m ρ c main_arg1 (by decide)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl

theorem W25_main_arg2 (c : Dev nD) : W25 m ρ c (Proc.devRef .tc main_arg2) = m ((c : Thread nD τ).loc main_arg2) :=
  calc W25 m ρ c (Proc.devRef .tc main_arg2)
    _ = W24 m ρ c (Proc.devRef .tc main_arg2) := W25_of m ρ c main_arg2 (by decide)
    _ = W23 m ρ c (Proc.devRef .tc main_arg2) := W24_of_ne m ρ c main_arg2 (by decide)
    _ = W22 m ρ c (Proc.devRef .tc main_arg2) := W23_of m ρ c main_arg2 (by decide)
    _ = W21 m ρ c (Proc.devRef .tc main_arg2) := W22_of_ne m ρ c main_arg2 (by decide)
    _ = W20 m ρ c (Proc.devRef .tc main_arg2) := W21_of m ρ c main_arg2 (by decide)
    _ = W19 m ρ c (Proc.devRef .tc main_arg2) := W20_of_ne m ρ c main_arg2 (by decide)
    _ = W18 m ρ c (Proc.devRef .tc main_arg2) := W19_of m ρ c main_arg2 (by decide)
    _ = W17 m ρ c (Proc.devRef .tc main_arg2) := W18_of_ne m ρ c main_arg2 (by decide)
    _ = W16 m ρ c (Proc.devRef .tc main_arg2) := W17_of m ρ c main_arg2 (by decide)
    _ = W15 m ρ c (Proc.devRef .tc main_arg2) := W16_of_ne m ρ c main_arg2 (by decide)
    _ = W14 m ρ c (Proc.devRef .tc main_arg2) := W15_of m ρ c main_arg2 (by decide)
    _ = W13 m ρ c (Proc.devRef .tc main_arg2) := W14_of_ne m ρ c main_arg2 (by decide)
    _ = W12 m ρ c (Proc.devRef .tc main_arg2) := W13_of m ρ c main_arg2 (by decide)
    _ = W11 m ρ c (Proc.devRef .tc main_arg2) := W12_of_ne m ρ c main_arg2 (by decide)
    _ = W10 m ρ c (Proc.devRef .tc main_arg2) := W11_of m ρ c main_arg2 (by decide)
    _ = W9 m ρ c (Proc.devRef .tc main_arg2) := W10_of_ne m ρ c main_arg2 (by decide)
    _ = W8 m ρ c (Proc.devRef .tc main_arg2) := W9_of m ρ c main_arg2 (by decide)
    _ = W7 m ρ c (Proc.devRef .tc main_arg2) := W8_of_ne m ρ c main_arg2 (by decide)
    _ = W6 m ρ c (Proc.devRef .tc main_arg2) := W7_of m ρ c main_arg2 (by decide)
    _ = W5 m ρ c (Proc.devRef .tc main_arg2) := W6_of_ne m ρ c main_arg2 (by decide)
    _ = W4 m ρ c (Proc.devRef .tc main_arg2) := W5_of m ρ c main_arg2 (by decide)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl

theorem W25_main_arg3 (c : Dev nD) : W25 m ρ c (Proc.devRef .tc main_arg3) = m ((c : Thread nD τ).loc main_arg3) :=
  calc W25 m ρ c (Proc.devRef .tc main_arg3)
    _ = W24 m ρ c (Proc.devRef .tc main_arg3) := W25_of m ρ c main_arg3 (by decide)
    _ = W23 m ρ c (Proc.devRef .tc main_arg3) := W24_of_ne m ρ c main_arg3 (by decide)
    _ = W22 m ρ c (Proc.devRef .tc main_arg3) := W23_of m ρ c main_arg3 (by decide)
    _ = W21 m ρ c (Proc.devRef .tc main_arg3) := W22_of_ne m ρ c main_arg3 (by decide)
    _ = W20 m ρ c (Proc.devRef .tc main_arg3) := W21_of m ρ c main_arg3 (by decide)
    _ = W19 m ρ c (Proc.devRef .tc main_arg3) := W20_of_ne m ρ c main_arg3 (by decide)
    _ = W18 m ρ c (Proc.devRef .tc main_arg3) := W19_of m ρ c main_arg3 (by decide)
    _ = W17 m ρ c (Proc.devRef .tc main_arg3) := W18_of_ne m ρ c main_arg3 (by decide)
    _ = W16 m ρ c (Proc.devRef .tc main_arg3) := W17_of m ρ c main_arg3 (by decide)
    _ = W15 m ρ c (Proc.devRef .tc main_arg3) := W16_of_ne m ρ c main_arg3 (by decide)
    _ = W14 m ρ c (Proc.devRef .tc main_arg3) := W15_of m ρ c main_arg3 (by decide)
    _ = W13 m ρ c (Proc.devRef .tc main_arg3) := W14_of_ne m ρ c main_arg3 (by decide)
    _ = W12 m ρ c (Proc.devRef .tc main_arg3) := W13_of m ρ c main_arg3 (by decide)
    _ = W11 m ρ c (Proc.devRef .tc main_arg3) := W12_of_ne m ρ c main_arg3 (by decide)
    _ = W10 m ρ c (Proc.devRef .tc main_arg3) := W11_of m ρ c main_arg3 (by decide)
    _ = W9 m ρ c (Proc.devRef .tc main_arg3) := W10_of_ne m ρ c main_arg3 (by decide)
    _ = W8 m ρ c (Proc.devRef .tc main_arg3) := W9_of m ρ c main_arg3 (by decide)
    _ = W7 m ρ c (Proc.devRef .tc main_arg3) := W8_of_ne m ρ c main_arg3 (by decide)
    _ = W6 m ρ c (Proc.devRef .tc main_arg3) := W7_of m ρ c main_arg3 (by decide)
    _ = W5 m ρ c (Proc.devRef .tc main_arg3) := W6_of_ne m ρ c main_arg3 (by decide)
    _ = W4 m ρ c (Proc.devRef .tc main_arg3) := W5_of m ρ c main_arg3 (by decide)
    _ = W3 m ρ c (Proc.devRef .tc main_arg3) := W4_of_ne m ρ c main_arg3 (by decide)
    _ = W2 m ρ c (Proc.devRef .tc main_arg3) := W3_of m ρ c main_arg3 (by decide)
    _ = W1 m ρ c (Proc.devRef .tc main_arg3) := W2_of_ne m ρ c main_arg3 (by decide)
    _ = W0 m ρ c (Proc.devRef .tc main_arg3) := W1_of m ρ c main_arg3 (by decide)
    _ = m ((c : Thread nD τ).loc main_arg3) := rfl

theorem W25_main_arg4 (c : Dev nD) : W25 m ρ c (Proc.devRef .tc main_arg4) = m ((c : Thread nD τ).loc main_arg4) :=
  calc W25 m ρ c (Proc.devRef .tc main_arg4)
    _ = W24 m ρ c (Proc.devRef .tc main_arg4) := W25_of m ρ c main_arg4 (by decide)
    _ = W23 m ρ c (Proc.devRef .tc main_arg4) := W24_of_ne m ρ c main_arg4 (by decide)
    _ = W22 m ρ c (Proc.devRef .tc main_arg4) := W23_of m ρ c main_arg4 (by decide)
    _ = W21 m ρ c (Proc.devRef .tc main_arg4) := W22_of_ne m ρ c main_arg4 (by decide)
    _ = W20 m ρ c (Proc.devRef .tc main_arg4) := W21_of m ρ c main_arg4 (by decide)
    _ = W19 m ρ c (Proc.devRef .tc main_arg4) := W20_in m ρ c 2 rfl
    _ = W18 m ρ c (Proc.devRef .tc main_arg4) := W19_of m ρ c main_arg4 (by decide)
    _ = W17 m ρ c (Proc.devRef .tc main_arg4) := W18_of_ne m ρ c main_arg4 (by decide)
    _ = W16 m ρ c (Proc.devRef .tc main_arg4) := W17_of m ρ c main_arg4 (by decide)
    _ = W15 m ρ c (Proc.devRef .tc main_arg4) := W16_of_ne m ρ c main_arg4 (by decide)
    _ = W14 m ρ c (Proc.devRef .tc main_arg4) := W15_of m ρ c main_arg4 (by decide)
    _ = W13 m ρ c (Proc.devRef .tc main_arg4) := W14_of_ne m ρ c main_arg4 (by decide)
    _ = W12 m ρ c (Proc.devRef .tc main_arg4) := W13_of m ρ c main_arg4 (by decide)
    _ = W11 m ρ c (Proc.devRef .tc main_arg4) := W12_in m ρ c 2 rfl
    _ = W10 m ρ c (Proc.devRef .tc main_arg4) := W11_of m ρ c main_arg4 (by decide)
    _ = W9 m ρ c (Proc.devRef .tc main_arg4) := W10_of_ne m ρ c main_arg4 (by decide)
    _ = W8 m ρ c (Proc.devRef .tc main_arg4) := W9_of m ρ c main_arg4 (by decide)
    _ = W7 m ρ c (Proc.devRef .tc main_arg4) := W8_of_ne m ρ c main_arg4 (by decide)
    _ = W6 m ρ c (Proc.devRef .tc main_arg4) := W7_of m ρ c main_arg4 (by decide)
    _ = W5 m ρ c (Proc.devRef .tc main_arg4) := W6_of_ne m ρ c main_arg4 (by decide)
    _ = W4 m ρ c (Proc.devRef .tc main_arg4) := W5_of m ρ c main_arg4 (by decide)
    _ = W3 m ρ c (Proc.devRef .tc main_arg4) := W4_in m ρ c 2 rfl
    _ = W2 m ρ c (Proc.devRef .tc main_arg4) := W3_of m ρ c main_arg4 (by decide)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl

theorem W25_main_arg5 (c : Dev nD) : W25 m ρ c (Proc.devRef .tc main_arg5) = m ((c : Thread nD τ).loc main_arg5) :=
  calc W25 m ρ c (Proc.devRef .tc main_arg5)
    _ = W24 m ρ c (Proc.devRef .tc main_arg5) := W25_of m ρ c main_arg5 (by decide)
    _ = W23 m ρ c (Proc.devRef .tc main_arg5) := W24_in m ρ c 2 rfl
    _ = W22 m ρ c (Proc.devRef .tc main_arg5) := W23_of m ρ c main_arg5 (by decide)
    _ = W21 m ρ c (Proc.devRef .tc main_arg5) := W22_of_ne m ρ c main_arg5 (by decide)
    _ = W20 m ρ c (Proc.devRef .tc main_arg5) := W21_of m ρ c main_arg5 (by decide)
    _ = W19 m ρ c (Proc.devRef .tc main_arg5) := W20_of_ne m ρ c main_arg5 (by decide)
    _ = W18 m ρ c (Proc.devRef .tc main_arg5) := W19_of m ρ c main_arg5 (by decide)
    _ = W17 m ρ c (Proc.devRef .tc main_arg5) := W18_of_ne m ρ c main_arg5 (by decide)
    _ = W16 m ρ c (Proc.devRef .tc main_arg5) := W17_of m ρ c main_arg5 (by decide)
    _ = W15 m ρ c (Proc.devRef .tc main_arg5) := W16_in m ρ c 2 rfl
    _ = W14 m ρ c (Proc.devRef .tc main_arg5) := W15_of m ρ c main_arg5 (by decide)
    _ = W13 m ρ c (Proc.devRef .tc main_arg5) := W14_of_ne m ρ c main_arg5 (by decide)
    _ = W12 m ρ c (Proc.devRef .tc main_arg5) := W13_of m ρ c main_arg5 (by decide)
    _ = W11 m ρ c (Proc.devRef .tc main_arg5) := W12_of_ne m ρ c main_arg5 (by decide)
    _ = W10 m ρ c (Proc.devRef .tc main_arg5) := W11_of m ρ c main_arg5 (by decide)
    _ = W9 m ρ c (Proc.devRef .tc main_arg5) := W10_of_ne m ρ c main_arg5 (by decide)
    _ = W8 m ρ c (Proc.devRef .tc main_arg5) := W9_of m ρ c main_arg5 (by decide)
    _ = W7 m ρ c (Proc.devRef .tc main_arg5) := W8_in m ρ c 2 rfl
    _ = W6 m ρ c (Proc.devRef .tc main_arg5) := W7_of m ρ c main_arg5 (by decide)
    _ = W5 m ρ c (Proc.devRef .tc main_arg5) := W6_of_ne m ρ c main_arg5 (by decide)
    _ = W4 m ρ c (Proc.devRef .tc main_arg5) := W5_of m ρ c main_arg5 (by decide)
    _ = W3 m ρ c (Proc.devRef .tc main_arg5) := W4_of_ne m ρ c main_arg5 (by decide)
    _ = W2 m ρ c (Proc.devRef .tc main_arg5) := W3_of m ρ c main_arg5 (by decide)
    _ = W1 m ρ c (Proc.devRef .tc main_arg5) := W2_of_ne m ρ c main_arg5 (by decide)
    _ = W0 m ρ c (Proc.devRef .tc main_arg5) := W1_of m ρ c main_arg5 (by decide)
    _ = m ((c : Thread nD τ).loc main_arg5) := rfl

theorem W25_main_arg6 (c : Dev nD) : W25 m ρ c (Proc.devRef .tc main_arg6) = m ((c : Thread nD τ).loc main_arg6) :=
  calc W25 m ρ c (Proc.devRef .tc main_arg6)
    _ = W24 m ρ c (Proc.devRef .tc main_arg6) := W25_of m ρ c main_arg6 (by decide)
    _ = W23 m ρ c (Proc.devRef .tc main_arg6) := W24_of_ne m ρ c main_arg6 (by decide)
    _ = W22 m ρ c (Proc.devRef .tc main_arg6) := W23_of m ρ c main_arg6 (by decide)
    _ = W21 m ρ c (Proc.devRef .tc main_arg6) := W22_of_ne m ρ c main_arg6 (by decide)
    _ = W20 m ρ c (Proc.devRef .tc main_arg6) := W21_of m ρ c main_arg6 (by decide)
    _ = W19 m ρ c (Proc.devRef .tc main_arg6) := W20_of_ne m ρ c main_arg6 (by decide)
    _ = W18 m ρ c (Proc.devRef .tc main_arg6) := W19_of m ρ c main_arg6 (by decide)
    _ = W17 m ρ c (Proc.devRef .tc main_arg6) := W18_of_ne m ρ c main_arg6 (by decide)
    _ = W16 m ρ c (Proc.devRef .tc main_arg6) := W17_of m ρ c main_arg6 (by decide)
    _ = W15 m ρ c (Proc.devRef .tc main_arg6) := W16_of_ne m ρ c main_arg6 (by decide)
    _ = W14 m ρ c (Proc.devRef .tc main_arg6) := W15_of m ρ c main_arg6 (by decide)
    _ = W13 m ρ c (Proc.devRef .tc main_arg6) := W14_of_ne m ρ c main_arg6 (by decide)
    _ = W12 m ρ c (Proc.devRef .tc main_arg6) := W13_of m ρ c main_arg6 (by decide)
    _ = W11 m ρ c (Proc.devRef .tc main_arg6) := W12_of_ne m ρ c main_arg6 (by decide)
    _ = W10 m ρ c (Proc.devRef .tc main_arg6) := W11_of m ρ c main_arg6 (by decide)
    _ = W9 m ρ c (Proc.devRef .tc main_arg6) := W10_of_ne m ρ c main_arg6 (by decide)
    _ = W8 m ρ c (Proc.devRef .tc main_arg6) := W9_of m ρ c main_arg6 (by decide)
    _ = W7 m ρ c (Proc.devRef .tc main_arg6) := W8_of_ne m ρ c main_arg6 (by decide)
    _ = W6 m ρ c (Proc.devRef .tc main_arg6) := W7_of m ρ c main_arg6 (by decide)
    _ = W5 m ρ c (Proc.devRef .tc main_arg6) := W6_of_ne m ρ c main_arg6 (by decide)
    _ = W4 m ρ c (Proc.devRef .tc main_arg6) := W5_of m ρ c main_arg6 (by decide)
    _ = W3 m ρ c (Proc.devRef .tc main_arg6) := W4_in m ρ c 1 rfl
    _ = W2 m ρ c (Proc.devRef .tc main_arg6) := W3_of m ρ c main_arg6 (by decide)
    _ = W1 m ρ c (Proc.devRef .tc main_arg6) := W2_of_ne m ρ c main_arg6 (by decide)
    _ = W0 m ρ c (Proc.devRef .tc main_arg6) := W1_of m ρ c main_arg6 (by decide)
    _ = m ((c : Thread nD τ).loc main_arg6) := rfl

theorem W25_main_arg7 (c : Dev nD) : W25 m ρ c (Proc.devRef .tc main_arg7) = m ((c : Thread nD τ).loc main_arg7) :=
  calc W25 m ρ c (Proc.devRef .tc main_arg7)
    _ = W24 m ρ c (Proc.devRef .tc main_arg7) := W25_of m ρ c main_arg7 (by decide)
    _ = W23 m ρ c (Proc.devRef .tc main_arg7) := W24_of_ne m ρ c main_arg7 (by decide)
    _ = W22 m ρ c (Proc.devRef .tc main_arg7) := W23_of m ρ c main_arg7 (by decide)
    _ = W21 m ρ c (Proc.devRef .tc main_arg7) := W22_of_ne m ρ c main_arg7 (by decide)
    _ = W20 m ρ c (Proc.devRef .tc main_arg7) := W21_of m ρ c main_arg7 (by decide)
    _ = W19 m ρ c (Proc.devRef .tc main_arg7) := W20_of_ne m ρ c main_arg7 (by decide)
    _ = W18 m ρ c (Proc.devRef .tc main_arg7) := W19_of m ρ c main_arg7 (by decide)
    _ = W17 m ρ c (Proc.devRef .tc main_arg7) := W18_of_ne m ρ c main_arg7 (by decide)
    _ = W16 m ρ c (Proc.devRef .tc main_arg7) := W17_of m ρ c main_arg7 (by decide)
    _ = W15 m ρ c (Proc.devRef .tc main_arg7) := W16_of_ne m ρ c main_arg7 (by decide)
    _ = W14 m ρ c (Proc.devRef .tc main_arg7) := W15_of m ρ c main_arg7 (by decide)
    _ = W13 m ρ c (Proc.devRef .tc main_arg7) := W14_of_ne m ρ c main_arg7 (by decide)
    _ = W12 m ρ c (Proc.devRef .tc main_arg7) := W13_of m ρ c main_arg7 (by decide)
    _ = W11 m ρ c (Proc.devRef .tc main_arg7) := W12_of_ne m ρ c main_arg7 (by decide)
    _ = W10 m ρ c (Proc.devRef .tc main_arg7) := W11_of m ρ c main_arg7 (by decide)
    _ = W9 m ρ c (Proc.devRef .tc main_arg7) := W10_of_ne m ρ c main_arg7 (by decide)
    _ = W8 m ρ c (Proc.devRef .tc main_arg7) := W9_of m ρ c main_arg7 (by decide)
    _ = W7 m ρ c (Proc.devRef .tc main_arg7) := W8_in m ρ c 1 rfl
    _ = W6 m ρ c (Proc.devRef .tc main_arg7) := W7_of m ρ c main_arg7 (by decide)
    _ = W5 m ρ c (Proc.devRef .tc main_arg7) := W6_of_ne m ρ c main_arg7 (by decide)
    _ = W4 m ρ c (Proc.devRef .tc main_arg7) := W5_of m ρ c main_arg7 (by decide)
    _ = W3 m ρ c (Proc.devRef .tc main_arg7) := W4_of_ne m ρ c main_arg7 (by decide)
    _ = W2 m ρ c (Proc.devRef .tc main_arg7) := W3_of m ρ c main_arg7 (by decide)
    _ = W1 m ρ c (Proc.devRef .tc main_arg7) := W2_of_ne m ρ c main_arg7 (by decide)
    _ = W0 m ρ c (Proc.devRef .tc main_arg7) := W1_of m ρ c main_arg7 (by decide)
    _ = m ((c : Thread nD τ).loc main_arg7) := rfl

theorem W25_main_arg8 (c : Dev nD) : W25 m ρ c (Proc.devRef .tc main_arg8) = m ((c : Thread nD τ).loc main_arg8) :=
  calc W25 m ρ c (Proc.devRef .tc main_arg8)
    _ = W24 m ρ c (Proc.devRef .tc main_arg8) := W25_of m ρ c main_arg8 (by decide)
    _ = W23 m ρ c (Proc.devRef .tc main_arg8) := W24_of_ne m ρ c main_arg8 (by decide)
    _ = W22 m ρ c (Proc.devRef .tc main_arg8) := W23_of m ρ c main_arg8 (by decide)
    _ = W21 m ρ c (Proc.devRef .tc main_arg8) := W22_of_ne m ρ c main_arg8 (by decide)
    _ = W20 m ρ c (Proc.devRef .tc main_arg8) := W21_of m ρ c main_arg8 (by decide)
    _ = W19 m ρ c (Proc.devRef .tc main_arg8) := W20_of_ne m ρ c main_arg8 (by decide)
    _ = W18 m ρ c (Proc.devRef .tc main_arg8) := W19_of m ρ c main_arg8 (by decide)
    _ = W17 m ρ c (Proc.devRef .tc main_arg8) := W18_of_ne m ρ c main_arg8 (by decide)
    _ = W16 m ρ c (Proc.devRef .tc main_arg8) := W17_of m ρ c main_arg8 (by decide)
    _ = W15 m ρ c (Proc.devRef .tc main_arg8) := W16_of_ne m ρ c main_arg8 (by decide)
    _ = W14 m ρ c (Proc.devRef .tc main_arg8) := W15_of m ρ c main_arg8 (by decide)
    _ = W13 m ρ c (Proc.devRef .tc main_arg8) := W14_of_ne m ρ c main_arg8 (by decide)
    _ = W12 m ρ c (Proc.devRef .tc main_arg8) := W13_of m ρ c main_arg8 (by decide)
    _ = W11 m ρ c (Proc.devRef .tc main_arg8) := W12_of_ne m ρ c main_arg8 (by decide)
    _ = W10 m ρ c (Proc.devRef .tc main_arg8) := W11_of m ρ c main_arg8 (by decide)
    _ = W9 m ρ c (Proc.devRef .tc main_arg8) := W10_of_ne m ρ c main_arg8 (by decide)
    _ = W8 m ρ c (Proc.devRef .tc main_arg8) := W9_of m ρ c main_arg8 (by decide)
    _ = W7 m ρ c (Proc.devRef .tc main_arg8) := W8_of_ne m ρ c main_arg8 (by decide)
    _ = W6 m ρ c (Proc.devRef .tc main_arg8) := W7_of m ρ c main_arg8 (by decide)
    _ = W5 m ρ c (Proc.devRef .tc main_arg8) := W6_of_ne m ρ c main_arg8 (by decide)
    _ = W4 m ρ c (Proc.devRef .tc main_arg8) := W5_of m ρ c main_arg8 (by decide)
    _ = W3 m ρ c (Proc.devRef .tc main_arg8) := W4_of_ne m ρ c main_arg8 (by decide)
    _ = W2 m ρ c (Proc.devRef .tc main_arg8) := W3_of m ρ c main_arg8 (by decide)
    _ = W1 m ρ c (Proc.devRef .tc main_arg8) := W2_of_ne m ρ c main_arg8 (by decide)
    _ = W0 m ρ c (Proc.devRef .tc main_arg8) := W1_of m ρ c main_arg8 (by decide)
    _ = m ((c : Thread nD τ).loc main_arg8) := rfl

theorem W25_main_arg9 (c : Dev nD) : W25 m ρ c (Proc.devRef .tc main_arg9) = m ((c : Thread nD τ).loc main_arg9) :=
  calc W25 m ρ c (Proc.devRef .tc main_arg9)
    _ = W24 m ρ c (Proc.devRef .tc main_arg9) := W25_of m ρ c main_arg9 (by decide)
    _ = W23 m ρ c (Proc.devRef .tc main_arg9) := W24_of_ne m ρ c main_arg9 (by decide)
    _ = W22 m ρ c (Proc.devRef .tc main_arg9) := W23_of m ρ c main_arg9 (by decide)
    _ = W21 m ρ c (Proc.devRef .tc main_arg9) := W22_of_ne m ρ c main_arg9 (by decide)
    _ = W20 m ρ c (Proc.devRef .tc main_arg9) := W21_of m ρ c main_arg9 (by decide)
    _ = W19 m ρ c (Proc.devRef .tc main_arg9) := W20_of_ne m ρ c main_arg9 (by decide)
    _ = W18 m ρ c (Proc.devRef .tc main_arg9) := W19_of m ρ c main_arg9 (by decide)
    _ = W17 m ρ c (Proc.devRef .tc main_arg9) := W18_of_ne m ρ c main_arg9 (by decide)
    _ = W16 m ρ c (Proc.devRef .tc main_arg9) := W17_of m ρ c main_arg9 (by decide)
    _ = W15 m ρ c (Proc.devRef .tc main_arg9) := W16_of_ne m ρ c main_arg9 (by decide)
    _ = W14 m ρ c (Proc.devRef .tc main_arg9) := W15_of m ρ c main_arg9 (by decide)
    _ = W13 m ρ c (Proc.devRef .tc main_arg9) := W14_of_ne m ρ c main_arg9 (by decide)
    _ = W12 m ρ c (Proc.devRef .tc main_arg9) := W13_of m ρ c main_arg9 (by decide)
    _ = W11 m ρ c (Proc.devRef .tc main_arg9) := W12_of_ne m ρ c main_arg9 (by decide)
    _ = W10 m ρ c (Proc.devRef .tc main_arg9) := W11_of m ρ c main_arg9 (by decide)
    _ = W9 m ρ c (Proc.devRef .tc main_arg9) := W10_of_ne m ρ c main_arg9 (by decide)
    _ = W8 m ρ c (Proc.devRef .tc main_arg9) := W9_of m ρ c main_arg9 (by decide)
    _ = W7 m ρ c (Proc.devRef .tc main_arg9) := W8_of_ne m ρ c main_arg9 (by decide)
    _ = W6 m ρ c (Proc.devRef .tc main_arg9) := W7_of m ρ c main_arg9 (by decide)
    _ = W5 m ρ c (Proc.devRef .tc main_arg9) := W6_of_ne m ρ c main_arg9 (by decide)
    _ = W4 m ρ c (Proc.devRef .tc main_arg9) := W5_of m ρ c main_arg9 (by decide)
    _ = W3 m ρ c (Proc.devRef .tc main_arg9) := W4_of_ne m ρ c main_arg9 (by decide)
    _ = W2 m ρ c (Proc.devRef .tc main_arg9) := W3_of m ρ c main_arg9 (by decide)
    _ = W1 m ρ c (Proc.devRef .tc main_arg9) := W2_of_ne m ρ c main_arg9 (by decide)
    _ = W0 m ρ c (Proc.devRef .tc main_arg9) := W1_of m ρ c main_arg9 (by decide)
    _ = m ((c : Thread nD τ).loc main_arg9) := rfl

theorem W25_main_arg10 (c : Dev nD) : W25 m ρ c (Proc.devRef .tc main_arg10) = m ((c : Thread nD τ).loc main_arg10) :=
  calc W25 m ρ c (Proc.devRef .tc main_arg10)
    _ = W24 m ρ c (Proc.devRef .tc main_arg10) := W25_of m ρ c main_arg10 (by decide)
    _ = W23 m ρ c (Proc.devRef .tc main_arg10) := W24_of_ne m ρ c main_arg10 (by decide)
    _ = W22 m ρ c (Proc.devRef .tc main_arg10) := W23_of m ρ c main_arg10 (by decide)
    _ = W21 m ρ c (Proc.devRef .tc main_arg10) := W22_of_ne m ρ c main_arg10 (by decide)
    _ = W20 m ρ c (Proc.devRef .tc main_arg10) := W21_of m ρ c main_arg10 (by decide)
    _ = W19 m ρ c (Proc.devRef .tc main_arg10) := W20_of_ne m ρ c main_arg10 (by decide)
    _ = W18 m ρ c (Proc.devRef .tc main_arg10) := W19_of m ρ c main_arg10 (by decide)
    _ = W17 m ρ c (Proc.devRef .tc main_arg10) := W18_of_ne m ρ c main_arg10 (by decide)
    _ = W16 m ρ c (Proc.devRef .tc main_arg10) := W17_of m ρ c main_arg10 (by decide)
    _ = W15 m ρ c (Proc.devRef .tc main_arg10) := W16_of_ne m ρ c main_arg10 (by decide)
    _ = W14 m ρ c (Proc.devRef .tc main_arg10) := W15_of m ρ c main_arg10 (by decide)
    _ = W13 m ρ c (Proc.devRef .tc main_arg10) := W14_of_ne m ρ c main_arg10 (by decide)
    _ = W12 m ρ c (Proc.devRef .tc main_arg10) := W13_of m ρ c main_arg10 (by decide)
    _ = W11 m ρ c (Proc.devRef .tc main_arg10) := W12_of_ne m ρ c main_arg10 (by decide)
    _ = W10 m ρ c (Proc.devRef .tc main_arg10) := W11_of m ρ c main_arg10 (by decide)
    _ = W9 m ρ c (Proc.devRef .tc main_arg10) := W10_of_ne m ρ c main_arg10 (by decide)
    _ = W8 m ρ c (Proc.devRef .tc main_arg10) := W9_of m ρ c main_arg10 (by decide)
    _ = W7 m ρ c (Proc.devRef .tc main_arg10) := W8_of_ne m ρ c main_arg10 (by decide)
    _ = W6 m ρ c (Proc.devRef .tc main_arg10) := W7_of m ρ c main_arg10 (by decide)
    _ = W5 m ρ c (Proc.devRef .tc main_arg10) := W6_of_ne m ρ c main_arg10 (by decide)
    _ = W4 m ρ c (Proc.devRef .tc main_arg10) := W5_of m ρ c main_arg10 (by decide)
    _ = W3 m ρ c (Proc.devRef .tc main_arg10) := W4_of_ne m ρ c main_arg10 (by decide)
    _ = W2 m ρ c (Proc.devRef .tc main_arg10) := W3_of m ρ c main_arg10 (by decide)
    _ = W1 m ρ c (Proc.devRef .tc main_arg10) := W2_of_ne m ρ c main_arg10 (by decide)
    _ = W0 m ρ c (Proc.devRef .tc main_arg10) := W1_of m ρ c main_arg10 (by decide)
    _ = m ((c : Thread nD τ).loc main_arg10) := rfl

/-! ## The proof data family and the thread state -/

/-- The prefetched tables' admissible contents: no pipeline has a table. -/
abbrev adm : (p : Fin 12) → (pcfgs (F := F) p).Adm := fun p => (cfgs p).toPCfg_adm
/-- Every pipeline's proof data, each at its region's entry contents. -/
def pdats : (p : Fin 12) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
  | ⟨6, _⟩ => fun c => dat6 (V13 m ρ) c
  | ⟨7, _⟩ => fun c => dat7 (V15 m ρ) c
  | ⟨8, _⟩ => fun c => dat8 (V17 m ρ) c
  | ⟨9, _⟩ => fun c => dat9 (V19 m ρ) c
  | ⟨10, _⟩ => fun c => dat10 (V21 m ρ) c
  | ⟨11, _⟩ => fun c => dat11 (V23 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state, and the core owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends with those
    references at `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Hand

end
-- ==== Proof.K.Seg0.lean ====
/- Region 0 of @main as a segment over the thread state "every unscoped buffer at the boundary's contents, the generator
   register at some state, nothing owed": entered with the buffers at the contents host stretch 0 leaves, left with the region's
   arrays at what the pipeline's write-backs leave and every other buffer untouched. -/
import proofs.«166112_j80350248174014_2_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 0 over the thread state: its arrays are split out of the unscoped buffers at entry and put back at their exit
    contents; the generator register goes into the pipeline's invariant and comes back; nothing is owed; the kernel has no
    semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg1.lean ====
/- Region 1 of @main as a segment over the thread state "every unscoped buffer at the boundary's contents, the generator
   register at some state, nothing owed": entered with the buffers at the contents host stretch 1 leaves, left with the region's
   arrays at what the pipeline's write-backs leave and every other buffer untouched. -/
import proofs.«166112_j80350248174014_2_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 1 over the thread state: its arrays are split out of the unscoped buffers at entry and put back at their exit
    contents; the generator register goes into the pipeline's invariant and comes back; nothing is owed; the kernel has no
    semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg2.lean ====
/- Region 2 of @main as a segment over the thread state "every unscoped buffer at the boundary's contents, the generator
   register at some state, nothing owed": entered with the buffers at the contents host stretch 2 leaves, left with the region's
   arrays at what the pipeline's write-backs leave and every other buffer untouched. -/
import proofs.«166112_j80350248174014_2_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 2 over the thread state: its arrays are split out of the unscoped buffers at entry and put back at their exit
    contents; the generator register goes into the pipeline's invariant and comes back; nothing is owed; the kernel has no
    semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg3.lean ====
/- Region 3 of @main as a segment over the thread state "every unscoped buffer at the boundary's contents, the generator
   register at some state, nothing owed": entered with the buffers at the contents host stretch 3 leaves, left with the region's
   arrays at what the pipeline's write-backs leave and every other buffer untouched. -/
import proofs.«166112_j80350248174014_2_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 3 over the thread state: its arrays are split out of the unscoped buffers at entry and put back at their exit
    contents; the generator register goes into the pipeline's invariant and comes back; nothing is owed; the kernel has no
    semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg4.lean ====
/- Region 4 of @main as a segment over the thread state "every unscoped buffer at the boundary's contents, the generator
   register at some state, nothing owed": entered with the buffers at the contents host stretch 4 leaves, left with the region's
   arrays at what the pipeline's write-backs leave and every other buffer untouched. -/
import proofs.«166112_j80350248174014_2_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 4 over the thread state: its arrays are split out of the unscoped buffers at entry and put back at their exit
    contents; the generator register goes into the pipeline's invariant and comes back; nothing is owed; the kernel has no
    semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg5.lean ====
/- Region 5 of @main as a segment over the thread state "every unscoped buffer at the boundary's contents, the generator
   register at some state, nothing owed": entered with the buffers at the contents host stretch 5 leaves, left with the region's
   arrays at what the pipeline's write-backs leave and every other buffer untouched. -/
import proofs.«166112_j80350248174014_2_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 5 over the thread state: its arrays are split out of the unscoped buffers at entry and put back at their exit
    contents; the generator register goes into the pipeline's invariant and comes back; nothing is owed; the kernel has no
    semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg6.lean ====
/- Region 6 of @main as a segment over the thread state "every unscoped buffer at the boundary's contents, the generator
   register at some state, nothing owed": entered with the buffers at the contents host stretch 6 leaves, left with the region's
   arrays at what the pipeline's write-backs leave and every other buffer untouched. -/
import proofs.«166112_j80350248174014_2_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 6 over the thread state: its arrays are split out of the unscoped buffers at entry and put back at their exit
    contents; the generator register goes into the pipeline's invariant and comes back; nothing is owed; the kernel has no
    semaphore of its own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V13 m ρ) c).loose
  hwaits := Pipeline.hwaits_of_owed_zero _ _ _ _ L lv 6 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec6 c (V13 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V13 m ρ c) (V14 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg7.lean ====
/- Region 7 of @main as a segment over the thread state "every unscoped buffer at the boundary's contents, the generator
   register at some state, nothing owed": entered with the buffers at the contents host stretch 7 leaves, left with the region's
   arrays at what the pipeline's write-backs leave and every other buffer untouched. -/
import proofs.«166112_j80350248174014_2_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 7 over the thread state: its arrays are split out of the unscoped buffers at entry and put back at their exit
    contents; the generator register goes into the pipeline's invariant and comes back; nothing is owed; the kernel has no
    semaphore of its own. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V15 m ρ) c).loose
  hwaits := Pipeline.hwaits_of_owed_zero _ _ _ _ L lv 7 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec7 c (V15 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V15 m ρ c) (V16 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg8.lean ====
/- Region 8 of @main as a segment over the thread state "every unscoped buffer at the boundary's contents, the generator
   register at some state, nothing owed": entered with the buffers at the contents host stretch 8 leaves, left with the region's
   arrays at what the pipeline's write-backs leave and every other buffer untouched. -/
import proofs.«166112_j80350248174014_2_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 8 over the thread state: its arrays are split out of the unscoped buffers at entry and put back at their exit
    contents; the generator register goes into the pipeline's invariant and comes back; nothing is owed; the kernel has no
    semaphore of its own. -/
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V17 m ρ) c).loose
  hwaits := Pipeline.hwaits_of_owed_zero _ _ _ _ L lv 8 fun _ _ => rfl
  pre c := iprop(StableHlo.held (c : Thread nD τ) (Pipeline.ucRefs τ sig) (W17 m ρ c) ∗ R c)
  post c := iprop(StableHlo.held (c : Thread nD τ) (Pipeline.ucRefs τ sig) (W18 m ρ c) ∗ R c)
  X c := iprop(∃ r, prngReg c r)
  Y c := iprop(∃ r, prngReg c r)
  Z c := Pipeline.unscopedRest (Ix := Unit) (Name := ℕ) (U := UR sig nD τ) (Lvl := ℕ) spec8 c (V17 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (V17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (V17 m ρ c) (V18 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg9.lean ====
/- Region 9 of @main as a segment over the thread state "every unscoped buffer at the boundary's contents, the generator
   register at some state, nothing owed": entered with the buffers at the contents host stretch 9 leaves, left with the region's
   arrays at what the pipeline's write-backs leave and every other buffer untouched. -/
import proofs.«166112_j80350248174014_2_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 9 over the thread state: its arrays are split out of the unscoped buffers at entry and put back at their exit
    contents; the generator register goes into the pipeline's invariant and comes back; nothing is owed; the kernel has no
    semaphore of its own. -/
def reg9 : Pipeline.RegionSeg (pcfgs (F := F)) adm (pdats m ρ) () defs₀ 𝒱₀ L lv 9 where
  win := launch9.win.to₀
  block_pos := launch9.block_pos
  stage_whole := launch9.stage_whole
  K := PEmpty
  osem k := k.elim
  ho := Pipeline.OwnSemFacts.none _
  hbody c := (body_obligation9 (V19 m ρ) c).loose
  hwaits := Pipeline.hwaits_of_owed_zero _ _ _ _ L lv 9 fun _ _ => rfl
  pre c := iprop(StableHlo.held (c : Thread nD τ) (Pipeline.ucRefs τ sig) (W19 m ρ c) ∗ R c)
  post c := iprop(StableHlo.held (c : Thread nD τ) (Pipeline.ucRefs τ sig) (W20 m ρ c) ∗ R c)
  X c := iprop(∃ r, prngReg c r)
  Y c := iprop(∃ r, prngReg c r)
  Z c := Pipeline.unscopedRest (Ix := Unit) (Name := ℕ) (U := UR sig nD τ) (Lvl := ℕ) spec9 c (V19 m ρ c)
  hentry c := by
    rw [Pipeline.ownSems0_none]
    have hsplit := Pipeline.arrays_of_unscopedBufs (p := 9) (pcfgs (F := F)) adm (pdats m ρ) launch9.win launch9.arr_whole c
      ((pdats m ρ 9 c).share_full fun _ => rfl) (V19 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m ρ 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m ρ) ((pdats m ρ 9 c).share_full fun _ => rfl)
      (V19 m ρ c) (V20 m ρ c) ((pdats m ρ 9 c).arrAt · cfg9.N) (hF9 m ρ c) (hrest9 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg10.lean ====
/- Region 10 of @main as a segment over the thread state "every unscoped buffer at the boundary's contents, the generator
   register at some state, nothing owed": entered with the buffers at the contents host stretch 10 leaves, left with the region's
   arrays at what the pipeline's write-backs leave and every other buffer untouched. -/
import proofs.«166112_j80350248174014_2_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 10 over the thread state: its arrays are split out of the unscoped buffers at entry and put back at their exit
    contents; the generator register goes into the pipeline's invariant and comes back; nothing is owed; the kernel has no
    semaphore of its own. -/
def reg10 : Pipeline.RegionSeg (pcfgs (F := F)) adm (pdats m ρ) () defs₀ 𝒱₀ L lv 10 where
  win := launch10.win.to₀
  block_pos := launch10.block_pos
  stage_whole := launch10.stage_whole
  K := PEmpty
  osem k := k.elim
  ho := Pipeline.OwnSemFacts.none _
  hbody c := (body_obligation10 (V21 m ρ) c).loose
  hwaits := Pipeline.hwaits_of_owed_zero _ _ _ _ L lv 10 fun _ _ => rfl
  pre c := iprop(StableHlo.held (c : Thread nD τ) (Pipeline.ucRefs τ sig) (W21 m ρ c) ∗ R c)
  post c := iprop(StableHlo.held (c : Thread nD τ) (Pipeline.ucRefs τ sig) (W22 m ρ c) ∗ R c)
  X c := iprop(∃ r, prngReg c r)
  Y c := iprop(∃ r, prngReg c r)
  Z c := Pipeline.unscopedRest (Ix := Unit) (Name := ℕ) (U := UR sig nD τ) (Lvl := ℕ) spec10 c (V21 m ρ c)
  hentry c := by
    rw [Pipeline.ownSems0_none]
    have hsplit := Pipeline.arrays_of_unscopedBufs (p := 10) (pcfgs (F := F)) adm (pdats m ρ) launch10.win launch10.arr_whole c
      ((pdats m ρ 10 c).share_full fun _ => rfl) (V21 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m ρ 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m ρ) ((pdats m ρ 10 c).share_full fun _ => rfl)
      (V21 m ρ c) (V22 m ρ c) ((pdats m ρ 10 c).arrAt · cfg10.N) (hF10 m ρ c) (hrest10 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg11.lean ====
/- Region 11 of @main as a segment over the thread state "every unscoped buffer at the boundary's contents, the generator
   register at some state, nothing owed": entered with the buffers at the contents host stretch 11 leaves, left with the region's
   arrays at what the pipeline's write-backs leave and every other buffer untouched. -/
import proofs.«166112_j80350248174014_2_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 11 over the thread state: its arrays are split out of the unscoped buffers at entry and put back at their exit
    contents; the generator register goes into the pipeline's invariant and comes back; nothing is owed; the kernel has no
    semaphore of its own. -/
def reg11 : Pipeline.RegionSeg (pcfgs (F := F)) adm (pdats m ρ) () defs₀ 𝒱₀ L lv 11 where
  win := launch11.win.to₀
  block_pos := launch11.block_pos
  stage_whole := launch11.stage_whole
  K := PEmpty
  osem k := k.elim
  ho := Pipeline.OwnSemFacts.none _
  hbody c := (body_obligation11 (V23 m ρ) c).loose
  hwaits := Pipeline.hwaits_of_owed_zero _ _ _ _ L lv 11 fun _ _ => rfl
  pre c := iprop(StableHlo.held (c : Thread nD τ) (Pipeline.ucRefs τ sig) (W23 m ρ c) ∗ R c)
  post c := iprop(StableHlo.held (c : Thread nD τ) (Pipeline.ucRefs τ sig) (W24 m ρ c) ∗ R c)
  X c := iprop(∃ r, prngReg c r)
  Y c := iprop(∃ r, prngReg c r)
  Z c := Pipeline.unscopedRest (Ix := Unit) (Name := ℕ) (U := UR sig nD τ) (Lvl := ℕ) spec11 c (V23 m ρ c)
  hentry c := by
    rw [Pipeline.ownSems0_none]
    have hsplit := Pipeline.arrays_of_unscopedBufs (p := 11) (pcfgs (F := F)) adm (pdats m ρ) launch11.win launch11.arr_whole c
      ((pdats m ρ 11 c).share_full fun _ => rfl) (V23 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m ρ 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m ρ) ((pdats m ρ 11 c).share_full fun _ => rfl)
      (V23 m ρ c) (V24 m ρ c) ((pdats m ρ 11 c).arrAt · cfg11.N) (hF11 m ρ c) (hrest11 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Run.lean ====
/- The run of @main: its twenty-five segments in order (thirteen host stretches, twelve kernel regions between them), the launch
   over them, and what every weakly fair execution ends with — every unscoped buffer of every core at the last boundary's
   contents of the fold. The frame (each argument array ends as launched) is read off that. -/
import proofs.«166112_j80350248174014_2_alg».proof.Proof.K.Seg0
import proofs.«166112_j80350248174014_2_alg».proof.Proof.K.Seg1
import proofs.«166112_j80350248174014_2_alg».proof.Proof.K.Seg2
import proofs.«166112_j80350248174014_2_alg».proof.Proof.K.Seg3
import proofs.«166112_j80350248174014_2_alg».proof.Proof.K.Seg4
import proofs.«166112_j80350248174014_2_alg».proof.Proof.K.Seg5
import proofs.«166112_j80350248174014_2_alg».proof.Proof.K.Seg6
import proofs.«166112_j80350248174014_2_alg».proof.Proof.K.Seg7
import proofs.«166112_j80350248174014_2_alg».proof.Proof.K.Seg8
import proofs.«166112_j80350248174014_2_alg».proof.Proof.K.Seg9
import proofs.«166112_j80350248174014_2_alg».proof.Proof.K.Seg10
import proofs.«166112_j80350248174014_2_alg».proof.Proof.K.Seg11
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's 25 segments in order: a host segment per stretch from its boundary's contents, a region per kernel call. -/
abbrev segs : List (Pipeline.Seg (pcfgs (F := F)) adm (pdats m ρ) () defs₀ 𝒱₀ L lv) :=
  [
    .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)),
    .region (reg6 m ρ),
    .host (hseg hostOps7 hostOps7_sub hostOps7_fresh (W14 m ρ)),
    .region (reg7 m ρ),
    .host (hseg hostOps8 hostOps8_sub hostOps8_fresh (W16 m ρ)),
    .region (reg8 m ρ),
    .host (hseg hostOps9 hostOps9_sub hostOps9_fresh (W18 m ρ)),
    .region (reg9 m ρ),
    .host (hseg hostOps10 hostOps10_sub hostOps10_fresh (W20 m ρ)),
    .region (reg10 m ρ),
    .host (hseg hostOps11 hostOps11_sub hostOps11_fresh (W22 m ρ)),
    .region (reg11 m ρ),
    .host (hseg hostOps12 hostOps12_sub hostOps12_fresh (W24 m ρ)) ]

/-- @main is the run of the segments: it is the chain of its items, and the segments' run is the same chain. -/
theorem main_run (c : Dev nD) : main (F := F) c = Pipeline.Seg.run (segs m ρ) := (main_chain c).trans (by chain_rfl)

/-- The last thread state without what is owed: every unscoped buffer at the last boundary's contents, the generator register
    at some state. -/
abbrev Tₙ (c : Dev nD) : sProp 𝕄 := iprop(StableHlo.held (c : Thread nD τ) (Pipeline.ucRefs τ sig) (W25 m ρ c) ∗ ∃ r, prngReg c r)

set_option backward.isDefEq.respectTransparency.types false in
/-- From any memory with zero counters, every weakly fair execution of @main on the TensorCores terminates, nothing faulting,
    and in every final state each unscoped buffer of each core holds the fold's last contents. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W25 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => (show iprop(StableHlo.held (c : Thread nD τ) (Pipeline.ucRefs τ sig) (W25 m ρ c)
            ∗ ((∃ r, prngReg c r) ∗ ∃ W, owes (c : Thread nD τ) (0 : CellTallies nD τ sig Unit) W))
          ⊢ iprop((StableHlo.held (c : Thread nD τ) (Pipeline.ucRefs τ sig) (W25 m ρ c) ∗ ∃ r, prngReg c r)
            ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W25 m ρ c b)
    (hfin := fun c s' => by
      iintro ⟨⟨Hh, -⟩, HSI⟩
      unfold StableHlo.held
      imodintro
      iapply (pointsTo_read_all (Pipeline.ucRefs τ sig) (fun b => (((c : Thread nD τ)).1, b)) (W25 m ρ c) s')
      isplitl [Hh] <;> iassumption)
    (hQ := fun s h c => h c)

/-- The frame: every weakly fair execution of @main terminates, nothing faulting, and every final state has the argument
    arrays as launched — each read off the run's last contents, which the fold walks back to the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c _ (mem_uc main_arg0 (by decide))).trans (W25_main_arg0 m ρ c),
    (h c _ (mem_uc main_arg1 (by decide))).trans (W25_main_arg1 m ρ c),
    (h c _ (mem_uc main_arg2 (by decide))).trans (W25_main_arg2 m ρ c),
    (h c _ (mem_uc main_arg3 (by decide))).trans (W25_main_arg3 m ρ c),
    (h c _ (mem_uc main_arg4 (by decide))).trans (W25_main_arg4 m ρ c),
    (h c _ (mem_uc main_arg5 (by decide))).trans (W25_main_arg5 m ρ c),
    (h c _ (mem_uc main_arg6 (by decide))).trans (W25_main_arg6 m ρ c),
    (h c _ (mem_uc main_arg7 (by decide))).trans (W25_main_arg7 m ρ c),
    (h c _ (mem_uc main_arg8 (by decide))).trans (W25_main_arg8 m ρ c),
    (h c _ (mem_uc main_arg9 (by decide))).trans (W25_main_arg9 m ρ c),
    (h c _ (mem_uc main_arg10 (by decide))).trans (W25_main_arg10 m ρ c)⟩) (run_all m ρ)

end Cert.Kernel.Hand

end
-- ==== Proof.KI.Body0.lean ====
/- Region 0: the per-edge product. A block of 8000 edges: the weights as a column [8000,1], the gathered rows [8000,64]; the body
   stores, whole, the column spread over the 64 lanes times the rows.
   Stated at a PARAMETER `V`, the contents of the core's buffers when the region is entered: each window's block at a grid
   point is a rectangle of its array; the body's one store covers the output's staging buffer, so that buffer after the body is
   a function of the input blocks alone; the proof data of the pipeline and the body obligation at every point follow. -/
import proofs.«166112_j80350248174014_2_alg».proof.Proof.Gen.KernelIdeal.Launch
import proofs.«166112_j80350248174014_2_alg».proof.Proof.Gen.KernelIdeal.Skeleton
import proofs.«166112_j80350248174014_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rectangle of its array, as the region finds the array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether or not the block was fetched there, for any
    proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its block at every point, whether or not the block was fetched there, for any
    proof data whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole rectangle of a S8000x1 staging buffer. -/
abbrev r0_S8000x1 : Rect S8000x1 := Rect.unit (s := S8000x1) ![0, 0] S8000x1.size inb_S8000x1_S8000x1_0_0

/-- The whole rectangle of a S8000x64 staging buffer. -/
abbrev r0_S8000x64 : Rect S8000x64 := Rect.unit (s := S8000x64) ![0, 0] S8000x64.size inb_S8000x64_S8000x64_0_0

/-- The output's staging buffer after the body, from the input blocks: the one store, of the whole buffer. -/
def out0_2 (x0 : Vec F S8000x1 .f32) (x1 : Vec F S8000x64 .f32) : Vec F S8000x64 .f32 :=
  View.canon [⟨r0_S8000x64, k0_pay1 (View.ld x0 r0_S8000x1) (View.ld x1 r0_S8000x64)⟩]

/-- The one store covers the buffer. -/
theorem cover0_2 (p0 : Vec F S8000x64 .f32) (y : S8000x64.Idx) :
    ∃ pc ∈ ([⟨r0_S8000x64, p0⟩] : List (View.Piece (Elt F) S8000x64 .f32)), y ∈ pc.1.set :=
  View.cover_of_tiled [⟨r0_S8000x64, p0⟩] S8000x64.size (by rfl) y

set_option maxHeartbeats 1000000 in
/-- The body on whole staging buffers, the inputs' at contents `x` and the output's at anything, runs to the continuation
    with the inputs' buffers as they were and the output's at `out0_2` of the inputs'. -/
theorem sound_kernel0 (c : Dev nD) (E : Set ℕ) (i : grid0.Coords) (arg1 : Memref sig .tc .vmem S8000x1 .f32) (harg1 : arg1.IsWhole) (arg2 : Memref sig .tc .vmem S8000x64 .f32) (harg2 : arg2.IsWhole) (arg3 : Memref sig .tc .vmem S8000x64 .f32) (harg3 : arg3.IsWhole)
    (x0 : Vec F S8000x1 .f32) (x1 : Vec F S8000x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__weighted_mul_kernel i arg1 harg1 arg2 harg2 arg3 harg3) K := by
  simp only [cc0__weighted_mul_kernel_eq_skeleton]; unfold cc0__weighted_mul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of pipeline 0 on core `c`: the arrays as the region finds them; after the body at point `t` each input's
    buffer at its block and the output's at `out0_2` of the input blocks; the invariant keeps the scoped rest and the generator
    register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so `sound_kernel0` applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Body1.lean ====
/- Region 1: the residual combine. A block of 5000 nodes: the neighbourhood sums [5000,64], the previous features [5000,64], the degrees as
   a column [5000,1]; the body stores, whole, the sums plus the previous features times the column spread over the 64 lanes.
   Stated at a PARAMETER `V`, the contents of the core's buffers when the region is entered: each window's block at a grid
   point is a rectangle of its array; the body's one store covers the output's staging buffer, so that buffer after the body is
   a function of the input blocks alone; the proof data of the pipeline and the body obligation at every point follow. -/
import proofs.«166112_j80350248174014_2_alg».proof.Proof.Gen.KernelIdeal.Launch
import proofs.«166112_j80350248174014_2_alg».proof.Proof.Gen.KernelIdeal.Skeleton
import proofs.«166112_j80350248174014_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rectangle of its array, as the region finds the array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, whether or not the block was fetched there, for any
    proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds its block at every point, whether or not the block was fetched there, for any
    proof data whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds its block at every point, whether or not the block was fetched there, for any
    proof data whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole rectangle of a S5000x64 staging buffer. -/
abbrev r1_S5000x64 : Rect S5000x64 := Rect.unit (s := S5000x64) ![0, 0] S5000x64.size inb_S5000x64_S5000x64_0_0

/-- The whole rectangle of a S5000x1 staging buffer. -/
abbrev r1_S5000x1 : Rect S5000x1 := Rect.unit (s := S5000x1) ![0, 0] S5000x1.size inb_S5000x1_S5000x1_0_0

/-- The output's staging buffer after the body, from the input blocks: the one store, of the whole buffer. -/
def out1_3 (x0 : Vec F S5000x64 .f32) (x1 : Vec F S5000x64 .f32) (x2 : Vec F S5000x1 .f32) : Vec F S5000x64 .f32 :=
  View.canon [⟨r1_S5000x64, k1_pay1 (View.ld x0 r1_S5000x64) (View.ld x1 r1_S5000x64) (View.ld x2 r1_S5000x1)⟩]

/-- The one store covers the buffer. -/
theorem cover1_3 (p0 : Vec F S5000x64 .f32) (y : S5000x64.Idx) :
    ∃ pc ∈ ([⟨r1_S5000x64, p0⟩] : List (View.Piece (Elt F) S5000x64 .f32)), y ∈ pc.1.set :=
  View.cover_of_tiled [⟨r1_S5000x64, p0⟩] S5000x64.size (by rfl) y

set_option maxHeartbeats 1000000 in
/-- The body on whole staging buffers, the inputs' at contents `x` and the output's at anything, runs to the continuation
    with the inputs' buffers as they were and the output's at `out1_3` of the inputs'. -/
theorem sound_kernel1 (c : Dev nD) (E : Set ℕ) (i : grid1.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S5000x64 .f32) (harg4 : arg4.IsWhole)
    (x0 : Vec F S5000x64 .f32) (x1 : Vec F S5000x64 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__degree_residual_kernel i arg1 harg1 arg2 harg2 arg3 harg3 arg4 harg4) K := by
  simp only [cc1__degree_residual_kernel_eq_skeleton]; unfold cc1__degree_residual_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of pipeline 1 on core `c`: the arrays as the region finds them; after the body at point `t` each input's
    buffer at its block and the output's at `out1_3` of the input blocks; the invariant keeps the scoped rest and the generator
    register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so `sound_kernel1` applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Body2.lean ====
/- Region 2: the per-edge product. A block of 8000 edges: the weights as a column [8000,1], the gathered rows [8000,64]; the body
   stores, whole, the column spread over the 64 lanes times the rows.
   Stated at a PARAMETER `V`, the contents of the core's buffers when the region is entered: each window's block at a grid
   point is a rectangle of its array; the body's one store covers the output's staging buffer, so that buffer after the body is
   a function of the input blocks alone; the proof data of the pipeline and the body obligation at every point follow. -/
import proofs.«166112_j80350248174014_2_alg».proof.Proof.Gen.KernelIdeal.Launch
import proofs.«166112_j80350248174014_2_alg».proof.Proof.Gen.KernelIdeal.Skeleton
import proofs.«166112_j80350248174014_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rectangle of its array, as the region finds the array. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, whether or not the block was fetched there, for any
    proof data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- An input window's staging buffer holds its block at every point, whether or not the block was fetched there, for any
    proof data whose array is `V`'s and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole rectangle of a S8000x1 staging buffer. -/
abbrev r2_S8000x1 : Rect S8000x1 := Rect.unit (s := S8000x1) ![0, 0] S8000x1.size inb_S8000x1_S8000x1_0_0

/-- The whole rectangle of a S8000x64 staging buffer. -/
abbrev r2_S8000x64 : Rect S8000x64 := Rect.unit (s := S8000x64) ![0, 0] S8000x64.size inb_S8000x64_S8000x64_0_0

/-- The output's staging buffer after the body, from the input blocks: the one store, of the whole buffer. -/
def out2_2 (x0 : Vec F S8000x1 .f32) (x1 : Vec F S8000x64 .f32) : Vec F S8000x64 .f32 :=
  View.canon [⟨r2_S8000x64, k2_pay1 (View.ld x0 r2_S8000x1) (View.ld x1 r2_S8000x64)⟩]

/-- The one store covers the buffer. -/
theorem cover2_2 (p0 : Vec F S8000x64 .f32) (y : S8000x64.Idx) :
    ∃ pc ∈ ([⟨r2_S8000x64, p0⟩] : List (View.Piece (Elt F) S8000x64 .f32)), y ∈ pc.1.set :=
  View.cover_of_tiled [⟨r2_S8000x64, p0⟩] S8000x64.size (by rfl) y

set_option maxHeartbeats 1000000 in
/-- The body on whole staging buffers, the inputs' at contents `x` and the output's at anything, runs to the continuation
    with the inputs' buffers as they were and the output's at `out2_2` of the inputs'. -/
theorem sound_kernel2 (c : Dev nD) (E : Set ℕ) (i : grid2.Coords) (arg1 : Memref sig .tc .vmem S8000x1 .f32) (harg1 : arg1.IsWhole) (arg2 : Memref sig .tc .vmem S8000x64 .f32) (harg2 : arg2.IsWhole) (arg3 : Memref sig .tc .vmem S8000x64 .f32) (harg3 : arg3.IsWhole)
    (x0 : Vec F S8000x1 .f32) (x1 : Vec F S8000x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__weighted_mul_kernel i arg1 harg1 arg2 harg2 arg3 harg3) K := by
  simp only [cc2__weighted_mul_kernel_eq_skeleton]; unfold cc2__weighted_mul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of pipeline 2 on core `c`: the arrays as the region finds them; after the body at point `t` each input's
    buffer at its block and the output's at `out2_2` of the input blocks; the invariant keeps the scoped rest and the generator
    register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so `sound_kernel2` applies; the invariant and what the
    core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Body3.lean ====
/- Region 3: the residual combine. A block of 5000 nodes: the neighbourhood sums [5000,64], the previous features [5000,64], the degrees as
   a column [5000,1]; the body stores, whole, the sums plus the previous features times the column spread over the 64 lanes.
   Stated at a PARAMETER `V`, the contents of the core's buffers when the region is entered: each window's block at a grid
   point is a rectangle of its array; the body's one store covers the output's staging buffer, so that buffer after the body is
   a function of the input blocks alone; the proof data of the pipeline and the body obligation at every point follow. -/
import proofs.«166112_j80350248174014_2_alg».proof.Proof.Gen.KernelIdeal.Launch
import proofs.«166112_j80350248174014_2_alg».proof.Proof.Gen.KernelIdeal.Skeleton
import proofs.«166112_j80350248174014_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rectangle of its array, as the region finds the array. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds its block at every point, whether or not the block was fetched there, for any
    proof data whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- An input window's staging buffer holds its block at every point, whether or not the block was fetched there, for any
    proof data whose array is `V`'s and whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- An input window's staging buffer holds its block at every point, whether or not the block was fetched there, for any
    proof data whose array is `V`'s and whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The whole rectangle of a S5000x64 staging buffer. -/
abbrev r3_S5000x64 : Rect S5000x64 := Rect.unit (s := S5000x64) ![0, 0] S5000x64.size inb_S5000x64_S5000x64_0_0

/-- The whole rectangle of a S5000x1 staging buffer. -/
abbrev r3_S5000x1 : Rect S5000x1 := Rect.unit (s := S5000x1) ![0, 0] S5000x1.size inb_S5000x1_S5000x1_0_0

/-- The output's staging buffer after the body, from the input blocks: the one store, of the whole buffer. -/
def out3_3 (x0 : Vec F S5000x64 .f32) (x1 : Vec F S5000x64 .f32) (x2 : Vec F S5000x1 .f32) : Vec F S5000x64 .f32 :=
  View.canon [⟨r3_S5000x64, k3_pay1 (View.ld x0 r3_S5000x64) (View.ld x1 r3_S5000x64) (View.ld x2 r3_S5000x1)⟩]

/-- The one store covers the buffer. -/
theorem cover3_3 (p0 : Vec F S5000x64 .f32) (y : S5000x64.Idx) :
    ∃ pc ∈ ([⟨r3_S5000x64, p0⟩] : List (View.Piece (Elt F) S5000x64 .f32)), y ∈ pc.1.set :=
  View.cover_of_tiled [⟨r3_S5000x64, p0⟩] S5000x64.size (by rfl) y

set_option maxHeartbeats 1000000 in
/-- The body on whole staging buffers, the inputs' at contents `x` and the output's at anything, runs to the continuation
    with the inputs' buffers as they were and the output's at `out3_3` of the inputs'. -/
theorem sound_kernel3 (c : Dev nD) (E : Set ℕ) (i : grid3.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S5000x64 .f32) (harg4 : arg4.IsWhole)
    (x0 : Vec F S5000x64 .f32) (x1 : Vec F S5000x64 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3__degree_residual_kernel i arg1 harg1 arg2 harg2 arg3 harg3 arg4 harg4) K := by
  simp only [cc3__degree_residual_kernel_eq_skeleton]; unfold cc3__degree_residual_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-- The proof data of pipeline 3 on core `c`: the arrays as the region finds them; after the body at point `t` each input's
    buffer at its block and the output's at `out3_3` of the input blocks; the invariant keeps the scoped rest and the generator
    register untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' buffers hold their blocks, so `sound_kernel3` applies; the invariant and what the
    core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ (grid3.coords t) _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Body4.lean ====
/- Region 4: the per-edge product. A block of 8000 edges: the weights as a column [8000,1], the gathered rows [8000,64]; the body
   stores, whole, the column spread over the 64 lanes times the rows.
   Stated at a PARAMETER `V`, the contents of the core's buffers when the region is entered: each window's block at a grid
   point is a rectangle of its array; the body's one store covers the output's staging buffer, so that buffer after the body is
   a function of the input blocks alone; the proof data of the pipeline and the body obligation at every point follow. -/
import proofs.«166112_j80350248174014_2_alg».proof.Proof.Gen.KernelIdeal.Launch
import proofs.«166112_j80350248174014_2_alg».proof.Proof.Gen.KernelIdeal.Skeleton
import proofs.«166112_j80350248174014_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rectangle of its array, as the region finds the array. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's staging buffer holds its block at every point, whether or not the block was fetched there, for any
    proof data whose array is `V`'s and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- An input window's staging buffer holds its block at every point, whether or not the block was fetched there, for any
    proof data whose array is `V`'s and whose body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The whole rectangle of a S8000x1 staging buffer. -/
abbrev r4_S8000x1 : Rect S8000x1 := Rect.unit (s := S8000x1) ![0, 0] S8000x1.size inb_S8000x1_S8000x1_0_0

/-- The whole rectangle of a S8000x64 staging buffer. -/
abbrev r4_S8000x64 : Rect S8000x64 := Rect.unit (s := S8000x64) ![0, 0] S8000x64.size inb_S8000x64_S8000x64_0_0

/-- The output's staging buffer after the body, from the input blocks: the one store, of the whole buffer. -/
def out4_2 (x0 : Vec F S8000x1 .f32) (x1 : Vec F S8000x64 .f32) : Vec F S8000x64 .f32 :=
  View.canon [⟨r4_S8000x64, k4_pay1 (View.ld x0 r4_S8000x1) (View.ld x1 r4_S8000x64)⟩]

/-- The one store covers the buffer. -/
theorem cover4_2 (p0 : Vec F S8000x64 .f32) (y : S8000x64.Idx) :
    ∃ pc ∈ ([⟨r4_S8000x64, p0⟩] : List (View.Piece (Elt F) S8000x64 .f32)), y ∈ pc.1.set :=
  View.cover_of_tiled [⟨r4_S8000x64, p0⟩] S8000x64.size (by rfl) y

set_option maxHeartbeats 1000000 in
/-- The body on whole staging buffers, the inputs' at contents `x` and the output's at anything, runs to the continuation
    with the inputs' buffers as they were and the output's at `out4_2` of the inputs'. -/
theorem sound_kernel4 (c : Dev nD) (E : Set ℕ) (i : grid4.Coords) (arg1 : Memref sig .tc .vmem S8000x1 .f32) (harg1 : arg1.IsWhole) (arg2 : Memref sig .tc .vmem S8000x64 .f32) (harg2 : arg2.IsWhole) (arg3 : Memref sig .tc .vmem S8000x64 .f32) (harg3 : arg3.IsWhole)
    (x0 : Vec F S8000x1 .f32) (x1 : Vec F S8000x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out4_2 x0 x1)) -∗ K ⟨⟩))
      ⊢ wp frame (wpE (defs₀ (F := F)) Variants.none c none) E (cc4__weighted_mul_kernel i arg1 harg1 arg2 harg2 arg3 harg3) K := by
  simp only [cc4__weighted_mul_kernel_eq_skeleton]; unfold cc4__weighted_mul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-- The proof data of pipeline 4 on core `c`: the arrays as the region finds them; after the body at point `t` each input's
    buffer at its block and the output's at `out4_2` of the input blocks; the invariant keeps the scoped rest and the generator
    register untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the inputs' buffers hold their blocks, so `sound_kernel4` applies; the invariant and what the
    core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ (grid4.coords t) _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Body5.lean ====
/- Region 5: the residual combine. A block of 5000 nodes: the neighbourhood sums [5000,64], the previous features [5000,64], the degrees as
   a column [5000,1]; the body stores, whole, the sums plus the previous features times the column spread over the 64 lanes.
   Stated at a PARAMETER `V`, the contents of the core's buffers when the region is entered: each window's block at a grid
   point is a rectangle of its array; the body's one store covers the output's staging buffer, so that buffer after the body is
   a function of the input blocks alone; the proof data of the pipeline and the body obligation at every point follow. -/
import proofs.«166112_j80350248174014_2_alg».proof.Proof.Gen.KernelIdeal.Launch
import proofs.«166112_j80350248174014_2_alg».proof.Proof.Gen.KernelIdeal.Skeleton
import proofs.«166112_j80350248174014_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rectangle of its array, as the region finds the array. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's staging buffer holds its block at every point, whether or not the block was fetched there, for any
    proof data whose array is `V`'s and whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- An input window's staging buffer holds its block at every point, whether or not the block was fetched there, for any
    proof data whose array is `V`'s and whose body leaves the block in place. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- An input window's staging buffer holds its block at every point, whether or not the block was fetched there, for any
    proof data whose array is `V`'s and whose body leaves the block in place. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- The whole rectangle of a S5000x64 staging buffer. -/
abbrev r5_S5000x64 : Rect S5000x64 := Rect.unit (s := S5000x64) ![0, 0] S5000x64.size inb_S5000x64_S5000x64_0_0

/-- The whole rectangle of a S5000x1 staging buffer. -/
abbrev r5_S5000x1 : Rect S5000x1 := Rect.unit (s := S5000x1) ![0, 0] S5000x1.size inb_S5000x1_S5000x1_0_0

/-- The output's staging buffer after the body, from the input blocks: the one store, of the whole buffer. -/
def out5_3 (x0 : Vec F S5000x64 .f32) (x1 : Vec F S5000x64 .f32) (x2 : Vec F S5000x1 .f32) : Vec F S5000x64 .f32 :=
  View.canon [⟨r5_S5000x64, k5_pay1 (View.ld x0 r5_S5000x64) (View.ld x1 r5_S5000x64) (View.ld x2 r5_S5000x1)⟩]

/-- The one store covers the buffer. -/
theorem cover5_3 (p0 : Vec F S5000x64 .f32) (y : S5000x64.Idx) :
    ∃ pc ∈ ([⟨r5_S5000x64, p0⟩] : List (View.Piece (Elt F) S5000x64 .f32)), y ∈ pc.1.set :=
  View.cover_of_tiled [⟨r5_S5000x64, p0⟩] S5000x64.size (by rfl) y

set_option maxHeartbeats 1000000 in
/-- The body on whole staging buffers, the inputs' at contents `x` and the output's at anything, runs to the continuation
    with the inputs' buffers as they were and the output's at `out5_3` of the inputs'. -/
theorem sound_kernel5 (c : Dev nD) (E : Set ℕ) (i : grid5.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S5000x64 .f32) (harg4 : arg4.IsWhole)
    (x0 : Vec F S5000x64 .f32) (x1 : Vec F S5000x64 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out5_3 x0 x1 x2)) -∗ K ⟨⟩))
      ⊢ wp frame (wpE (defs₀ (F := F)) Variants.none c none) E (cc5__degree_residual_kernel i arg1 harg1 arg2 harg2 arg3 harg3 arg4 harg4) K := by
  simp only [cc5__degree_residual_kernel_eq_skeleton]; unfold cc5__degree_residual_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-- The proof data of pipeline 5 on core `c`: the arrays as the region finds them; after the body at point `t` each input's
    buffer at its block and the output's at `out5_3` of the input blocks; the invariant keeps the scoped rest and the generator
    register untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5_3 (iblk5 V c 0 t) (iblk5 V c 1 t) (iblk5 V c 2 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the inputs' buffers hold their blocks, so `sound_kernel5` applies; the invariant and what the
    core owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ (grid5.coords t) _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.Body6.lean ====
/- Region 6: the per-edge product. A block of 8000 edges: the weights as a column [8000,1], the gathered rows [8000,64]; the body
   stores, whole, the column spread over the 64 lanes times the rows.
   Stated at a PARAMETER `V`, the contents of the core's buffers when the region is entered: each window's block at a grid
   point is a rectangle of its array; the body's one store covers the output's staging buffer, so that buffer after the body is
   a function of the input blocks alone; the proof data of the pipeline and the body obligation at every point follow. -/
import proofs.«166112_j80350248174014_2_alg».proof.Proof.Gen.KernelIdeal.Launch
import proofs.«166112_j80350248174014_2_alg».proof.Proof.Gen.KernelIdeal.Skeleton
import proofs.«166112_j80350248174014_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rectangle of its array, as the region finds the array. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's staging buffer holds its block at every point, whether or not the block was fetched there, for any
    proof data whose array is `V`'s and whose body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- An input window's staging buffer holds its block at every point, whether or not the block was fetched there, for any
    proof data whose array is `V`'s and whose body leaves the block in place. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- The whole rectangle of a S8000x1 staging buffer. -/
abbrev r6_S8000x1 : Rect S8000x1 := Rect.unit (s := S8000x1) ![0, 0] S8000x1.size inb_S8000x1_S8000x1_0_0

/-- The whole rectangle of a S8000x64 staging buffer. -/
abbrev r6_S8000x64 : Rect S8000x64 := Rect.unit (s := S8000x64) ![0, 0] S8000x64.size inb_S8000x64_S8000x64_0_0

/-- The output's staging buffer after the body, from the input blocks: the one store, of the whole buffer. -/
def out6_2 (x0 : Vec F S8000x1 .f32) (x1 : Vec F S8000x64 .f32) : Vec F S8000x64 .f32 :=
  View.canon [⟨r6_S8000x64, k6_pay1 (View.ld x0 r6_S8000x1) (View.ld x1 r6_S8000x64)⟩]

/-- The one store covers the buffer. -/
theorem cover6_2 (p0 : Vec F S8000x64 .f32) (y : S8000x64.Idx) :
    ∃ pc ∈ ([⟨r6_S8000x64, p0⟩] : List (View.Piece (Elt F) S8000x64 .f32)), y ∈ pc.1.set :=
  View.cover_of_tiled [⟨r6_S8000x64, p0⟩] S8000x64.size (by rfl) y

set_option maxHeartbeats 1000000 in
/-- The body on whole staging buffers, the inputs' at contents `x` and the output's at anything, runs to the continuation
    with the inputs' buffers as they were and the output's at `out6_2` of the inputs'. -/
theorem sound_kernel6 (c : Dev nD) (E : Set ℕ) (i : grid6.Coords) (arg1 : Memref sig .tc .vmem S8000x1 .f32) (harg1 : arg1.IsWhole) (arg2 : Memref sig .tc .vmem S8000x64 .f32) (harg2 : arg2.IsWhole) (arg3 : Memref sig .tc .vmem S8000x64 .f32) (harg3 : arg3.IsWhole)
    (x0 : Vec F S8000x1 .f32) (x1 : Vec F S8000x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out6_2 x0 x1)) -∗ K ⟨⟩))
      ⊢ wp frame (wpE (defs₀ (F := F)) Variants.none c none) E (cc6__weighted_mul_kernel i arg1 harg1 arg2 harg2 arg3 harg3) K := by
  simp only [cc6__weighted_mul_kernel_eq_skeleton]; unfold cc6__weighted_mul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6_2 _)

/-- The proof data of pipeline 6 on core `c`: the arrays as the region finds them; after the body at point `t` each input's
    buffer at its block and the output's at `out6_2` of the input blocks; the invariant keeps the scoped rest and the generator
    register untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

/-- The body at any point: the inputs' buffers hold their blocks, so `sound_kernel6` applies; the invariant and what the
    core owes pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ (grid6.coords t) _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.KI.Body7.lean ====
/- Region 7: the residual combine. A block of 5000 nodes: the neighbourhood sums [5000,64], the previous features [5000,64], the degrees as
   a column [5000,1]; the body stores, whole, the sums plus the previous features times the column spread over the 64 lanes.
   Stated at a PARAMETER `V`, the contents of the core's buffers when the region is entered: each window's block at a grid
   point is a rectangle of its array; the body's one store covers the output's staging buffer, so that buffer after the body is
   a function of the input blocks alone; the proof data of the pipeline and the body obligation at every point follow. -/
import proofs.«166112_j80350248174014_2_alg».proof.Proof.Gen.KernelIdeal.Launch
import proofs.«166112_j80350248174014_2_alg».proof.Proof.Gen.KernelIdeal.Skeleton
import proofs.«166112_j80350248174014_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rectangle of its array, as the region finds the array. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- An input window's staging buffer holds its block at every point, whether or not the block was fetched there, for any
    proof data whose array is `V`'s and whose body leaves the block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- An input window's staging buffer holds its block at every point, whether or not the block was fetched there, for any
    proof data whose array is `V`'s and whose body leaves the block in place. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- An input window's staging buffer holds its block at every point, whether or not the block was fetched there, for any
    proof data whose array is `V`'s and whose body leaves the block in place. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- The whole rectangle of a S5000x64 staging buffer. -/
abbrev r7_S5000x64 : Rect S5000x64 := Rect.unit (s := S5000x64) ![0, 0] S5000x64.size inb_S5000x64_S5000x64_0_0

/-- The whole rectangle of a S5000x1 staging buffer. -/
abbrev r7_S5000x1 : Rect S5000x1 := Rect.unit (s := S5000x1) ![0, 0] S5000x1.size inb_S5000x1_S5000x1_0_0

/-- The output's staging buffer after the body, from the input blocks: the one store, of the whole buffer. -/
def out7_3 (x0 : Vec F S5000x64 .f32) (x1 : Vec F S5000x64 .f32) (x2 : Vec F S5000x1 .f32) : Vec F S5000x64 .f32 :=
  View.canon [⟨r7_S5000x64, k7_pay1 (View.ld x0 r7_S5000x64) (View.ld x1 r7_S5000x64) (View.ld x2 r7_S5000x1)⟩]

/-- The one store covers the buffer. -/
theorem cover7_3 (p0 : Vec F S5000x64 .f32) (y : S5000x64.Idx) :
    ∃ pc ∈ ([⟨r7_S5000x64, p0⟩] : List (View.Piece (Elt F) S5000x64 .f32)), y ∈ pc.1.set :=
  View.cover_of_tiled [⟨r7_S5000x64, p0⟩] S5000x64.size (by rfl) y

set_option maxHeartbeats 1000000 in
/-- The body on whole staging buffers, the inputs' at contents `x` and the output's at anything, runs to the continuation
    with the inputs' buffers as they were and the output's at `out7_3` of the inputs'. -/
theorem sound_kernel7 (c : Dev nD) (E : Set ℕ) (i : grid7.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S5000x64 .f32) (harg4 : arg4.IsWhole)
    (x0 : Vec F S5000x64 .f32) (x1 : Vec F S5000x64 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out7_3 x0 x1 x2)) -∗ K ⟨⟩))
      ⊢ wp frame (wpE (defs₀ (F := F)) Variants.none c none) E (cc7__degree_residual_kernel i arg1 harg1 arg2 harg2 arg3 harg3 arg4 harg4) K := by
  simp only [cc7__degree_residual_kernel_eq_skeleton]; unfold cc7__degree_residual_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover7_3 _)

/-- The proof data of pipeline 7 on core `c`: the arrays as the region finds them; after the body at point `t` each input's
    buffer at its block and the output's at `out7_3` of the input blocks; the invariant keeps the scoped rest and the generator
    register untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = out7_3 (iblk7 V c 0 t) (iblk7 V c 1 t) (iblk7 V c 2 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t))

/-- The body at any point: the inputs' buffers hold their blocks, so `sound_kernel7` applies; the invariant and what the
    core owes pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3]
  iintro ⟨HΦ, Ho, ⟨%d0, H0⟩, ⟨%d1, H1⟩, ⟨%d2, H2⟩, ⟨%d3, H3⟩⟩
  iapply (sound_kernel7 c Set.univ (grid7.coords t) _ _ _ _ _ _ _ _ (iblk7 V c 0 t) (iblk7 V c 1 t) (iblk7 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Hand

end
-- ==== Proof.KI.Body8.lean ====
/- Region 8: the per-edge product. A block of 8000 edges: the weights as a column [8000,1], the gathered rows [8000,64]; the body
   stores, whole, the column spread over the 64 lanes times the rows.
   Stated at a PARAMETER `V`, the contents of the core's buffers when the region is entered: each window's block at a grid
   point is a rectangle of its array; the body's one store covers the output's staging buffer, so that buffer after the body is
   a function of the input blocks alone; the proof data of the pipeline and the body obligation at every point follow. -/
import proofs.«166112_j80350248174014_2_alg».proof.Proof.Gen.KernelIdeal.Launch
import proofs.«166112_j80350248174014_2_alg».proof.Proof.Gen.KernelIdeal.Skeleton
import proofs.«166112_j80350248174014_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rectangle of its array, as the region finds the array. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- An input window's staging buffer holds its block at every point, whether or not the block was fetched there, for any
    proof data whose array is `V`'s and whose body leaves the block in place. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- An input window's staging buffer holds its block at every point, whether or not the block was fetched there, for any
    proof data whose array is `V`'s and whose body leaves the block in place. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- The whole rectangle of a S8000x1 staging buffer. -/
abbrev r8_S8000x1 : Rect S8000x1 := Rect.unit (s := S8000x1) ![0, 0] S8000x1.size inb_S8000x1_S8000x1_0_0

/-- The whole rectangle of a S8000x64 staging buffer. -/
abbrev r8_S8000x64 : Rect S8000x64 := Rect.unit (s := S8000x64) ![0, 0] S8000x64.size inb_S8000x64_S8000x64_0_0

/-- The output's staging buffer after the body, from the input blocks: the one store, of the whole buffer. -/
def out8_2 (x0 : Vec F S8000x1 .f32) (x1 : Vec F S8000x64 .f32) : Vec F S8000x64 .f32 :=
  View.canon [⟨r8_S8000x64, k8_pay1 (View.ld x0 r8_S8000x1) (View.ld x1 r8_S8000x64)⟩]

/-- The one store covers the buffer. -/
theorem cover8_2 (p0 : Vec F S8000x64 .f32) (y : S8000x64.Idx) :
    ∃ pc ∈ ([⟨r8_S8000x64, p0⟩] : List (View.Piece (Elt F) S8000x64 .f32)), y ∈ pc.1.set :=
  View.cover_of_tiled [⟨r8_S8000x64, p0⟩] S8000x64.size (by rfl) y

set_option maxHeartbeats 1000000 in
/-- The body on whole staging buffers, the inputs' at contents `x` and the output's at anything, runs to the continuation
    with the inputs' buffers as they were and the output's at `out8_2` of the inputs'. -/
theorem sound_kernel8 (c : Dev nD) (E : Set ℕ) (i : grid8.Coords) (arg1 : Memref sig .tc .vmem S8000x1 .f32) (harg1 : arg1.IsWhole) (arg2 : Memref sig .tc .vmem S8000x64 .f32) (harg2 : arg2.IsWhole) (arg3 : Memref sig .tc .vmem S8000x64 .f32) (harg3 : arg3.IsWhole)
    (x0 : Vec F S8000x1 .f32) (x1 : Vec F S8000x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out8_2 x0 x1)) -∗ K ⟨⟩))
      ⊢ wp frame (wpE (defs₀ (F := F)) Variants.none c none) E (cc8__weighted_mul_kernel i arg1 harg1 arg2 harg2 arg3 harg3) K := by
  simp only [cc8__weighted_mul_kernel_eq_skeleton]; unfold cc8__weighted_mul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover8_2 _)

/-- The proof data of pipeline 8 on core `c`: the arrays as the region finds them; after the body at point `t` each input's
    buffer at its block and the output's at `out8_2` of the input blocks; the invariant keeps the scoped rest and the generator
    register untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => out8_2 (iblk8 V c 0 t) (iblk8 V c 1 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = out8_2 (iblk8 V c 0 t) (iblk8 V c 1 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t))

/-- The body at any point: the inputs' buffers hold their blocks, so `sound_kernel8` applies; the invariant and what the
    core owes pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1]
  rw [show (dat8 V c).Φ t.succ = (dat8 V c).Φ t.castSucc from rfl,
    show (dat8 V c).owesAt () t.succ = (dat8 V c).owesAt () t.castSucc from rfl,
    after8_0, after8_1, after8_2]
  iintro ⟨HΦ, Ho, ⟨%d0, H0⟩, ⟨%d1, H1⟩, ⟨%d2, H2⟩⟩
  iapply (sound_kernel8 c Set.univ (grid8.coords t) _ _ _ _ _ _ (iblk8 V c 0 t) (iblk8 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline, at every point. -/
theorem body_obligation8 (c : Dev nD) : BodyObligation (dat8 (F := F) V c) (defs₀ (F := F)) Variants.none () Set.univ := fun t => by
  rw [bigSep_W8, bigSep_W8]
  exact sound_body8 V c t

end Cert.KernelIdeal.Hand

end
-- ==== Proof.KI.Body9.lean ====
/- Region 9: the residual combine. A block of 5000 nodes: the neighbourhood sums [5000,64], the previous features [5000,64], the degrees as
   a column [5000,1]; the body stores, whole, the sums plus the previous features times the column spread over the 64 lanes.
   Stated at a PARAMETER `V`, the contents of the core's buffers when the region is entered: each window's block at a grid
   point is a rectangle of its array; the body's one store covers the output's staging buffer, so that buffer after the body is
   a function of the input blocks alone; the proof data of the pipeline and the body obligation at every point follow. -/
import proofs.«166112_j80350248174014_2_alg».proof.Proof.Gen.KernelIdeal.Launch
import proofs.«166112_j80350248174014_2_alg».proof.Proof.Gen.KernelIdeal.Skeleton
import proofs.«166112_j80350248174014_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rectangle of its array, as the region finds the array. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- An input window's staging buffer holds its block at every point, whether or not the block was fetched there, for any
    proof data whose array is `V`'s and whose body leaves the block in place. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- An input window's staging buffer holds its block at every point, whether or not the block was fetched there, for any
    proof data whose array is `V`'s and whose body leaves the block in place. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- An input window's staging buffer holds its block at every point, whether or not the block was fetched there, for any
    proof data whose array is `V`'s and whose body leaves the block in place. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-- The whole rectangle of a S5000x64 staging buffer. -/
abbrev r9_S5000x64 : Rect S5000x64 := Rect.unit (s := S5000x64) ![0, 0] S5000x64.size inb_S5000x64_S5000x64_0_0

/-- The whole rectangle of a S5000x1 staging buffer. -/
abbrev r9_S5000x1 : Rect S5000x1 := Rect.unit (s := S5000x1) ![0, 0] S5000x1.size inb_S5000x1_S5000x1_0_0

/-- The output's staging buffer after the body, from the input blocks: the one store, of the whole buffer. -/
def out9_3 (x0 : Vec F S5000x64 .f32) (x1 : Vec F S5000x64 .f32) (x2 : Vec F S5000x1 .f32) : Vec F S5000x64 .f32 :=
  View.canon [⟨r9_S5000x64, k9_pay1 (View.ld x0 r9_S5000x64) (View.ld x1 r9_S5000x64) (View.ld x2 r9_S5000x1)⟩]

/-- The one store covers the buffer. -/
theorem cover9_3 (p0 : Vec F S5000x64 .f32) (y : S5000x64.Idx) :
    ∃ pc ∈ ([⟨r9_S5000x64, p0⟩] : List (View.Piece (Elt F) S5000x64 .f32)), y ∈ pc.1.set :=
  View.cover_of_tiled [⟨r9_S5000x64, p0⟩] S5000x64.size (by rfl) y

set_option maxHeartbeats 1000000 in
/-- The body on whole staging buffers, the inputs' at contents `x` and the output's at anything, runs to the continuation
    with the inputs' buffers as they were and the output's at `out9_3` of the inputs'. -/
theorem sound_kernel9 (c : Dev nD) (E : Set ℕ) (i : grid9.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S5000x64 .f32) (harg4 : arg4.IsWhole)
    (x0 : Vec F S5000x64 .f32) (x1 : Vec F S5000x64 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out9_3 x0 x1 x2)) -∗ K ⟨⟩))
      ⊢ wp frame (wpE (defs₀ (F := F)) Variants.none c none) E (cc9__degree_residual_kernel i arg1 harg1 arg2 harg2 arg3 harg3 arg4 harg4) K := by
  simp only [cc9__degree_residual_kernel_eq_skeleton]; unfold cc9__degree_residual_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover9_3 _)

/-- The proof data of pipeline 9 on core `c`: the arrays as the region finds them; after the body at point `t` each input's
    buffer at its block and the output's at `out9_3` of the input blocks; the invariant keeps the scoped rest and the generator
    register untouched; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => out9_3 (iblk9 V c 0 t) (iblk9 V c 1 t) (iblk9 V c 2 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = out9_3 (iblk9 V c 0 t) (iblk9 V c 1 t) (iblk9 V c 2 t) := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t))

/-- The body at any point: the inputs' buffers hold their blocks, so `sound_kernel9` applies; the invariant and what the
    core owes pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2]
  rw [show (dat9 V c).Φ t.succ = (dat9 V c).Φ t.castSucc from rfl,
    show (dat9 V c).owesAt () t.succ = (dat9 V c).owesAt () t.castSucc from rfl,
    after9_0, after9_1, after9_2, after9_3]
  iintro ⟨HΦ, Ho, ⟨%d0, H0⟩, ⟨%d1, H1⟩, ⟨%d2, H2⟩, ⟨%d3, H3⟩⟩
  iapply (sound_kernel9 c Set.univ (grid9.coords t) _ _ _ _ _ _ _ _ (iblk9 V c 0 t) (iblk9 V c 1 t) (iblk9 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline, at every point. -/
theorem body_obligation9 (c : Dev nD) : BodyObligation (dat9 (F := F) V c) (defs₀ (F := F)) Variants.none () Set.univ := fun t => by
  rw [bigSep_W9, bigSep_W9]
  exact sound_body9 V c t

end Cert.KernelIdeal.Hand

end
-- ==== Proof.KI.Body10.lean ====
/- Region 10: the per-edge product. A block of 8000 edges: the weights as a column [8000,1], the gathered rows [8000,64]; the body
   stores, whole, the column spread over the 64 lanes times the rows.
   Stated at a PARAMETER `V`, the contents of the core's buffers when the region is entered: each window's block at a grid
   point is a rectangle of its array; the body's one store covers the output's staging buffer, so that buffer after the body is
   a function of the input blocks alone; the proof data of the pipeline and the body obligation at every point follow. -/
import proofs.«166112_j80350248174014_2_alg».proof.Proof.Gen.KernelIdeal.Launch
import proofs.«166112_j80350248174014_2_alg».proof.Proof.Gen.KernelIdeal.Skeleton
import proofs.«166112_j80350248174014_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rectangle of its array, as the region finds the array. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- An input window's staging buffer holds its block at every point, whether or not the block was fetched there, for any
    proof data whose array is `V`'s and whose body leaves the block in place. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- An input window's staging buffer holds its block at every point, whether or not the block was fetched there, for any
    proof data whose array is `V`'s and whose body leaves the block in place. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-- The whole rectangle of a S8000x1 staging buffer. -/
abbrev r10_S8000x1 : Rect S8000x1 := Rect.unit (s := S8000x1) ![0, 0] S8000x1.size inb_S8000x1_S8000x1_0_0

/-- The whole rectangle of a S8000x64 staging buffer. -/
abbrev r10_S8000x64 : Rect S8000x64 := Rect.unit (s := S8000x64) ![0, 0] S8000x64.size inb_S8000x64_S8000x64_0_0

/-- The output's staging buffer after the body, from the input blocks: the one store, of the whole buffer. -/
def out10_2 (x0 : Vec F S8000x1 .f32) (x1 : Vec F S8000x64 .f32) : Vec F S8000x64 .f32 :=
  View.canon [⟨r10_S8000x64, k10_pay1 (View.ld x0 r10_S8000x1) (View.ld x1 r10_S8000x64)⟩]

/-- The one store covers the buffer. -/
theorem cover10_2 (p0 : Vec F S8000x64 .f32) (y : S8000x64.Idx) :
    ∃ pc ∈ ([⟨r10_S8000x64, p0⟩] : List (View.Piece (Elt F) S8000x64 .f32)), y ∈ pc.1.set :=
  View.cover_of_tiled [⟨r10_S8000x64, p0⟩] S8000x64.size (by rfl) y

set_option maxHeartbeats 1000000 in
/-- The body on whole staging buffers, the inputs' at contents `x` and the output's at anything, runs to the continuation
    with the inputs' buffers as they were and the output's at `out10_2` of the inputs'. -/
theorem sound_kernel10 (c : Dev nD) (E : Set ℕ) (i : grid10.Coords) (arg1 : Memref sig .tc .vmem S8000x1 .f32) (harg1 : arg1.IsWhole) (arg2 : Memref sig .tc .vmem S8000x64 .f32) (harg2 : arg2.IsWhole) (arg3 : Memref sig .tc .vmem S8000x64 .f32) (harg3 : arg3.IsWhole)
    (x0 : Vec F S8000x1 .f32) (x1 : Vec F S8000x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out10_2 x0 x1)) -∗ K ⟨⟩))
      ⊢ wp frame (wpE (defs₀ (F := F)) Variants.none c none) E (cc10__weighted_mul_kernel i arg1 harg1 arg2 harg2 arg3 harg3) K := by
  simp only [cc10__weighted_mul_kernel_eq_skeleton]; unfold cc10__weighted_mul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover10_2 _)

/-- The proof data of pipeline 10 on core `c`: the arrays as the region finds them; after the body at point `t` each input's
    buffer at its block and the output's at `out10_2` of the input blocks; the invariant keeps the scoped rest and the generator
    register untouched; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => out10_2 (iblk10 V c 0 t) (iblk10 V c 1 t)
  Φ _ := Pipeline.ΦA spec10 c
  q _ := fullShare
  owed _ := 0

theorem A_eq10 (c : Dev nD) (w : Fin cfg10.W) : (dat10 V c).A w = V c (Pipeline.arrRef spec10 w) := by
  dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = out10_2 (iblk10 V c 0 t) (iblk10 V c 1 t) := by dsimp only [dat10]

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d

/-- What the body is called with at point `t`, the windows one by one, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t))

/-- The body at any point: the inputs' buffers hold their blocks, so `sound_kernel10` applies; the invariant and what the
    core owes pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1]
  rw [show (dat10 V c).Φ t.succ = (dat10 V c).Φ t.castSucc from rfl,
    show (dat10 V c).owesAt () t.succ = (dat10 V c).owesAt () t.castSucc from rfl,
    after10_0, after10_1, after10_2]
  iintro ⟨HΦ, Ho, ⟨%d0, H0⟩, ⟨%d1, H1⟩, ⟨%d2, H2⟩⟩
  iapply (sound_kernel10 c Set.univ (grid10.coords t) _ _ _ _ _ _ (iblk10 V c 0 t) (iblk10 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline, at every point. -/
theorem body_obligation10 (c : Dev nD) : BodyObligation (dat10 (F := F) V c) (defs₀ (F := F)) Variants.none () Set.univ := fun t => by
  rw [bigSep_W10, bigSep_W10]
  exact sound_body10 V c t

end Cert.KernelIdeal.Hand

end
-- ==== Proof.KI.Body11.lean ====
/- Region 11: the residual combine. A block of 5000 nodes: the neighbourhood sums [5000,64], the previous features [5000,64], the degrees as
   a column [5000,1]; the body stores, whole, the sums plus the previous features times the column spread over the 64 lanes.
   Stated at a PARAMETER `V`, the contents of the core's buffers when the region is entered: each window's block at a grid
   point is a rectangle of its array; the body's one store covers the output's staging buffer, so that buffer after the body is
   a function of the input blocks alone; the proof data of the pipeline and the body obligation at every point follow. -/
import proofs.«166112_j80350248174014_2_alg».proof.Proof.Gen.KernelIdeal.Launch
import proofs.«166112_j80350248174014_2_alg».proof.Proof.Gen.KernelIdeal.Skeleton
import proofs.«166112_j80350248174014_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rectangle of its array, as the region finds the array. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- An input window's staging buffer holds its block at every point, whether or not the block was fetched there, for any
    proof data whose array is `V`'s and whose body leaves the block in place. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

/-- An input window's staging buffer holds its block at every point, whether or not the block was fetched there, for any
    proof data whose array is `V`'s and whose body leaves the block in place. -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

/-- An input window's staging buffer holds its block at every point, whether or not the block was fetched there, for any
    proof data whose array is `V`'s and whose body leaves the block in place. -/
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

/-- The whole rectangle of a S5000x64 staging buffer. -/
abbrev r11_S5000x64 : Rect S5000x64 := Rect.unit (s := S5000x64) ![0, 0] S5000x64.size inb_S5000x64_S5000x64_0_0

/-- The whole rectangle of a S5000x1 staging buffer. -/
abbrev r11_S5000x1 : Rect S5000x1 := Rect.unit (s := S5000x1) ![0, 0] S5000x1.size inb_S5000x1_S5000x1_0_0

/-- The output's staging buffer after the body, from the input blocks: the one store, of the whole buffer. -/
def out11_3 (x0 : Vec F S5000x64 .f32) (x1 : Vec F S5000x64 .f32) (x2 : Vec F S5000x1 .f32) : Vec F S5000x64 .f32 :=
  View.canon [⟨r11_S5000x64, k11_pay1 (View.ld x0 r11_S5000x64) (View.ld x1 r11_S5000x64) (View.ld x2 r11_S5000x1)⟩]

/-- The one store covers the buffer. -/
theorem cover11_3 (p0 : Vec F S5000x64 .f32) (y : S5000x64.Idx) :
    ∃ pc ∈ ([⟨r11_S5000x64, p0⟩] : List (View.Piece (Elt F) S5000x64 .f32)), y ∈ pc.1.set :=
  View.cover_of_tiled [⟨r11_S5000x64, p0⟩] S5000x64.size (by rfl) y

set_option maxHeartbeats 1000000 in
/-- The body on whole staging buffers, the inputs' at contents `x` and the output's at anything, runs to the continuation
    with the inputs' buffers as they were and the output's at `out11_3` of the inputs'. -/
theorem sound_kernel11 (c : Dev nD) (E : Set ℕ) (i : grid11.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S5000x64 .f32) (harg4 : arg4.IsWhole)
    (x0 : Vec F S5000x64 .f32) (x1 : Vec F S5000x64 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out11_3 x0 x1 x2)) -∗ K ⟨⟩))
      ⊢ wp frame (wpE (defs₀ (F := F)) Variants.none c none) E (cc11__degree_residual_kernel i arg1 harg1 arg2 harg2 arg3 harg3 arg4 harg4) K := by
  simp only [cc11__degree_residual_kernel_eq_skeleton]; unfold cc11__degree_residual_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover11_3 _)

/-- The proof data of pipeline 11 on core `c`: the arrays as the region finds them; after the body at point `t` each input's
    buffer at its block and the output's at `out11_3` of the input blocks; the invariant keeps the scoped rest and the generator
    register untouched; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => out11_3 (iblk11 V c 0 t) (iblk11 V c 1 t) (iblk11 V c 2 t)
  Φ _ := Pipeline.ΦA spec11 c
  q _ := fullShare
  owed _ := 0

theorem A_eq11 (c : Dev nD) (w : Fin cfg11.W) : (dat11 V c).A w = V c (Pipeline.arrRef spec11 w) := by
  dsimp only [dat11]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = out11_3 (iblk11 V c 0 t) (iblk11 V c 1 t) (iblk11 V c 2 t) := by dsimp only [dat11]

theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d

/-- What the body is called with at point `t`, the windows one by one, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t))

/-- The body at any point: the inputs' buffers hold their blocks, so `sound_kernel11` applies; the invariant and what the
    core owes pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2]
  rw [show (dat11 V c).Φ t.succ = (dat11 V c).Φ t.castSucc from rfl,
    show (dat11 V c).owesAt () t.succ = (dat11 V c).owesAt () t.castSucc from rfl,
    after11_0, after11_1, after11_2, after11_3]
  iintro ⟨HΦ, Ho, ⟨%d0, H0⟩, ⟨%d1, H1⟩, ⟨%d2, H2⟩, ⟨%d3, H3⟩⟩
  iapply (sound_kernel11 c Set.univ (grid11.coords t) _ _ _ _ _ _ _ _ (iblk11 V c 0 t) (iblk11 V c 1 t) (iblk11 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline, at every point. -/
theorem body_obligation11 (c : Dev nD) : BodyObligation (dat11 (F := F) V c) (defs₀ (F := F)) Variants.none () Set.univ := fun t => by
  rw [bigSep_W11, bigSep_W11]
  exact sound_body11 V c t

end Cert.KernelIdeal.Hand

end
-- ==== Proof.KI.Fold.lean ====
/- The contents of a core's buffers at every boundary of @main: a fold from the launch memory. A host stretch takes the
   contents to what its operations compute from them; a kernel region takes its windows' arrays to what the pipeline's
   write-backs leave (the inputs as entered, each output's blocks folded over the grid) and leaves every other buffer alone.
   Then: each argument array read back through the fold holds its launch contents (no stretch writes one, no region has one
   as an output); the family of the twelve pipelines' proof data, each at its region's entry contents; and the thread state
   carried between segments. -/
import proofs.«166112_j80350248174014_2_alg».proof.Proof.KI.Body0
import proofs.«166112_j80350248174014_2_alg».proof.Proof.KI.Body1
import proofs.«166112_j80350248174014_2_alg».proof.Proof.KI.Body2
import proofs.«166112_j80350248174014_2_alg».proof.Proof.KI.Body3
import proofs.«166112_j80350248174014_2_alg».proof.Proof.KI.Body4
import proofs.«166112_j80350248174014_2_alg».proof.Proof.KI.Body5
import proofs.«166112_j80350248174014_2_alg».proof.Proof.KI.Body6
import proofs.«166112_j80350248174014_2_alg».proof.Proof.KI.Body7
import proofs.«166112_j80350248174014_2_alg».proof.Proof.KI.Body8
import proofs.«166112_j80350248174014_2_alg».proof.Proof.KI.Body9
import proofs.«166112_j80350248174014_2_alg».proof.Proof.KI.Body10
import proofs.«166112_j80350248174014_2_alg».proof.Proof.KI.Body11
import proofs.«166112_j80350248174014_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The fold -/

/-- Core `c`'s buffers at launch. -/
abbrev W0 : Dev nD → Valuation τ sig (Elt F) := fun c b => (s₀ m ρ).mem ((c : Dev nD), b)

/-- After host stretch 0: the contents region 0 is entered with. -/
abbrev W1 : Dev nD → Valuation τ sig (Elt F) := fun c => StableHlo.after hostOps0 (W0 m ρ c)
/-- A buffer host stretch 0 does not write keeps its contents. -/
theorem W1_of (c : Dev nD) (r : Ref sig .tc) (h : r ∉ (hostOps0_W : List (Ref sig .tc))) :
    W1 m ρ c (Proc.devRef .tc r) = W0 m ρ c (Proc.devRef .tc r) :=
  StableHlo.after_of_writes_sub hostOps0 _ hostOps0_writes h
/-- The same contents read at the TensorCore's references: what region 0's proof data take. -/
abbrev V1 : (c : Dev nD) → (b : Ref sig .tc) → Buf (Elt F) ((c : Thread nD τ).loc b) := fun c b => W1 m ρ c b
/-- At region 0's exit: its windows' arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- An input window's array leaves region 0 as it entered: no write-back touches it. -/
theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin _).trans (A_eq0 (V1 m ρ) c w))
/-- Region 0's exit contents read at the TensorCore's references. -/
abbrev V2 : (c : Dev nD) → (b : Ref sig .tc) → Buf (Elt F) ((c : Thread nD τ).loc b) := fun c b => W2 m ρ c b
/-- At region 0's exit each of its arrays holds what the pipeline leaves, and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After host stretch 1: the contents region 1 is entered with. -/
abbrev W3 : Dev nD → Valuation τ sig (Elt F) := fun c => StableHlo.after hostOps1 (W2 m ρ c)
/-- A buffer host stretch 1 does not write keeps its contents. -/
theorem W3_of (c : Dev nD) (r : Ref sig .tc) (h : r ∉ (hostOps1_W : List (Ref sig .tc))) :
    W3 m ρ c (Proc.devRef .tc r) = W2 m ρ c (Proc.devRef .tc r) :=
  StableHlo.after_of_writes_sub hostOps1 _ hostOps1_writes h
/-- The same contents read at the TensorCore's references: what region 1's proof data take. -/
abbrev V3 : (c : Dev nD) → (b : Ref sig .tc) → Buf (Elt F) ((c : Thread nD τ).loc b) := fun c b => W3 m ρ c b
/-- At region 1's exit: its windows' arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- An input window's array leaves region 1 as it entered: no write-back touches it. -/
theorem W4_in (c : Dev nD) (w : Fin cfg1.W) (hin : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hin _).trans (A_eq1 (V3 m ρ) c w))
/-- Region 1's exit contents read at the TensorCore's references. -/
abbrev V4 : (c : Dev nD) → (b : Ref sig .tc) → Buf (Elt F) ((c : Thread nD τ).loc b) := fun c b => W4 m ρ c b
/-- At region 1's exit each of its arrays holds what the pipeline leaves, and every other buffer what it held at entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After host stretch 2: the contents region 2 is entered with. -/
abbrev W5 : Dev nD → Valuation τ sig (Elt F) := fun c => StableHlo.after hostOps2 (W4 m ρ c)
/-- A buffer host stretch 2 does not write keeps its contents. -/
theorem W5_of (c : Dev nD) (r : Ref sig .tc) (h : r ∉ (hostOps2_W : List (Ref sig .tc))) :
    W5 m ρ c (Proc.devRef .tc r) = W4 m ρ c (Proc.devRef .tc r) :=
  StableHlo.after_of_writes_sub hostOps2 _ hostOps2_writes h
/-- The same contents read at the TensorCore's references: what region 2's proof data take. -/
abbrev V5 : (c : Dev nD) → (b : Ref sig .tc) → Buf (Elt F) ((c : Thread nD τ).loc b) := fun c b => W5 m ρ c b
/-- At region 2's exit: its windows' arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- An input window's array leaves region 2 as it entered: no write-back touches it. -/
theorem W6_in (c : Dev nD) (w : Fin cfg2.W) (hin : (cfg2.win w).isOut = false) :
    W6 m ρ c (Proc.devRef .tc (Pipeline.arrRef spec2 w)) = W5 m ρ c (Proc.devRef .tc (Pipeline.arrRef spec2 w)) :=
  (W6_arr m ρ c w).trans (((dat2 (V5 m ρ) c).arrAt_in w hin _).trans (A_eq2 (V5 m ρ) c w))
/-- Region 2's exit contents read at the TensorCore's references. -/
abbrev V6 : (c : Dev nD) → (b : Ref sig .tc) → Buf (Elt F) ((c : Thread nD τ).loc b) := fun c b => W6 m ρ c b
/-- At region 2's exit each of its arrays holds what the pipeline leaves, and every other buffer what it held at entry. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After host stretch 3: the contents region 3 is entered with. -/
abbrev W7 : Dev nD → Valuation τ sig (Elt F) := fun c => StableHlo.after hostOps3 (W6 m ρ c)
/-- A buffer host stretch 3 does not write keeps its contents. -/
theorem W7_of (c : Dev nD) (r : Ref sig .tc) (h : r ∉ (hostOps3_W : List (Ref sig .tc))) :
    W7 m ρ c (Proc.devRef .tc r) = W6 m ρ c (Proc.devRef .tc r) :=
  StableHlo.after_of_writes_sub hostOps3 _ hostOps3_writes h
/-- The same contents read at the TensorCore's references: what region 3's proof data take. -/
abbrev V7 : (c : Dev nD) → (b : Ref sig .tc) → Buf (Elt F) ((c : Thread nD τ).loc b) := fun c b => W7 m ρ c b
/-- At region 3's exit: its windows' arrays at what the pipeline leaves, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- An input window's array leaves region 3 as it entered: no write-back touches it. -/
theorem W8_in (c : Dev nD) (w : Fin cfg3.W) (hin : (cfg3.win w).isOut = false) :
    W8 m ρ c (Proc.devRef .tc (Pipeline.arrRef spec3 w)) = W7 m ρ c (Proc.devRef .tc (Pipeline.arrRef spec3 w)) :=
  (W8_arr m ρ c w).trans (((dat3 (V7 m ρ) c).arrAt_in w hin _).trans (A_eq3 (V7 m ρ) c w))
/-- Region 3's exit contents read at the TensorCore's references. -/
abbrev V8 : (c : Dev nD) → (b : Ref sig .tc) → Buf (Elt F) ((c : Thread nD τ).loc b) := fun c b => W8 m ρ c b
/-- At region 3's exit each of its arrays holds what the pipeline leaves, and every other buffer what it held at entry. -/
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After host stretch 4: the contents region 4 is entered with. -/
abbrev W9 : Dev nD → Valuation τ sig (Elt F) := fun c => StableHlo.after hostOps4 (W8 m ρ c)
/-- A buffer host stretch 4 does not write keeps its contents. -/
theorem W9_of (c : Dev nD) (r : Ref sig .tc) (h : r ∉ (hostOps4_W : List (Ref sig .tc))) :
    W9 m ρ c (Proc.devRef .tc r) = W8 m ρ c (Proc.devRef .tc r) :=
  StableHlo.after_of_writes_sub hostOps4 _ hostOps4_writes h
/-- The same contents read at the TensorCore's references: what region 4's proof data take. -/
abbrev V9 : (c : Dev nD) → (b : Ref sig .tc) → Buf (Elt F) ((c : Thread nD τ).loc b) := fun c b => W9 m ρ c b
/-- At region 4's exit: its windows' arrays at what the pipeline leaves, every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
/-- An input window's array leaves region 4 as it entered: no write-back touches it. -/
theorem W10_in (c : Dev nD) (w : Fin cfg4.W) (hin : (cfg4.win w).isOut = false) :
    W10 m ρ c (Proc.devRef .tc (Pipeline.arrRef spec4 w)) = W9 m ρ c (Proc.devRef .tc (Pipeline.arrRef spec4 w)) :=
  (W10_arr m ρ c w).trans (((dat4 (V9 m ρ) c).arrAt_in w hin _).trans (A_eq4 (V9 m ρ) c w))
/-- Region 4's exit contents read at the TensorCore's references. -/
abbrev V10 : (c : Dev nD) → (b : Ref sig .tc) → Buf (Elt F) ((c : Thread nD τ).loc b) := fun c b => W10 m ρ c b
/-- At region 4's exit each of its arrays holds what the pipeline leaves, and every other buffer what it held at entry. -/
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

/-- After host stretch 5: the contents region 5 is entered with. -/
abbrev W11 : Dev nD → Valuation τ sig (Elt F) := fun c => StableHlo.after hostOps5 (W10 m ρ c)
/-- A buffer host stretch 5 does not write keeps its contents. -/
theorem W11_of (c : Dev nD) (r : Ref sig .tc) (h : r ∉ (hostOps5_W : List (Ref sig .tc))) :
    W11 m ρ c (Proc.devRef .tc r) = W10 m ρ c (Proc.devRef .tc r) :=
  StableHlo.after_of_writes_sub hostOps5 _ hostOps5_writes h
/-- The same contents read at the TensorCore's references: what region 5's proof data take. -/
abbrev V11 : (c : Dev nD) → (b : Ref sig .tc) → Buf (Elt F) ((c : Thread nD τ).loc b) := fun c b => W11 m ρ c b
/-- At region 5's exit: its windows' arrays at what the pipeline leaves, every other buffer as entered. -/
def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
/-- An input window's array leaves region 5 as it entered: no write-back touches it. -/
theorem W12_in (c : Dev nD) (w : Fin cfg5.W) (hin : (cfg5.win w).isOut = false) :
    W12 m ρ c (Proc.devRef .tc (Pipeline.arrRef spec5 w)) = W11 m ρ c (Proc.devRef .tc (Pipeline.arrRef spec5 w)) :=
  (W12_arr m ρ c w).trans (((dat5 (V11 m ρ) c).arrAt_in w hin _).trans (A_eq5 (V11 m ρ) c w))
/-- Region 5's exit contents read at the TensorCore's references. -/
abbrev V12 : (c : Dev nD) → (b : Ref sig .tc) → Buf (Elt F) ((c : Thread nD τ).loc b) := fun c b => W12 m ρ c b
/-- At region 5's exit each of its arrays holds what the pipeline leaves, and every other buffer what it held at entry. -/
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)

/-- After host stretch 6: the contents region 6 is entered with. -/
abbrev W13 : Dev nD → Valuation τ sig (Elt F) := fun c => StableHlo.after hostOps6 (W12 m ρ c)
/-- A buffer host stretch 6 does not write keeps its contents. -/
theorem W13_of (c : Dev nD) (r : Ref sig .tc) (h : r ∉ (hostOps6_W : List (Ref sig .tc))) :
    W13 m ρ c (Proc.devRef .tc r) = W12 m ρ c (Proc.devRef .tc r) :=
  StableHlo.after_of_writes_sub hostOps6 _ hostOps6_writes h
/-- The same contents read at the TensorCore's references: what region 6's proof data take. -/
abbrev V13 : (c : Dev nD) → (b : Ref sig .tc) → Buf (Elt F) ((c : Thread nD τ).loc b) := fun c b => W13 m ρ c b
/-- At region 6's exit: its windows' arrays at what the pipeline leaves, every other buffer as entered. -/
def W14 (c : Dev nD) : Valuation τ sig (Elt F) :=
  Pipeline.withArrays spec6 c (W13 m ρ c) fun w => (dat6 (V13 m ρ) c).arrAt w cfg6.N
theorem W14_arr (c : Dev nD) (w : Fin cfg6.W) :
    W14 m ρ c (Proc.devRef .tc (Pipeline.arrRef spec6 w)) = (dat6 (V13 m ρ) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
/-- An input window's array leaves region 6 as it entered: no write-back touches it. -/
theorem W14_in (c : Dev nD) (w : Fin cfg6.W) (hin : (cfg6.win w).isOut = false) :
    W14 m ρ c (Proc.devRef .tc (Pipeline.arrRef spec6 w)) = W13 m ρ c (Proc.devRef .tc (Pipeline.arrRef spec6 w)) :=
  (W14_arr m ρ c w).trans (((dat6 (V13 m ρ) c).arrAt_in w hin _).trans (A_eq6 (V13 m ρ) c w))
/-- Region 6's exit contents read at the TensorCore's references. -/
abbrev V14 : (c : Dev nD) → (b : Ref sig .tc) → Buf (Elt F) ((c : Thread nD τ).loc b) := fun c b => W14 m ρ c b
/-- At region 6's exit each of its arrays holds what the pipeline leaves, and every other buffer what it held at entry. -/
theorem hF6 (c : Dev nD) (w : Fin cfg6.W) : (dat6 (V13 m ρ) c).arrAt w cfg6.N = V14 m ρ c (Pipeline.arrRef spec6 w) :=
  (W14_arr m ρ c w).symm
theorem hrest6 (c : Dev nD) : ∀ b, b ∉ Finset.univ.image (Pipeline.arrRef spec6) → V14 m ρ c b = V13 m ρ c b :=
  fun b hb => W14_of_ne m ρ c b fun w e => hb (Finset.mem_image.mpr ⟨w, Finset.mem_univ _, e⟩)

/-- After host stretch 7: the contents region 7 is entered with. -/
abbrev W15 : Dev nD → Valuation τ sig (Elt F) := fun c => StableHlo.after hostOps7 (W14 m ρ c)
/-- A buffer host stretch 7 does not write keeps its contents. -/
theorem W15_of (c : Dev nD) (r : Ref sig .tc) (h : r ∉ (hostOps7_W : List (Ref sig .tc))) :
    W15 m ρ c (Proc.devRef .tc r) = W14 m ρ c (Proc.devRef .tc r) :=
  StableHlo.after_of_writes_sub hostOps7 _ hostOps7_writes h
/-- The same contents read at the TensorCore's references: what region 7's proof data take. -/
abbrev V15 : (c : Dev nD) → (b : Ref sig .tc) → Buf (Elt F) ((c : Thread nD τ).loc b) := fun c b => W15 m ρ c b
/-- At region 7's exit: its windows' arrays at what the pipeline leaves, every other buffer as entered. -/
def W16 (c : Dev nD) : Valuation τ sig (Elt F) :=
  Pipeline.withArrays spec7 c (W15 m ρ c) fun w => (dat7 (V15 m ρ) c).arrAt w cfg7.N
theorem W16_arr (c : Dev nD) (w : Fin cfg7.W) :
    W16 m ρ c (Proc.devRef .tc (Pipeline.arrRef spec7 w)) = (dat7 (V15 m ρ) c).arrAt w cfg7.N := by
  unfold W16; exact Pipeline.withArrays_arr spec7 launch7.win.arr_inj c _ _ w
theorem W16_of_ne (c : Dev nD) (b : Ref sig .tc) (hb : ∀ w, Pipeline.arrRef spec7 w ≠ b) :
    W16 m ρ c (Proc.devRef .tc b) = W15 m ρ c (Proc.devRef .tc b) := by
  unfold W16; exact Pipeline.withArrays_of_ne spec7 c _ _ b hb
/-- An input window's array leaves region 7 as it entered: no write-back touches it. -/
theorem W16_in (c : Dev nD) (w : Fin cfg7.W) (hin : (cfg7.win w).isOut = false) :
    W16 m ρ c (Proc.devRef .tc (Pipeline.arrRef spec7 w)) = W15 m ρ c (Proc.devRef .tc (Pipeline.arrRef spec7 w)) :=
  (W16_arr m ρ c w).trans (((dat7 (V15 m ρ) c).arrAt_in w hin _).trans (A_eq7 (V15 m ρ) c w))
/-- Region 7's exit contents read at the TensorCore's references. -/
abbrev V16 : (c : Dev nD) → (b : Ref sig .tc) → Buf (Elt F) ((c : Thread nD τ).loc b) := fun c b => W16 m ρ c b
/-- At region 7's exit each of its arrays holds what the pipeline leaves, and every other buffer what it held at entry. -/
theorem hF7 (c : Dev nD) (w : Fin cfg7.W) : (dat7 (V15 m ρ) c).arrAt w cfg7.N = V16 m ρ c (Pipeline.arrRef spec7 w) :=
  (W16_arr m ρ c w).symm
theorem hrest7 (c : Dev nD) : ∀ b, b ∉ Finset.univ.image (Pipeline.arrRef spec7) → V16 m ρ c b = V15 m ρ c b :=
  fun b hb => W16_of_ne m ρ c b fun w e => hb (Finset.mem_image.mpr ⟨w, Finset.mem_univ _, e⟩)

/-- After host stretch 8: the contents region 8 is entered with. -/
abbrev W17 : Dev nD → Valuation τ sig (Elt F) := fun c => StableHlo.after hostOps8 (W16 m ρ c)
/-- A buffer host stretch 8 does not write keeps its contents. -/
theorem W17_of (c : Dev nD) (r : Ref sig .tc) (h : r ∉ (hostOps8_W : List (Ref sig .tc))) :
    W17 m ρ c (Proc.devRef .tc r) = W16 m ρ c (Proc.devRef .tc r) :=
  StableHlo.after_of_writes_sub hostOps8 _ hostOps8_writes h
/-- The same contents read at the TensorCore's references: what region 8's proof data take. -/
abbrev V17 : (c : Dev nD) → (b : Ref sig .tc) → Buf (Elt F) ((c : Thread nD τ).loc b) := fun c b => W17 m ρ c b
/-- At region 8's exit: its windows' arrays at what the pipeline leaves, every other buffer as entered. -/
def W18 (c : Dev nD) : Valuation τ sig (Elt F) :=
  Pipeline.withArrays spec8 c (W17 m ρ c) fun w => (dat8 (V17 m ρ) c).arrAt w cfg8.N
theorem W18_arr (c : Dev nD) (w : Fin cfg8.W) :
    W18 m ρ c (Proc.devRef .tc (Pipeline.arrRef spec8 w)) = (dat8 (V17 m ρ) c).arrAt w cfg8.N := by
  unfold W18; exact Pipeline.withArrays_arr spec8 launch8.win.arr_inj c _ _ w
theorem W18_of_ne (c : Dev nD) (b : Ref sig .tc) (hb : ∀ w, Pipeline.arrRef spec8 w ≠ b) :
    W18 m ρ c (Proc.devRef .tc b) = W17 m ρ c (Proc.devRef .tc b) := by
  unfold W18; exact Pipeline.withArrays_of_ne spec8 c _ _ b hb
/-- An input window's array leaves region 8 as it entered: no write-back touches it. -/
theorem W18_in (c : Dev nD) (w : Fin cfg8.W) (hin : (cfg8.win w).isOut = false) :
    W18 m ρ c (Proc.devRef .tc (Pipeline.arrRef spec8 w)) = W17 m ρ c (Proc.devRef .tc (Pipeline.arrRef spec8 w)) :=
  (W18_arr m ρ c w).trans (((dat8 (V17 m ρ) c).arrAt_in w hin _).trans (A_eq8 (V17 m ρ) c w))
/-- Region 8's exit contents read at the TensorCore's references. -/
abbrev V18 : (c : Dev nD) → (b : Ref sig .tc) → Buf (Elt F) ((c : Thread nD τ).loc b) := fun c b => W18 m ρ c b
/-- At region 8's exit each of its arrays holds what the pipeline leaves, and every other buffer what it held at entry. -/
theorem hF8 (c : Dev nD) (w : Fin cfg8.W) : (dat8 (V17 m ρ) c).arrAt w cfg8.N = V18 m ρ c (Pipeline.arrRef spec8 w) :=
  (W18_arr m ρ c w).symm
theorem hrest8 (c : Dev nD) : ∀ b, b ∉ Finset.univ.image (Pipeline.arrRef spec8) → V18 m ρ c b = V17 m ρ c b :=
  fun b hb => W18_of_ne m ρ c b fun w e => hb (Finset.mem_image.mpr ⟨w, Finset.mem_univ _, e⟩)

/-- After host stretch 9: the contents region 9 is entered with. -/
abbrev W19 : Dev nD → Valuation τ sig (Elt F) := fun c => StableHlo.after hostOps9 (W18 m ρ c)
/-- A buffer host stretch 9 does not write keeps its contents. -/
theorem W19_of (c : Dev nD) (r : Ref sig .tc) (h : r ∉ (hostOps9_W : List (Ref sig .tc))) :
    W19 m ρ c (Proc.devRef .tc r) = W18 m ρ c (Proc.devRef .tc r) :=
  StableHlo.after_of_writes_sub hostOps9 _ hostOps9_writes h
/-- The same contents read at the TensorCore's references: what region 9's proof data take. -/
abbrev V19 : (c : Dev nD) → (b : Ref sig .tc) → Buf (Elt F) ((c : Thread nD τ).loc b) := fun c b => W19 m ρ c b
/-- At region 9's exit: its windows' arrays at what the pipeline leaves, every other buffer as entered. -/
def W20 (c : Dev nD) : Valuation τ sig (Elt F) :=
  Pipeline.withArrays spec9 c (W19 m ρ c) fun w => (dat9 (V19 m ρ) c).arrAt w cfg9.N
theorem W20_arr (c : Dev nD) (w : Fin cfg9.W) :
    W20 m ρ c (Proc.devRef .tc (Pipeline.arrRef spec9 w)) = (dat9 (V19 m ρ) c).arrAt w cfg9.N := by
  unfold W20; exact Pipeline.withArrays_arr spec9 launch9.win.arr_inj c _ _ w
theorem W20_of_ne (c : Dev nD) (b : Ref sig .tc) (hb : ∀ w, Pipeline.arrRef spec9 w ≠ b) :
    W20 m ρ c (Proc.devRef .tc b) = W19 m ρ c (Proc.devRef .tc b) := by
  unfold W20; exact Pipeline.withArrays_of_ne spec9 c _ _ b hb
/-- An input window's array leaves region 9 as it entered: no write-back touches it. -/
theorem W20_in (c : Dev nD) (w : Fin cfg9.W) (hin : (cfg9.win w).isOut = false) :
    W20 m ρ c (Proc.devRef .tc (Pipeline.arrRef spec9 w)) = W19 m ρ c (Proc.devRef .tc (Pipeline.arrRef spec9 w)) :=
  (W20_arr m ρ c w).trans (((dat9 (V19 m ρ) c).arrAt_in w hin _).trans (A_eq9 (V19 m ρ) c w))
/-- Region 9's exit contents read at the TensorCore's references. -/
abbrev V20 : (c : Dev nD) → (b : Ref sig .tc) → Buf (Elt F) ((c : Thread nD τ).loc b) := fun c b => W20 m ρ c b
/-- At region 9's exit each of its arrays holds what the pipeline leaves, and every other buffer what it held at entry. -/
theorem hF9 (c : Dev nD) (w : Fin cfg9.W) : (dat9 (V19 m ρ) c).arrAt w cfg9.N = V20 m ρ c (Pipeline.arrRef spec9 w) :=
  (W20_arr m ρ c w).symm
theorem hrest9 (c : Dev nD) : ∀ b, b ∉ Finset.univ.image (Pipeline.arrRef spec9) → V20 m ρ c b = V19 m ρ c b :=
  fun b hb => W20_of_ne m ρ c b fun w e => hb (Finset.mem_image.mpr ⟨w, Finset.mem_univ _, e⟩)

/-- After host stretch 10: the contents region 10 is entered with. -/
abbrev W21 : Dev nD → Valuation τ sig (Elt F) := fun c => StableHlo.after hostOps10 (W20 m ρ c)
/-- A buffer host stretch 10 does not write keeps its contents. -/
theorem W21_of (c : Dev nD) (r : Ref sig .tc) (h : r ∉ (hostOps10_W : List (Ref sig .tc))) :
    W21 m ρ c (Proc.devRef .tc r) = W20 m ρ c (Proc.devRef .tc r) :=
  StableHlo.after_of_writes_sub hostOps10 _ hostOps10_writes h
/-- The same contents read at the TensorCore's references: what region 10's proof data take. -/
abbrev V21 : (c : Dev nD) → (b : Ref sig .tc) → Buf (Elt F) ((c : Thread nD τ).loc b) := fun c b => W21 m ρ c b
/-- At region 10's exit: its windows' arrays at what the pipeline leaves, every other buffer as entered. -/
def W22 (c : Dev nD) : Valuation τ sig (Elt F) :=
  Pipeline.withArrays spec10 c (W21 m ρ c) fun w => (dat10 (V21 m ρ) c).arrAt w cfg10.N
theorem W22_arr (c : Dev nD) (w : Fin cfg10.W) :
    W22 m ρ c (Proc.devRef .tc (Pipeline.arrRef spec10 w)) = (dat10 (V21 m ρ) c).arrAt w cfg10.N := by
  unfold W22; exact Pipeline.withArrays_arr spec10 launch10.win.arr_inj c _ _ w
theorem W22_of_ne (c : Dev nD) (b : Ref sig .tc) (hb : ∀ w, Pipeline.arrRef spec10 w ≠ b) :
    W22 m ρ c (Proc.devRef .tc b) = W21 m ρ c (Proc.devRef .tc b) := by
  unfold W22; exact Pipeline.withArrays_of_ne spec10 c _ _ b hb
/-- An input window's array leaves region 10 as it entered: no write-back touches it. -/
theorem W22_in (c : Dev nD) (w : Fin cfg10.W) (hin : (cfg10.win w).isOut = false) :
    W22 m ρ c (Proc.devRef .tc (Pipeline.arrRef spec10 w)) = W21 m ρ c (Proc.devRef .tc (Pipeline.arrRef spec10 w)) :=
  (W22_arr m ρ c w).trans (((dat10 (V21 m ρ) c).arrAt_in w hin _).trans (A_eq10 (V21 m ρ) c w))
/-- Region 10's exit contents read at the TensorCore's references. -/
abbrev V22 : (c : Dev nD) → (b : Ref sig .tc) → Buf (Elt F) ((c : Thread nD τ).loc b) := fun c b => W22 m ρ c b
/-- At region 10's exit each of its arrays holds what the pipeline leaves, and every other buffer what it held at entry. -/
theorem hF10 (c : Dev nD) (w : Fin cfg10.W) : (dat10 (V21 m ρ) c).arrAt w cfg10.N = V22 m ρ c (Pipeline.arrRef spec10 w) :=
  (W22_arr m ρ c w).symm
theorem hrest10 (c : Dev nD) : ∀ b, b ∉ Finset.univ.image (Pipeline.arrRef spec10) → V22 m ρ c b = V21 m ρ c b :=
  fun b hb => W22_of_ne m ρ c b fun w e => hb (Finset.mem_image.mpr ⟨w, Finset.mem_univ _, e⟩)

/-- After host stretch 11: the contents region 11 is entered with. -/
abbrev W23 : Dev nD → Valuation τ sig (Elt F) := fun c => StableHlo.after hostOps11 (W22 m ρ c)
/-- A buffer host stretch 11 does not write keeps its contents. -/
theorem W23_of (c : Dev nD) (r : Ref sig .tc) (h : r ∉ (hostOps11_W : List (Ref sig .tc))) :
    W23 m ρ c (Proc.devRef .tc r) = W22 m ρ c (Proc.devRef .tc r) :=
  StableHlo.after_of_writes_sub hostOps11 _ hostOps11_writes h
/-- The same contents read at the TensorCore's references: what region 11's proof data take. -/
abbrev V23 : (c : Dev nD) → (b : Ref sig .tc) → Buf (Elt F) ((c : Thread nD τ).loc b) := fun c b => W23 m ρ c b
/-- At region 11's exit: its windows' arrays at what the pipeline leaves, every other buffer as entered. -/
def W24 (c : Dev nD) : Valuation τ sig (Elt F) :=
  Pipeline.withArrays spec11 c (W23 m ρ c) fun w => (dat11 (V23 m ρ) c).arrAt w cfg11.N
theorem W24_arr (c : Dev nD) (w : Fin cfg11.W) :
    W24 m ρ c (Proc.devRef .tc (Pipeline.arrRef spec11 w)) = (dat11 (V23 m ρ) c).arrAt w cfg11.N := by
  unfold W24; exact Pipeline.withArrays_arr spec11 launch11.win.arr_inj c _ _ w
theorem W24_of_ne (c : Dev nD) (b : Ref sig .tc) (hb : ∀ w, Pipeline.arrRef spec11 w ≠ b) :
    W24 m ρ c (Proc.devRef .tc b) = W23 m ρ c (Proc.devRef .tc b) := by
  unfold W24; exact Pipeline.withArrays_of_ne spec11 c _ _ b hb
/-- An input window's array leaves region 11 as it entered: no write-back touches it. -/
theorem W24_in (c : Dev nD) (w : Fin cfg11.W) (hin : (cfg11.win w).isOut = false) :
    W24 m ρ c (Proc.devRef .tc (Pipeline.arrRef spec11 w)) = W23 m ρ c (Proc.devRef .tc (Pipeline.arrRef spec11 w)) :=
  (W24_arr m ρ c w).trans (((dat11 (V23 m ρ) c).arrAt_in w hin _).trans (A_eq11 (V23 m ρ) c w))
/-- Region 11's exit contents read at the TensorCore's references. -/
abbrev V24 : (c : Dev nD) → (b : Ref sig .tc) → Buf (Elt F) ((c : Thread nD τ).loc b) := fun c b => W24 m ρ c b
/-- At region 11's exit each of its arrays holds what the pipeline leaves, and every other buffer what it held at entry. -/
theorem hF11 (c : Dev nD) (w : Fin cfg11.W) : (dat11 (V23 m ρ) c).arrAt w cfg11.N = V24 m ρ c (Pipeline.arrRef spec11 w) :=
  (W24_arr m ρ c w).symm
theorem hrest11 (c : Dev nD) : ∀ b, b ∉ Finset.univ.image (Pipeline.arrRef spec11) → V24 m ρ c b = V23 m ρ c b :=
  fun b hb => W24_of_ne m ρ c b fun w e => hb (Finset.mem_image.mpr ⟨w, Finset.mem_univ _, e⟩)

/-- After host stretch 12: the contents @main returns with. -/
abbrev W25 : Dev nD → Valuation τ sig (Elt F) := fun c => StableHlo.after hostOps12 (W24 m ρ c)
/-- A buffer host stretch 12 does not write keeps its contents. -/
theorem W25_of (c : Dev nD) (r : Ref sig .tc) (h : r ∉ (hostOps12_W : List (Ref sig .tc))) :
    W25 m ρ c (Proc.devRef .tc r) = W24 m ρ c (Proc.devRef .tc r) :=
  StableHlo.after_of_writes_sub hostOps12 _ hostOps12_writes h

/-! ## The arguments end as launched

No host stretch writes an argument, and a region reads one through an input window or not at all; so the fold at an argument's
buffer walks back, boundary by boundary, to the launch memory. -/

theorem W25_main_arg0 (c : Dev nD) : W25 m ρ c (Proc.devRef .tc main_arg0) = m ((c : Thread nD τ).loc main_arg0) :=
  calc W25 m ρ c (Proc.devRef .tc main_arg0)
    _ = W24 m ρ c (Proc.devRef .tc main_arg0) := W25_of m ρ c main_arg0 (by decide)
    _ = W23 m ρ c (Proc.devRef .tc main_arg0) := W24_of_ne m ρ c main_arg0 (by decide)
    _ = W22 m ρ c (Proc.devRef .tc main_arg0) := W23_of m ρ c main_arg0 (by decide)
    _ = W21 m ρ c (Proc.devRef .tc main_arg0) := W22_of_ne m ρ c main_arg0 (by decide)
    _ = W20 m ρ c (Proc.devRef .tc main_arg0) := W21_of m ρ c main_arg0 (by decide)
    _ = W19 m ρ c (Proc.devRef .tc main_arg0) := W20_of_ne m ρ c main_arg0 (by decide)
    _ = W18 m ρ c (Proc.devRef .tc main_arg0) := W19_of m ρ c main_arg0 (by decide)
    _ = W17 m ρ c (Proc.devRef .tc main_arg0) := W18_of_ne m ρ c main_arg0 (by decide)
    _ = W16 m ρ c (Proc.devRef .tc main_arg0) := W17_of m ρ c main_arg0 (by decide)
    _ = W15 m ρ c (Proc.devRef .tc main_arg0) := W16_of_ne m ρ c main_arg0 (by decide)
    _ = W14 m ρ c (Proc.devRef .tc main_arg0) := W15_of m ρ c main_arg0 (by decide)
    _ = W13 m ρ c (Proc.devRef .tc main_arg0) := W14_of_ne m ρ c main_arg0 (by decide)
    _ = W12 m ρ c (Proc.devRef .tc main_arg0) := W13_of m ρ c main_arg0 (by decide)
    _ = W11 m ρ c (Proc.devRef .tc main_arg0) := W12_of_ne m ρ c main_arg0 (by decide)
    _ = W10 m ρ c (Proc.devRef .tc main_arg0) := W11_of m ρ c main_arg0 (by decide)
    _ = W9 m ρ c (Proc.devRef .tc main_arg0) := W10_of_ne m ρ c main_arg0 (by decide)
    _ = W8 m ρ c (Proc.devRef .tc main_arg0) := W9_of m ρ c main_arg0 (by decide)
    _ = W7 m ρ c (Proc.devRef .tc main_arg0) := W8_of_ne m ρ c main_arg0 (by decide)
    _ = W6 m ρ c (Proc.devRef .tc main_arg0) := W7_of m ρ c main_arg0 (by decide)
    _ = W5 m ρ c (Proc.devRef .tc main_arg0) := W6_of_ne m ρ c main_arg0 (by decide)
    _ = W4 m ρ c (Proc.devRef .tc main_arg0) := W5_of m ρ c main_arg0 (by decide)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := W2_of_ne m ρ c main_arg0 (by decide)
    _ = W0 m ρ c (Proc.devRef .tc main_arg0) := W1_of m ρ c main_arg0 (by decide)
    _ = m ((c : Thread nD τ).loc main_arg0) := rfl

theorem W25_main_arg1 (c : Dev nD) : W25 m ρ c (Proc.devRef .tc main_arg1) = m ((c : Thread nD τ).loc main_arg1) :=
  calc W25 m ρ c (Proc.devRef .tc main_arg1)
    _ = W24 m ρ c (Proc.devRef .tc main_arg1) := W25_of m ρ c main_arg1 (by decide)
    _ = W23 m ρ c (Proc.devRef .tc main_arg1) := W24_of_ne m ρ c main_arg1 (by decide)
    _ = W22 m ρ c (Proc.devRef .tc main_arg1) := W23_of m ρ c main_arg1 (by decide)
    _ = W21 m ρ c (Proc.devRef .tc main_arg1) := W22_of_ne m ρ c main_arg1 (by decide)
    _ = W20 m ρ c (Proc.devRef .tc main_arg1) := W21_of m ρ c main_arg1 (by decide)
    _ = W19 m ρ c (Proc.devRef .tc main_arg1) := W20_of_ne m ρ c main_arg1 (by decide)
    _ = W18 m ρ c (Proc.devRef .tc main_arg1) := W19_of m ρ c main_arg1 (by decide)
    _ = W17 m ρ c (Proc.devRef .tc main_arg1) := W18_of_ne m ρ c main_arg1 (by decide)
    _ = W16 m ρ c (Proc.devRef .tc main_arg1) := W17_of m ρ c main_arg1 (by decide)
    _ = W15 m ρ c (Proc.devRef .tc main_arg1) := W16_of_ne m ρ c main_arg1 (by decide)
    _ = W14 m ρ c (Proc.devRef .tc main_arg1) := W15_of m ρ c main_arg1 (by decide)
    _ = W13 m ρ c (Proc.devRef .tc main_arg1) := W14_of_ne m ρ c main_arg1 (by decide)
    _ = W12 m ρ c (Proc.devRef .tc main_arg1) := W13_of m ρ c main_arg1 (by decide)
    _ = W11 m ρ c (Proc.devRef .tc main_arg1) := W12_of_ne m ρ c main_arg1 (by decide)
    _ = W10 m ρ c (Proc.devRef .tc main_arg1) := W11_of m ρ c main_arg1 (by decide)
    _ = W9 m ρ c (Proc.devRef .tc main_arg1) := W10_of_ne m ρ c main_arg1 (by decide)
    _ = W8 m ρ c (Proc.devRef .tc main_arg1) := W9_of m ρ c main_arg1 (by decide)
    _ = W7 m ρ c (Proc.devRef .tc main_arg1) := W8_of_ne m ρ c main_arg1 (by decide)
    _ = W6 m ρ c (Proc.devRef .tc main_arg1) := W7_of m ρ c main_arg1 (by decide)
    _ = W5 m ρ c (Proc.devRef .tc main_arg1) := W6_of_ne m ρ c main_arg1 (by decide)
    _ = W4 m ρ c (Proc.devRef .tc main_arg1) := W5_of m ρ c main_arg1 (by decide)
    _ = W3 m ρ c (Proc.devRef .tc main_arg1) := W4_of_ne m ρ c main_arg1 (by decide)
    _ = W2 m ρ c (Proc.devRef .tc main_arg1) := W3_of m ρ c main_arg1 (by decide)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl

theorem W25_main_arg2 (c : Dev nD) : W25 m ρ c (Proc.devRef .tc main_arg2) = m ((c : Thread nD τ).loc main_arg2) :=
  calc W25 m ρ c (Proc.devRef .tc main_arg2)
    _ = W24 m ρ c (Proc.devRef .tc main_arg2) := W25_of m ρ c main_arg2 (by decide)
    _ = W23 m ρ c (Proc.devRef .tc main_arg2) := W24_of_ne m ρ c main_arg2 (by decide)
    _ = W22 m ρ c (Proc.devRef .tc main_arg2) := W23_of m ρ c main_arg2 (by decide)
    _ = W21 m ρ c (Proc.devRef .tc main_arg2) := W22_of_ne m ρ c main_arg2 (by decide)
    _ = W20 m ρ c (Proc.devRef .tc main_arg2) := W21_of m ρ c main_arg2 (by decide)
    _ = W19 m ρ c (Proc.devRef .tc main_arg2) := W20_of_ne m ρ c main_arg2 (by decide)
    _ = W18 m ρ c (Proc.devRef .tc main_arg2) := W19_of m ρ c main_arg2 (by decide)
    _ = W17 m ρ c (Proc.devRef .tc main_arg2) := W18_of_ne m ρ c main_arg2 (by decide)
    _ = W16 m ρ c (Proc.devRef .tc main_arg2) := W17_of m ρ c main_arg2 (by decide)
    _ = W15 m ρ c (Proc.devRef .tc main_arg2) := W16_of_ne m ρ c main_arg2 (by decide)
    _ = W14 m ρ c (Proc.devRef .tc main_arg2) := W15_of m ρ c main_arg2 (by decide)
    _ = W13 m ρ c (Proc.devRef .tc main_arg2) := W14_of_ne m ρ c main_arg2 (by decide)
    _ = W12 m ρ c (Proc.devRef .tc main_arg2) := W13_of m ρ c main_arg2 (by decide)
    _ = W11 m ρ c (Proc.devRef .tc main_arg2) := W12_of_ne m ρ c main_arg2 (by decide)
    _ = W10 m ρ c (Proc.devRef .tc main_arg2) := W11_of m ρ c main_arg2 (by decide)
    _ = W9 m ρ c (Proc.devRef .tc main_arg2) := W10_of_ne m ρ c main_arg2 (by decide)
    _ = W8 m ρ c (Proc.devRef .tc main_arg2) := W9_of m ρ c main_arg2 (by decide)
    _ = W7 m ρ c (Proc.devRef .tc main_arg2) := W8_of_ne m ρ c main_arg2 (by decide)
    _ = W6 m ρ c (Proc.devRef .tc main_arg2) := W7_of m ρ c main_arg2 (by decide)
    _ = W5 m ρ c (Proc.devRef .tc main_arg2) := W6_of_ne m ρ c main_arg2 (by decide)
    _ = W4 m ρ c (Proc.devRef .tc main_arg2) := W5_of m ρ c main_arg2 (by decide)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl

theorem W25_main_arg3 (c : Dev nD) : W25 m ρ c (Proc.devRef .tc main_arg3) = m ((c : Thread nD τ).loc main_arg3) :=
  calc W25 m ρ c (Proc.devRef .tc main_arg3)
    _ = W24 m ρ c (Proc.devRef .tc main_arg3) := W25_of m ρ c main_arg3 (by decide)
    _ = W23 m ρ c (Proc.devRef .tc main_arg3) := W24_of_ne m ρ c main_arg3 (by decide)
    _ = W22 m ρ c (Proc.devRef .tc main_arg3) := W23_of m ρ c main_arg3 (by decide)
    _ = W21 m ρ c (Proc.devRef .tc main_arg3) := W22_of_ne m ρ c main_arg3 (by decide)
    _ = W20 m ρ c (Proc.devRef .tc main_arg3) := W21_of m ρ c main_arg3 (by decide)
    _ = W19 m ρ c (Proc.devRef .tc main_arg3) := W20_of_ne m ρ c main_arg3 (by decide)
    _ = W18 m ρ c (Proc.devRef .tc main_arg3) := W19_of m ρ c main_arg3 (by decide)
    _ = W17 m ρ c (Proc.devRef .tc main_arg3) := W18_of_ne m ρ c main_arg3 (by decide)
    _ = W16 m ρ c (Proc.devRef .tc main_arg3) := W17_of m ρ c main_arg3 (by decide)
    _ = W15 m ρ c (Proc.devRef .tc main_arg3) := W16_of_ne m ρ c main_arg3 (by decide)
    _ = W14 m ρ c (Proc.devRef .tc main_arg3) := W15_of m ρ c main_arg3 (by decide)
    _ = W13 m ρ c (Proc.devRef .tc main_arg3) := W14_of_ne m ρ c main_arg3 (by decide)
    _ = W12 m ρ c (Proc.devRef .tc main_arg3) := W13_of m ρ c main_arg3 (by decide)
    _ = W11 m ρ c (Proc.devRef .tc main_arg3) := W12_of_ne m ρ c main_arg3 (by decide)
    _ = W10 m ρ c (Proc.devRef .tc main_arg3) := W11_of m ρ c main_arg3 (by decide)
    _ = W9 m ρ c (Proc.devRef .tc main_arg3) := W10_of_ne m ρ c main_arg3 (by decide)
    _ = W8 m ρ c (Proc.devRef .tc main_arg3) := W9_of m ρ c main_arg3 (by decide)
    _ = W7 m ρ c (Proc.devRef .tc main_arg3) := W8_of_ne m ρ c main_arg3 (by decide)
    _ = W6 m ρ c (Proc.devRef .tc main_arg3) := W7_of m ρ c main_arg3 (by decide)
    _ = W5 m ρ c (Proc.devRef .tc main_arg3) := W6_of_ne m ρ c main_arg3 (by decide)
    _ = W4 m ρ c (Proc.devRef .tc main_arg3) := W5_of m ρ c main_arg3 (by decide)
    _ = W3 m ρ c (Proc.devRef .tc main_arg3) := W4_of_ne m ρ c main_arg3 (by decide)
    _ = W2 m ρ c (Proc.devRef .tc main_arg3) := W3_of m ρ c main_arg3 (by decide)
    _ = W1 m ρ c (Proc.devRef .tc main_arg3) := W2_of_ne m ρ c main_arg3 (by decide)
    _ = W0 m ρ c (Proc.devRef .tc main_arg3) := W1_of m ρ c main_arg3 (by decide)
    _ = m ((c : Thread nD τ).loc main_arg3) := rfl

theorem W25_main_arg4 (c : Dev nD) : W25 m ρ c (Proc.devRef .tc main_arg4) = m ((c : Thread nD τ).loc main_arg4) :=
  calc W25 m ρ c (Proc.devRef .tc main_arg4)
    _ = W24 m ρ c (Proc.devRef .tc main_arg4) := W25_of m ρ c main_arg4 (by decide)
    _ = W23 m ρ c (Proc.devRef .tc main_arg4) := W24_of_ne m ρ c main_arg4 (by decide)
    _ = W22 m ρ c (Proc.devRef .tc main_arg4) := W23_of m ρ c main_arg4 (by decide)
    _ = W21 m ρ c (Proc.devRef .tc main_arg4) := W22_of_ne m ρ c main_arg4 (by decide)
    _ = W20 m ρ c (Proc.devRef .tc main_arg4) := W21_of m ρ c main_arg4 (by decide)
    _ = W19 m ρ c (Proc.devRef .tc main_arg4) := W20_in m ρ c 2 rfl
    _ = W18 m ρ c (Proc.devRef .tc main_arg4) := W19_of m ρ c main_arg4 (by decide)
    _ = W17 m ρ c (Proc.devRef .tc main_arg4) := W18_of_ne m ρ c main_arg4 (by decide)
    _ = W16 m ρ c (Proc.devRef .tc main_arg4) := W17_of m ρ c main_arg4 (by decide)
    _ = W15 m ρ c (Proc.devRef .tc main_arg4) := W16_of_ne m ρ c main_arg4 (by decide)
    _ = W14 m ρ c (Proc.devRef .tc main_arg4) := W15_of m ρ c main_arg4 (by decide)
    _ = W13 m ρ c (Proc.devRef .tc main_arg4) := W14_of_ne m ρ c main_arg4 (by decide)
    _ = W12 m ρ c (Proc.devRef .tc main_arg4) := W13_of m ρ c main_arg4 (by decide)
    _ = W11 m ρ c (Proc.devRef .tc main_arg4) := W12_in m ρ c 2 rfl
    _ = W10 m ρ c (Proc.devRef .tc main_arg4) := W11_of m ρ c main_arg4 (by decide)
    _ = W9 m ρ c (Proc.devRef .tc main_arg4) := W10_of_ne m ρ c main_arg4 (by decide)
    _ = W8 m ρ c (Proc.devRef .tc main_arg4) := W9_of m ρ c main_arg4 (by decide)
    _ = W7 m ρ c (Proc.devRef .tc main_arg4) := W8_of_ne m ρ c main_arg4 (by decide)
    _ = W6 m ρ c (Proc.devRef .tc main_arg4) := W7_of m ρ c main_arg4 (by decide)
    _ = W5 m ρ c (Proc.devRef .tc main_arg4) := W6_of_ne m ρ c main_arg4 (by decide)
    _ = W4 m ρ c (Proc.devRef .tc main_arg4) := W5_of m ρ c main_arg4 (by decide)
    _ = W3 m ρ c (Proc.devRef .tc main_arg4) := W4_in m ρ c 2 rfl
    _ = W2 m ρ c (Proc.devRef .tc main_arg4) := W3_of m ρ c main_arg4 (by decide)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl

theorem W25_main_arg5 (c : Dev nD) : W25 m ρ c (Proc.devRef .tc main_arg5) = m ((c : Thread nD τ).loc main_arg5) :=
  calc W25 m ρ c (Proc.devRef .tc main_arg5)
    _ = W24 m ρ c (Proc.devRef .tc main_arg5) := W25_of m ρ c main_arg5 (by decide)
    _ = W23 m ρ c (Proc.devRef .tc main_arg5) := W24_in m ρ c 2 rfl
    _ = W22 m ρ c (Proc.devRef .tc main_arg5) := W23_of m ρ c main_arg5 (by decide)
    _ = W21 m ρ c (Proc.devRef .tc main_arg5) := W22_of_ne m ρ c main_arg5 (by decide)
    _ = W20 m ρ c (Proc.devRef .tc main_arg5) := W21_of m ρ c main_arg5 (by decide)
    _ = W19 m ρ c (Proc.devRef .tc main_arg5) := W20_of_ne m ρ c main_arg5 (by decide)
    _ = W18 m ρ c (Proc.devRef .tc main_arg5) := W19_of m ρ c main_arg5 (by decide)
    _ = W17 m ρ c (Proc.devRef .tc main_arg5) := W18_of_ne m ρ c main_arg5 (by decide)
    _ = W16 m ρ c (Proc.devRef .tc main_arg5) := W17_of m ρ c main_arg5 (by decide)
    _ = W15 m ρ c (Proc.devRef .tc main_arg5) := W16_in m ρ c 2 rfl
    _ = W14 m ρ c (Proc.devRef .tc main_arg5) := W15_of m ρ c main_arg5 (by decide)
    _ = W13 m ρ c (Proc.devRef .tc main_arg5) := W14_of_ne m ρ c main_arg5 (by decide)
    _ = W12 m ρ c (Proc.devRef .tc main_arg5) := W13_of m ρ c main_arg5 (by decide)
    _ = W11 m ρ c (Proc.devRef .tc main_arg5) := W12_of_ne m ρ c main_arg5 (by decide)
    _ = W10 m ρ c (Proc.devRef .tc main_arg5) := W11_of m ρ c main_arg5 (by decide)
    _ = W9 m ρ c (Proc.devRef .tc main_arg5) := W10_of_ne m ρ c main_arg5 (by decide)
    _ = W8 m ρ c (Proc.devRef .tc main_arg5) := W9_of m ρ c main_arg5 (by decide)
    _ = W7 m ρ c (Proc.devRef .tc main_arg5) := W8_in m ρ c 2 rfl
    _ = W6 m ρ c (Proc.devRef .tc main_arg5) := W7_of m ρ c main_arg5 (by decide)
    _ = W5 m ρ c (Proc.devRef .tc main_arg5) := W6_of_ne m ρ c main_arg5 (by decide)
    _ = W4 m ρ c (Proc.devRef .tc main_arg5) := W5_of m ρ c main_arg5 (by decide)
    _ = W3 m ρ c (Proc.devRef .tc main_arg5) := W4_of_ne m ρ c main_arg5 (by decide)
    _ = W2 m ρ c (Proc.devRef .tc main_arg5) := W3_of m ρ c main_arg5 (by decide)
    _ = W1 m ρ c (Proc.devRef .tc main_arg5) := W2_of_ne m ρ c main_arg5 (by decide)
    _ = W0 m ρ c (Proc.devRef .tc main_arg5) := W1_of m ρ c main_arg5 (by decide)
    _ = m ((c : Thread nD τ).loc main_arg5) := rfl

theorem W25_main_arg6 (c : Dev nD) : W25 m ρ c (Proc.devRef .tc main_arg6) = m ((c : Thread nD τ).loc main_arg6) :=
  calc W25 m ρ c (Proc.devRef .tc main_arg6)
    _ = W24 m ρ c (Proc.devRef .tc main_arg6) := W25_of m ρ c main_arg6 (by decide)
    _ = W23 m ρ c (Proc.devRef .tc main_arg6) := W24_of_ne m ρ c main_arg6 (by decide)
    _ = W22 m ρ c (Proc.devRef .tc main_arg6) := W23_of m ρ c main_arg6 (by decide)
    _ = W21 m ρ c (Proc.devRef .tc main_arg6) := W22_of_ne m ρ c main_arg6 (by decide)
    _ = W20 m ρ c (Proc.devRef .tc main_arg6) := W21_of m ρ c main_arg6 (by decide)
    _ = W19 m ρ c (Proc.devRef .tc main_arg6) := W20_of_ne m ρ c main_arg6 (by decide)
    _ = W18 m ρ c (Proc.devRef .tc main_arg6) := W19_of m ρ c main_arg6 (by decide)
    _ = W17 m ρ c (Proc.devRef .tc main_arg6) := W18_of_ne m ρ c main_arg6 (by decide)
    _ = W16 m ρ c (Proc.devRef .tc main_arg6) := W17_of m ρ c main_arg6 (by decide)
    _ = W15 m ρ c (Proc.devRef .tc main_arg6) := W16_of_ne m ρ c main_arg6 (by decide)
    _ = W14 m ρ c (Proc.devRef .tc main_arg6) := W15_of m ρ c main_arg6 (by decide)
    _ = W13 m ρ c (Proc.devRef .tc main_arg6) := W14_of_ne m ρ c main_arg6 (by decide)
    _ = W12 m ρ c (Proc.devRef .tc main_arg6) := W13_of m ρ c main_arg6 (by decide)
    _ = W11 m ρ c (Proc.devRef .tc main_arg6) := W12_of_ne m ρ c main_arg6 (by decide)
    _ = W10 m ρ c (Proc.devRef .tc main_arg6) := W11_of m ρ c main_arg6 (by decide)
    _ = W9 m ρ c (Proc.devRef .tc main_arg6) := W10_of_ne m ρ c main_arg6 (by decide)
    _ = W8 m ρ c (Proc.devRef .tc main_arg6) := W9_of m ρ c main_arg6 (by decide)
    _ = W7 m ρ c (Proc.devRef .tc main_arg6) := W8_of_ne m ρ c main_arg6 (by decide)
    _ = W6 m ρ c (Proc.devRef .tc main_arg6) := W7_of m ρ c main_arg6 (by decide)
    _ = W5 m ρ c (Proc.devRef .tc main_arg6) := W6_of_ne m ρ c main_arg6 (by decide)
    _ = W4 m ρ c (Proc.devRef .tc main_arg6) := W5_of m ρ c main_arg6 (by decide)
    _ = W3 m ρ c (Proc.devRef .tc main_arg6) := W4_in m ρ c 1 rfl
    _ = W2 m ρ c (Proc.devRef .tc main_arg6) := W3_of m ρ c main_arg6 (by decide)
    _ = W1 m ρ c (Proc.devRef .tc main_arg6) := W2_of_ne m ρ c main_arg6 (by decide)
    _ = W0 m ρ c (Proc.devRef .tc main_arg6) := W1_of m ρ c main_arg6 (by decide)
    _ = m ((c : Thread nD τ).loc main_arg6) := rfl

theorem W25_main_arg7 (c : Dev nD) : W25 m ρ c (Proc.devRef .tc main_arg7) = m ((c : Thread nD τ).loc main_arg7) :=
  calc W25 m ρ c (Proc.devRef .tc main_arg7)
    _ = W24 m ρ c (Proc.devRef .tc main_arg7) := W25_of m ρ c main_arg7 (by decide)
    _ = W23 m ρ c (Proc.devRef .tc main_arg7) := W24_of_ne m ρ c main_arg7 (by decide)
    _ = W22 m ρ c (Proc.devRef .tc main_arg7) := W23_of m ρ c main_arg7 (by decide)
    _ = W21 m ρ c (Proc.devRef .tc main_arg7) := W22_of_ne m ρ c main_arg7 (by decide)
    _ = W20 m ρ c (Proc.devRef .tc main_arg7) := W21_of m ρ c main_arg7 (by decide)
    _ = W19 m ρ c (Proc.devRef .tc main_arg7) := W20_of_ne m ρ c main_arg7 (by decide)
    _ = W18 m ρ c (Proc.devRef .tc main_arg7) := W19_of m ρ c main_arg7 (by decide)
    _ = W17 m ρ c (Proc.devRef .tc main_arg7) := W18_of_ne m ρ c main_arg7 (by decide)
    _ = W16 m ρ c (Proc.devRef .tc main_arg7) := W17_of m ρ c main_arg7 (by decide)
    _ = W15 m ρ c (Proc.devRef .tc main_arg7) := W16_of_ne m ρ c main_arg7 (by decide)
    _ = W14 m ρ c (Proc.devRef .tc main_arg7) := W15_of m ρ c main_arg7 (by decide)
    _ = W13 m ρ c (Proc.devRef .tc main_arg7) := W14_of_ne m ρ c main_arg7 (by decide)
    _ = W12 m ρ c (Proc.devRef .tc main_arg7) := W13_of m ρ c main_arg7 (by decide)
    _ = W11 m ρ c (Proc.devRef .tc main_arg7) := W12_of_ne m ρ c main_arg7 (by decide)
    _ = W10 m ρ c (Proc.devRef .tc main_arg7) := W11_of m ρ c main_arg7 (by decide)
    _ = W9 m ρ c (Proc.devRef .tc main_arg7) := W10_of_ne m ρ c main_arg7 (by decide)
    _ = W8 m ρ c (Proc.devRef .tc main_arg7) := W9_of m ρ c main_arg7 (by decide)
    _ = W7 m ρ c (Proc.devRef .tc main_arg7) := W8_in m ρ c 1 rfl
    _ = W6 m ρ c (Proc.devRef .tc main_arg7) := W7_of m ρ c main_arg7 (by decide)
    _ = W5 m ρ c (Proc.devRef .tc main_arg7) := W6_of_ne m ρ c main_arg7 (by decide)
    _ = W4 m ρ c (Proc.devRef .tc main_arg7) := W5_of m ρ c main_arg7 (by decide)
    _ = W3 m ρ c (Proc.devRef .tc main_arg7) := W4_of_ne m ρ c main_arg7 (by decide)
    _ = W2 m ρ c (Proc.devRef .tc main_arg7) := W3_of m ρ c main_arg7 (by decide)
    _ = W1 m ρ c (Proc.devRef .tc main_arg7) := W2_of_ne m ρ c main_arg7 (by decide)
    _ = W0 m ρ c (Proc.devRef .tc main_arg7) := W1_of m ρ c main_arg7 (by decide)
    _ = m ((c : Thread nD τ).loc main_arg7) := rfl

theorem W25_main_arg8 (c : Dev nD) : W25 m ρ c (Proc.devRef .tc main_arg8) = m ((c : Thread nD τ).loc main_arg8) :=
  calc W25 m ρ c (Proc.devRef .tc main_arg8)
    _ = W24 m ρ c (Proc.devRef .tc main_arg8) := W25_of m ρ c main_arg8 (by decide)
    _ = W23 m ρ c (Proc.devRef .tc main_arg8) := W24_of_ne m ρ c main_arg8 (by decide)
    _ = W22 m ρ c (Proc.devRef .tc main_arg8) := W23_of m ρ c main_arg8 (by decide)
    _ = W21 m ρ c (Proc.devRef .tc main_arg8) := W22_of_ne m ρ c main_arg8 (by decide)
    _ = W20 m ρ c (Proc.devRef .tc main_arg8) := W21_of m ρ c main_arg8 (by decide)
    _ = W19 m ρ c (Proc.devRef .tc main_arg8) := W20_of_ne m ρ c main_arg8 (by decide)
    _ = W18 m ρ c (Proc.devRef .tc main_arg8) := W19_of m ρ c main_arg8 (by decide)
    _ = W17 m ρ c (Proc.devRef .tc main_arg8) := W18_of_ne m ρ c main_arg8 (by decide)
    _ = W16 m ρ c (Proc.devRef .tc main_arg8) := W17_of m ρ c main_arg8 (by decide)
    _ = W15 m ρ c (Proc.devRef .tc main_arg8) := W16_of_ne m ρ c main_arg8 (by decide)
    _ = W14 m ρ c (Proc.devRef .tc main_arg8) := W15_of m ρ c main_arg8 (by decide)
    _ = W13 m ρ c (Proc.devRef .tc main_arg8) := W14_of_ne m ρ c main_arg8 (by decide)
    _ = W12 m ρ c (Proc.devRef .tc main_arg8) := W13_of m ρ c main_arg8 (by decide)
    _ = W11 m ρ c (Proc.devRef .tc main_arg8) := W12_of_ne m ρ c main_arg8 (by decide)
    _ = W10 m ρ c (Proc.devRef .tc main_arg8) := W11_of m ρ c main_arg8 (by decide)
    _ = W9 m ρ c (Proc.devRef .tc main_arg8) := W10_of_ne m ρ c main_arg8 (by decide)
    _ = W8 m ρ c (Proc.devRef .tc main_arg8) := W9_of m ρ c main_arg8 (by decide)
    _ = W7 m ρ c (Proc.devRef .tc main_arg8) := W8_of_ne m ρ c main_arg8 (by decide)
    _ = W6 m ρ c (Proc.devRef .tc main_arg8) := W7_of m ρ c main_arg8 (by decide)
    _ = W5 m ρ c (Proc.devRef .tc main_arg8) := W6_of_ne m ρ c main_arg8 (by decide)
    _ = W4 m ρ c (Proc.devRef .tc main_arg8) := W5_of m ρ c main_arg8 (by decide)
    _ = W3 m ρ c (Proc.devRef .tc main_arg8) := W4_of_ne m ρ c main_arg8 (by decide)
    _ = W2 m ρ c (Proc.devRef .tc main_arg8) := W3_of m ρ c main_arg8 (by decide)
    _ = W1 m ρ c (Proc.devRef .tc main_arg8) := W2_of_ne m ρ c main_arg8 (by decide)
    _ = W0 m ρ c (Proc.devRef .tc main_arg8) := W1_of m ρ c main_arg8 (by decide)
    _ = m ((c : Thread nD τ).loc main_arg8) := rfl

theorem W25_main_arg9 (c : Dev nD) : W25 m ρ c (Proc.devRef .tc main_arg9) = m ((c : Thread nD τ).loc main_arg9) :=
  calc W25 m ρ c (Proc.devRef .tc main_arg9)
    _ = W24 m ρ c (Proc.devRef .tc main_arg9) := W25_of m ρ c main_arg9 (by decide)
    _ = W23 m ρ c (Proc.devRef .tc main_arg9) := W24_of_ne m ρ c main_arg9 (by decide)
    _ = W22 m ρ c (Proc.devRef .tc main_arg9) := W23_of m ρ c main_arg9 (by decide)
    _ = W21 m ρ c (Proc.devRef .tc main_arg9) := W22_of_ne m ρ c main_arg9 (by decide)
    _ = W20 m ρ c (Proc.devRef .tc main_arg9) := W21_of m ρ c main_arg9 (by decide)
    _ = W19 m ρ c (Proc.devRef .tc main_arg9) := W20_of_ne m ρ c main_arg9 (by decide)
    _ = W18 m ρ c (Proc.devRef .tc main_arg9) := W19_of m ρ c main_arg9 (by decide)
    _ = W17 m ρ c (Proc.devRef .tc main_arg9) := W18_of_ne m ρ c main_arg9 (by decide)
    _ = W16 m ρ c (Proc.devRef .tc main_arg9) := W17_of m ρ c main_arg9 (by decide)
    _ = W15 m ρ c (Proc.devRef .tc main_arg9) := W16_of_ne m ρ c main_arg9 (by decide)
    _ = W14 m ρ c (Proc.devRef .tc main_arg9) := W15_of m ρ c main_arg9 (by decide)
    _ = W13 m ρ c (Proc.devRef .tc main_arg9) := W14_of_ne m ρ c main_arg9 (by decide)
    _ = W12 m ρ c (Proc.devRef .tc main_arg9) := W13_of m ρ c main_arg9 (by decide)
    _ = W11 m ρ c (Proc.devRef .tc main_arg9) := W12_of_ne m ρ c main_arg9 (by decide)
    _ = W10 m ρ c (Proc.devRef .tc main_arg9) := W11_of m ρ c main_arg9 (by decide)
    _ = W9 m ρ c (Proc.devRef .tc main_arg9) := W10_of_ne m ρ c main_arg9 (by decide)
    _ = W8 m ρ c (Proc.devRef .tc main_arg9) := W9_of m ρ c main_arg9 (by decide)
    _ = W7 m ρ c (Proc.devRef .tc main_arg9) := W8_of_ne m ρ c main_arg9 (by decide)
    _ = W6 m ρ c (Proc.devRef .tc main_arg9) := W7_of m ρ c main_arg9 (by decide)
    _ = W5 m ρ c (Proc.devRef .tc main_arg9) := W6_of_ne m ρ c main_arg9 (by decide)
    _ = W4 m ρ c (Proc.devRef .tc main_arg9) := W5_of m ρ c main_arg9 (by decide)
    _ = W3 m ρ c (Proc.devRef .tc main_arg9) := W4_of_ne m ρ c main_arg9 (by decide)
    _ = W2 m ρ c (Proc.devRef .tc main_arg9) := W3_of m ρ c main_arg9 (by decide)
    _ = W1 m ρ c (Proc.devRef .tc main_arg9) := W2_of_ne m ρ c main_arg9 (by decide)
    _ = W0 m ρ c (Proc.devRef .tc main_arg9) := W1_of m ρ c main_arg9 (by decide)
    _ = m ((c : Thread nD τ).loc main_arg9) := rfl

theorem W25_main_arg10 (c : Dev nD) : W25 m ρ c (Proc.devRef .tc main_arg10) = m ((c : Thread nD τ).loc main_arg10) :=
  calc W25 m ρ c (Proc.devRef .tc main_arg10)
    _ = W24 m ρ c (Proc.devRef .tc main_arg10) := W25_of m ρ c main_arg10 (by decide)
    _ = W23 m ρ c (Proc.devRef .tc main_arg10) := W24_of_ne m ρ c main_arg10 (by decide)
    _ = W22 m ρ c (Proc.devRef .tc main_arg10) := W23_of m ρ c main_arg10 (by decide)
    _ = W21 m ρ c (Proc.devRef .tc main_arg10) := W22_of_ne m ρ c main_arg10 (by decide)
    _ = W20 m ρ c (Proc.devRef .tc main_arg10) := W21_of m ρ c main_arg10 (by decide)
    _ = W19 m ρ c (Proc.devRef .tc main_arg10) := W20_of_ne m ρ c main_arg10 (by decide)
    _ = W18 m ρ c (Proc.devRef .tc main_arg10) := W19_of m ρ c main_arg10 (by decide)
    _ = W17 m ρ c (Proc.devRef .tc main_arg10) := W18_of_ne m ρ c main_arg10 (by decide)
    _ = W16 m ρ c (Proc.devRef .tc main_arg10) := W17_of m ρ c main_arg10 (by decide)
    _ = W15 m ρ c (Proc.devRef .tc main_arg10) := W16_of_ne m ρ c main_arg10 (by decide)
    _ = W14 m ρ c (Proc.devRef .tc main_arg10) := W15_of m ρ c main_arg10 (by decide)
    _ = W13 m ρ c (Proc.devRef .tc main_arg10) := W14_of_ne m ρ c main_arg10 (by decide)
    _ = W12 m ρ c (Proc.devRef .tc main_arg10) := W13_of m ρ c main_arg10 (by decide)
    _ = W11 m ρ c (Proc.devRef .tc main_arg10) := W12_of_ne m ρ c main_arg10 (by decide)
    _ = W10 m ρ c (Proc.devRef .tc main_arg10) := W11_of m ρ c main_arg10 (by decide)
    _ = W9 m ρ c (Proc.devRef .tc main_arg10) := W10_of_ne m ρ c main_arg10 (by decide)
    _ = W8 m ρ c (Proc.devRef .tc main_arg10) := W9_of m ρ c main_arg10 (by decide)
    _ = W7 m ρ c (Proc.devRef .tc main_arg10) := W8_of_ne m ρ c main_arg10 (by decide)
    _ = W6 m ρ c (Proc.devRef .tc main_arg10) := W7_of m ρ c main_arg10 (by decide)
    _ = W5 m ρ c (Proc.devRef .tc main_arg10) := W6_of_ne m ρ c main_arg10 (by decide)
    _ = W4 m ρ c (Proc.devRef .tc main_arg10) := W5_of m ρ c main_arg10 (by decide)
    _ = W3 m ρ c (Proc.devRef .tc main_arg10) := W4_of_ne m ρ c main_arg10 (by decide)
    _ = W2 m ρ c (Proc.devRef .tc main_arg10) := W3_of m ρ c main_arg10 (by decide)
    _ = W1 m ρ c (Proc.devRef .tc main_arg10) := W2_of_ne m ρ c main_arg10 (by decide)
    _ = W0 m ρ c (Proc.devRef .tc main_arg10) := W1_of m ρ c main_arg10 (by decide)
    _ = m ((c : Thread nD τ).loc main_arg10) := rfl

/-! ## The proof data family and the thread state -/

/-- The prefetched tables' admissible contents: no pipeline has a table. -/
abbrev adm : (p : Fin 12) → (pcfgs (F := F) p).Adm := fun p => (cfgs p).toPCfg_adm
/-- Every pipeline's proof data, each at its region's entry contents. -/
def pdats : (p : Fin 12) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
  | ⟨6, _⟩ => fun c => dat6 (V13 m ρ) c
  | ⟨7, _⟩ => fun c => dat7 (V15 m ρ) c
  | ⟨8, _⟩ => fun c => dat8 (V17 m ρ) c
  | ⟨9, _⟩ => fun c => dat9 (V19 m ρ) c
  | ⟨10, _⟩ => fun c => dat10 (V21 m ρ) c
  | ⟨11, _⟩ => fun c => dat11 (V23 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state, and the core owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends with those
    references at `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Hand

end
-- ==== Proof.KI.Seg0.lean ====
/- Region 0 of @main as a segment over the thread state "every unscoped buffer at the boundary's contents, the generator
   register at some state, nothing owed": entered with the buffers at the contents host stretch 0 leaves, left with the region's
   arrays at what the pipeline's write-backs leave and every other buffer untouched. -/
import proofs.«166112_j80350248174014_2_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 0 over the thread state: its arrays are split out of the unscoped buffers at entry and put back at their exit
    contents; the generator register goes into the pipeline's invariant and comes back; nothing is owed; the kernel has no
    semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg1.lean ====
/- Region 1 of @main as a segment over the thread state "every unscoped buffer at the boundary's contents, the generator
   register at some state, nothing owed": entered with the buffers at the contents host stretch 1 leaves, left with the region's
   arrays at what the pipeline's write-backs leave and every other buffer untouched. -/
import proofs.«166112_j80350248174014_2_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 1 over the thread state: its arrays are split out of the unscoped buffers at entry and put back at their exit
    contents; the generator register goes into the pipeline's invariant and comes back; nothing is owed; the kernel has no
    semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg2.lean ====
/- Region 2 of @main as a segment over the thread state "every unscoped buffer at the boundary's contents, the generator
   register at some state, nothing owed": entered with the buffers at the contents host stretch 2 leaves, left with the region's
   arrays at what the pipeline's write-backs leave and every other buffer untouched. -/
import proofs.«166112_j80350248174014_2_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 2 over the thread state: its arrays are split out of the unscoped buffers at entry and put back at their exit
    contents; the generator register goes into the pipeline's invariant and comes back; nothing is owed; the kernel has no
    semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg3.lean ====
/- Region 3 of @main as a segment over the thread state "every unscoped buffer at the boundary's contents, the generator
   register at some state, nothing owed": entered with the buffers at the contents host stretch 3 leaves, left with the region's
   arrays at what the pipeline's write-backs leave and every other buffer untouched. -/
import proofs.«166112_j80350248174014_2_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 3 over the thread state: its arrays are split out of the unscoped buffers at entry and put back at their exit
    contents; the generator register goes into the pipeline's invariant and comes back; nothing is owed; the kernel has no
    semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg4.lean ====
/- Region 4 of @main as a segment over the thread state "every unscoped buffer at the boundary's contents, the generator
   register at some state, nothing owed": entered with the buffers at the contents host stretch 4 leaves, left with the region's
   arrays at what the pipeline's write-backs leave and every other buffer untouched. -/
import proofs.«166112_j80350248174014_2_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 4 over the thread state: its arrays are split out of the unscoped buffers at entry and put back at their exit
    contents; the generator register goes into the pipeline's invariant and comes back; nothing is owed; the kernel has no
    semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg5.lean ====
/- Region 5 of @main as a segment over the thread state "every unscoped buffer at the boundary's contents, the generator
   register at some state, nothing owed": entered with the buffers at the contents host stretch 5 leaves, left with the region's
   arrays at what the pipeline's write-backs leave and every other buffer untouched. -/
import proofs.«166112_j80350248174014_2_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 5 over the thread state: its arrays are split out of the unscoped buffers at entry and put back at their exit
    contents; the generator register goes into the pipeline's invariant and comes back; nothing is owed; the kernel has no
    semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg6.lean ====
/- Region 6 of @main as a segment over the thread state "every unscoped buffer at the boundary's contents, the generator
   register at some state, nothing owed": entered with the buffers at the contents host stretch 6 leaves, left with the region's
   arrays at what the pipeline's write-backs leave and every other buffer untouched. -/
import proofs.«166112_j80350248174014_2_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 6 over the thread state: its arrays are split out of the unscoped buffers at entry and put back at their exit
    contents; the generator register goes into the pipeline's invariant and comes back; nothing is owed; the kernel has no
    semaphore of its own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V13 m ρ) c).loose
  hwaits := Pipeline.hwaits_of_owed_zero _ _ _ _ L lv 6 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec6 c (V13 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V13 m ρ c) (V14 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg7.lean ====
/- Region 7 of @main as a segment over the thread state "every unscoped buffer at the boundary's contents, the generator
   register at some state, nothing owed": entered with the buffers at the contents host stretch 7 leaves, left with the region's
   arrays at what the pipeline's write-backs leave and every other buffer untouched. -/
import proofs.«166112_j80350248174014_2_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 7 over the thread state: its arrays are split out of the unscoped buffers at entry and put back at their exit
    contents; the generator register goes into the pipeline's invariant and comes back; nothing is owed; the kernel has no
    semaphore of its own. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V15 m ρ) c).loose
  hwaits := Pipeline.hwaits_of_owed_zero _ _ _ _ L lv 7 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec7 c (V15 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V15 m ρ c) (V16 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg8.lean ====
/- Region 8 of @main as a segment over the thread state "every unscoped buffer at the boundary's contents, the generator
   register at some state, nothing owed": entered with the buffers at the contents host stretch 8 leaves, left with the region's
   arrays at what the pipeline's write-backs leave and every other buffer untouched. -/
import proofs.«166112_j80350248174014_2_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 8 over the thread state: its arrays are split out of the unscoped buffers at entry and put back at their exit
    contents; the generator register goes into the pipeline's invariant and comes back; nothing is owed; the kernel has no
    semaphore of its own. -/
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V17 m ρ) c).loose
  hwaits := Pipeline.hwaits_of_owed_zero _ _ _ _ L lv 8 fun _ _ => rfl
  pre c := iprop(StableHlo.held (c : Thread nD τ) (Pipeline.ucRefs τ sig) (W17 m ρ c) ∗ R c)
  post c := iprop(StableHlo.held (c : Thread nD τ) (Pipeline.ucRefs τ sig) (W18 m ρ c) ∗ R c)
  X c := iprop(∃ r, prngReg c r)
  Y c := iprop(∃ r, prngReg c r)
  Z c := Pipeline.unscopedRest (Ix := Unit) (Name := ℕ) (U := UR sig nD τ) (Lvl := ℕ) spec8 c (V17 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (V17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (V17 m ρ c) (V18 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg9.lean ====
/- Region 9 of @main as a segment over the thread state "every unscoped buffer at the boundary's contents, the generator
   register at some state, nothing owed": entered with the buffers at the contents host stretch 9 leaves, left with the region's
   arrays at what the pipeline's write-backs leave and every other buffer untouched. -/
import proofs.«166112_j80350248174014_2_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 9 over the thread state: its arrays are split out of the unscoped buffers at entry and put back at their exit
    contents; the generator register goes into the pipeline's invariant and comes back; nothing is owed; the kernel has no
    semaphore of its own. -/
def reg9 : Pipeline.RegionSeg (pcfgs (F := F)) adm (pdats m ρ) () defs₀ 𝒱₀ L lv 9 where
  win := launch9.win.to₀
  block_pos := launch9.block_pos
  stage_whole := launch9.stage_whole
  K := PEmpty
  osem k := k.elim
  ho := Pipeline.OwnSemFacts.none _
  hbody c := (body_obligation9 (V19 m ρ) c).loose
  hwaits := Pipeline.hwaits_of_owed_zero _ _ _ _ L lv 9 fun _ _ => rfl
  pre c := iprop(StableHlo.held (c : Thread nD τ) (Pipeline.ucRefs τ sig) (W19 m ρ c) ∗ R c)
  post c := iprop(StableHlo.held (c : Thread nD τ) (Pipeline.ucRefs τ sig) (W20 m ρ c) ∗ R c)
  X c := iprop(∃ r, prngReg c r)
  Y c := iprop(∃ r, prngReg c r)
  Z c := Pipeline.unscopedRest (Ix := Unit) (Name := ℕ) (U := UR sig nD τ) (Lvl := ℕ) spec9 c (V19 m ρ c)
  hentry c := by
    rw [Pipeline.ownSems0_none]
    have hsplit := Pipeline.arrays_of_unscopedBufs (p := 9) (pcfgs (F := F)) adm (pdats m ρ) launch9.win launch9.arr_whole c
      ((pdats m ρ 9 c).share_full fun _ => rfl) (V19 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m ρ 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m ρ) ((pdats m ρ 9 c).share_full fun _ => rfl)
      (V19 m ρ c) (V20 m ρ c) ((pdats m ρ 9 c).arrAt · cfg9.N) (hF9 m ρ c) (hrest9 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg10.lean ====
/- Region 10 of @main as a segment over the thread state "every unscoped buffer at the boundary's contents, the generator
   register at some state, nothing owed": entered with the buffers at the contents host stretch 10 leaves, left with the region's
   arrays at what the pipeline's write-backs leave and every other buffer untouched. -/
import proofs.«166112_j80350248174014_2_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 10 over the thread state: its arrays are split out of the unscoped buffers at entry and put back at their exit
    contents; the generator register goes into the pipeline's invariant and comes back; nothing is owed; the kernel has no
    semaphore of its own. -/
def reg10 : Pipeline.RegionSeg (pcfgs (F := F)) adm (pdats m ρ) () defs₀ 𝒱₀ L lv 10 where
  win := launch10.win.to₀
  block_pos := launch10.block_pos
  stage_whole := launch10.stage_whole
  K := PEmpty
  osem k := k.elim
  ho := Pipeline.OwnSemFacts.none _
  hbody c := (body_obligation10 (V21 m ρ) c).loose
  hwaits := Pipeline.hwaits_of_owed_zero _ _ _ _ L lv 10 fun _ _ => rfl
  pre c := iprop(StableHlo.held (c : Thread nD τ) (Pipeline.ucRefs τ sig) (W21 m ρ c) ∗ R c)
  post c := iprop(StableHlo.held (c : Thread nD τ) (Pipeline.ucRefs τ sig) (W22 m ρ c) ∗ R c)
  X c := iprop(∃ r, prngReg c r)
  Y c := iprop(∃ r, prngReg c r)
  Z c := Pipeline.unscopedRest (Ix := Unit) (Name := ℕ) (U := UR sig nD τ) (Lvl := ℕ) spec10 c (V21 m ρ c)
  hentry c := by
    rw [Pipeline.ownSems0_none]
    have hsplit := Pipeline.arrays_of_unscopedBufs (p := 10) (pcfgs (F := F)) adm (pdats m ρ) launch10.win launch10.arr_whole c
      ((pdats m ρ 10 c).share_full fun _ => rfl) (V21 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m ρ 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m ρ) ((pdats m ρ 10 c).share_full fun _ => rfl)
      (V21 m ρ c) (V22 m ρ c) ((pdats m ρ 10 c).arrAt · cfg10.N) (hF10 m ρ c) (hrest10 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg11.lean ====
/- Region 11 of @main as a segment over the thread state "every unscoped buffer at the boundary's contents, the generator
   register at some state, nothing owed": entered with the buffers at the contents host stretch 11 leaves, left with the region's
   arrays at what the pipeline's write-backs leave and every other buffer untouched. -/
import proofs.«166112_j80350248174014_2_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 11 over the thread state: its arrays are split out of the unscoped buffers at entry and put back at their exit
    contents; the generator register goes into the pipeline's invariant and comes back; nothing is owed; the kernel has no
    semaphore of its own. -/
def reg11 : Pipeline.RegionSeg (pcfgs (F := F)) adm (pdats m ρ) () defs₀ 𝒱₀ L lv 11 where
  win := launch11.win.to₀
  block_pos := launch11.block_pos
  stage_whole := launch11.stage_whole
  K := PEmpty
  osem k := k.elim
  ho := Pipeline.OwnSemFacts.none _
  hbody c := (body_obligation11 (V23 m ρ) c).loose
  hwaits := Pipeline.hwaits_of_owed_zero _ _ _ _ L lv 11 fun _ _ => rfl
  pre c := iprop(StableHlo.held (c : Thread nD τ) (Pipeline.ucRefs τ sig) (W23 m ρ c) ∗ R c)
  post c := iprop(StableHlo.held (c : Thread nD τ) (Pipeline.ucRefs τ sig) (W24 m ρ c) ∗ R c)
  X c := iprop(∃ r, prngReg c r)
  Y c := iprop(∃ r, prngReg c r)
  Z c := Pipeline.unscopedRest (Ix := Unit) (Name := ℕ) (U := UR sig nD τ) (Lvl := ℕ) spec11 c (V23 m ρ c)
  hentry c := by
    rw [Pipeline.ownSems0_none]
    have hsplit := Pipeline.arrays_of_unscopedBufs (p := 11) (pcfgs (F := F)) adm (pdats m ρ) launch11.win launch11.arr_whole c
      ((pdats m ρ 11 c).share_full fun _ => rfl) (V23 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m ρ 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m ρ) ((pdats m ρ 11 c).share_full fun _ => rfl)
      (V23 m ρ c) (V24 m ρ c) ((pdats m ρ 11 c).arrAt · cfg11.N) (hF11 m ρ c) (hrest11 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Run.lean ====
/- The run of @main: its twenty-five segments in order (thirteen host stretches, twelve kernel regions between them), the launch
   over them, and what every weakly fair execution ends with — every unscoped buffer of every core at the last boundary's
   contents of the fold. The frame (each argument array ends as launched) is read off that. -/
import proofs.«166112_j80350248174014_2_alg».proof.Proof.KI.Seg0
import proofs.«166112_j80350248174014_2_alg».proof.Proof.KI.Seg1
import proofs.«166112_j80350248174014_2_alg».proof.Proof.KI.Seg2
import proofs.«166112_j80350248174014_2_alg».proof.Proof.KI.Seg3
import proofs.«166112_j80350248174014_2_alg».proof.Proof.KI.Seg4
import proofs.«166112_j80350248174014_2_alg».proof.Proof.KI.Seg5
import proofs.«166112_j80350248174014_2_alg».proof.Proof.KI.Seg6
import proofs.«166112_j80350248174014_2_alg».proof.Proof.KI.Seg7
import proofs.«166112_j80350248174014_2_alg».proof.Proof.KI.Seg8
import proofs.«166112_j80350248174014_2_alg».proof.Proof.KI.Seg9
import proofs.«166112_j80350248174014_2_alg».proof.Proof.KI.Seg10
import proofs.«166112_j80350248174014_2_alg».proof.Proof.KI.Seg11
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's 25 segments in order: a host segment per stretch from its boundary's contents, a region per kernel call. -/
abbrev segs : List (Pipeline.Seg (pcfgs (F := F)) adm (pdats m ρ) () defs₀ 𝒱₀ L lv) :=
  [
    .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)),
    .region (reg6 m ρ),
    .host (hseg hostOps7 hostOps7_sub hostOps7_fresh (W14 m ρ)),
    .region (reg7 m ρ),
    .host (hseg hostOps8 hostOps8_sub hostOps8_fresh (W16 m ρ)),
    .region (reg8 m ρ),
    .host (hseg hostOps9 hostOps9_sub hostOps9_fresh (W18 m ρ)),
    .region (reg9 m ρ),
    .host (hseg hostOps10 hostOps10_sub hostOps10_fresh (W20 m ρ)),
    .region (reg10 m ρ),
    .host (hseg hostOps11 hostOps11_sub hostOps11_fresh (W22 m ρ)),
    .region (reg11 m ρ),
    .host (hseg hostOps12 hostOps12_sub hostOps12_fresh (W24 m ρ)) ]

/-- @main is the run of the segments: it is the chain of its items, and the segments' run is the same chain. -/
theorem main_run (c : Dev nD) : main (F := F) c = Pipeline.Seg.run (segs m ρ) := (main_chain c).trans (by chain_rfl)

/-- The last thread state without what is owed: every unscoped buffer at the last boundary's contents, the generator register
    at some state. -/
abbrev Tₙ (c : Dev nD) : sProp 𝕄 := iprop(StableHlo.held (c : Thread nD τ) (Pipeline.ucRefs τ sig) (W25 m ρ c) ∗ ∃ r, prngReg c r)

set_option backward.isDefEq.respectTransparency.types false in
/-- From any memory with zero counters, every weakly fair execution of @main on the TensorCores terminates, nothing faulting,
    and in every final state each unscoped buffer of each core holds the fold's last contents. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W25 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => (show iprop(StableHlo.held (c : Thread nD τ) (Pipeline.ucRefs τ sig) (W25 m ρ c)
            ∗ ((∃ r, prngReg c r) ∗ ∃ W, owes (c : Thread nD τ) (0 : CellTallies nD τ sig Unit) W))
          ⊢ iprop((StableHlo.held (c : Thread nD τ) (Pipeline.ucRefs τ sig) (W25 m ρ c) ∗ ∃ r, prngReg c r)
            ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W25 m ρ c b)
    (hfin := fun c s' => by
      iintro ⟨⟨Hh, -⟩, HSI⟩
      unfold StableHlo.held
      imodintro
      iapply (pointsTo_read_all (Pipeline.ucRefs τ sig) (fun b => (((c : Thread nD τ)).1, b)) (W25 m ρ c) s')
      isplitl [Hh] <;> iassumption)
    (hQ := fun s h c => h c)

/-- The frame: every weakly fair execution of @main terminates, nothing faulting, and every final state has the argument
    arrays as launched — each read off the run's last contents, which the fold walks back to the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c _ (mem_uc main_arg0 (by decide))).trans (W25_main_arg0 m ρ c),
    (h c _ (mem_uc main_arg1 (by decide))).trans (W25_main_arg1 m ρ c),
    (h c _ (mem_uc main_arg2 (by decide))).trans (W25_main_arg2 m ρ c),
    (h c _ (mem_uc main_arg3 (by decide))).trans (W25_main_arg3 m ρ c),
    (h c _ (mem_uc main_arg4 (by decide))).trans (W25_main_arg4 m ρ c),
    (h c _ (mem_uc main_arg5 (by decide))).trans (W25_main_arg5 m ρ c),
    (h c _ (mem_uc main_arg6 (by decide))).trans (W25_main_arg6 m ρ c),
    (h c _ (mem_uc main_arg7 (by decide))).trans (W25_main_arg7 m ρ c),
    (h c _ (mem_uc main_arg8 (by decide))).trans (W25_main_arg8 m ρ c),
    (h c _ (mem_uc main_arg9 (by decide))).trans (W25_main_arg9 m ρ c),
    (h c _ (mem_uc main_arg10 (by decide))).trans (W25_main_arg10 m ρ c)⟩) (run_all m ρ)

end Cert.KernelIdeal.Hand

end
-- ==== Proof.LibLayerStages.lean ====
/- The two elementwise stages of one message-passing layer, as whole-array functions on the extended reals, for any extents:
   `rowScale v f` — row e of f multiplied through, on the left, by the weight v (e, 0) of edge e;
   `resid s p d` — the neighbourhood sums plus the previous features, each row e scaled by the degree d (e, 0).
   Both programs compute exactly these products and sums, in this order; they differ only in how the column is spread. -/
import Idealize.ShloMosaic.Lib.ValueIdx
import Idealize.ShloMosaic.PureOps.Ideal

noncomputable section

namespace Cert.Layer

open Idealize.ShloMosaic Idealize.ShloMosaic.ValueIdx

variable {E D : ℕ}

/-- Entry (e, q) is the weight of edge e times entry (e, q) of the rows. -/
def rowScale (v : FVec Ideal ⟨2, ![E, 1]⟩ .f32) (f : FVec Ideal ⟨2, ![E, D]⟩ .f32) : FVec Ideal ⟨2, ![E, D]⟩ .f32 :=
  fun i => v (ix2 (i 0) (0 : Fin 1)) * f i

/-- Entry (e, q) is the sum's entry plus the previous features' entry times the degree of node e. -/
def resid (s p : FVec Ideal ⟨2, ![E, D]⟩ .f32) (d : FVec Ideal ⟨2, ![E, 1]⟩ .f32) : FVec Ideal ⟨2, ![E, D]⟩ .f32 :=
  fun i => s i + p i * d (ix2 (i 0) (0 : Fin 1))

theorem rowScale_apply (v : FVec Ideal ⟨2, ![E, 1]⟩ .f32) (f : FVec Ideal ⟨2, ![E, D]⟩ .f32) (p : Fin E) (q : Fin D) :
    rowScale v f (ix2 p q) = v (ix2 p (0 : Fin 1)) * f (ix2 p q) := rfl

theorem resid_apply (s p : FVec Ideal ⟨2, ![E, D]⟩ .f32) (d : FVec Ideal ⟨2, ![E, 1]⟩ .f32) (r : Fin E) (q : Fin D) :
    resid s p d (ix2 r q) = s (ix2 r q) + p (ix2 r q) * d (ix2 r (0 : Fin 1)) := rfl

end Cert.Layer

end
-- ==== Proof.Ref.Spec.lean ====
import proofs.«166112_j80350248174014_2_alg».proof.Proof.Gen.ReferenceIdeal.Run
import proofs.«166112_j80350248174014_2_alg».proof.Proof.LibLayerStages

/-!
  The mathematics of the reference program, named as functions of arrays over the extended reals.

  Three rounds of message passing over a bipartite graph of users and items given as a list of edges.
  One round sends every edge's source row, scaled by the edge's weight, to the edge's destination row,
  adds up what each destination receives, and adds the destination's previous row scaled by its degree
  factor:  u' = scatterAdd(0, edgeUser, w_ui ⊙ i[edgeItem]) + u ⊙ d_users, and likewise for the items.
  The results are rows, chosen by three index lists, of the four embeddings of each side laid side by side.

  The data movements (index normalisation, gather, scatter-add into zeros, the four-piece concatenate, the
  final gathers) carry no arithmetic of their own; the arithmetic is the per-edge product and the combine.
-/

noncomputable section

namespace Cert.RefValue

open Idealize.ShloMosaic Idealize.ShloMosaic.ValueIdx Cert.ReferenceIdeal Cert.ReferenceIdeal.Gen

/-! ## Moving data -/

/-- An edge index counted from the end when negative: `idx < 0 ? idx + n : idx`, elementwise. -/
def normE (n : BitVec 32) (idx : IVec S3200000 32) : IVec S3200000 32 :=
  select (cmpi .slt idx (broadcastInDim S3200000 ![] bcast_S_S3200000 (constantI S_ 32 0#32)))
    (addi idx (broadcastInDim S3200000 ![] bcast_S_S3200000 (constantI S_ 32 n))) idx

/-- A batch index counted from the end when negative. -/
def normB (n : BitVec 32) (idx : IVec S16384 32) : IVec S16384 32 :=
  select (cmpi .slt idx (broadcastInDim S16384 ![] bcast_S_S16384 (constantI S_ 32 0#32)))
    (addi idx (broadcastInDim S16384 ![] bcast_S_S16384 (constantI S_ 32 n))) idx

/-- A list of edge indices as a column. -/
def colI (idx : IVec S3200000 32) : IVec S3200000x1 32 :=
  broadcastInDim S3200000x1 ![0] bcast_S3200000_S3200000x1_0 idx

/-- A list of edge weights as a column. -/
def colF (v : FVec Ideal S3200000 .f32) : FVec Ideal S3200000x1 .f32 :=
  broadcastInDim S3200000x1 ![0] bcast_S3200000_S3200000x1_0 v

/-- A list of batch indices as a column. -/
def colB (idx : IVec S16384 32) : IVec S16384x1 32 :=
  broadcastInDim S16384x1 ![0] bcast_S16384_S16384x1_0 idx

/-- The user-side array of zeros the sums start from. -/
def zerosU : FVec Ideal S100000x64 .f32 :=
  broadcastInDim S100000x64 ![] bcast_S_S100000x64 (constant S_ .f32 0x00000000#32)

/-- The item-side array of zeros the sums start from. -/
def zerosI : FVec Ideal S50000x64 .f32 :=
  broadcastInDim S50000x64 ![] bcast_S_S50000x64 (constant S_ .f32 0x00000000#32)

/-- Per edge, the item row the edge names. -/
def gatherI (x : FVec Ideal S50000x64 .f32) (idx : IVec S3200000x1 32) : FVec Ideal S3200000x64 .f32 :=
  Host.gather gather_S50000x64_S3200000x1_S3200000x64_1_0_n_n_0_1_164 x idx

/-- Per edge, the user row the edge names. -/
def gatherU (x : FVec Ideal S100000x64 .f32) (idx : IVec S3200000x1 32) : FVec Ideal S3200000x64 .f32 :=
  Host.gather gather_S100000x64_S3200000x1_S3200000x64_1_0_n_n_0_1_164 x idx

/-- Per user, the sum of the edge rows sent to it, on top of `z`. -/
def scatterU (z : FVec Ideal S100000x64 .f32) (idx : IVec S3200000x1 32) (upd : FVec Ideal S3200000x64 .f32) :
    FVec Ideal S100000x64 .f32 :=
  Host.scatterAdd scatter_S100000x64_S3200000x1_S3200000x64_1_0_0_1 z idx upd

/-- Per item, the sum of the edge rows sent to it, on top of `z`. -/
def scatterI (z : FVec Ideal S50000x64 .f32) (idx : IVec S3200000x1 32) (upd : FVec Ideal S3200000x64 .f32) :
    FVec Ideal S50000x64 .f32 :=
  Host.scatterAdd scatter_S50000x64_S3200000x1_S3200000x64_1_0_0_1 z idx upd

/-- The four user embeddings side by side. -/
def catU (a b c d : FVec Ideal S100000x64 .f32) : FVec Ideal S100000x256 .f32 :=
  concatenate S100000x256 1 [⟨S100000x64, a⟩, ⟨S100000x64, b⟩, ⟨S100000x64, c⟩, ⟨S100000x64, d⟩]
    concatenates_S100000x64_S100000x64_S100000x64_S100000x64_S100000x256_d1

/-- The four item embeddings side by side. -/
def catI (a b c d : FVec Ideal S50000x64 .f32) : FVec Ideal S50000x256 .f32 :=
  concatenate S50000x256 1 [⟨S50000x64, a⟩, ⟨S50000x64, b⟩, ⟨S50000x64, c⟩, ⟨S50000x64, d⟩]
    concatenates_S50000x64_S50000x64_S50000x64_S50000x64_S50000x256_d1

/-- The rows of the user table a batch of user indices names. -/
def pickU (x : FVec Ideal S100000x256 .f32) (idx : IVec S16384 32) : FVec Ideal S16384x256 .f32 :=
  Host.gather gather_S100000x256_S16384x1_S16384x256_1_0_n_n_0_1_1256 x (colB (normB 100000#32 idx))

/-- The rows of the item table a batch of item indices names. -/
def pickI (x : FVec Ideal S50000x256 .f32) (idx : IVec S16384 32) : FVec Ideal S16384x256 .f32 :=
  Host.gather gather_S50000x256_S16384x1_S16384x256_1_0_n_n_0_1_1256 x (colB (normB 50000#32 idx))

/-! ## One round

The arithmetic is `Cert.Layer.rowScale` (every gathered row times its edge's weight, the weight first) and
`Cert.Layer.resid` (what was received plus the previous row times the degree factor). -/

/-- The users' next embedding from the two current ones. -/
def userStep (eu ei : IVec S3200000 32) (w : FVec Ideal S3200000 .f32) (d : FVec Ideal S100000x1 .f32)
    (u : FVec Ideal S100000x64 .f32) (i : FVec Ideal S50000x64 .f32) : FVec Ideal S100000x64 .f32 :=
  Cert.Layer.resid (E := 100000) (D := 64)
    (scatterU zerosU (colI eu) (Cert.Layer.rowScale (E := 3200000) (D := 64) (colF w) (gatherI i (colI (normE 50000#32 ei))))) u d

/-- The items' next embedding from the two current ones. -/
def itemStep (eu ei : IVec S3200000 32) (w : FVec Ideal S3200000 .f32) (d : FVec Ideal S50000x1 .f32)
    (u : FVec Ideal S100000x64 .f32) (i : FVec Ideal S50000x64 .f32) : FVec Ideal S50000x64 .f32 :=
  Cert.Layer.resid (E := 50000) (D := 64)
    (scatterI zerosI (colI ei) (Cert.Layer.rowScale (E := 3200000) (D := 64) (colF w) (gatherU u (colI (normE 100000#32 eu))))) i d

/-! ## The three rounds and the three results, as functions of the eleven arguments
    (edge users, edge items, weights user←item, weights item←user, user degrees, item degrees,
     user embedding, item embedding, batch of users, batch of positive items, batch of negative items) -/

section
variable (eu ei : IVec S3200000 32) (wui wiu : FVec Ideal S3200000 .f32)
  (du : FVec Ideal S100000x1 .f32) (di : FVec Ideal S50000x1 .f32)
  (u0 : FVec Ideal S100000x64 .f32) (i0 : FVec Ideal S50000x64 .f32)

def u1 : FVec Ideal S100000x64 .f32 := userStep eu ei wui du u0 i0
def i1 : FVec Ideal S50000x64 .f32 := itemStep eu ei wiu di u0 i0
def u2 : FVec Ideal S100000x64 .f32 := userStep eu ei wui du (u1 eu ei wui du u0 i0) (i1 eu ei wiu di u0 i0)
def i2 : FVec Ideal S50000x64 .f32 := itemStep eu ei wiu di (u1 eu ei wui du u0 i0) (i1 eu ei wiu di u0 i0)
def u3 : FVec Ideal S100000x64 .f32 :=
  userStep eu ei wui du (u2 eu ei wui wiu du di u0 i0) (i2 eu ei wui wiu du di u0 i0)
def i3 : FVec Ideal S50000x64 .f32 :=
  itemStep eu ei wiu di (u2 eu ei wui wiu du di u0 i0) (i2 eu ei wui wiu du di u0 i0)

/-- The user table: the four user embeddings side by side. -/
def tableU : FVec Ideal S100000x256 .f32 :=
  catU u0 (u1 eu ei wui du u0 i0) (u2 eu ei wui wiu du di u0 i0) (u3 eu ei wui wiu du di u0 i0)

/-- The item table: the four item embeddings side by side. -/
def tableI : FVec Ideal S50000x256 .f32 :=
  catI i0 (i1 eu ei wiu di u0 i0) (i2 eu ei wui wiu du di u0 i0) (i3 eu ei wui wiu du di u0 i0)

variable (users pos neg : IVec S16384 32)

/-- First result: the user table's rows at the batch of users. -/
def out0 : FVec Ideal S16384x256 .f32 := pickU (tableU eu ei wui wiu du di u0 i0) users
/-- Second result: the item table's rows at the batch of positive items. -/
def out1 : FVec Ideal S16384x256 .f32 := pickI (tableI eu ei wui wiu du di u0 i0) pos
/-- Third result: the item table's rows at the batch of negative items. -/
def out2 : FVec Ideal S16384x256 .f32 := pickI (tableI eu ei wui wiu du di u0 i0) neg

end

end Cert.RefValue

end
-- ==== Proof.KI.Keep.lean ====
/- A region changes only its output array: every other buffer holds after the region what it held before it (an input window's array by
   the pipeline's own account of inputs, any other buffer because no window stages it). With the same fact for the host stretches
   (a stretch changes only the buffers its operations write) a buffer's contents are carried from the stage that wrote it to the stage
   that reads it. -/
import proofs.«166112_j80350248174014_2_alg».proof.Proof.KI.Fold
import proofs.«166112_j80350248174014_2_alg».proof.Proof.Ref.Spec
import Idealize.ShloMosaic.Lib.StableHlo.Run
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Cert.RefValue (normE normB colI colF colB zerosU zerosI gatherI gatherU scatterU scatterI catU catI pickU pickI)

variable (m : (ℓ : Loc nD τ sig) → Buf (Elt Ideal) ℓ) (ρ : Dev nD → PrngReg) (c : Dev nD)

/-- Region 0 leaves every buffer but its output array `main_v8` as it found it. -/
theorem W2_keep (r : Ref sig .tc) (h : r ≠ main_v8) : W2 m ρ c (Proc.devRef .tc r) = W1 m ρ c (Proc.devRef .tc r) := by
  by_cases h0 : r = main_v7
  · subst h0; exact W2_in m ρ c 0 rfl
  by_cases h1 : r = main_v6
  · subst h1; exact W2_in m ρ c 1 rfl
  refine W2_of_ne m ρ c r fun w => ?_
  match w with
  | ⟨0, _⟩ => exact fun e => h0 e.symm
  | ⟨1, _⟩ => exact fun e => h1 e.symm
  | ⟨2, _⟩ => exact fun e => h e.symm

/-- Region 1 leaves every buffer but its output array `main_v12` as it found it. -/
theorem W4_keep (r : Ref sig .tc) (h : r ≠ main_v12) : W4 m ρ c (Proc.devRef .tc r) = W3 m ρ c (Proc.devRef .tc r) := by
  by_cases h0 : r = main_v11
  · subst h0; exact W4_in m ρ c 0 rfl
  by_cases h1 : r = main_arg6
  · subst h1; exact W4_in m ρ c 1 rfl
  by_cases h2 : r = main_arg4
  · subst h2; exact W4_in m ρ c 2 rfl
  refine W4_of_ne m ρ c r fun w => ?_
  match w with
  | ⟨0, _⟩ => exact fun e => h0 e.symm
  | ⟨1, _⟩ => exact fun e => h1 e.symm
  | ⟨2, _⟩ => exact fun e => h2 e.symm
  | ⟨3, _⟩ => exact fun e => h e.symm

/-- Region 2 leaves every buffer but its output array `main_v21` as it found it. -/
theorem W6_keep (r : Ref sig .tc) (h : r ≠ main_v21) : W6 m ρ c (Proc.devRef .tc r) = W5 m ρ c (Proc.devRef .tc r) := by
  by_cases h0 : r = main_v20
  · subst h0; exact W6_in m ρ c 0 rfl
  by_cases h1 : r = main_v19
  · subst h1; exact W6_in m ρ c 1 rfl
  refine W6_of_ne m ρ c r fun w => ?_
  match w with
  | ⟨0, _⟩ => exact fun e => h0 e.symm
  | ⟨1, _⟩ => exact fun e => h1 e.symm
  | ⟨2, _⟩ => exact fun e => h e.symm

/-- Region 3 leaves every buffer but its output array `main_v25` as it found it. -/
theorem W8_keep (r : Ref sig .tc) (h : r ≠ main_v25) : W8 m ρ c (Proc.devRef .tc r) = W7 m ρ c (Proc.devRef .tc r) := by
  by_cases h0 : r = main_v24
  · subst h0; exact W8_in m ρ c 0 rfl
  by_cases h1 : r = main_arg7
  · subst h1; exact W8_in m ρ c 1 rfl
  by_cases h2 : r = main_arg5
  · subst h2; exact W8_in m ρ c 2 rfl
  refine W8_of_ne m ρ c r fun w => ?_
  match w with
  | ⟨0, _⟩ => exact fun e => h0 e.symm
  | ⟨1, _⟩ => exact fun e => h1 e.symm
  | ⟨2, _⟩ => exact fun e => h2 e.symm
  | ⟨3, _⟩ => exact fun e => h e.symm

/-- Region 4 leaves every buffer but its output array `main_v34` as it found it. -/
theorem W10_keep (r : Ref sig .tc) (h : r ≠ main_v34) : W10 m ρ c (Proc.devRef .tc r) = W9 m ρ c (Proc.devRef .tc r) := by
  by_cases h0 : r = main_v33
  · subst h0; exact W10_in m ρ c 0 rfl
  by_cases h1 : r = main_v32
  · subst h1; exact W10_in m ρ c 1 rfl
  refine W10_of_ne m ρ c r fun w => ?_
  match w with
  | ⟨0, _⟩ => exact fun e => h0 e.symm
  | ⟨1, _⟩ => exact fun e => h1 e.symm
  | ⟨2, _⟩ => exact fun e => h e.symm

/-- Region 5 leaves every buffer but its output array `main_v38` as it found it. -/
theorem W12_keep (r : Ref sig .tc) (h : r ≠ main_v38) : W12 m ρ c (Proc.devRef .tc r) = W11 m ρ c (Proc.devRef .tc r) := by
  by_cases h0 : r = main_v37
  · subst h0; exact W12_in m ρ c 0 rfl
  by_cases h1 : r = main_v12
  · subst h1; exact W12_in m ρ c 1 rfl
  by_cases h2 : r = main_arg4
  · subst h2; exact W12_in m ρ c 2 rfl
  refine W12_of_ne m ρ c r fun w => ?_
  match w with
  | ⟨0, _⟩ => exact fun e => h0 e.symm
  | ⟨1, _⟩ => exact fun e => h1 e.symm
  | ⟨2, _⟩ => exact fun e => h2 e.symm
  | ⟨3, _⟩ => exact fun e => h e.symm

/-- Region 6 leaves every buffer but its output array `main_v47` as it found it. -/
theorem W14_keep (r : Ref sig .tc) (h : r ≠ main_v47) : W14 m ρ c (Proc.devRef .tc r) = W13 m ρ c (Proc.devRef .tc r) := by
  by_cases h0 : r = main_v46
  · subst h0; exact W14_in m ρ c 0 rfl
  by_cases h1 : r = main_v45
  · subst h1; exact W14_in m ρ c 1 rfl
  refine W14_of_ne m ρ c r fun w => ?_
  match w with
  | ⟨0, _⟩ => exact fun e => h0 e.symm
  | ⟨1, _⟩ => exact fun e => h1 e.symm
  | ⟨2, _⟩ => exact fun e => h e.symm

/-- Region 7 leaves every buffer but its output array `main_v51` as it found it. -/
theorem W16_keep (r : Ref sig .tc) (h : r ≠ main_v51) : W16 m ρ c (Proc.devRef .tc r) = W15 m ρ c (Proc.devRef .tc r) := by
  by_cases h0 : r = main_v50
  · subst h0; exact W16_in m ρ c 0 rfl
  by_cases h1 : r = main_v25
  · subst h1; exact W16_in m ρ c 1 rfl
  by_cases h2 : r = main_arg5
  · subst h2; exact W16_in m ρ c 2 rfl
  refine W16_of_ne m ρ c r fun w => ?_
  match w with
  | ⟨0, _⟩ => exact fun e => h0 e.symm
  | ⟨1, _⟩ => exact fun e => h1 e.symm
  | ⟨2, _⟩ => exact fun e => h2 e.symm
  | ⟨3, _⟩ => exact fun e => h e.symm

/-- Region 8 leaves every buffer but its output array `main_v60` as it found it. -/
theorem W18_keep (r : Ref sig .tc) (h : r ≠ main_v60) : W18 m ρ c (Proc.devRef .tc r) = W17 m ρ c (Proc.devRef .tc r) := by
  by_cases h0 : r = main_v59
  · subst h0; exact W18_in m ρ c 0 rfl
  by_cases h1 : r = main_v58
  · subst h1; exact W18_in m ρ c 1 rfl
  refine W18_of_ne m ρ c r fun w => ?_
  match w with
  | ⟨0, _⟩ => exact fun e => h0 e.symm
  | ⟨1, _⟩ => exact fun e => h1 e.symm
  | ⟨2, _⟩ => exact fun e => h e.symm

/-- Region 9 leaves every buffer but its output array `main_v64` as it found it. -/
theorem W20_keep (r : Ref sig .tc) (h : r ≠ main_v64) : W20 m ρ c (Proc.devRef .tc r) = W19 m ρ c (Proc.devRef .tc r) := by
  by_cases h0 : r = main_v63
  · subst h0; exact W20_in m ρ c 0 rfl
  by_cases h1 : r = main_v38
  · subst h1; exact W20_in m ρ c 1 rfl
  by_cases h2 : r = main_arg4
  · subst h2; exact W20_in m ρ c 2 rfl
  refine W20_of_ne m ρ c r fun w => ?_
  match w with
  | ⟨0, _⟩ => exact fun e => h0 e.symm
  | ⟨1, _⟩ => exact fun e => h1 e.symm
  | ⟨2, _⟩ => exact fun e => h2 e.symm
  | ⟨3, _⟩ => exact fun e => h e.symm

/-- Region 10 leaves every buffer but its output array `main_v73` as it found it. -/
theorem W22_keep (r : Ref sig .tc) (h : r ≠ main_v73) : W22 m ρ c (Proc.devRef .tc r) = W21 m ρ c (Proc.devRef .tc r) := by
  by_cases h0 : r = main_v72
  · subst h0; exact W22_in m ρ c 0 rfl
  by_cases h1 : r = main_v71
  · subst h1; exact W22_in m ρ c 1 rfl
  refine W22_of_ne m ρ c r fun w => ?_
  match w with
  | ⟨0, _⟩ => exact fun e => h0 e.symm
  | ⟨1, _⟩ => exact fun e => h1 e.symm
  | ⟨2, _⟩ => exact fun e => h e.symm

/-- Region 11 leaves every buffer but its output array `main_v77` as it found it. -/
theorem W24_keep (r : Ref sig .tc) (h : r ≠ main_v77) : W24 m ρ c (Proc.devRef .tc r) = W23 m ρ c (Proc.devRef .tc r) := by
  by_cases h0 : r = main_v76
  · subst h0; exact W24_in m ρ c 0 rfl
  by_cases h1 : r = main_v51
  · subst h1; exact W24_in m ρ c 1 rfl
  by_cases h2 : r = main_arg5
  · subst h2; exact W24_in m ρ c 2 rfl
  refine W24_of_ne m ρ c r fun w => ?_
  match w with
  | ⟨0, _⟩ => exact fun e => h0 e.symm
  | ⟨1, _⟩ => exact fun e => h1 e.symm
  | ⟨2, _⟩ => exact fun e => h2 e.symm
  | ⟨3, _⟩ => exact fun e => h e.symm

/-! ## A buffer carried from the stage that wrote it (stage 0: the launch) to a stage that reads it -/

theorem carry_arg6_3 : W3 m ρ c (Proc.devRef .tc main_arg6) = W0 m ρ c (Proc.devRef .tc main_arg6) :=
  (W3_of m ρ c main_arg6 (by decide)).trans <| (W2_keep m ρ c main_arg6 (by decide)).trans <| (W1_of m ρ c main_arg6 (by decide))

theorem carry_arg4_3 : W3 m ρ c (Proc.devRef .tc main_arg4) = W0 m ρ c (Proc.devRef .tc main_arg4) :=
  (W3_of m ρ c main_arg4 (by decide)).trans <| (W2_keep m ρ c main_arg4 (by decide)).trans <| (W1_of m ρ c main_arg4 (by decide))

theorem carry_arg0_2 : W2 m ρ c (Proc.devRef .tc main_arg0) = W0 m ρ c (Proc.devRef .tc main_arg0) :=
  (W2_keep m ρ c main_arg0 (by decide)).trans <| (W1_of m ρ c main_arg0 (by decide))

theorem carry_arg7_7 : W7 m ρ c (Proc.devRef .tc main_arg7) = W0 m ρ c (Proc.devRef .tc main_arg7) :=
  (W7_of m ρ c main_arg7 (by decide)).trans <| (W6_keep m ρ c main_arg7 (by decide)).trans <| (W5_of m ρ c main_arg7 (by decide)).trans <| (W4_keep m ρ c main_arg7 (by decide)).trans <| (W3_of m ρ c main_arg7 (by decide)).trans <| (W2_keep m ρ c main_arg7 (by decide)).trans <| (W1_of m ρ c main_arg7 (by decide))

theorem carry_arg5_7 : W7 m ρ c (Proc.devRef .tc main_arg5) = W0 m ρ c (Proc.devRef .tc main_arg5) :=
  (W7_of m ρ c main_arg5 (by decide)).trans <| (W6_keep m ρ c main_arg5 (by decide)).trans <| (W5_of m ρ c main_arg5 (by decide)).trans <| (W4_keep m ρ c main_arg5 (by decide)).trans <| (W3_of m ρ c main_arg5 (by decide)).trans <| (W2_keep m ρ c main_arg5 (by decide)).trans <| (W1_of m ρ c main_arg5 (by decide))

theorem carry_arg1_6 : W6 m ρ c (Proc.devRef .tc main_arg1) = W0 m ρ c (Proc.devRef .tc main_arg1) :=
  (W6_keep m ρ c main_arg1 (by decide)).trans <| (W5_of m ρ c main_arg1 (by decide)).trans <| (W4_keep m ρ c main_arg1 (by decide)).trans <| (W3_of m ρ c main_arg1 (by decide)).trans <| (W2_keep m ρ c main_arg1 (by decide)).trans <| (W1_of m ρ c main_arg1 (by decide))

theorem carry_arg3_4 : W4 m ρ c (Proc.devRef .tc main_arg3) = W0 m ρ c (Proc.devRef .tc main_arg3) :=
  (W4_keep m ρ c main_arg3 (by decide)).trans <| (W3_of m ρ c main_arg3 (by decide)).trans <| (W2_keep m ρ c main_arg3 (by decide)).trans <| (W1_of m ρ c main_arg3 (by decide))

theorem carry_arg6_4 : W4 m ρ c (Proc.devRef .tc main_arg6) = W0 m ρ c (Proc.devRef .tc main_arg6) :=
  (W4_keep m ρ c main_arg6 (by decide)).trans <| (W3_of m ρ c main_arg6 (by decide)).trans <| (W2_keep m ρ c main_arg6 (by decide)).trans <| (W1_of m ρ c main_arg6 (by decide))

theorem carry_arg0_4 : W4 m ρ c (Proc.devRef .tc main_arg0) = W0 m ρ c (Proc.devRef .tc main_arg0) :=
  (W4_keep m ρ c main_arg0 (by decide)).trans <| (W3_of m ρ c main_arg0 (by decide)).trans <| (W2_keep m ρ c main_arg0 (by decide)).trans <| (W1_of m ρ c main_arg0 (by decide))

theorem carry_v12_11 : W11 m ρ c (Proc.devRef .tc main_v12) = W4 m ρ c (Proc.devRef .tc main_v12) :=
  (W11_of m ρ c main_v12 (by decide)).trans <| (W10_keep m ρ c main_v12 (by decide)).trans <| (W9_of m ρ c main_v12 (by decide)).trans <| (W8_keep m ρ c main_v12 (by decide)).trans <| (W7_of m ρ c main_v12 (by decide)).trans <| (W6_keep m ρ c main_v12 (by decide)).trans <| (W5_of m ρ c main_v12 (by decide))

theorem carry_arg4_11 : W11 m ρ c (Proc.devRef .tc main_arg4) = W0 m ρ c (Proc.devRef .tc main_arg4) :=
  (W11_of m ρ c main_arg4 (by decide)).trans <| (W10_keep m ρ c main_arg4 (by decide)).trans <| (W9_of m ρ c main_arg4 (by decide)).trans <| (W8_keep m ρ c main_arg4 (by decide)).trans <| (W7_of m ρ c main_arg4 (by decide)).trans <| (W6_keep m ρ c main_arg4 (by decide)).trans <| (W5_of m ρ c main_arg4 (by decide)).trans <| (W4_keep m ρ c main_arg4 (by decide)).trans <| (W3_of m ρ c main_arg4 (by decide)).trans <| (W2_keep m ρ c main_arg4 (by decide)).trans <| (W1_of m ρ c main_arg4 (by decide))

theorem carry_arg0_10 : W10 m ρ c (Proc.devRef .tc main_arg0) = W0 m ρ c (Proc.devRef .tc main_arg0) :=
  (W10_keep m ρ c main_arg0 (by decide)).trans <| (W9_of m ρ c main_arg0 (by decide)).trans <| (W8_keep m ρ c main_arg0 (by decide)).trans <| (W7_of m ρ c main_arg0 (by decide)).trans <| (W6_keep m ρ c main_arg0 (by decide)).trans <| (W5_of m ρ c main_arg0 (by decide)).trans <| (W4_keep m ρ c main_arg0 (by decide)).trans <| (W3_of m ρ c main_arg0 (by decide)).trans <| (W2_keep m ρ c main_arg0 (by decide)).trans <| (W1_of m ρ c main_arg0 (by decide))

theorem carry_arg2_8 : W8 m ρ c (Proc.devRef .tc main_arg2) = W0 m ρ c (Proc.devRef .tc main_arg2) :=
  (W8_keep m ρ c main_arg2 (by decide)).trans <| (W7_of m ρ c main_arg2 (by decide)).trans <| (W6_keep m ρ c main_arg2 (by decide)).trans <| (W5_of m ρ c main_arg2 (by decide)).trans <| (W4_keep m ρ c main_arg2 (by decide)).trans <| (W3_of m ρ c main_arg2 (by decide)).trans <| (W2_keep m ρ c main_arg2 (by decide)).trans <| (W1_of m ρ c main_arg2 (by decide))

theorem carry_arg1_8 : W8 m ρ c (Proc.devRef .tc main_arg1) = W0 m ρ c (Proc.devRef .tc main_arg1) :=
  (W8_keep m ρ c main_arg1 (by decide)).trans <| (W7_of m ρ c main_arg1 (by decide)).trans <| (W6_keep m ρ c main_arg1 (by decide)).trans <| (W5_of m ρ c main_arg1 (by decide)).trans <| (W4_keep m ρ c main_arg1 (by decide)).trans <| (W3_of m ρ c main_arg1 (by decide)).trans <| (W2_keep m ρ c main_arg1 (by decide)).trans <| (W1_of m ρ c main_arg1 (by decide))

theorem carry_v25_15 : W15 m ρ c (Proc.devRef .tc main_v25) = W8 m ρ c (Proc.devRef .tc main_v25) :=
  (W15_of m ρ c main_v25 (by decide)).trans <| (W14_keep m ρ c main_v25 (by decide)).trans <| (W13_of m ρ c main_v25 (by decide)).trans <| (W12_keep m ρ c main_v25 (by decide)).trans <| (W11_of m ρ c main_v25 (by decide)).trans <| (W10_keep m ρ c main_v25 (by decide)).trans <| (W9_of m ρ c main_v25 (by decide))

theorem carry_arg5_15 : W15 m ρ c (Proc.devRef .tc main_arg5) = W0 m ρ c (Proc.devRef .tc main_arg5) :=
  (W15_of m ρ c main_arg5 (by decide)).trans <| (W14_keep m ρ c main_arg5 (by decide)).trans <| (W13_of m ρ c main_arg5 (by decide)).trans <| (W12_keep m ρ c main_arg5 (by decide)).trans <| (W11_of m ρ c main_arg5 (by decide)).trans <| (W10_keep m ρ c main_arg5 (by decide)).trans <| (W9_of m ρ c main_arg5 (by decide)).trans <| (W8_keep m ρ c main_arg5 (by decide)).trans <| (W7_of m ρ c main_arg5 (by decide)).trans <| (W6_keep m ρ c main_arg5 (by decide)).trans <| (W5_of m ρ c main_arg5 (by decide)).trans <| (W4_keep m ρ c main_arg5 (by decide)).trans <| (W3_of m ρ c main_arg5 (by decide)).trans <| (W2_keep m ρ c main_arg5 (by decide)).trans <| (W1_of m ρ c main_arg5 (by decide))

theorem carry_arg1_14 : W14 m ρ c (Proc.devRef .tc main_arg1) = W0 m ρ c (Proc.devRef .tc main_arg1) :=
  (W14_keep m ρ c main_arg1 (by decide)).trans <| (W13_of m ρ c main_arg1 (by decide)).trans <| (W12_keep m ρ c main_arg1 (by decide)).trans <| (W11_of m ρ c main_arg1 (by decide)).trans <| (W10_keep m ρ c main_arg1 (by decide)).trans <| (W9_of m ρ c main_arg1 (by decide)).trans <| (W8_keep m ρ c main_arg1 (by decide)).trans <| (W7_of m ρ c main_arg1 (by decide)).trans <| (W6_keep m ρ c main_arg1 (by decide)).trans <| (W5_of m ρ c main_arg1 (by decide)).trans <| (W4_keep m ρ c main_arg1 (by decide)).trans <| (W3_of m ρ c main_arg1 (by decide)).trans <| (W2_keep m ρ c main_arg1 (by decide)).trans <| (W1_of m ρ c main_arg1 (by decide))

theorem carry_arg3_12 : W12 m ρ c (Proc.devRef .tc main_arg3) = W0 m ρ c (Proc.devRef .tc main_arg3) :=
  (W12_keep m ρ c main_arg3 (by decide)).trans <| (W11_of m ρ c main_arg3 (by decide)).trans <| (W10_keep m ρ c main_arg3 (by decide)).trans <| (W9_of m ρ c main_arg3 (by decide)).trans <| (W8_keep m ρ c main_arg3 (by decide)).trans <| (W7_of m ρ c main_arg3 (by decide)).trans <| (W6_keep m ρ c main_arg3 (by decide)).trans <| (W5_of m ρ c main_arg3 (by decide)).trans <| (W4_keep m ρ c main_arg3 (by decide)).trans <| (W3_of m ρ c main_arg3 (by decide)).trans <| (W2_keep m ρ c main_arg3 (by decide)).trans <| (W1_of m ρ c main_arg3 (by decide))

theorem carry_v12_12 : W12 m ρ c (Proc.devRef .tc main_v12) = W4 m ρ c (Proc.devRef .tc main_v12) :=
  (W12_keep m ρ c main_v12 (by decide)).trans <| (W11_of m ρ c main_v12 (by decide)).trans <| (W10_keep m ρ c main_v12 (by decide)).trans <| (W9_of m ρ c main_v12 (by decide)).trans <| (W8_keep m ρ c main_v12 (by decide)).trans <| (W7_of m ρ c main_v12 (by decide)).trans <| (W6_keep m ρ c main_v12 (by decide)).trans <| (W5_of m ρ c main_v12 (by decide))

theorem carry_arg0_12 : W12 m ρ c (Proc.devRef .tc main_arg0) = W0 m ρ c (Proc.devRef .tc main_arg0) :=
  (W12_keep m ρ c main_arg0 (by decide)).trans <| (W11_of m ρ c main_arg0 (by decide)).trans <| (W10_keep m ρ c main_arg0 (by decide)).trans <| (W9_of m ρ c main_arg0 (by decide)).trans <| (W8_keep m ρ c main_arg0 (by decide)).trans <| (W7_of m ρ c main_arg0 (by decide)).trans <| (W6_keep m ρ c main_arg0 (by decide)).trans <| (W5_of m ρ c main_arg0 (by decide)).trans <| (W4_keep m ρ c main_arg0 (by decide)).trans <| (W3_of m ρ c main_arg0 (by decide)).trans <| (W2_keep m ρ c main_arg0 (by decide)).trans <| (W1_of m ρ c main_arg0 (by decide))

theorem carry_v38_19 : W19 m ρ c (Proc.devRef .tc main_v38) = W12 m ρ c (Proc.devRef .tc main_v38) :=
  (W19_of m ρ c main_v38 (by decide)).trans <| (W18_keep m ρ c main_v38 (by decide)).trans <| (W17_of m ρ c main_v38 (by decide)).trans <| (W16_keep m ρ c main_v38 (by decide)).trans <| (W15_of m ρ c main_v38 (by decide)).trans <| (W14_keep m ρ c main_v38 (by decide)).trans <| (W13_of m ρ c main_v38 (by decide))

theorem carry_arg4_19 : W19 m ρ c (Proc.devRef .tc main_arg4) = W0 m ρ c (Proc.devRef .tc main_arg4) :=
  (W19_of m ρ c main_arg4 (by decide)).trans <| (W18_keep m ρ c main_arg4 (by decide)).trans <| (W17_of m ρ c main_arg4 (by decide)).trans <| (W16_keep m ρ c main_arg4 (by decide)).trans <| (W15_of m ρ c main_arg4 (by decide)).trans <| (W14_keep m ρ c main_arg4 (by decide)).trans <| (W13_of m ρ c main_arg4 (by decide)).trans <| (W12_keep m ρ c main_arg4 (by decide)).trans <| (W11_of m ρ c main_arg4 (by decide)).trans <| (W10_keep m ρ c main_arg4 (by decide)).trans <| (W9_of m ρ c main_arg4 (by decide)).trans <| (W8_keep m ρ c main_arg4 (by decide)).trans <| (W7_of m ρ c main_arg4 (by decide)).trans <| (W6_keep m ρ c main_arg4 (by decide)).trans <| (W5_of m ρ c main_arg4 (by decide)).trans <| (W4_keep m ρ c main_arg4 (by decide)).trans <| (W3_of m ρ c main_arg4 (by decide)).trans <| (W2_keep m ρ c main_arg4 (by decide)).trans <| (W1_of m ρ c main_arg4 (by decide))

theorem carry_arg0_18 : W18 m ρ c (Proc.devRef .tc main_arg0) = W0 m ρ c (Proc.devRef .tc main_arg0) :=
  (W18_keep m ρ c main_arg0 (by decide)).trans <| (W17_of m ρ c main_arg0 (by decide)).trans <| (W16_keep m ρ c main_arg0 (by decide)).trans <| (W15_of m ρ c main_arg0 (by decide)).trans <| (W14_keep m ρ c main_arg0 (by decide)).trans <| (W13_of m ρ c main_arg0 (by decide)).trans <| (W12_keep m ρ c main_arg0 (by decide)).trans <| (W11_of m ρ c main_arg0 (by decide)).trans <| (W10_keep m ρ c main_arg0 (by decide)).trans <| (W9_of m ρ c main_arg0 (by decide)).trans <| (W8_keep m ρ c main_arg0 (by decide)).trans <| (W7_of m ρ c main_arg0 (by decide)).trans <| (W6_keep m ρ c main_arg0 (by decide)).trans <| (W5_of m ρ c main_arg0 (by decide)).trans <| (W4_keep m ρ c main_arg0 (by decide)).trans <| (W3_of m ρ c main_arg0 (by decide)).trans <| (W2_keep m ρ c main_arg0 (by decide)).trans <| (W1_of m ρ c main_arg0 (by decide))

theorem carry_arg2_16 : W16 m ρ c (Proc.devRef .tc main_arg2) = W0 m ρ c (Proc.devRef .tc main_arg2) :=
  (W16_keep m ρ c main_arg2 (by decide)).trans <| (W15_of m ρ c main_arg2 (by decide)).trans <| (W14_keep m ρ c main_arg2 (by decide)).trans <| (W13_of m ρ c main_arg2 (by decide)).trans <| (W12_keep m ρ c main_arg2 (by decide)).trans <| (W11_of m ρ c main_arg2 (by decide)).trans <| (W10_keep m ρ c main_arg2 (by decide)).trans <| (W9_of m ρ c main_arg2 (by decide)).trans <| (W8_keep m ρ c main_arg2 (by decide)).trans <| (W7_of m ρ c main_arg2 (by decide)).trans <| (W6_keep m ρ c main_arg2 (by decide)).trans <| (W5_of m ρ c main_arg2 (by decide)).trans <| (W4_keep m ρ c main_arg2 (by decide)).trans <| (W3_of m ρ c main_arg2 (by decide)).trans <| (W2_keep m ρ c main_arg2 (by decide)).trans <| (W1_of m ρ c main_arg2 (by decide))

theorem carry_arg1_16 : W16 m ρ c (Proc.devRef .tc main_arg1) = W0 m ρ c (Proc.devRef .tc main_arg1) :=
  (W16_keep m ρ c main_arg1 (by decide)).trans <| (W15_of m ρ c main_arg1 (by decide)).trans <| (W14_keep m ρ c main_arg1 (by decide)).trans <| (W13_of m ρ c main_arg1 (by decide)).trans <| (W12_keep m ρ c main_arg1 (by decide)).trans <| (W11_of m ρ c main_arg1 (by decide)).trans <| (W10_keep m ρ c main_arg1 (by decide)).trans <| (W9_of m ρ c main_arg1 (by decide)).trans <| (W8_keep m ρ c main_arg1 (by decide)).trans <| (W7_of m ρ c main_arg1 (by decide)).trans <| (W6_keep m ρ c main_arg1 (by decide)).trans <| (W5_of m ρ c main_arg1 (by decide)).trans <| (W4_keep m ρ c main_arg1 (by decide)).trans <| (W3_of m ρ c main_arg1 (by decide)).trans <| (W2_keep m ρ c main_arg1 (by decide)).trans <| (W1_of m ρ c main_arg1 (by decide))

theorem carry_v51_23 : W23 m ρ c (Proc.devRef .tc main_v51) = W16 m ρ c (Proc.devRef .tc main_v51) :=
  (W23_of m ρ c main_v51 (by decide)).trans <| (W22_keep m ρ c main_v51 (by decide)).trans <| (W21_of m ρ c main_v51 (by decide)).trans <| (W20_keep m ρ c main_v51 (by decide)).trans <| (W19_of m ρ c main_v51 (by decide)).trans <| (W18_keep m ρ c main_v51 (by decide)).trans <| (W17_of m ρ c main_v51 (by decide))

theorem carry_arg5_23 : W23 m ρ c (Proc.devRef .tc main_arg5) = W0 m ρ c (Proc.devRef .tc main_arg5) :=
  (W23_of m ρ c main_arg5 (by decide)).trans <| (W22_keep m ρ c main_arg5 (by decide)).trans <| (W21_of m ρ c main_arg5 (by decide)).trans <| (W20_keep m ρ c main_arg5 (by decide)).trans <| (W19_of m ρ c main_arg5 (by decide)).trans <| (W18_keep m ρ c main_arg5 (by decide)).trans <| (W17_of m ρ c main_arg5 (by decide)).trans <| (W16_keep m ρ c main_arg5 (by decide)).trans <| (W15_of m ρ c main_arg5 (by decide)).trans <| (W14_keep m ρ c main_arg5 (by decide)).trans <| (W13_of m ρ c main_arg5 (by decide)).trans <| (W12_keep m ρ c main_arg5 (by decide)).trans <| (W11_of m ρ c main_arg5 (by decide)).trans <| (W10_keep m ρ c main_arg5 (by decide)).trans <| (W9_of m ρ c main_arg5 (by decide)).trans <| (W8_keep m ρ c main_arg5 (by decide)).trans <| (W7_of m ρ c main_arg5 (by decide)).trans <| (W6_keep m ρ c main_arg5 (by decide)).trans <| (W5_of m ρ c main_arg5 (by decide)).trans <| (W4_keep m ρ c main_arg5 (by decide)).trans <| (W3_of m ρ c main_arg5 (by decide)).trans <| (W2_keep m ρ c main_arg5 (by decide)).trans <| (W1_of m ρ c main_arg5 (by decide))

theorem carry_arg1_22 : W22 m ρ c (Proc.devRef .tc main_arg1) = W0 m ρ c (Proc.devRef .tc main_arg1) :=
  (W22_keep m ρ c main_arg1 (by decide)).trans <| (W21_of m ρ c main_arg1 (by decide)).trans <| (W20_keep m ρ c main_arg1 (by decide)).trans <| (W19_of m ρ c main_arg1 (by decide)).trans <| (W18_keep m ρ c main_arg1 (by decide)).trans <| (W17_of m ρ c main_arg1 (by decide)).trans <| (W16_keep m ρ c main_arg1 (by decide)).trans <| (W15_of m ρ c main_arg1 (by decide)).trans <| (W14_keep m ρ c main_arg1 (by decide)).trans <| (W13_of m ρ c main_arg1 (by decide)).trans <| (W12_keep m ρ c main_arg1 (by decide)).trans <| (W11_of m ρ c main_arg1 (by decide)).trans <| (W10_keep m ρ c main_arg1 (by decide)).trans <| (W9_of m ρ c main_arg1 (by decide)).trans <| (W8_keep m ρ c main_arg1 (by decide)).trans <| (W7_of m ρ c main_arg1 (by decide)).trans <| (W6_keep m ρ c main_arg1 (by decide)).trans <| (W5_of m ρ c main_arg1 (by decide)).trans <| (W4_keep m ρ c main_arg1 (by decide)).trans <| (W3_of m ρ c main_arg1 (by decide)).trans <| (W2_keep m ρ c main_arg1 (by decide)).trans <| (W1_of m ρ c main_arg1 (by decide))

theorem carry_arg3_20 : W20 m ρ c (Proc.devRef .tc main_arg3) = W0 m ρ c (Proc.devRef .tc main_arg3) :=
  (W20_keep m ρ c main_arg3 (by decide)).trans <| (W19_of m ρ c main_arg3 (by decide)).trans <| (W18_keep m ρ c main_arg3 (by decide)).trans <| (W17_of m ρ c main_arg3 (by decide)).trans <| (W16_keep m ρ c main_arg3 (by decide)).trans <| (W15_of m ρ c main_arg3 (by decide)).trans <| (W14_keep m ρ c main_arg3 (by decide)).trans <| (W13_of m ρ c main_arg3 (by decide)).trans <| (W12_keep m ρ c main_arg3 (by decide)).trans <| (W11_of m ρ c main_arg3 (by decide)).trans <| (W10_keep m ρ c main_arg3 (by decide)).trans <| (W9_of m ρ c main_arg3 (by decide)).trans <| (W8_keep m ρ c main_arg3 (by decide)).trans <| (W7_of m ρ c main_arg3 (by decide)).trans <| (W6_keep m ρ c main_arg3 (by decide)).trans <| (W5_of m ρ c main_arg3 (by decide)).trans <| (W4_keep m ρ c main_arg3 (by decide)).trans <| (W3_of m ρ c main_arg3 (by decide)).trans <| (W2_keep m ρ c main_arg3 (by decide)).trans <| (W1_of m ρ c main_arg3 (by decide))

theorem carry_v38_20 : W20 m ρ c (Proc.devRef .tc main_v38) = W12 m ρ c (Proc.devRef .tc main_v38) :=
  (W20_keep m ρ c main_v38 (by decide)).trans <| (W19_of m ρ c main_v38 (by decide)).trans <| (W18_keep m ρ c main_v38 (by decide)).trans <| (W17_of m ρ c main_v38 (by decide)).trans <| (W16_keep m ρ c main_v38 (by decide)).trans <| (W15_of m ρ c main_v38 (by decide)).trans <| (W14_keep m ρ c main_v38 (by decide)).trans <| (W13_of m ρ c main_v38 (by decide))

theorem carry_arg0_20 : W20 m ρ c (Proc.devRef .tc main_arg0) = W0 m ρ c (Proc.devRef .tc main_arg0) :=
  (W20_keep m ρ c main_arg0 (by decide)).trans <| (W19_of m ρ c main_arg0 (by decide)).trans <| (W18_keep m ρ c main_arg0 (by decide)).trans <| (W17_of m ρ c main_arg0 (by decide)).trans <| (W16_keep m ρ c main_arg0 (by decide)).trans <| (W15_of m ρ c main_arg0 (by decide)).trans <| (W14_keep m ρ c main_arg0 (by decide)).trans <| (W13_of m ρ c main_arg0 (by decide)).trans <| (W12_keep m ρ c main_arg0 (by decide)).trans <| (W11_of m ρ c main_arg0 (by decide)).trans <| (W10_keep m ρ c main_arg0 (by decide)).trans <| (W9_of m ρ c main_arg0 (by decide)).trans <| (W8_keep m ρ c main_arg0 (by decide)).trans <| (W7_of m ρ c main_arg0 (by decide)).trans <| (W6_keep m ρ c main_arg0 (by decide)).trans <| (W5_of m ρ c main_arg0 (by decide)).trans <| (W4_keep m ρ c main_arg0 (by decide)).trans <| (W3_of m ρ c main_arg0 (by decide)).trans <| (W2_keep m ρ c main_arg0 (by decide)).trans <| (W1_of m ρ c main_arg0 (by decide))

theorem carry_arg6_24 : W24 m ρ c (Proc.devRef .tc main_arg6) = W0 m ρ c (Proc.devRef .tc main_arg6) :=
  (W24_keep m ρ c main_arg6 (by decide)).trans <| (W23_of m ρ c main_arg6 (by decide)).trans <| (W22_keep m ρ c main_arg6 (by decide)).trans <| (W21_of m ρ c main_arg6 (by decide)).trans <| (W20_keep m ρ c main_arg6 (by decide)).trans <| (W19_of m ρ c main_arg6 (by decide)).trans <| (W18_keep m ρ c main_arg6 (by decide)).trans <| (W17_of m ρ c main_arg6 (by decide)).trans <| (W16_keep m ρ c main_arg6 (by decide)).trans <| (W15_of m ρ c main_arg6 (by decide)).trans <| (W14_keep m ρ c main_arg6 (by decide)).trans <| (W13_of m ρ c main_arg6 (by decide)).trans <| (W12_keep m ρ c main_arg6 (by decide)).trans <| (W11_of m ρ c main_arg6 (by decide)).trans <| (W10_keep m ρ c main_arg6 (by decide)).trans <| (W9_of m ρ c main_arg6 (by decide)).trans <| (W8_keep m ρ c main_arg6 (by decide)).trans <| (W7_of m ρ c main_arg6 (by decide)).trans <| (W6_keep m ρ c main_arg6 (by decide)).trans <| (W5_of m ρ c main_arg6 (by decide)).trans <| (W4_keep m ρ c main_arg6 (by decide)).trans <| (W3_of m ρ c main_arg6 (by decide)).trans <| (W2_keep m ρ c main_arg6 (by decide)).trans <| (W1_of m ρ c main_arg6 (by decide))

theorem carry_v12_24 : W24 m ρ c (Proc.devRef .tc main_v12) = W4 m ρ c (Proc.devRef .tc main_v12) :=
  (W24_keep m ρ c main_v12 (by decide)).trans <| (W23_of m ρ c main_v12 (by decide)).trans <| (W22_keep m ρ c main_v12 (by decide)).trans <| (W21_of m ρ c main_v12 (by decide)).trans <| (W20_keep m ρ c main_v12 (by decide)).trans <| (W19_of m ρ c main_v12 (by decide)).trans <| (W18_keep m ρ c main_v12 (by decide)).trans <| (W17_of m ρ c main_v12 (by decide)).trans <| (W16_keep m ρ c main_v12 (by decide)).trans <| (W15_of m ρ c main_v12 (by decide)).trans <| (W14_keep m ρ c main_v12 (by decide)).trans <| (W13_of m ρ c main_v12 (by decide)).trans <| (W12_keep m ρ c main_v12 (by decide)).trans <| (W11_of m ρ c main_v12 (by decide)).trans <| (W10_keep m ρ c main_v12 (by decide)).trans <| (W9_of m ρ c main_v12 (by decide)).trans <| (W8_keep m ρ c main_v12 (by decide)).trans <| (W7_of m ρ c main_v12 (by decide)).trans <| (W6_keep m ρ c main_v12 (by decide)).trans <| (W5_of m ρ c main_v12 (by decide))

theorem carry_v38_24 : W24 m ρ c (Proc.devRef .tc main_v38) = W12 m ρ c (Proc.devRef .tc main_v38) :=
  (W24_keep m ρ c main_v38 (by decide)).trans <| (W23_of m ρ c main_v38 (by decide)).trans <| (W22_keep m ρ c main_v38 (by decide)).trans <| (W21_of m ρ c main_v38 (by decide)).trans <| (W20_keep m ρ c main_v38 (by decide)).trans <| (W19_of m ρ c main_v38 (by decide)).trans <| (W18_keep m ρ c main_v38 (by decide)).trans <| (W17_of m ρ c main_v38 (by decide)).trans <| (W16_keep m ρ c main_v38 (by decide)).trans <| (W15_of m ρ c main_v38 (by decide)).trans <| (W14_keep m ρ c main_v38 (by decide)).trans <| (W13_of m ρ c main_v38 (by decide))

theorem carry_v64_24 : W24 m ρ c (Proc.devRef .tc main_v64) = W20 m ρ c (Proc.devRef .tc main_v64) :=
  (W24_keep m ρ c main_v64 (by decide)).trans <| (W23_of m ρ c main_v64 (by decide)).trans <| (W22_keep m ρ c main_v64 (by decide)).trans <| (W21_of m ρ c main_v64 (by decide))

theorem carry_arg7_24 : W24 m ρ c (Proc.devRef .tc main_arg7) = W0 m ρ c (Proc.devRef .tc main_arg7) :=
  (W24_keep m ρ c main_arg7 (by decide)).trans <| (W23_of m ρ c main_arg7 (by decide)).trans <| (W22_keep m ρ c main_arg7 (by decide)).trans <| (W21_of m ρ c main_arg7 (by decide)).trans <| (W20_keep m ρ c main_arg7 (by decide)).trans <| (W19_of m ρ c main_arg7 (by decide)).trans <| (W18_keep m ρ c main_arg7 (by decide)).trans <| (W17_of m ρ c main_arg7 (by decide)).trans <| (W16_keep m ρ c main_arg7 (by decide)).trans <| (W15_of m ρ c main_arg7 (by decide)).trans <| (W14_keep m ρ c main_arg7 (by decide)).trans <| (W13_of m ρ c main_arg7 (by decide)).trans <| (W12_keep m ρ c main_arg7 (by decide)).trans <| (W11_of m ρ c main_arg7 (by decide)).trans <| (W10_keep m ρ c main_arg7 (by decide)).trans <| (W9_of m ρ c main_arg7 (by decide)).trans <| (W8_keep m ρ c main_arg7 (by decide)).trans <| (W7_of m ρ c main_arg7 (by decide)).trans <| (W6_keep m ρ c main_arg7 (by decide)).trans <| (W5_of m ρ c main_arg7 (by decide)).trans <| (W4_keep m ρ c main_arg7 (by decide)).trans <| (W3_of m ρ c main_arg7 (by decide)).trans <| (W2_keep m ρ c main_arg7 (by decide)).trans <| (W1_of m ρ c main_arg7 (by decide))

theorem carry_v25_24 : W24 m ρ c (Proc.devRef .tc main_v25) = W8 m ρ c (Proc.devRef .tc main_v25) :=
  (W24_keep m ρ c main_v25 (by decide)).trans <| (W23_of m ρ c main_v25 (by decide)).trans <| (W22_keep m ρ c main_v25 (by decide)).trans <| (W21_of m ρ c main_v25 (by decide)).trans <| (W20_keep m ρ c main_v25 (by decide)).trans <| (W19_of m ρ c main_v25 (by decide)).trans <| (W18_keep m ρ c main_v25 (by decide)).trans <| (W17_of m ρ c main_v25 (by decide)).trans <| (W16_keep m ρ c main_v25 (by decide)).trans <| (W15_of m ρ c main_v25 (by decide)).trans <| (W14_keep m ρ c main_v25 (by decide)).trans <| (W13_of m ρ c main_v25 (by decide)).trans <| (W12_keep m ρ c main_v25 (by decide)).trans <| (W11_of m ρ c main_v25 (by decide)).trans <| (W10_keep m ρ c main_v25 (by decide)).trans <| (W9_of m ρ c main_v25 (by decide))

theorem carry_v51_24 : W24 m ρ c (Proc.devRef .tc main_v51) = W16 m ρ c (Proc.devRef .tc main_v51) :=
  (W24_keep m ρ c main_v51 (by decide)).trans <| (W23_of m ρ c main_v51 (by decide)).trans <| (W22_keep m ρ c main_v51 (by decide)).trans <| (W21_of m ρ c main_v51 (by decide)).trans <| (W20_keep m ρ c main_v51 (by decide)).trans <| (W19_of m ρ c main_v51 (by decide)).trans <| (W18_keep m ρ c main_v51 (by decide)).trans <| (W17_of m ρ c main_v51 (by decide))

theorem carry_arg8_24 : W24 m ρ c (Proc.devRef .tc main_arg8) = W0 m ρ c (Proc.devRef .tc main_arg8) :=
  (W24_keep m ρ c main_arg8 (by decide)).trans <| (W23_of m ρ c main_arg8 (by decide)).trans <| (W22_keep m ρ c main_arg8 (by decide)).trans <| (W21_of m ρ c main_arg8 (by decide)).trans <| (W20_keep m ρ c main_arg8 (by decide)).trans <| (W19_of m ρ c main_arg8 (by decide)).trans <| (W18_keep m ρ c main_arg8 (by decide)).trans <| (W17_of m ρ c main_arg8 (by decide)).trans <| (W16_keep m ρ c main_arg8 (by decide)).trans <| (W15_of m ρ c main_arg8 (by decide)).trans <| (W14_keep m ρ c main_arg8 (by decide)).trans <| (W13_of m ρ c main_arg8 (by decide)).trans <| (W12_keep m ρ c main_arg8 (by decide)).trans <| (W11_of m ρ c main_arg8 (by decide)).trans <| (W10_keep m ρ c main_arg8 (by decide)).trans <| (W9_of m ρ c main_arg8 (by decide)).trans <| (W8_keep m ρ c main_arg8 (by decide)).trans <| (W7_of m ρ c main_arg8 (by decide)).trans <| (W6_keep m ρ c main_arg8 (by decide)).trans <| (W5_of m ρ c main_arg8 (by decide)).trans <| (W4_keep m ρ c main_arg8 (by decide)).trans <| (W3_of m ρ c main_arg8 (by decide)).trans <| (W2_keep m ρ c main_arg8 (by decide)).trans <| (W1_of m ρ c main_arg8 (by decide))

theorem carry_arg9_24 : W24 m ρ c (Proc.devRef .tc main_arg9) = W0 m ρ c (Proc.devRef .tc main_arg9) :=
  (W24_keep m ρ c main_arg9 (by decide)).trans <| (W23_of m ρ c main_arg9 (by decide)).trans <| (W22_keep m ρ c main_arg9 (by decide)).trans <| (W21_of m ρ c main_arg9 (by decide)).trans <| (W20_keep m ρ c main_arg9 (by decide)).trans <| (W19_of m ρ c main_arg9 (by decide)).trans <| (W18_keep m ρ c main_arg9 (by decide)).trans <| (W17_of m ρ c main_arg9 (by decide)).trans <| (W16_keep m ρ c main_arg9 (by decide)).trans <| (W15_of m ρ c main_arg9 (by decide)).trans <| (W14_keep m ρ c main_arg9 (by decide)).trans <| (W13_of m ρ c main_arg9 (by decide)).trans <| (W12_keep m ρ c main_arg9 (by decide)).trans <| (W11_of m ρ c main_arg9 (by decide)).trans <| (W10_keep m ρ c main_arg9 (by decide)).trans <| (W9_of m ρ c main_arg9 (by decide)).trans <| (W8_keep m ρ c main_arg9 (by decide)).trans <| (W7_of m ρ c main_arg9 (by decide)).trans <| (W6_keep m ρ c main_arg9 (by decide)).trans <| (W5_of m ρ c main_arg9 (by decide)).trans <| (W4_keep m ρ c main_arg9 (by decide)).trans <| (W3_of m ρ c main_arg9 (by decide)).trans <| (W2_keep m ρ c main_arg9 (by decide)).trans <| (W1_of m ρ c main_arg9 (by decide))

theorem carry_arg10_24 : W24 m ρ c (Proc.devRef .tc main_arg10) = W0 m ρ c (Proc.devRef .tc main_arg10) :=
  (W24_keep m ρ c main_arg10 (by decide)).trans <| (W23_of m ρ c main_arg10 (by decide)).trans <| (W22_keep m ρ c main_arg10 (by decide)).trans <| (W21_of m ρ c main_arg10 (by decide)).trans <| (W20_keep m ρ c main_arg10 (by decide)).trans <| (W19_of m ρ c main_arg10 (by decide)).trans <| (W18_keep m ρ c main_arg10 (by decide)).trans <| (W17_of m ρ c main_arg10 (by decide)).trans <| (W16_keep m ρ c main_arg10 (by decide)).trans <| (W15_of m ρ c main_arg10 (by decide)).trans <| (W14_keep m ρ c main_arg10 (by decide)).trans <| (W13_of m ρ c main_arg10 (by decide)).trans <| (W12_keep m ρ c main_arg10 (by decide)).trans <| (W11_of m ρ c main_arg10 (by decide)).trans <| (W10_keep m ρ c main_arg10 (by decide)).trans <| (W9_of m ρ c main_arg10 (by decide)).trans <| (W8_keep m ρ c main_arg10 (by decide)).trans <| (W7_of m ρ c main_arg10 (by decide)).trans <| (W6_keep m ρ c main_arg10 (by decide)).trans <| (W5_of m ρ c main_arg10 (by decide)).trans <| (W4_keep m ρ c main_arg10 (by decide)).trans <| (W3_of m ρ c main_arg10 (by decide)).trans <| (W2_keep m ρ c main_arg10 (by decide)).trans <| (W1_of m ρ c main_arg10 (by decide))

end Cert.KernelIdeal.Hand

end
-- ==== Proof.LibColumnLayouts.lean ====
/-
  Casts and broadcasts through a TRAILING unit axis, read at an index written by coordinates.

  A reduction that keeps its dimension, or a per-row scalar spread along a row, goes through shapes with a unit axis
  at the END: `[a] → [a, 1] → [a, b]` and `[a, b] → [a, b, 1] → [a, b, c]`. Each lemma below says which entry of the
  operand a cast or broadcast of that family reads, for any extents; the last one is a `[1, 1, c]` row spread over
  both leading axes. All are instances of the library's general reading of a shape cast (same row-major position)
  and of a broadcast (the operand at the trailing coordinates, `0` on its unit axes).
-/
import Idealize.ShloMosaic.Lib.Pipeline.Value
import Idealize.ShloMosaic.Lib.ValueIdx

noncomputable section

namespace Cert.ColumnLayouts

open Idealize.ShloMosaic Idealize.ShloMosaic.ValueIdx

variable {α : Type}

/-- An `[a]` array cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(p, s, k)`, the operand at `(p, s, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (s : Fin b) (k : Fin c) :
    broadcastTo ⟨3, ![a, b, c]⟩ v h (ix3 p s k) = v (ix3 p s (0 : Fin 1)) := by
  refine broadcastTo_apply v h (ix3 p s k) (ix3 p s (0 : Fin 1)) fun ax => ?_
  match ax with
  | ⟨0, _⟩ =>
    show p.val = if a = 1 then 0 else p.val
    split
    · have := p.isLt; omega
    · rfl
  | ⟨1, _⟩ =>
    show s.val = if b = 1 then 0 else s.val
    split
    · have := s.isLt; omega
    · rfl
  | ⟨2, _⟩ => rfl

/-- A `[1, 1, c]` row broadcast to `[a, b, c]` reads, at `(p, s, k)`, the row's entry `k`. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (s : Fin b) (k : Fin c) :
    broadcastTo ⟨3, ![a, b, c]⟩ v h (ix3 p s k) = v (ix3 (0 : Fin 1) (0 : Fin 1) k) := by
  refine broadcastTo_apply v h (ix3 p s k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

end Cert.ColumnLayouts

end
-- ==== Proof.KI.Final0.lean ====
/- Region 0's output array after the run, at the extended reals, as ONE function of the arrays the region finds: entry (e, q) is the
   weight of edge e times entry (e, q) of the gathered rows. Point t of the grid writes back rows 8000 t … 8000 t + 7999; the body's
   stored value at row p of its block reads the weight block's row p and the row block's entry (p, q); the 400 blocks tile the array. -/
import proofs.«166112_j80350248174014_2_alg».proof.Proof.KI.Body0
import proofs.«166112_j80350248174014_2_alg».proof.Proof.LibLayerStages
import proofs.«166112_j80350248174014_2_alg».proof.Proof.LibColumnLayouts
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz0 : (![0, 0] : Fin 2 → Nat) = fun _ => 0 := funext fun a => by fin_cases a <;> rfl

/-- The body's stored value at entry (p, q) of the block: the weight of the block's row p times the rows' entry. -/
theorem pay0_at (x0 : Vec Ideal S8000x1 .f32) (x1 : Vec Ideal S8000x64 .f32) (p : Fin 8000) (q : Fin 64) :
    k0_pay1 x0 x1 (ix2 p q) = x0 (ix2 p (0 : Fin 1)) * x1 (ix2 p q) := by
  unfold k0_pay1
  rw [shapeCast_self, shapeCast_self]
  refine (mulf_apply _ _ _).trans ?_
  rw [Cert.ColumnLayouts.broadcastTo_a1_ab_apply]

/-- The printed index maps over the grid: at point t every window's block is block t along the edges, block 0 along the lanes. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point t writes back is block t of the scaled rows. -/
theorem flushed0_eq (c : Dev nD) (t : Fin cfg0.N) :
    (dat0 V c).flushed 2 t = ((cfg0.win 2).blk t).view.read (Elt Ideal)
      (Cert.Layer.rowScale (V c (Pipeline.arrRef spec0 0)) (V c (Pipeline.arrRef spec0 1))) := by
  show (cfg0.win 2).cut (grid0.coords t) ((dat0 V c).after 2 t) = _
  rw [after0_2]
  unfold out0_2
  rw [View.canon_unit_zero hz0]
  simp only [View.ld_unit_zero (S := S8000x1) hz0, View.ld_unit_zero (S := S8000x64) hz0]
  obtain ⟨e0, e1, e2, e3, e4, e5⟩ := idx_facts0 t
  funext j
  obtain ⟨p, q, rfl⟩ : ∃ (p : Fin 8000) (q : Fin 64), j = ix2 p q := ⟨j 0, j 1, eq_ix2 j⟩
  refine (pay0_at _ _ p q).trans ?_
  have ht : t.val < 400 := lt_of_lt_of_eq t.isLt N_0
  have hr : t.val * 8000 + p.val < 3200000 := by have := p.isLt; omega
  have h0 : ((cfg0.win 0).blk t).view.emb (ix2 p (0 : Fin 1)) = ix2 (⟨t.val * 8000 + p.val, hr⟩ : Fin 3200000) (0 : Fin 1) := by
    funext a; apply Fin.ext
    match a with
    | ⟨0, _⟩ => show win0_0.index t (0 : Fin 2) * 8000 + 1 * p.val = t.val * 8000 + p.val; omega
    | ⟨1, _⟩ => show win0_0.index t (1 : Fin 2) * 1 + 1 * 0 = 0; omega
  have h1 : ((cfg0.win 1).blk t).view.emb (ix2 p q) = ix2 (⟨t.val * 8000 + p.val, hr⟩ : Fin 3200000) q := by
    funext a; apply Fin.ext
    match a with
    | ⟨0, _⟩ => show win0_1.index t (0 : Fin 2) * 8000 + 1 * p.val = t.val * 8000 + p.val; omega
    | ⟨1, _⟩ => show win0_1.index t (1 : Fin 2) * 64 + 1 * q.val = q.val; omega
  have h2 : ((cfg0.win 2).blk t).view.emb (ix2 p q) = ix2 (⟨t.val * 8000 + p.val, hr⟩ : Fin 3200000) q := by
    funext a; apply Fin.ext
    match a with
    | ⟨0, _⟩ => show win0_2.index t (0 : Fin 2) * 8000 + 1 * p.val = t.val * 8000 + p.val; omega
    | ⟨1, _⟩ => show win0_2.index t (1 : Fin 2) * 64 + 1 * q.val = q.val; omega
  have key : ∀ (A0 : FVec Ideal S3200000x1 .f32) (A1 : FVec Ideal S3200000x64 .f32),
      A0 (((cfg0.win 0).blk t).view.emb (ix2 p (0 : Fin 1))) * A1 (((cfg0.win 1).blk t).view.emb (ix2 p q))
        = Cert.Layer.rowScale A0 A1 (((cfg0.win 2).blk t).view.emb (ix2 p q)) := by
    intro A0 A1
    rw [h0, h1, h2, Cert.Layer.rowScale_apply]
  exact key _ _

/-- An index of the array is in point t's block iff each coordinate is in the block's range on its axis. -/
theorem mem_blk0 (t : Fin cfg0.N) (i : S3200000x64.Idx) :
    i ∈ ((cfg0.win 2).blk t).view.set ↔ ∀ a : Fin 2, win0_2.index t a * S8000x64.size a ≤ (i a).val ∧ (i a).val < win0_2.index t a * S8000x64.size a + S8000x64.size a := by
  show i ∈ ((View.whole (Pipeline.arrRef spec0 2)).slice (win0_2.rect t)).set ↔ _
  rw [View.set_slice_whole, Rect.mem_set_unit]
  exact Iff.rfl

/-- Every entry of the array lies in the block of the point its row falls in. -/
theorem cover0 (i : S3200000x64.Idx) : ∃ t : Fin cfg0.N, (cfg0.win 2).flush t = true ∧ i ∈ ((cfg0.win 2).blk t).view.set := by
  have hi0 : (i 0).val < 3200000 := (i 0).isLt
  have hi1 : (i 1).val < 64 := (i 1).isLt
  have hN : (i 0).val / 8000 < cfg0.N := lt_of_lt_of_eq (by omega : (i 0).val / 8000 < 400) N_0.symm
  refine ⟨⟨(i 0).val / 8000, hN⟩, flush0_2 _, ?_⟩
  obtain ⟨e0, e1, e2, e3, e4, e5⟩ := idx_facts0 ⟨(i 0).val / 8000, hN⟩
  rw [mem_blk0]
  intro a
  match a with
  | ⟨0, _⟩ => show win0_2.index ⟨(i 0).val / 8000, hN⟩ (0 : Fin 2) * 8000 ≤ (i 0).val ∧ (i 0).val < win0_2.index ⟨(i 0).val / 8000, hN⟩ (0 : Fin 2) * 8000 + 8000; rw [e4]; show (i 0).val / 8000 * 8000 ≤ (i 0).val ∧ (i 0).val < (i 0).val / 8000 * 8000 + 8000; omega
  | ⟨1, _⟩ => show win0_2.index ⟨(i 0).val / 8000, hN⟩ (1 : Fin 2) * 64 ≤ (i 1).val ∧ (i 1).val < win0_2.index ⟨(i 0).val / 8000, hN⟩ (1 : Fin 2) * 64 + 64; rw [e5]; omega

/-- The output array after the run: the gathered rows, each scaled by its edge's weight. -/
theorem final0 (c : Dev nD) : (dat0 V c).arrAt 2 cfg0.N
    = Cert.Layer.rowScale (V c (Pipeline.arrRef spec0 0)) (V c (Pipeline.arrRef spec0 1)) :=
  (dat0 V c).arrAt_eq_of_cover 2 _ (fun t _ => flushed0_eq V c t) cover0

end Cert.KernelIdeal.Hand

end
-- ==== Proof.KI.Final1.lean ====
/- Region 1's output array after the run, at the extended reals, as ONE function of the arrays the region finds: entry (r, q) is the
   neighbourhood sum's entry plus the previous features' entry times the degree of node r. Point t of the grid writes back rows
   5000 t … 5000 t + 4999; the body's stored value at entry (p, q) of its block reads the same entry of the two feature blocks and row p
   of the degree block; the 20 blocks tile the 100000 rows. -/
import proofs.«166112_j80350248174014_2_alg».proof.Proof.KI.Body1
import proofs.«166112_j80350248174014_2_alg».proof.Proof.LibLayerStages
import proofs.«166112_j80350248174014_2_alg».proof.Proof.LibColumnLayouts
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz1 : (![0, 0] : Fin 2 → Nat) = fun _ => 0 := funext fun a => by fin_cases a <;> rfl

/-- The body's stored value at entry (p, q) of the block: the sum plus the previous feature times the degree of the block's row p. -/
theorem pay1_at (x0 x1 : Vec Ideal S5000x64 .f32) (x2 : Vec Ideal S5000x1 .f32) (p : Fin 5000) (q : Fin 64) :
    k1_pay1 x0 x1 x2 (ix2 p q) = x0 (ix2 p q) + x1 (ix2 p q) * x2 (ix2 p (0 : Fin 1)) := by
  unfold k1_pay1
  simp only [shapeCast_self]
  refine (addf_apply _ _ _).trans ?_
  refine congrArg (x0 (ix2 p q) + ·) ?_
  refine (mulf_apply _ _ _).trans ?_
  rw [Cert.ColumnLayouts.broadcastTo_a1_ab_apply]

/-- The printed index maps over the grid: at point t every window's block is block t along the nodes, block 0 along the lanes. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- What point t writes back is block t of the combined features. -/
theorem flushed1_eq (c : Dev nD) (t : Fin cfg1.N) :
    (dat1 V c).flushed 3 t = ((cfg1.win 3).blk t).view.read (Elt Ideal)
      (Cert.Layer.resid (V c (Pipeline.arrRef spec1 0)) (V c (Pipeline.arrRef spec1 1)) (V c (Pipeline.arrRef spec1 2))) := by
  show (cfg1.win 3).cut (grid1.coords t) ((dat1 V c).after 3 t) = _
  rw [after1_3]
  unfold out1_3
  rw [View.canon_unit_zero hz1]
  simp only [View.ld_unit_zero (S := S5000x1) hz1, View.ld_unit_zero (S := S5000x64) hz1]
  obtain ⟨e0, e1, e2, e3, e4, e5, e6, e7⟩ := idx_facts1 t
  funext j
  obtain ⟨p, q, rfl⟩ : ∃ (p : Fin 5000) (q : Fin 64), j = ix2 p q := ⟨j 0, j 1, eq_ix2 j⟩
  refine (pay1_at _ _ _ p q).trans ?_
  have ht : t.val < 20 := lt_of_lt_of_eq t.isLt N_1
  have hr : t.val * 5000 + p.val < 100000 := by have := p.isLt; omega
  have h0 : ((cfg1.win 0).blk t).view.emb (ix2 p q) = ix2 (⟨t.val * 5000 + p.val, hr⟩ : Fin 100000) q := by
    funext a; apply Fin.ext
    match a with
    | ⟨0, _⟩ => show win1_0.index t (0 : Fin 2) * 5000 + 1 * p.val = t.val * 5000 + p.val; omega
    | ⟨1, _⟩ => show win1_0.index t (1 : Fin 2) * 64 + 1 * q.val = q.val; omega
  have h1 : ((cfg1.win 1).blk t).view.emb (ix2 p q) = ix2 (⟨t.val * 5000 + p.val, hr⟩ : Fin 100000) q := by
    funext a; apply Fin.ext
    match a with
    | ⟨0, _⟩ => show win1_1.index t (0 : Fin 2) * 5000 + 1 * p.val = t.val * 5000 + p.val; omega
    | ⟨1, _⟩ => show win1_1.index t (1 : Fin 2) * 64 + 1 * q.val = q.val; omega
  have h2 : ((cfg1.win 2).blk t).view.emb (ix2 p (0 : Fin 1)) = ix2 (⟨t.val * 5000 + p.val, hr⟩ : Fin 100000) (0 : Fin 1) := by
    funext a; apply Fin.ext
    match a with
    | ⟨0, _⟩ => show win1_2.index t (0 : Fin 2) * 5000 + 1 * p.val = t.val * 5000 + p.val; omega
    | ⟨1, _⟩ => show win1_2.index t (1 : Fin 2) * 1 + 1 * 0 = 0; omega
  have h3 : ((cfg1.win 3).blk t).view.emb (ix2 p q) = ix2 (⟨t.val * 5000 + p.val, hr⟩ : Fin 100000) q := by
    funext a; apply Fin.ext
    match a with
    | ⟨0, _⟩ => show win1_3.index t (0 : Fin 2) * 5000 + 1 * p.val = t.val * 5000 + p.val; omega
    | ⟨1, _⟩ => show win1_3.index t (1 : Fin 2) * 64 + 1 * q.val = q.val; omega
  have key : ∀ (A0 A1 : FVec Ideal S100000x64 .f32) (A2 : FVec Ideal S100000x1 .f32),
      A0 (((cfg1.win 0).blk t).view.emb (ix2 p q)) + A1 (((cfg1.win 1).blk t).view.emb (ix2 p q)) * A2 (((cfg1.win 2).blk t).view.emb (ix2 p (0 : Fin 1)))
        = Cert.Layer.resid A0 A1 A2 (((cfg1.win 3).blk t).view.emb (ix2 p q)) := by
    intro A0 A1 A2
    rw [h0, h1, h2, h3, Cert.Layer.resid_apply]
  exact key _ _ _

/-- An index of the array is in point t's block iff each coordinate is in the block's range on its axis. -/
theorem mem_blk1 (t : Fin cfg1.N) (i : S100000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole (Pipeline.arrRef spec1 3)).slice (win1_3.rect t)).set ↔ _
  rw [View.set_slice_whole, Rect.mem_set_unit]
  exact Iff.rfl

/-- Every entry of the array lies in the block of the point its row falls in. -/
theorem cover1 (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  have hN : (i 0).val / 5000 < cfg1.N := lt_of_lt_of_eq (by omega : (i 0).val / 5000 < 20) N_1.symm
  refine ⟨⟨(i 0).val / 5000, hN⟩, flush1_3 _, ?_⟩
  obtain ⟨e0, e1, e2, e3, e4, e5, e6, e7⟩ := idx_facts1 ⟨(i 0).val / 5000, hN⟩
  rw [mem_blk1]
  intro a
  match a with
  | ⟨0, _⟩ => show win1_3.index ⟨(i 0).val / 5000, hN⟩ (0 : Fin 2) * 5000 ≤ (i 0).val ∧ (i 0).val < win1_3.index ⟨(i 0).val / 5000, hN⟩ (0 : Fin 2) * 5000 + 5000; rw [e6]; show (i 0).val / 5000 * 5000 ≤ (i 0).val ∧ (i 0).val < (i 0).val / 5000 * 5000 + 5000; omega
  | ⟨1, _⟩ => show win1_3.index ⟨(i 0).val / 5000, hN⟩ (1 : Fin 2) * 64 ≤ (i 1).val ∧ (i 1).val < win1_3.index ⟨(i 0).val / 5000, hN⟩ (1 : Fin 2) * 64 + 64; rw [e7]; omega

/-- The output array after the run: the sums plus the previous features scaled row by row by the degrees. -/
theorem final1 (c : Dev nD) : (dat1 V c).arrAt 3 cfg1.N
    = Cert.Layer.resid (V c (Pipeline.arrRef spec1 0)) (V c (Pipeline.arrRef spec1 1)) (V c (Pipeline.arrRef spec1 2)) :=
  (dat1 V c).arrAt_eq_of_cover 3 _ (fun t _ => flushed1_eq V c t) cover1

end Cert.KernelIdeal.Hand

end
-- ==== Proof.KI.Final2.lean ====
/- Region 2's output array after the run, at the extended reals, as ONE function of the arrays the region finds: entry (e, q) is the
   weight of edge e times entry (e, q) of the gathered rows. Point t of the grid writes back rows 8000 t … 8000 t + 7999; the body's
   stored value at row p of its block reads the weight block's row p and the row block's entry (p, q); the 400 blocks tile the array. -/
import proofs.«166112_j80350248174014_2_alg».proof.Proof.KI.Body2
import proofs.«166112_j80350248174014_2_alg».proof.Proof.LibLayerStages
import proofs.«166112_j80350248174014_2_alg».proof.Proof.LibColumnLayouts
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl

/-- The body's stored value at entry (p, q) of the block: the weight of the block's row p times the rows' entry. -/
theorem pay2_at (x0 : Vec Ideal S8000x1 .f32) (x1 : Vec Ideal S8000x64 .f32) (p : Fin 8000) (q : Fin 64) :
    k2_pay1 x0 x1 (ix2 p q) = x0 (ix2 p (0 : Fin 1)) * x1 (ix2 p q) := by
  unfold k2_pay1
  rw [shapeCast_self, shapeCast_self]
  refine (mulf_apply _ _ _).trans ?_
  rw [Cert.ColumnLayouts.broadcastTo_a1_ab_apply]

/-- The printed index maps over the grid: at point t every window's block is block t along the edges, block 0 along the lanes. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- What point t writes back is block t of the scaled rows. -/
theorem flushed2_eq (c : Dev nD) (t : Fin cfg2.N) :
    (dat2 V c).flushed 2 t = ((cfg2.win 2).blk t).view.read (Elt Ideal)
      (Cert.Layer.rowScale (V c (Pipeline.arrRef spec2 0)) (V c (Pipeline.arrRef spec2 1))) := by
  show (cfg2.win 2).cut (grid2.coords t) ((dat2 V c).after 2 t) = _
  rw [after2_2]
  unfold out2_2
  rw [View.canon_unit_zero hz2]
  simp only [View.ld_unit_zero (S := S8000x1) hz2, View.ld_unit_zero (S := S8000x64) hz2]
  obtain ⟨e0, e1, e2, e3, e4, e5⟩ := idx_facts2 t
  funext j
  obtain ⟨p, q, rfl⟩ : ∃ (p : Fin 8000) (q : Fin 64), j = ix2 p q := ⟨j 0, j 1, eq_ix2 j⟩
  refine (pay2_at _ _ p q).trans ?_
  have ht : t.val < 400 := lt_of_lt_of_eq t.isLt N_2
  have hr : t.val * 8000 + p.val < 3200000 := by have := p.isLt; omega
  have h0 : ((cfg2.win 0).blk t).view.emb (ix2 p (0 : Fin 1)) = ix2 (⟨t.val * 8000 + p.val, hr⟩ : Fin 3200000) (0 : Fin 1) := by
    funext a; apply Fin.ext
    match a with
    | ⟨0, _⟩ => show win2_0.index t (0 : Fin 2) * 8000 + 1 * p.val = t.val * 8000 + p.val; omega
    | ⟨1, _⟩ => show win2_0.index t (1 : Fin 2) * 1 + 1 * 0 = 0; omega
  have h1 : ((cfg2.win 1).blk t).view.emb (ix2 p q) = ix2 (⟨t.val * 8000 + p.val, hr⟩ : Fin 3200000) q := by
    funext a; apply Fin.ext
    match a with
    | ⟨0, _⟩ => show win2_1.index t (0 : Fin 2) * 8000 + 1 * p.val = t.val * 8000 + p.val; omega
    | ⟨1, _⟩ => show win2_1.index t (1 : Fin 2) * 64 + 1 * q.val = q.val; omega
  have h2 : ((cfg2.win 2).blk t).view.emb (ix2 p q) = ix2 (⟨t.val * 8000 + p.val, hr⟩ : Fin 3200000) q := by
    funext a; apply Fin.ext
    match a with
    | ⟨0, _⟩ => show win2_2.index t (0 : Fin 2) * 8000 + 1 * p.val = t.val * 8000 + p.val; omega
    | ⟨1, _⟩ => show win2_2.index t (1 : Fin 2) * 64 + 1 * q.val = q.val; omega
  have key : ∀ (A0 : FVec Ideal S3200000x1 .f32) (A1 : FVec Ideal S3200000x64 .f32),
      A0 (((cfg2.win 0).blk t).view.emb (ix2 p (0 : Fin 1))) * A1 (((cfg2.win 1).blk t).view.emb (ix2 p q))
        = Cert.Layer.rowScale A0 A1 (((cfg2.win 2).blk t).view.emb (ix2 p q)) := by
    intro A0 A1
    rw [h0, h1, h2, Cert.Layer.rowScale_apply]
  exact key _ _

/-- An index of the array is in point t's block iff each coordinate is in the block's range on its axis. -/
theorem mem_blk2 (t : Fin cfg2.N) (i : S3200000x64.Idx) :
    i ∈ ((cfg2.win 2).blk t).view.set ↔ ∀ a : Fin 2, win2_2.index t a * S8000x64.size a ≤ (i a).val ∧ (i a).val < win2_2.index t a * S8000x64.size a + S8000x64.size a := by
  show i ∈ ((View.whole (Pipeline.arrRef spec2 2)).slice (win2_2.rect t)).set ↔ _
  rw [View.set_slice_whole, Rect.mem_set_unit]
  exact Iff.rfl

/-- Every entry of the array lies in the block of the point its row falls in. -/
theorem cover2 (i : S3200000x64.Idx) : ∃ t : Fin cfg2.N, (cfg2.win 2).flush t = true ∧ i ∈ ((cfg2.win 2).blk t).view.set := by
  have hi0 : (i 0).val < 3200000 := (i 0).isLt
  have hi1 : (i 1).val < 64 := (i 1).isLt
  have hN : (i 0).val / 8000 < cfg2.N := lt_of_lt_of_eq (by omega : (i 0).val / 8000 < 400) N_2.symm
  refine ⟨⟨(i 0).val / 8000, hN⟩, flush2_2 _, ?_⟩
  obtain ⟨e0, e1, e2, e3, e4, e5⟩ := idx_facts2 ⟨(i 0).val / 8000, hN⟩
  rw [mem_blk2]
  intro a
  match a with
  | ⟨0, _⟩ => show win2_2.index ⟨(i 0).val / 8000, hN⟩ (0 : Fin 2) * 8000 ≤ (i 0).val ∧ (i 0).val < win2_2.index ⟨(i 0).val / 8000, hN⟩ (0 : Fin 2) * 8000 + 8000; rw [e4]; show (i 0).val / 8000 * 8000 ≤ (i 0).val ∧ (i 0).val < (i 0).val / 8000 * 8000 + 8000; omega
  | ⟨1, _⟩ => show win2_2.index ⟨(i 0).val / 8000, hN⟩ (1 : Fin 2) * 64 ≤ (i 1).val ∧ (i 1).val < win2_2.index ⟨(i 0).val / 8000, hN⟩ (1 : Fin 2) * 64 + 64; rw [e5]; omega

/-- The output array after the run: the gathered rows, each scaled by its edge's weight. -/
theorem final2 (c : Dev nD) : (dat2 V c).arrAt 2 cfg2.N
    = Cert.Layer.rowScale (V c (Pipeline.arrRef spec2 0)) (V c (Pipeline.arrRef spec2 1)) :=
  (dat2 V c).arrAt_eq_of_cover 2 _ (fun t _ => flushed2_eq V c t) cover2

end Cert.KernelIdeal.Hand

end
-- ==== Proof.KI.Final3.lean ====
/- Region 3's output array after the run, at the extended reals, as ONE function of the arrays the region finds: entry (r, q) is the
   neighbourhood sum's entry plus the previous features' entry times the degree of node r. Point t of the grid writes back rows
   5000 t … 5000 t + 4999; the body's stored value at entry (p, q) of its block reads the same entry of the two feature blocks and row p
   of the degree block; the 10 blocks tile the 50000 rows. -/
import proofs.«166112_j80350248174014_2_alg».proof.Proof.KI.Body3
import proofs.«166112_j80350248174014_2_alg».proof.Proof.LibLayerStages
import proofs.«166112_j80350248174014_2_alg».proof.Proof.LibColumnLayouts
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz3 : (![0, 0] : Fin 2 → Nat) = fun _ => 0 := funext fun a => by fin_cases a <;> rfl

/-- The body's stored value at entry (p, q) of the block: the sum plus the previous feature times the degree of the block's row p. -/
theorem pay3_at (x0 x1 : Vec Ideal S5000x64 .f32) (x2 : Vec Ideal S5000x1 .f32) (p : Fin 5000) (q : Fin 64) :
    k3_pay1 x0 x1 x2 (ix2 p q) = x0 (ix2 p q) + x1 (ix2 p q) * x2 (ix2 p (0 : Fin 1)) := by
  unfold k3_pay1
  simp only [shapeCast_self]
  refine (addf_apply _ _ _).trans ?_
  refine congrArg (x0 (ix2 p q) + ·) ?_
  refine (mulf_apply _ _ _).trans ?_
  rw [Cert.ColumnLayouts.broadcastTo_a1_ab_apply]

/-- The printed index maps over the grid: at point t every window's block is block t along the nodes, block 0 along the lanes. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

/-- What point t writes back is block t of the combined features. -/
theorem flushed3_eq (c : Dev nD) (t : Fin cfg3.N) :
    (dat3 V c).flushed 3 t = ((cfg3.win 3).blk t).view.read (Elt Ideal)
      (Cert.Layer.resid (V c (Pipeline.arrRef spec3 0)) (V c (Pipeline.arrRef spec3 1)) (V c (Pipeline.arrRef spec3 2))) := by
  show (cfg3.win 3).cut (grid3.coords t) ((dat3 V c).after 3 t) = _
  rw [after3_3]
  unfold out3_3
  rw [View.canon_unit_zero hz3]
  simp only [View.ld_unit_zero (S := S5000x1) hz3, View.ld_unit_zero (S := S5000x64) hz3]
  obtain ⟨e0, e1, e2, e3, e4, e5, e6, e7⟩ := idx_facts3 t
  funext j
  obtain ⟨p, q, rfl⟩ : ∃ (p : Fin 5000) (q : Fin 64), j = ix2 p q := ⟨j 0, j 1, eq_ix2 j⟩
  refine (pay3_at _ _ _ p q).trans ?_
  have ht : t.val < 10 := lt_of_lt_of_eq t.isLt N_3
  have hr : t.val * 5000 + p.val < 50000 := by have := p.isLt; omega
  have h0 : ((cfg3.win 0).blk t).view.emb (ix2 p q) = ix2 (⟨t.val * 5000 + p.val, hr⟩ : Fin 50000) q := by
    funext a; apply Fin.ext
    match a with
    | ⟨0, _⟩ => show win3_0.index t (0 : Fin 2) * 5000 + 1 * p.val = t.val * 5000 + p.val; omega
    | ⟨1, _⟩ => show win3_0.index t (1 : Fin 2) * 64 + 1 * q.val = q.val; omega
  have h1 : ((cfg3.win 1).blk t).view.emb (ix2 p q) = ix2 (⟨t.val * 5000 + p.val, hr⟩ : Fin 50000) q := by
    funext a; apply Fin.ext
    match a with
    | ⟨0, _⟩ => show win3_1.index t (0 : Fin 2) * 5000 + 1 * p.val = t.val * 5000 + p.val; omega
    | ⟨1, _⟩ => show win3_1.index t (1 : Fin 2) * 64 + 1 * q.val = q.val; omega
  have h2 : ((cfg3.win 2).blk t).view.emb (ix2 p (0 : Fin 1)) = ix2 (⟨t.val * 5000 + p.val, hr⟩ : Fin 50000) (0 : Fin 1) := by
    funext a; apply Fin.ext
    match a with
    | ⟨0, _⟩ => show win3_2.index t (0 : Fin 2) * 5000 + 1 * p.val = t.val * 5000 + p.val; omega
    | ⟨1, _⟩ => show win3_2.index t (1 : Fin 2) * 1 + 1 * 0 = 0; omega
  have h3 : ((cfg3.win 3).blk t).view.emb (ix2 p q) = ix2 (⟨t.val * 5000 + p.val, hr⟩ : Fin 50000) q := by
    funext a; apply Fin.ext
    match a with
    | ⟨0, _⟩ => show win3_3.index t (0 : Fin 2) * 5000 + 1 * p.val = t.val * 5000 + p.val; omega
    | ⟨1, _⟩ => show win3_3.index t (1 : Fin 2) * 64 + 1 * q.val = q.val; omega
  have key : ∀ (A0 A1 : FVec Ideal S50000x64 .f32) (A2 : FVec Ideal S50000x1 .f32),
      A0 (((cfg3.win 0).blk t).view.emb (ix2 p q)) + A1 (((cfg3.win 1).blk t).view.emb (ix2 p q)) * A2 (((cfg3.win 2).blk t).view.emb (ix2 p (0 : Fin 1)))
        = Cert.Layer.resid A0 A1 A2 (((cfg3.win 3).blk t).view.emb (ix2 p q)) := by
    intro A0 A1 A2
    rw [h0, h1, h2, h3, Cert.Layer.resid_apply]
  exact key _ _ _

/-- An index of the array is in point t's block iff each coordinate is in the block's range on its axis. -/
theorem mem_blk3 (t : Fin cfg3.N) (i : S50000x64.Idx) :
    i ∈ ((cfg3.win 3).blk t).view.set ↔ ∀ a : Fin 2, win3_3.index t a * S5000x64.size a ≤ (i a).val ∧ (i a).val < win3_3.index t a * S5000x64.size a + S5000x64.size a := by
  show i ∈ ((View.whole (Pipeline.arrRef spec3 3)).slice (win3_3.rect t)).set ↔ _
  rw [View.set_slice_whole, Rect.mem_set_unit]
  exact Iff.rfl

/-- Every entry of the array lies in the block of the point its row falls in. -/
theorem cover3 (i : S50000x64.Idx) : ∃ t : Fin cfg3.N, (cfg3.win 3).flush t = true ∧ i ∈ ((cfg3.win 3).blk t).view.set := by
  have hi0 : (i 0).val < 50000 := (i 0).isLt
  have hi1 : (i 1).val < 64 := (i 1).isLt
  have hN : (i 0).val / 5000 < cfg3.N := lt_of_lt_of_eq (by omega : (i 0).val / 5000 < 10) N_3.symm
  refine ⟨⟨(i 0).val / 5000, hN⟩, flush3_3 _, ?_⟩
  obtain ⟨e0, e1, e2, e3, e4, e5, e6, e7⟩ := idx_facts3 ⟨(i 0).val / 5000, hN⟩
  rw [mem_blk3]
  intro a
  match a with
  | ⟨0, _⟩ => show win3_3.index ⟨(i 0).val / 5000, hN⟩ (0 : Fin 2) * 5000 ≤ (i 0).val ∧ (i 0).val < win3_3.index ⟨(i 0).val / 5000, hN⟩ (0 : Fin 2) * 5000 + 5000; rw [e6]; show (i 0).val / 5000 * 5000 ≤ (i 0).val ∧ (i 0).val < (i 0).val / 5000 * 5000 + 5000; omega
  | ⟨1, _⟩ => show win3_3.index ⟨(i 0).val / 5000, hN⟩ (1 : Fin 2) * 64 ≤ (i 1).val ∧ (i 1).val < win3_3.index ⟨(i 0).val / 5000, hN⟩ (1 : Fin 2) * 64 + 64; rw [e7]; omega

/-- The output array after the run: the sums plus the previous features scaled row by row by the degrees. -/
theorem final3 (c : Dev nD) : (dat3 V c).arrAt 3 cfg3.N
    = Cert.Layer.resid (V c (Pipeline.arrRef spec3 0)) (V c (Pipeline.arrRef spec3 1)) (V c (Pipeline.arrRef spec3 2)) :=
  (dat3 V c).arrAt_eq_of_cover 3 _ (fun t _ => flushed3_eq V c t) cover3

end Cert.KernelIdeal.Hand

end
-- ==== Proof.KI.Final4.lean ====
/- Region 4's output array after the run, at the extended reals, as ONE function of the arrays the region finds: entry (e, q) is the
   weight of edge e times entry (e, q) of the gathered rows. Point t of the grid writes back rows 8000 t … 8000 t + 7999; the body's
   stored value at row p of its block reads the weight block's row p and the row block's entry (p, q); the 400 blocks tile the array. -/
import proofs.«166112_j80350248174014_2_alg».proof.Proof.KI.Body4
import proofs.«166112_j80350248174014_2_alg».proof.Proof.LibLayerStages
import proofs.«166112_j80350248174014_2_alg».proof.Proof.LibColumnLayouts
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz4 : (![0, 0] : Fin 2 → Nat) = fun _ => 0 := funext fun a => by fin_cases a <;> rfl

/-- The body's stored value at entry (p, q) of the block: the weight of the block's row p times the rows' entry. -/
theorem pay4_at (x0 : Vec Ideal S8000x1 .f32) (x1 : Vec Ideal S8000x64 .f32) (p : Fin 8000) (q : Fin 64) :
    k4_pay1 x0 x1 (ix2 p q) = x0 (ix2 p (0 : Fin 1)) * x1 (ix2 p q) := by
  unfold k4_pay1
  rw [shapeCast_self, shapeCast_self]
  refine (mulf_apply _ _ _).trans ?_
  rw [Cert.ColumnLayouts.broadcastTo_a1_ab_apply]

/-- The printed index maps over the grid: at point t every window's block is block t along the edges, block 0 along the lanes. -/
theorem idx_facts4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- What point t writes back is block t of the scaled rows. -/
theorem flushed4_eq (c : Dev nD) (t : Fin cfg4.N) :
    (dat4 V c).flushed 2 t = ((cfg4.win 2).blk t).view.read (Elt Ideal)
      (Cert.Layer.rowScale (V c (Pipeline.arrRef spec4 0)) (V c (Pipeline.arrRef spec4 1))) := by
  show (cfg4.win 2).cut (grid4.coords t) ((dat4 V c).after 2 t) = _
  rw [after4_2]
  unfold out4_2
  rw [View.canon_unit_zero hz4]
  simp only [View.ld_unit_zero (S := S8000x1) hz4, View.ld_unit_zero (S := S8000x64) hz4]
  obtain ⟨e0, e1, e2, e3, e4, e5⟩ := idx_facts4 t
  funext j
  obtain ⟨p, q, rfl⟩ : ∃ (p : Fin 8000) (q : Fin 64), j = ix2 p q := ⟨j 0, j 1, eq_ix2 j⟩
  refine (pay4_at _ _ p q).trans ?_
  have ht : t.val < 400 := lt_of_lt_of_eq t.isLt N_4
  have hr : t.val * 8000 + p.val < 3200000 := by have := p.isLt; omega
  have h0 : ((cfg4.win 0).blk t).view.emb (ix2 p (0 : Fin 1)) = ix2 (⟨t.val * 8000 + p.val, hr⟩ : Fin 3200000) (0 : Fin 1) := by
    funext a; apply Fin.ext
    match a with
    | ⟨0, _⟩ => show win4_0.index t (0 : Fin 2) * 8000 + 1 * p.val = t.val * 8000 + p.val; omega
    | ⟨1, _⟩ => show win4_0.index t (1 : Fin 2) * 1 + 1 * 0 = 0; omega
  have h1 : ((cfg4.win 1).blk t).view.emb (ix2 p q) = ix2 (⟨t.val * 8000 + p.val, hr⟩ : Fin 3200000) q := by
    funext a; apply Fin.ext
    match a with
    | ⟨0, _⟩ => show win4_1.index t (0 : Fin 2) * 8000 + 1 * p.val = t.val * 8000 + p.val; omega
    | ⟨1, _⟩ => show win4_1.index t (1 : Fin 2) * 64 + 1 * q.val = q.val; omega
  have h2 : ((cfg4.win 2).blk t).view.emb (ix2 p q) = ix2 (⟨t.val * 8000 + p.val, hr⟩ : Fin 3200000) q := by
    funext a; apply Fin.ext
    match a with
    | ⟨0, _⟩ => show win4_2.index t (0 : Fin 2) * 8000 + 1 * p.val = t.val * 8000 + p.val; omega
    | ⟨1, _⟩ => show win4_2.index t (1 : Fin 2) * 64 + 1 * q.val = q.val; omega
  have key : ∀ (A0 : FVec Ideal S3200000x1 .f32) (A1 : FVec Ideal S3200000x64 .f32),
      A0 (((cfg4.win 0).blk t).view.emb (ix2 p (0 : Fin 1))) * A1 (((cfg4.win 1).blk t).view.emb (ix2 p q))
        = Cert.Layer.rowScale A0 A1 (((cfg4.win 2).blk t).view.emb (ix2 p q)) := by
    intro A0 A1
    rw [h0, h1, h2, Cert.Layer.rowScale_apply]
  exact key _ _

/-- An index of the array is in point t's block iff each coordinate is in the block's range on its axis. -/
theorem mem_blk4 (t : Fin cfg4.N) (i : S3200000x64.Idx) :
    i ∈ ((cfg4.win 2).blk t).view.set ↔ ∀ a : Fin 2, win4_2.index t a * S8000x64.size a ≤ (i a).val ∧ (i a).val < win4_2.index t a * S8000x64.size a + S8000x64.size a := by
  show i ∈ ((View.whole (Pipeline.arrRef spec4 2)).slice (win4_2.rect t)).set ↔ _
  rw [View.set_slice_whole, Rect.mem_set_unit]
  exact Iff.rfl

/-- Every entry of the array lies in the block of the point its row falls in. -/
theorem cover4 (i : S3200000x64.Idx) : ∃ t : Fin cfg4.N, (cfg4.win 2).flush t = true ∧ i ∈ ((cfg4.win 2).blk t).view.set := by
  have hi0 : (i 0).val < 3200000 := (i 0).isLt
  have hi1 : (i 1).val < 64 := (i 1).isLt
  have hN : (i 0).val / 8000 < cfg4.N := lt_of_lt_of_eq (by omega : (i 0).val / 8000 < 400) N_4.symm
  refine ⟨⟨(i 0).val / 8000, hN⟩, flush4_2 _, ?_⟩
  obtain ⟨e0, e1, e2, e3, e4, e5⟩ := idx_facts4 ⟨(i 0).val / 8000, hN⟩
  rw [mem_blk4]
  intro a
  match a with
  | ⟨0, _⟩ => show win4_2.index ⟨(i 0).val / 8000, hN⟩ (0 : Fin 2) * 8000 ≤ (i 0).val ∧ (i 0).val < win4_2.index ⟨(i 0).val / 8000, hN⟩ (0 : Fin 2) * 8000 + 8000; rw [e4]; show (i 0).val / 8000 * 8000 ≤ (i 0).val ∧ (i 0).val < (i 0).val / 8000 * 8000 + 8000; omega
  | ⟨1, _⟩ => show win4_2.index ⟨(i 0).val / 8000, hN⟩ (1 : Fin 2) * 64 ≤ (i 1).val ∧ (i 1).val < win4_2.index ⟨(i 0).val / 8000, hN⟩ (1 : Fin 2) * 64 + 64; rw [e5]; omega

/-- The output array after the run: the gathered rows, each scaled by its edge's weight. -/
theorem final4 (c : Dev nD) : (dat4 V c).arrAt 2 cfg4.N
    = Cert.Layer.rowScale (V c (Pipeline.arrRef spec4 0)) (V c (Pipeline.arrRef spec4 1)) :=
  (dat4 V c).arrAt_eq_of_cover 2 _ (fun t _ => flushed4_eq V c t) cover4

end Cert.KernelIdeal.Hand

end
-- ==== Proof.KI.Final5.lean ====
/- Region 5's output array after the run, at the extended reals, as ONE function of the arrays the region finds: entry (r, q) is the
   neighbourhood sum's entry plus the previous features' entry times the degree of node r. Point t of the grid writes back rows
   5000 t … 5000 t + 4999; the body's stored value at entry (p, q) of its block reads the same entry of the two feature blocks and row p
   of the degree block; the 20 blocks tile the 100000 rows. -/
import proofs.«166112_j80350248174014_2_alg».proof.Proof.KI.Body5
import proofs.«166112_j80350248174014_2_alg».proof.Proof.LibLayerStages
import proofs.«166112_j80350248174014_2_alg».proof.Proof.LibColumnLayouts
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz5 : (![0, 0] : Fin 2 → Nat) = fun _ => 0 := funext fun a => by fin_cases a <;> rfl

/-- The body's stored value at entry (p, q) of the block: the sum plus the previous feature times the degree of the block's row p. -/
theorem pay5_at (x0 x1 : Vec Ideal S5000x64 .f32) (x2 : Vec Ideal S5000x1 .f32) (p : Fin 5000) (q : Fin 64) :
    k5_pay1 x0 x1 x2 (ix2 p q) = x0 (ix2 p q) + x1 (ix2 p q) * x2 (ix2 p (0 : Fin 1)) := by
  unfold k5_pay1
  simp only [shapeCast_self]
  refine (addf_apply _ _ _).trans ?_
  refine congrArg (x0 (ix2 p q) + ·) ?_
  refine (mulf_apply _ _ _).trans ?_
  rw [Cert.ColumnLayouts.broadcastTo_a1_ab_apply]

/-- The printed index maps over the grid: at point t every window's block is block t along the nodes, block 0 along the lanes. -/
theorem idx_facts5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = t.val ∧ win5_3.index t (1 : Fin 2) = 0 :=
  (by decide +kernel : ∀ t : Fin grid5.N, _)

/-- What point t writes back is block t of the combined features. -/
theorem flushed5_eq (c : Dev nD) (t : Fin cfg5.N) :
    (dat5 V c).flushed 3 t = ((cfg5.win 3).blk t).view.read (Elt Ideal)
      (Cert.Layer.resid (V c (Pipeline.arrRef spec5 0)) (V c (Pipeline.arrRef spec5 1)) (V c (Pipeline.arrRef spec5 2))) := by
  show (cfg5.win 3).cut (grid5.coords t) ((dat5 V c).after 3 t) = _
  rw [after5_3]
  unfold out5_3
  rw [View.canon_unit_zero hz5]
  simp only [View.ld_unit_zero (S := S5000x1) hz5, View.ld_unit_zero (S := S5000x64) hz5]
  obtain ⟨e0, e1, e2, e3, e4, e5, e6, e7⟩ := idx_facts5 t
  funext j
  obtain ⟨p, q, rfl⟩ : ∃ (p : Fin 5000) (q : Fin 64), j = ix2 p q := ⟨j 0, j 1, eq_ix2 j⟩
  refine (pay5_at _ _ _ p q).trans ?_
  have ht : t.val < 20 := lt_of_lt_of_eq t.isLt N_5
  have hr : t.val * 5000 + p.val < 100000 := by have := p.isLt; omega
  have h0 : ((cfg5.win 0).blk t).view.emb (ix2 p q) = ix2 (⟨t.val * 5000 + p.val, hr⟩ : Fin 100000) q := by
    funext a; apply Fin.ext
    match a with
    | ⟨0, _⟩ => show win5_0.index t (0 : Fin 2) * 5000 + 1 * p.val = t.val * 5000 + p.val; omega
    | ⟨1, _⟩ => show win5_0.index t (1 : Fin 2) * 64 + 1 * q.val = q.val; omega
  have h1 : ((cfg5.win 1).blk t).view.emb (ix2 p q) = ix2 (⟨t.val * 5000 + p.val, hr⟩ : Fin 100000) q := by
    funext a; apply Fin.ext
    match a with
    | ⟨0, _⟩ => show win5_1.index t (0 : Fin 2) * 5000 + 1 * p.val = t.val * 5000 + p.val; omega
    | ⟨1, _⟩ => show win5_1.index t (1 : Fin 2) * 64 + 1 * q.val = q.val; omega
  have h2 : ((cfg5.win 2).blk t).view.emb (ix2 p (0 : Fin 1)) = ix2 (⟨t.val * 5000 + p.val, hr⟩ : Fin 100000) (0 : Fin 1) := by
    funext a; apply Fin.ext
    match a with
    | ⟨0, _⟩ => show win5_2.index t (0 : Fin 2) * 5000 + 1 * p.val = t.val * 5000 + p.val; omega
    | ⟨1, _⟩ => show win5_2.index t (1 : Fin 2) * 1 + 1 * 0 = 0; omega
  have h3 : ((cfg5.win 3).blk t).view.emb (ix2 p q) = ix2 (⟨t.val * 5000 + p.val, hr⟩ : Fin 100000) q := by
    funext a; apply Fin.ext
    match a with
    | ⟨0, _⟩ => show win5_3.index t (0 : Fin 2) * 5000 + 1 * p.val = t.val * 5000 + p.val; omega
    | ⟨1, _⟩ => show win5_3.index t (1 : Fin 2) * 64 + 1 * q.val = q.val; omega
  have key : ∀ (A0 A1 : FVec Ideal S100000x64 .f32) (A2 : FVec Ideal S100000x1 .f32),
      A0 (((cfg5.win 0).blk t).view.emb (ix2 p q)) + A1 (((cfg5.win 1).blk t).view.emb (ix2 p q)) * A2 (((cfg5.win 2).blk t).view.emb (ix2 p (0 : Fin 1)))
        = Cert.Layer.resid A0 A1 A2 (((cfg5.win 3).blk t).view.emb (ix2 p q)) := by
    intro A0 A1 A2
    rw [h0, h1, h2, h3, Cert.Layer.resid_apply]
  exact key _ _ _

/-- An index of the array is in point t's block iff each coordinate is in the block's range on its axis. -/
theorem mem_blk5 (t : Fin cfg5.N) (i : S100000x64.Idx) :
    i ∈ ((cfg5.win 3).blk t).view.set ↔ ∀ a : Fin 2, win5_3.index t a * S5000x64.size a ≤ (i a).val ∧ (i a).val < win5_3.index t a * S5000x64.size a + S5000x64.size a := by
  show i ∈ ((View.whole (Pipeline.arrRef spec5 3)).slice (win5_3.rect t)).set ↔ _
  rw [View.set_slice_whole, Rect.mem_set_unit]
  exact Iff.rfl

/-- Every entry of the array lies in the block of the point its row falls in. -/
theorem cover5 (i : S100000x64.Idx) : ∃ t : Fin cfg5.N, (cfg5.win 3).flush t = true ∧ i ∈ ((cfg5.win 3).blk t).view.set := by
  have hi0 : (i 0).val < 100000 := (i 0).isLt
  have hi1 : (i 1).val < 64 := (i 1).isLt
  have hN : (i 0).val / 5000 < cfg5.N := lt_of_lt_of_eq (by omega : (i 0).val / 5000 < 20) N_5.symm
  refine ⟨⟨(i 0).val / 5000, hN⟩, flush5_3 _, ?_⟩
  obtain ⟨e0, e1, e2, e3, e4, e5, e6, e7⟩ := idx_facts5 ⟨(i 0).val / 5000, hN⟩
  rw [mem_blk5]
  intro a
  match a with
  | ⟨0, _⟩ => show win5_3.index ⟨(i 0).val / 5000, hN⟩ (0 : Fin 2) * 5000 ≤ (i 0).val ∧ (i 0).val < win5_3.index ⟨(i 0).val / 5000, hN⟩ (0 : Fin 2) * 5000 + 5000; rw [e6]; show (i 0).val / 5000 * 5000 ≤ (i 0).val ∧ (i 0).val < (i 0).val / 5000 * 5000 + 5000; omega
  | ⟨1, _⟩ => show win5_3.index ⟨(i 0).val / 5000, hN⟩ (1 : Fin 2) * 64 ≤ (i 1).val ∧ (i 1).val < win5_3.index ⟨(i 0).val / 5000, hN⟩ (1 : Fin 2) * 64 + 64; rw [e7]; omega

/-- The output array after the run: the sums plus the previous features scaled row by row by the degrees. -/
theorem final5 (c : Dev nD) : (dat5 V c).arrAt 3 cfg5.N
    = Cert.Layer.resid (V c (Pipeline.arrRef spec5 0)) (V c (Pipeline.arrRef spec5 1)) (V c (Pipeline.arrRef spec5 2)) :=
  (dat5 V c).arrAt_eq_of_cover 3 _ (fun t _ => flushed5_eq V c t) cover5

end Cert.KernelIdeal.Hand

end
-- ==== Proof.KI.Final6.lean ====
/- Region 6's output array after the run, at the extended reals, as ONE function of the arrays the region finds: entry (e, q) is the
   weight of edge e times entry (e, q) of the gathered rows. Point t of the grid writes back rows 8000 t … 8000 t + 7999; the body's
   stored value at row p of its block reads the weight block's row p and the row block's entry (p, q); the 400 blocks tile the array. -/
import proofs.«166112_j80350248174014_2_alg».proof.Proof.KI.Body6
import proofs.«166112_j80350248174014_2_alg».proof.Proof.LibLayerStages
import proofs.«166112_j80350248174014_2_alg».proof.Proof.LibColumnLayouts
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz6 : (![0, 0] : Fin 2 → Nat) = fun _ => 0 := funext fun a => by fin_cases a <;> rfl

/-- The body's stored value at entry (p, q) of the block: the weight of the block's row p times the rows' entry. -/
theorem pay6_at (x0 : Vec Ideal S8000x1 .f32) (x1 : Vec Ideal S8000x64 .f32) (p : Fin 8000) (q : Fin 64) :
    k6_pay1 x0 x1 (ix2 p q) = x0 (ix2 p (0 : Fin 1)) * x1 (ix2 p q) := by
  unfold k6_pay1
  rw [shapeCast_self, shapeCast_self]
  refine (mulf_apply _ _ _).trans ?_
  rw [Cert.ColumnLayouts.broadcastTo_a1_ab_apply]

/-- The printed index maps over the grid: at point t every window's block is block t along the edges, block 0 along the lanes. -/
theorem idx_facts6 : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0 :=
  (by decide +kernel : ∀ t : Fin grid6.N, _)

/-- What point t writes back is block t of the scaled rows. -/
theorem flushed6_eq (c : Dev nD) (t : Fin cfg6.N) :
    (dat6 V c).flushed 2 t = ((cfg6.win 2).blk t).view.read (Elt Ideal)
      (Cert.Layer.rowScale (V c (Pipeline.arrRef spec6 0)) (V c (Pipeline.arrRef spec6 1))) := by
  show (cfg6.win 2).cut (grid6.coords t) ((dat6 V c).after 2 t) = _
  rw [after6_2]
  unfold out6_2
  rw [View.canon_unit_zero hz6]
  simp only [View.ld_unit_zero (S := S8000x1) hz6, View.ld_unit_zero (S := S8000x64) hz6]
  obtain ⟨e0, e1, e2, e3, e4, e5⟩ := idx_facts6 t
  funext j
  obtain ⟨p, q, rfl⟩ : ∃ (p : Fin 8000) (q : Fin 64), j = ix2 p q := ⟨j 0, j 1, eq_ix2 j⟩
  refine (pay6_at _ _ p q).trans ?_
  have ht : t.val < 400 := lt_of_lt_of_eq t.isLt N_6
  have hr : t.val * 8000 + p.val < 3200000 := by have := p.isLt; omega
  have h0 : ((cfg6.win 0).blk t).view.emb (ix2 p (0 : Fin 1)) = ix2 (⟨t.val * 8000 + p.val, hr⟩ : Fin 3200000) (0 : Fin 1) := by
    funext a; apply Fin.ext
    match a with
    | ⟨0, _⟩ => show win6_0.index t (0 : Fin 2) * 8000 + 1 * p.val = t.val * 8000 + p.val; omega
    | ⟨1, _⟩ => show win6_0.index t (1 : Fin 2) * 1 + 1 * 0 = 0; omega
  have h1 : ((cfg6.win 1).blk t).view.emb (ix2 p q) = ix2 (⟨t.val * 8000 + p.val, hr⟩ : Fin 3200000) q := by
    funext a; apply Fin.ext
    match a with
    | ⟨0, _⟩ => show win6_1.index t (0 : Fin 2) * 8000 + 1 * p.val = t.val * 8000 + p.val; omega
    | ⟨1, _⟩ => show win6_1.index t (1 : Fin 2) * 64 + 1 * q.val = q.val; omega
  have h2 : ((cfg6.win 2).blk t).view.emb (ix2 p q) = ix2 (⟨t.val * 8000 + p.val, hr⟩ : Fin 3200000) q := by
    funext a; apply Fin.ext
    match a with
    | ⟨0, _⟩ => show win6_2.index t (0 : Fin 2) * 8000 + 1 * p.val = t.val * 8000 + p.val; omega
    | ⟨1, _⟩ => show win6_2.index t (1 : Fin 2) * 64 + 1 * q.val = q.val; omega
  have key : ∀ (A0 : FVec Ideal S3200000x1 .f32) (A1 : FVec Ideal S3200000x64 .f32),
      A0 (((cfg6.win 0).blk t).view.emb (ix2 p (0 : Fin 1))) * A1 (((cfg6.win 1).blk t).view.emb (ix2 p q))
        = Cert.Layer.rowScale A0 A1 (((cfg6.win 2).blk t).view.emb (ix2 p q)) := by
    intro A0 A1
    rw [h0, h1, h2, Cert.Layer.rowScale_apply]
  exact key _ _

/-- An index of the array is in point t's block iff each coordinate is in the block's range on its axis. -/
theorem mem_blk6 (t : Fin cfg6.N) (i : S3200000x64.Idx) :
    i ∈ ((cfg6.win 2).blk t).view.set ↔ ∀ a : Fin 2, win6_2.index t a * S8000x64.size a ≤ (i a).val ∧ (i a).val < win6_2.index t a * S8000x64.size a + S8000x64.size a := by
  show i ∈ ((View.whole (Pipeline.arrRef spec6 2)).slice (win6_2.rect t)).set ↔ _
  rw [View.set_slice_whole, Rect.mem_set_unit]
  exact Iff.rfl

/-- Every entry of the array lies in the block of the point its row falls in. -/
theorem cover6 (i : S3200000x64.Idx) : ∃ t : Fin cfg6.N, (cfg6.win 2).flush t = true ∧ i ∈ ((cfg6.win 2).blk t).view.set := by
  have hi0 : (i 0).val < 3200000 := (i 0).isLt
  have hi1 : (i 1).val < 64 := (i 1).isLt
  have hN : (i 0).val / 8000 < cfg6.N := lt_of_lt_of_eq (by omega : (i 0).val / 8000 < 400) N_6.symm
  refine ⟨⟨(i 0).val / 8000, hN⟩, flush6_2 _, ?_⟩
  obtain ⟨e0, e1, e2, e3, e4, e5⟩ := idx_facts6 ⟨(i 0).val / 8000, hN⟩
  rw [mem_blk6]
  intro a
  match a with
  | ⟨0, _⟩ => show win6_2.index ⟨(i 0).val / 8000, hN⟩ (0 : Fin 2) * 8000 ≤ (i 0).val ∧ (i 0).val < win6_2.index ⟨(i 0).val / 8000, hN⟩ (0 : Fin 2) * 8000 + 8000; rw [e4]; show (i 0).val / 8000 * 8000 ≤ (i 0).val ∧ (i 0).val < (i 0).val / 8000 * 8000 + 8000; omega
  | ⟨1, _⟩ => show win6_2.index ⟨(i 0).val / 8000, hN⟩ (1 : Fin 2) * 64 ≤ (i 1).val ∧ (i 1).val < win6_2.index ⟨(i 0).val / 8000, hN⟩ (1 : Fin 2) * 64 + 64; rw [e5]; omega

/-- The output array after the run: the gathered rows, each scaled by its edge's weight. -/
theorem final6 (c : Dev nD) : (dat6 V c).arrAt 2 cfg6.N
    = Cert.Layer.rowScale (V c (Pipeline.arrRef spec6 0)) (V c (Pipeline.arrRef spec6 1)) :=
  (dat6 V c).arrAt_eq_of_cover 2 _ (fun t _ => flushed6_eq V c t) cover6

end Cert.KernelIdeal.Hand

end
-- ==== Proof.KI.Final7.lean ====
/- Region 7's output array after the run, at the extended reals, as ONE function of the arrays the region finds: entry (r, q) is the
   neighbourhood sum's entry plus the previous features' entry times the degree of node r. Point t of the grid writes back rows
   5000 t … 5000 t + 4999; the body's stored value at entry (p, q) of its block reads the same entry of the two feature blocks and row p
   of the degree block; the 10 blocks tile the 50000 rows. -/
import proofs.«166112_j80350248174014_2_alg».proof.Proof.KI.Body7
import proofs.«166112_j80350248174014_2_alg».proof.Proof.LibLayerStages
import proofs.«166112_j80350248174014_2_alg».proof.Proof.LibColumnLayouts
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz7 : (![0, 0] : Fin 2 → Nat) = fun _ => 0 := funext fun a => by fin_cases a <;> rfl

/-- The body's stored value at entry (p, q) of the block: the sum plus the previous feature times the degree of the block's row p. -/
theorem pay7_at (x0 x1 : Vec Ideal S5000x64 .f32) (x2 : Vec Ideal S5000x1 .f32) (p : Fin 5000) (q : Fin 64) :
    k7_pay1 x0 x1 x2 (ix2 p q) = x0 (ix2 p q) + x1 (ix2 p q) * x2 (ix2 p (0 : Fin 1)) := by
  unfold k7_pay1
  simp only [shapeCast_self]
  refine (addf_apply _ _ _).trans ?_
  refine congrArg (x0 (ix2 p q) + ·) ?_
  refine (mulf_apply _ _ _).trans ?_
  rw [Cert.ColumnLayouts.broadcastTo_a1_ab_apply]

/-- The printed index maps over the grid: at point t every window's block is block t along the nodes, block 0 along the lanes. -/
theorem idx_facts7 : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_3.index t (0 : Fin 2) = t.val ∧ win7_3.index t (1 : Fin 2) = 0 :=
  (by decide +kernel : ∀ t : Fin grid7.N, _)

/-- What point t writes back is block t of the combined features. -/
theorem flushed7_eq (c : Dev nD) (t : Fin cfg7.N) :
    (dat7 V c).flushed 3 t = ((cfg7.win 3).blk t).view.read (Elt Ideal)
      (Cert.Layer.resid (V c (Pipeline.arrRef spec7 0)) (V c (Pipeline.arrRef spec7 1)) (V c (Pipeline.arrRef spec7 2))) := by
  show (cfg7.win 3).cut (grid7.coords t) ((dat7 V c).after 3 t) = _
  rw [after7_3]
  unfold out7_3
  rw [View.canon_unit_zero hz7]
  simp only [View.ld_unit_zero (S := S5000x1) hz7, View.ld_unit_zero (S := S5000x64) hz7]
  obtain ⟨e0, e1, e2, e3, e4, e5, e6, e7⟩ := idx_facts7 t
  funext j
  obtain ⟨p, q, rfl⟩ : ∃ (p : Fin 5000) (q : Fin 64), j = ix2 p q := ⟨j 0, j 1, eq_ix2 j⟩
  refine (pay7_at _ _ _ p q).trans ?_
  have ht : t.val < 10 := lt_of_lt_of_eq t.isLt N_7
  have hr : t.val * 5000 + p.val < 50000 := by have := p.isLt; omega
  have h0 : ((cfg7.win 0).blk t).view.emb (ix2 p q) = ix2 (⟨t.val * 5000 + p.val, hr⟩ : Fin 50000) q := by
    funext a; apply Fin.ext
    match a with
    | ⟨0, _⟩ => show win7_0.index t (0 : Fin 2) * 5000 + 1 * p.val = t.val * 5000 + p.val; omega
    | ⟨1, _⟩ => show win7_0.index t (1 : Fin 2) * 64 + 1 * q.val = q.val; omega
  have h1 : ((cfg7.win 1).blk t).view.emb (ix2 p q) = ix2 (⟨t.val * 5000 + p.val, hr⟩ : Fin 50000) q := by
    funext a; apply Fin.ext
    match a with
    | ⟨0, _⟩ => show win7_1.index t (0 : Fin 2) * 5000 + 1 * p.val = t.val * 5000 + p.val; omega
    | ⟨1, _⟩ => show win7_1.index t (1 : Fin 2) * 64 + 1 * q.val = q.val; omega
  have h2 : ((cfg7.win 2).blk t).view.emb (ix2 p (0 : Fin 1)) = ix2 (⟨t.val * 5000 + p.val, hr⟩ : Fin 50000) (0 : Fin 1) := by
    funext a; apply Fin.ext
    match a with
    | ⟨0, _⟩ => show win7_2.index t (0 : Fin 2) * 5000 + 1 * p.val = t.val * 5000 + p.val; omega
    | ⟨1, _⟩ => show win7_2.index t (1 : Fin 2) * 1 + 1 * 0 = 0; omega
  have h3 : ((cfg7.win 3).blk t).view.emb (ix2 p q) = ix2 (⟨t.val * 5000 + p.val, hr⟩ : Fin 50000) q := by
    funext a; apply Fin.ext
    match a with
    | ⟨0, _⟩ => show win7_3.index t (0 : Fin 2) * 5000 + 1 * p.val = t.val * 5000 + p.val; omega
    | ⟨1, _⟩ => show win7_3.index t (1 : Fin 2) * 64 + 1 * q.val = q.val; omega
  have key : ∀ (A0 A1 : FVec Ideal S50000x64 .f32) (A2 : FVec Ideal S50000x1 .f32),
      A0 (((cfg7.win 0).blk t).view.emb (ix2 p q)) + A1 (((cfg7.win 1).blk t).view.emb (ix2 p q)) * A2 (((cfg7.win 2).blk t).view.emb (ix2 p (0 : Fin 1)))
        = Cert.Layer.resid A0 A1 A2 (((cfg7.win 3).blk t).view.emb (ix2 p q)) := by
    intro A0 A1 A2
    rw [h0, h1, h2, h3, Cert.Layer.resid_apply]
  exact key _ _ _

/-- An index of the array is in point t's block iff each coordinate is in the block's range on its axis. -/
theorem mem_blk7 (t : Fin cfg7.N) (i : S50000x64.Idx) :
    i ∈ ((cfg7.win 3).blk t).view.set ↔ ∀ a : Fin 2, win7_3.index t a * S5000x64.size a ≤ (i a).val ∧ (i a).val < win7_3.index t a * S5000x64.size a + S5000x64.size a := by
  show i ∈ ((View.whole (Pipeline.arrRef spec7 3)).slice (win7_3.rect t)).set ↔ _
  rw [View.set_slice_whole, Rect.mem_set_unit]
  exact Iff.rfl

/-- Every entry of the array lies in the block of the point its row falls in. -/
theorem cover7 (i : S50000x64.Idx) : ∃ t : Fin cfg7.N, (cfg7.win 3).flush t = true ∧ i ∈ ((cfg7.win 3).blk t).view.set := by
  have hi0 : (i 0).val < 50000 := (i 0).isLt
  have hi1 : (i 1).val < 64 := (i 1).isLt
  have hN : (i 0).val / 5000 < cfg7.N := lt_of_lt_of_eq (by omega : (i 0).val / 5000 < 10) N_7.symm
  refine ⟨⟨(i 0).val / 5000, hN⟩, flush7_3 _, ?_⟩
  obtain ⟨e0, e1, e2, e3, e4, e5, e6, e7⟩ := idx_facts7 ⟨(i 0).val / 5000, hN⟩
  rw [mem_blk7]
  intro a
  match a with
  | ⟨0, _⟩ => show win7_3.index ⟨(i 0).val / 5000, hN⟩ (0 : Fin 2) * 5000 ≤ (i 0).val ∧ (i 0).val < win7_3.index ⟨(i 0).val / 5000, hN⟩ (0 : Fin 2) * 5000 + 5000; rw [e6]; show (i 0).val / 5000 * 5000 ≤ (i 0).val ∧ (i 0).val < (i 0).val / 5000 * 5000 + 5000; omega
  | ⟨1, _⟩ => show win7_3.index ⟨(i 0).val / 5000, hN⟩ (1 : Fin 2) * 64 ≤ (i 1).val ∧ (i 1).val < win7_3.index ⟨(i 0).val / 5000, hN⟩ (1 : Fin 2) * 64 + 64; rw [e7]; omega

/-- The output array after the run: the sums plus the previous features scaled row by row by the degrees. -/
theorem final7 (c : Dev nD) : (dat7 V c).arrAt 3 cfg7.N
    = Cert.Layer.resid (V c (Pipeline.arrRef spec7 0)) (V c (Pipeline.arrRef spec7 1)) (V c (Pipeline.arrRef spec7 2)) :=
  (dat7 V c).arrAt_eq_of_cover 3 _ (fun t _ => flushed7_eq V c t) cover7

end Cert.KernelIdeal.Hand

end
-- ==== Proof.KI.Final8.lean ====
/- Region 8's output array after the run, at the extended reals, as ONE function of the arrays the region finds: entry (e, q) is the
   weight of edge e times entry (e, q) of the gathered rows. Point t of the grid writes back rows 8000 t … 8000 t + 7999; the body's
   stored value at row p of its block reads the weight block's row p and the row block's entry (p, q); the 400 blocks tile the array. -/
import proofs.«166112_j80350248174014_2_alg».proof.Proof.KI.Body8
import proofs.«166112_j80350248174014_2_alg».proof.Proof.LibLayerStages
import proofs.«166112_j80350248174014_2_alg».proof.Proof.LibColumnLayouts
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz8 : (![0, 0] : Fin 2 → Nat) = fun _ => 0 := funext fun a => by fin_cases a <;> rfl

/-- The body's stored value at entry (p, q) of the block: the weight of the block's row p times the rows' entry. -/
theorem pay8_at (x0 : Vec Ideal S8000x1 .f32) (x1 : Vec Ideal S8000x64 .f32) (p : Fin 8000) (q : Fin 64) :
    k8_pay1 x0 x1 (ix2 p q) = x0 (ix2 p (0 : Fin 1)) * x1 (ix2 p q) := by
  unfold k8_pay1
  rw [shapeCast_self, shapeCast_self]
  refine (mulf_apply _ _ _).trans ?_
  rw [Cert.ColumnLayouts.broadcastTo_a1_ab_apply]

/-- The printed index maps over the grid: at point t every window's block is block t along the edges, block 0 along the lanes. -/
theorem idx_facts8 : ∀ t : Fin cfg8.N, win8_0.index t (0 : Fin 2) = t.val ∧ win8_0.index t (1 : Fin 2) = 0
    ∧ win8_1.index t (0 : Fin 2) = t.val ∧ win8_1.index t (1 : Fin 2) = 0
    ∧ win8_2.index t (0 : Fin 2) = t.val ∧ win8_2.index t (1 : Fin 2) = 0 :=
  (by decide +kernel : ∀ t : Fin grid8.N, _)

/-- What point t writes back is block t of the scaled rows. -/
theorem flushed8_eq (c : Dev nD) (t : Fin cfg8.N) :
    (dat8 V c).flushed 2 t = ((cfg8.win 2).blk t).view.read (Elt Ideal)
      (Cert.Layer.rowScale (V c (Pipeline.arrRef spec8 0)) (V c (Pipeline.arrRef spec8 1))) := by
  show (cfg8.win 2).cut (grid8.coords t) ((dat8 V c).after 2 t) = _
  rw [after8_2]
  unfold out8_2
  rw [View.canon_unit_zero hz8]
  simp only [View.ld_unit_zero (S := S8000x1) hz8, View.ld_unit_zero (S := S8000x64) hz8]
  obtain ⟨e0, e1, e2, e3, e4, e5⟩ := idx_facts8 t
  funext j
  obtain ⟨p, q, rfl⟩ : ∃ (p : Fin 8000) (q : Fin 64), j = ix2 p q := ⟨j 0, j 1, eq_ix2 j⟩
  refine (pay8_at _ _ p q).trans ?_
  have ht : t.val < 400 := lt_of_lt_of_eq t.isLt N_8
  have hr : t.val * 8000 + p.val < 3200000 := by have := p.isLt; omega
  have h0 : ((cfg8.win 0).blk t).view.emb (ix2 p (0 : Fin 1)) = ix2 (⟨t.val * 8000 + p.val, hr⟩ : Fin 3200000) (0 : Fin 1) := by
    funext a; apply Fin.ext
    match a with
    | ⟨0, _⟩ => show win8_0.index t (0 : Fin 2) * 8000 + 1 * p.val = t.val * 8000 + p.val; omega
    | ⟨1, _⟩ => show win8_0.index t (1 : Fin 2) * 1 + 1 * 0 = 0; omega
  have h1 : ((cfg8.win 1).blk t).view.emb (ix2 p q) = ix2 (⟨t.val * 8000 + p.val, hr⟩ : Fin 3200000) q := by
    funext a; apply Fin.ext
    match a with
    | ⟨0, _⟩ => show win8_1.index t (0 : Fin 2) * 8000 + 1 * p.val = t.val * 8000 + p.val; omega
    | ⟨1, _⟩ => show win8_1.index t (1 : Fin 2) * 64 + 1 * q.val = q.val; omega
  have h2 : ((cfg8.win 2).blk t).view.emb (ix2 p q) = ix2 (⟨t.val * 8000 + p.val, hr⟩ : Fin 3200000) q := by
    funext a; apply Fin.ext
    match a with
    | ⟨0, _⟩ => show win8_2.index t (0 : Fin 2) * 8000 + 1 * p.val = t.val * 8000 + p.val; omega
    | ⟨1, _⟩ => show win8_2.index t (1 : Fin 2) * 64 + 1 * q.val = q.val; omega
  have key : ∀ (A0 : FVec Ideal S3200000x1 .f32) (A1 : FVec Ideal S3200000x64 .f32),
      A0 (((cfg8.win 0).blk t).view.emb (ix2 p (0 : Fin 1))) * A1 (((cfg8.win 1).blk t).view.emb (ix2 p q))
        = Cert.Layer.rowScale A0 A1 (((cfg8.win 2).blk t).view.emb (ix2 p q)) := by
    intro A0 A1
    rw [h0, h1, h2, Cert.Layer.rowScale_apply]
  exact key _ _

/-- An index of the array is in point t's block iff each coordinate is in the block's range on its axis. -/
theorem mem_blk8 (t : Fin cfg8.N) (i : S3200000x64.Idx) :
    i ∈ ((cfg8.win 2).blk t).view.set ↔ ∀ a : Fin 2, win8_2.index t a * S8000x64.size a ≤ (i a).val ∧ (i a).val < win8_2.index t a * S8000x64.size a + S8000x64.size a := by
  show i ∈ ((View.whole (Pipeline.arrRef spec8 2)).slice (win8_2.rect t)).set ↔ _
  rw [View.set_slice_whole, Rect.mem_set_unit]
  exact Iff.rfl

/-- Every entry of the array lies in the block of the point its row falls in. -/
theorem cover8 (i : S3200000x64.Idx) : ∃ t : Fin cfg8.N, (cfg8.win 2).flush t = true ∧ i ∈ ((cfg8.win 2).blk t).view.set := by
  have hi0 : (i 0).val < 3200000 := (i 0).isLt
  have hi1 : (i 1).val < 64 := (i 1).isLt
  have hN : (i 0).val / 8000 < cfg8.N := lt_of_lt_of_eq (by omega : (i 0).val / 8000 < 400) N_8.symm
  refine ⟨⟨(i 0).val / 8000, hN⟩, flush8_2 _, ?_⟩
  obtain ⟨e0, e1, e2, e3, e4, e5⟩ := idx_facts8 ⟨(i 0).val / 8000, hN⟩
  rw [mem_blk8]
  intro a
  match a with
  | ⟨0, _⟩ => show win8_2.index ⟨(i 0).val / 8000, hN⟩ (0 : Fin 2) * 8000 ≤ (i 0).val ∧ (i 0).val < win8_2.index ⟨(i 0).val / 8000, hN⟩ (0 : Fin 2) * 8000 + 8000; rw [e4]; show (i 0).val / 8000 * 8000 ≤ (i 0).val ∧ (i 0).val < (i 0).val / 8000 * 8000 + 8000; omega
  | ⟨1, _⟩ => show win8_2.index ⟨(i 0).val / 8000, hN⟩ (1 : Fin 2) * 64 ≤ (i 1).val ∧ (i 1).val < win8_2.index ⟨(i 0).val / 8000, hN⟩ (1 : Fin 2) * 64 + 64; rw [e5]; omega

/-- The output array after the run: the gathered rows, each scaled by its edge's weight. -/
theorem final8 (c : Dev nD) : (dat8 V c).arrAt 2 cfg8.N
    = Cert.Layer.rowScale (V c (Pipeline.arrRef spec8 0)) (V c (Pipeline.arrRef spec8 1)) :=
  (dat8 V c).arrAt_eq_of_cover 2 _ (fun t _ => flushed8_eq V c t) cover8

end Cert.KernelIdeal.Hand

end
-- ==== Proof.KI.Final9.lean ====
/- Region 9's output array after the run, at the extended reals, as ONE function of the arrays the region finds: entry (r, q) is the
   neighbourhood sum's entry plus the previous features' entry times the degree of node r. Point t of the grid writes back rows
   5000 t … 5000 t + 4999; the body's stored value at entry (p, q) of its block reads the same entry of the two feature blocks and row p
   of the degree block; the 20 blocks tile the 100000 rows. -/
import proofs.«166112_j80350248174014_2_alg».proof.Proof.KI.Body9
import proofs.«166112_j80350248174014_2_alg».proof.Proof.LibLayerStages
import proofs.«166112_j80350248174014_2_alg».proof.Proof.LibColumnLayouts
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz9 : (![0, 0] : Fin 2 → Nat) = fun _ => 0 := funext fun a => by fin_cases a <;> rfl

/-- The body's stored value at entry (p, q) of the block: the sum plus the previous feature times the degree of the block's row p. -/
theorem pay9_at (x0 x1 : Vec Ideal S5000x64 .f32) (x2 : Vec Ideal S5000x1 .f32) (p : Fin 5000) (q : Fin 64) :
    k9_pay1 x0 x1 x2 (ix2 p q) = x0 (ix2 p q) + x1 (ix2 p q) * x2 (ix2 p (0 : Fin 1)) := by
  unfold k9_pay1
  simp only [shapeCast_self]
  refine (addf_apply _ _ _).trans ?_
  refine congrArg (x0 (ix2 p q) + ·) ?_
  refine (mulf_apply _ _ _).trans ?_
  rw [Cert.ColumnLayouts.broadcastTo_a1_ab_apply]

/-- The printed index maps over the grid: at point t every window's block is block t along the nodes, block 0 along the lanes. -/
theorem idx_facts9 : ∀ t : Fin cfg9.N, win9_0.index t (0 : Fin 2) = t.val ∧ win9_0.index t (1 : Fin 2) = 0
    ∧ win9_1.index t (0 : Fin 2) = t.val ∧ win9_1.index t (1 : Fin 2) = 0
    ∧ win9_2.index t (0 : Fin 2) = t.val ∧ win9_2.index t (1 : Fin 2) = 0
    ∧ win9_3.index t (0 : Fin 2) = t.val ∧ win9_3.index t (1 : Fin 2) = 0 :=
  (by decide +kernel : ∀ t : Fin grid9.N, _)

/-- What point t writes back is block t of the combined features. -/
theorem flushed9_eq (c : Dev nD) (t : Fin cfg9.N) :
    (dat9 V c).flushed 3 t = ((cfg9.win 3).blk t).view.read (Elt Ideal)
      (Cert.Layer.resid (V c (Pipeline.arrRef spec9 0)) (V c (Pipeline.arrRef spec9 1)) (V c (Pipeline.arrRef spec9 2))) := by
  show (cfg9.win 3).cut (grid9.coords t) ((dat9 V c).after 3 t) = _
  rw [after9_3]
  unfold out9_3
  rw [View.canon_unit_zero hz9]
  simp only [View.ld_unit_zero (S := S5000x1) hz9, View.ld_unit_zero (S := S5000x64) hz9]
  obtain ⟨e0, e1, e2, e3, e4, e5, e6, e7⟩ := idx_facts9 t
  funext j
  obtain ⟨p, q, rfl⟩ : ∃ (p : Fin 5000) (q : Fin 64), j = ix2 p q := ⟨j 0, j 1, eq_ix2 j⟩
  refine (pay9_at _ _ _ p q).trans ?_
  have ht : t.val < 20 := lt_of_lt_of_eq t.isLt N_9
  have hr : t.val * 5000 + p.val < 100000 := by have := p.isLt; omega
  have h0 : ((cfg9.win 0).blk t).view.emb (ix2 p q) = ix2 (⟨t.val * 5000 + p.val, hr⟩ : Fin 100000) q := by
    funext a; apply Fin.ext
    match a with
    | ⟨0, _⟩ => show win9_0.index t (0 : Fin 2) * 5000 + 1 * p.val = t.val * 5000 + p.val; omega
    | ⟨1, _⟩ => show win9_0.index t (1 : Fin 2) * 64 + 1 * q.val = q.val; omega
  have h1 : ((cfg9.win 1).blk t).view.emb (ix2 p q) = ix2 (⟨t.val * 5000 + p.val, hr⟩ : Fin 100000) q := by
    funext a; apply Fin.ext
    match a with
    | ⟨0, _⟩ => show win9_1.index t (0 : Fin 2) * 5000 + 1 * p.val = t.val * 5000 + p.val; omega
    | ⟨1, _⟩ => show win9_1.index t (1 : Fin 2) * 64 + 1 * q.val = q.val; omega
  have h2 : ((cfg9.win 2).blk t).view.emb (ix2 p (0 : Fin 1)) = ix2 (⟨t.val * 5000 + p.val, hr⟩ : Fin 100000) (0 : Fin 1) := by
    funext a; apply Fin.ext
    match a with
    | ⟨0, _⟩ => show win9_2.index t (0 : Fin 2) * 5000 + 1 * p.val = t.val * 5000 + p.val; omega
    | ⟨1, _⟩ => show win9_2.index t (1 : Fin 2) * 1 + 1 * 0 = 0; omega
  have h3 : ((cfg9.win 3).blk t).view.emb (ix2 p q) = ix2 (⟨t.val * 5000 + p.val, hr⟩ : Fin 100000) q := by
    funext a; apply Fin.ext
    match a with
    | ⟨0, _⟩ => show win9_3.index t (0 : Fin 2) * 5000 + 1 * p.val = t.val * 5000 + p.val; omega
    | ⟨1, _⟩ => show win9_3.index t (1 : Fin 2) * 64 + 1 * q.val = q.val; omega
  have key : ∀ (A0 A1 : FVec Ideal S100000x64 .f32) (A2 : FVec Ideal S100000x1 .f32),
      A0 (((cfg9.win 0).blk t).view.emb (ix2 p q)) + A1 (((cfg9.win 1).blk t).view.emb (ix2 p q)) * A2 (((cfg9.win 2).blk t).view.emb (ix2 p (0 : Fin 1)))
        = Cert.Layer.resid A0 A1 A2 (((cfg9.win 3).blk t).view.emb (ix2 p q)) := by
    intro A0 A1 A2
    rw [h0, h1, h2, h3, Cert.Layer.resid_apply]
  exact key _ _ _

/-- An index of the array is in point t's block iff each coordinate is in the block's range on its axis. -/
theorem mem_blk9 (t : Fin cfg9.N) (i : S100000x64.Idx) :
    i ∈ ((cfg9.win 3).blk t).view.set ↔ ∀ a : Fin 2, win9_3.index t a * S5000x64.size a ≤ (i a).val ∧ (i a).val < win9_3.index t a * S5000x64.size a + S5000x64.size a := by
  show i ∈ ((View.whole (Pipeline.arrRef spec9 3)).slice (win9_3.rect t)).set ↔ _
  rw [View.set_slice_whole, Rect.mem_set_unit]
  exact Iff.rfl

/-- Every entry of the array lies in the block of the point its row falls in. -/
theorem cover9 (i : S100000x64.Idx) : ∃ t : Fin cfg9.N, (cfg9.win 3).flush t = true ∧ i ∈ ((cfg9.win 3).blk t).view.set := by
  have hi0 : (i 0).val < 100000 := (i 0).isLt
  have hi1 : (i 1).val < 64 := (i 1).isLt
  have hN : (i 0).val / 5000 < cfg9.N := lt_of_lt_of_eq (by omega : (i 0).val / 5000 < 20) N_9.symm
  refine ⟨⟨(i 0).val / 5000, hN⟩, flush9_3 _, ?_⟩
  obtain ⟨e0, e1, e2, e3, e4, e5, e6, e7⟩ := idx_facts9 ⟨(i 0).val / 5000, hN⟩
  rw [mem_blk9]
  intro a
  match a with
  | ⟨0, _⟩ => show win9_3.index ⟨(i 0).val / 5000, hN⟩ (0 : Fin 2) * 5000 ≤ (i 0).val ∧ (i 0).val < win9_3.index ⟨(i 0).val / 5000, hN⟩ (0 : Fin 2) * 5000 + 5000; rw [e6]; show (i 0).val / 5000 * 5000 ≤ (i 0).val ∧ (i 0).val < (i 0).val / 5000 * 5000 + 5000; omega
  | ⟨1, _⟩ => show win9_3.index ⟨(i 0).val / 5000, hN⟩ (1 : Fin 2) * 64 ≤ (i 1).val ∧ (i 1).val < win9_3.index ⟨(i 0).val / 5000, hN⟩ (1 : Fin 2) * 64 + 64; rw [e7]; omega

/-- The output array after the run: the sums plus the previous features scaled row by row by the degrees. -/
theorem final9 (c : Dev nD) : (dat9 V c).arrAt 3 cfg9.N
    = Cert.Layer.resid (V c (Pipeline.arrRef spec9 0)) (V c (Pipeline.arrRef spec9 1)) (V c (Pipeline.arrRef spec9 2)) :=
  (dat9 V c).arrAt_eq_of_cover 3 _ (fun t _ => flushed9_eq V c t) cover9

end Cert.KernelIdeal.Hand

end
-- ==== Proof.KI.Final10.lean ====
/- Region 10's output array after the run, at the extended reals, as ONE function of the arrays the region finds: entry (e, q) is the
   weight of edge e times entry (e, q) of the gathered rows. Point t of the grid writes back rows 8000 t … 8000 t + 7999; the body's
   stored value at row p of its block reads the weight block's row p and the row block's entry (p, q); the 400 blocks tile the array. -/
import proofs.«166112_j80350248174014_2_alg».proof.Proof.KI.Body10
import proofs.«166112_j80350248174014_2_alg».proof.Proof.LibLayerStages
import proofs.«166112_j80350248174014_2_alg».proof.Proof.LibColumnLayouts
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz10 : (![0, 0] : Fin 2 → Nat) = fun _ => 0 := funext fun a => by fin_cases a <;> rfl

/-- The body's stored value at entry (p, q) of the block: the weight of the block's row p times the rows' entry. -/
theorem pay10_at (x0 : Vec Ideal S8000x1 .f32) (x1 : Vec Ideal S8000x64 .f32) (p : Fin 8000) (q : Fin 64) :
    k10_pay1 x0 x1 (ix2 p q) = x0 (ix2 p (0 : Fin 1)) * x1 (ix2 p q) := by
  unfold k10_pay1
  rw [shapeCast_self, shapeCast_self]
  refine (mulf_apply _ _ _).trans ?_
  rw [Cert.ColumnLayouts.broadcastTo_a1_ab_apply]

/-- The printed index maps over the grid: at point t every window's block is block t along the edges, block 0 along the lanes. -/
theorem idx_facts10 : ∀ t : Fin cfg10.N, win10_0.index t (0 : Fin 2) = t.val ∧ win10_0.index t (1 : Fin 2) = 0
    ∧ win10_1.index t (0 : Fin 2) = t.val ∧ win10_1.index t (1 : Fin 2) = 0
    ∧ win10_2.index t (0 : Fin 2) = t.val ∧ win10_2.index t (1 : Fin 2) = 0 :=
  (by decide +kernel : ∀ t : Fin grid10.N, _)

/-- What point t writes back is block t of the scaled rows. -/
theorem flushed10_eq (c : Dev nD) (t : Fin cfg10.N) :
    (dat10 V c).flushed 2 t = ((cfg10.win 2).blk t).view.read (Elt Ideal)
      (Cert.Layer.rowScale (V c (Pipeline.arrRef spec10 0)) (V c (Pipeline.arrRef spec10 1))) := by
  show (cfg10.win 2).cut (grid10.coords t) ((dat10 V c).after 2 t) = _
  rw [after10_2]
  unfold out10_2
  rw [View.canon_unit_zero hz10]
  simp only [View.ld_unit_zero (S := S8000x1) hz10, View.ld_unit_zero (S := S8000x64) hz10]
  obtain ⟨e0, e1, e2, e3, e4, e5⟩ := idx_facts10 t
  funext j
  obtain ⟨p, q, rfl⟩ : ∃ (p : Fin 8000) (q : Fin 64), j = ix2 p q := ⟨j 0, j 1, eq_ix2 j⟩
  refine (pay10_at _ _ p q).trans ?_
  have ht : t.val < 400 := lt_of_lt_of_eq t.isLt N_10
  have hr : t.val * 8000 + p.val < 3200000 := by have := p.isLt; omega
  have h0 : ((cfg10.win 0).blk t).view.emb (ix2 p (0 : Fin 1)) = ix2 (⟨t.val * 8000 + p.val, hr⟩ : Fin 3200000) (0 : Fin 1) := by
    funext a; apply Fin.ext
    match a with
    | ⟨0, _⟩ => show win10_0.index t (0 : Fin 2) * 8000 + 1 * p.val = t.val * 8000 + p.val; omega
    | ⟨1, _⟩ => show win10_0.index t (1 : Fin 2) * 1 + 1 * 0 = 0; omega
  have h1 : ((cfg10.win 1).blk t).view.emb (ix2 p q) = ix2 (⟨t.val * 8000 + p.val, hr⟩ : Fin 3200000) q := by
    funext a; apply Fin.ext
    match a with
    | ⟨0, _⟩ => show win10_1.index t (0 : Fin 2) * 8000 + 1 * p.val = t.val * 8000 + p.val; omega
    | ⟨1, _⟩ => show win10_1.index t (1 : Fin 2) * 64 + 1 * q.val = q.val; omega
  have h2 : ((cfg10.win 2).blk t).view.emb (ix2 p q) = ix2 (⟨t.val * 8000 + p.val, hr⟩ : Fin 3200000) q := by
    funext a; apply Fin.ext
    match a with
    | ⟨0, _⟩ => show win10_2.index t (0 : Fin 2) * 8000 + 1 * p.val = t.val * 8000 + p.val; omega
    | ⟨1, _⟩ => show win10_2.index t (1 : Fin 2) * 64 + 1 * q.val = q.val; omega
  have key : ∀ (A0 : FVec Ideal S3200000x1 .f32) (A1 : FVec Ideal S3200000x64 .f32),
      A0 (((cfg10.win 0).blk t).view.emb (ix2 p (0 : Fin 1))) * A1 (((cfg10.win 1).blk t).view.emb (ix2 p q))
        = Cert.Layer.rowScale A0 A1 (((cfg10.win 2).blk t).view.emb (ix2 p q)) := by
    intro A0 A1
    rw [h0, h1, h2, Cert.Layer.rowScale_apply]
  exact key _ _

/-- An index of the array is in point t's block iff each coordinate is in the block's range on its axis. -/
theorem mem_blk10 (t : Fin cfg10.N) (i : S3200000x64.Idx) :
    i ∈ ((cfg10.win 2).blk t).view.set ↔ ∀ a : Fin 2, win10_2.index t a * S8000x64.size a ≤ (i a).val ∧ (i a).val < win10_2.index t a * S8000x64.size a + S8000x64.size a := by
  show i ∈ ((View.whole (Pipeline.arrRef spec10 2)).slice (win10_2.rect t)).set ↔ _
  rw [View.set_slice_whole, Rect.mem_set_unit]
  exact Iff.rfl

/-- Every entry of the array lies in the block of the point its row falls in. -/
theorem cover10 (i : S3200000x64.Idx) : ∃ t : Fin cfg10.N, (cfg10.win 2).flush t = true ∧ i ∈ ((cfg10.win 2).blk t).view.set := by
  have hi0 : (i 0).val < 3200000 := (i 0).isLt
  have hi1 : (i 1).val < 64 := (i 1).isLt
  have hN : (i 0).val / 8000 < cfg10.N := lt_of_lt_of_eq (by omega : (i 0).val / 8000 < 400) N_10.symm
  refine ⟨⟨(i 0).val / 8000, hN⟩, flush10_2 _, ?_⟩
  obtain ⟨e0, e1, e2, e3, e4, e5⟩ := idx_facts10 ⟨(i 0).val / 8000, hN⟩
  rw [mem_blk10]
  intro a
  match a with
  | ⟨0, _⟩ => show win10_2.index ⟨(i 0).val / 8000, hN⟩ (0 : Fin 2) * 8000 ≤ (i 0).val ∧ (i 0).val < win10_2.index ⟨(i 0).val / 8000, hN⟩ (0 : Fin 2) * 8000 + 8000; rw [e4]; show (i 0).val / 8000 * 8000 ≤ (i 0).val ∧ (i 0).val < (i 0).val / 8000 * 8000 + 8000; omega
  | ⟨1, _⟩ => show win10_2.index ⟨(i 0).val / 8000, hN⟩ (1 : Fin 2) * 64 ≤ (i 1).val ∧ (i 1).val < win10_2.index ⟨(i 0).val / 8000, hN⟩ (1 : Fin 2) * 64 + 64; rw [e5]; omega

/-- The output array after the run: the gathered rows, each scaled by its edge's weight. -/
theorem final10 (c : Dev nD) : (dat10 V c).arrAt 2 cfg10.N
    = Cert.Layer.rowScale (V c (Pipeline.arrRef spec10 0)) (V c (Pipeline.arrRef spec10 1)) :=
  (dat10 V c).arrAt_eq_of_cover 2 _ (fun t _ => flushed10_eq V c t) cover10

end Cert.KernelIdeal.Hand

end
-- ==== Proof.KI.Final11.lean ====
/- Region 11's output array after the run, at the extended reals, as ONE function of the arrays the region finds: entry (r, q) is the
   neighbourhood sum's entry plus the previous features' entry times the degree of node r. Point t of the grid writes back rows
   5000 t … 5000 t + 4999; the body's stored value at entry (p, q) of its block reads the same entry of the two feature blocks and row p
   of the degree block; the 10 blocks tile the 50000 rows. -/
import proofs.«166112_j80350248174014_2_alg».proof.Proof.KI.Body11
import proofs.«166112_j80350248174014_2_alg».proof.Proof.LibLayerStages
import proofs.«166112_j80350248174014_2_alg».proof.Proof.LibColumnLayouts
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz11 : (![0, 0] : Fin 2 → Nat) = fun _ => 0 := funext fun a => by fin_cases a <;> rfl

/-- The body's stored value at entry (p, q) of the block: the sum plus the previous feature times the degree of the block's row p. -/
theorem pay11_at (x0 x1 : Vec Ideal S5000x64 .f32) (x2 : Vec Ideal S5000x1 .f32) (p : Fin 5000) (q : Fin 64) :
    k11_pay1 x0 x1 x2 (ix2 p q) = x0 (ix2 p q) + x1 (ix2 p q) * x2 (ix2 p (0 : Fin 1)) := by
  unfold k11_pay1
  simp only [shapeCast_self]
  refine (addf_apply _ _ _).trans ?_
  refine congrArg (x0 (ix2 p q) + ·) ?_
  refine (mulf_apply _ _ _).trans ?_
  rw [Cert.ColumnLayouts.broadcastTo_a1_ab_apply]

/-- The printed index maps over the grid: at point t every window's block is block t along the nodes, block 0 along the lanes. -/
theorem idx_facts11 : ∀ t : Fin cfg11.N, win11_0.index t (0 : Fin 2) = t.val ∧ win11_0.index t (1 : Fin 2) = 0
    ∧ win11_1.index t (0 : Fin 2) = t.val ∧ win11_1.index t (1 : Fin 2) = 0
    ∧ win11_2.index t (0 : Fin 2) = t.val ∧ win11_2.index t (1 : Fin 2) = 0
    ∧ win11_3.index t (0 : Fin 2) = t.val ∧ win11_3.index t (1 : Fin 2) = 0 :=
  (by decide +kernel : ∀ t : Fin grid11.N, _)

/-- What point t writes back is block t of the combined features. -/
theorem flushed11_eq (c : Dev nD) (t : Fin cfg11.N) :
    (dat11 V c).flushed 3 t = ((cfg11.win 3).blk t).view.read (Elt Ideal)
      (Cert.Layer.resid (V c (Pipeline.arrRef spec11 0)) (V c (Pipeline.arrRef spec11 1)) (V c (Pipeline.arrRef spec11 2))) := by
  show (cfg11.win 3).cut (grid11.coords t) ((dat11 V c).after 3 t) = _
  rw [after11_3]
  unfold out11_3
  rw [View.canon_unit_zero hz11]
  simp only [View.ld_unit_zero (S := S5000x1) hz11, View.ld_unit_zero (S := S5000x64) hz11]
  obtain ⟨e0, e1, e2, e3, e4, e5, e6, e7⟩ := idx_facts11 t
  funext j
  obtain ⟨p, q, rfl⟩ : ∃ (p : Fin 5000) (q : Fin 64), j = ix2 p q := ⟨j 0, j 1, eq_ix2 j⟩
  refine (pay11_at _ _ _ p q).trans ?_
  have ht : t.val < 10 := lt_of_lt_of_eq t.isLt N_11
  have hr : t.val * 5000 + p.val < 50000 := by have := p.isLt; omega
  have h0 : ((cfg11.win 0).blk t).view.emb (ix2 p q) = ix2 (⟨t.val * 5000 + p.val, hr⟩ : Fin 50000) q := by
    funext a; apply Fin.ext
    match a with
    | ⟨0, _⟩ => show win11_0.index t (0 : Fin 2) * 5000 + 1 * p.val = t.val * 5000 + p.val; omega
    | ⟨1, _⟩ => show win11_0.index t (1 : Fin 2) * 64 + 1 * q.val = q.val; omega
  have h1 : ((cfg11.win 1).blk t).view.emb (ix2 p q) = ix2 (⟨t.val * 5000 + p.val, hr⟩ : Fin 50000) q := by
    funext a; apply Fin.ext
    match a with
    | ⟨0, _⟩ => show win11_1.index t (0 : Fin 2) * 5000 + 1 * p.val = t.val * 5000 + p.val; omega
    | ⟨1, _⟩ => show win11_1.index t (1 : Fin 2) * 64 + 1 * q.val = q.val; omega
  have h2 : ((cfg11.win 2).blk t).view.emb (ix2 p (0 : Fin 1)) = ix2 (⟨t.val * 5000 + p.val, hr⟩ : Fin 50000) (0 : Fin 1) := by
    funext a; apply Fin.ext
    match a with
    | ⟨0, _⟩ => show win11_2.index t (0 : Fin 2) * 5000 + 1 * p.val = t.val * 5000 + p.val; omega
    | ⟨1, _⟩ => show win11_2.index t (1 : Fin 2) * 1 + 1 * 0 = 0; omega
  have h3 : ((cfg11.win 3).blk t).view.emb (ix2 p q) = ix2 (⟨t.val * 5000 + p.val, hr⟩ : Fin 50000) q := by
    funext a; apply Fin.ext
    match a with
    | ⟨0, _⟩ => show win11_3.index t (0 : Fin 2) * 5000 + 1 * p.val = t.val * 5000 + p.val; omega
    | ⟨1, _⟩ => show win11_3.index t (1 : Fin 2) * 64 + 1 * q.val = q.val; omega
  have key : ∀ (A0 A1 : FVec Ideal S50000x64 .f32) (A2 : FVec Ideal S50000x1 .f32),
      A0 (((cfg11.win 0).blk t).view.emb (ix2 p q)) + A1 (((cfg11.win 1).blk t).view.emb (ix2 p q)) * A2 (((cfg11.win 2).blk t).view.emb (ix2 p (0 : Fin 1)))
        = Cert.Layer.resid A0 A1 A2 (((cfg11.win 3).blk t).view.emb (ix2 p q)) := by
    intro A0 A1 A2
    rw [h0, h1, h2, h3, Cert.Layer.resid_apply]
  exact key _ _ _

/-- An index of the array is in point t's block iff each coordinate is in the block's range on its axis. -/
theorem mem_blk11 (t : Fin cfg11.N) (i : S50000x64.Idx) :
    i ∈ ((cfg11.win 3).blk t).view.set ↔ ∀ a : Fin 2, win11_3.index t a * S5000x64.size a ≤ (i a).val ∧ (i a).val < win11_3.index t a * S5000x64.size a + S5000x64.size a := by
  show i ∈ ((View.whole (Pipeline.arrRef spec11 3)).slice (win11_3.rect t)).set ↔ _
  rw [View.set_slice_whole, Rect.mem_set_unit]
  exact Iff.rfl

/-- Every entry of the array lies in the block of the point its row falls in. -/
theorem cover11 (i : S50000x64.Idx) : ∃ t : Fin cfg11.N, (cfg11.win 3).flush t = true ∧ i ∈ ((cfg11.win 3).blk t).view.set := by
  have hi0 : (i 0).val < 50000 := (i 0).isLt
  have hi1 : (i 1).val < 64 := (i 1).isLt
  have hN : (i 0).val / 5000 < cfg11.N := lt_of_lt_of_eq (by omega : (i 0).val / 5000 < 10) N_11.symm
  refine ⟨⟨(i 0).val / 5000, hN⟩, flush11_3 _, ?_⟩
  obtain ⟨e0, e1, e2, e3, e4, e5, e6, e7⟩ := idx_facts11 ⟨(i 0).val / 5000, hN⟩
  rw [mem_blk11]
  intro a
  match a with
  | ⟨0, _⟩ => show win11_3.index ⟨(i 0).val / 5000, hN⟩ (0 : Fin 2) * 5000 ≤ (i 0).val ∧ (i 0).val < win11_3.index ⟨(i 0).val / 5000, hN⟩ (0 : Fin 2) * 5000 + 5000; rw [e6]; show (i 0).val / 5000 * 5000 ≤ (i 0).val ∧ (i 0).val < (i 0).val / 5000 * 5000 + 5000; omega
  | ⟨1, _⟩ => show win11_3.index ⟨(i 0).val / 5000, hN⟩ (1 : Fin 2) * 64 ≤ (i 1).val ∧ (i 1).val < win11_3.index ⟨(i 0).val / 5000, hN⟩ (1 : Fin 2) * 64 + 64; rw [e7]; omega

/-- The output array after the run: the sums plus the previous features scaled row by row by the degrees. -/
theorem final11 (c : Dev nD) : (dat11 V c).arrAt 3 cfg11.N
    = Cert.Layer.resid (V c (Pipeline.arrRef spec11 0)) (V c (Pipeline.arrRef spec11 1)) (V c (Pipeline.arrRef spec11 2)) :=
  (dat11 V c).arrAt_eq_of_cover 3 _ (fun t _ => flushed11_eq V c t) cover11

end Cert.KernelIdeal.Hand

end
-- ==== Proof.KI.Stages.lean ====
/- What each stage of the program writes, as a function of what the stage before it left: a host stretch's gather, reshape, scatter-add,
   concatenate and final gathers read off its operations; a region's output array by the closed form of its pipeline (each gathered row scaled
   by its edge's weight; the neighbourhood sums plus the previous features scaled by the degrees). -/
import proofs.«166112_j80350248174014_2_alg».proof.Proof.KI.Fold
import proofs.«166112_j80350248174014_2_alg».proof.Proof.KI.Final0
import proofs.«166112_j80350248174014_2_alg».proof.Proof.KI.Final1
import proofs.«166112_j80350248174014_2_alg».proof.Proof.KI.Final2
import proofs.«166112_j80350248174014_2_alg».proof.Proof.KI.Final3
import proofs.«166112_j80350248174014_2_alg».proof.Proof.KI.Final4
import proofs.«166112_j80350248174014_2_alg».proof.Proof.KI.Final5
import proofs.«166112_j80350248174014_2_alg».proof.Proof.KI.Final6
import proofs.«166112_j80350248174014_2_alg».proof.Proof.KI.Final7
import proofs.«166112_j80350248174014_2_alg».proof.Proof.KI.Final8
import proofs.«166112_j80350248174014_2_alg».proof.Proof.KI.Final9
import proofs.«166112_j80350248174014_2_alg».proof.Proof.KI.Final10
import proofs.«166112_j80350248174014_2_alg».proof.Proof.KI.Final11
import proofs.«166112_j80350248174014_2_alg».proof.Proof.Ref.Spec
import Idealize.ShloMosaic.Lib.StableHlo.Run
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Cert.RefValue (normE normB colI colF colB zerosU zerosI gatherI gatherU scatterU scatterI catU catI pickU pickI)

variable (m : (ℓ : Loc nD τ sig) → Buf (Elt Ideal) ℓ) (ρ : Dev nD → PrngReg) (c : Dev nD)

theorem W1_v7 : W1 m ρ c (Proc.devRef .tc main_v7)
    = shapeCast S3200000x1 (W0 m ρ c (Proc.devRef .tc main_arg2)) shapeCasts_S3200000_S3200000x1 := by
  show StableHlo.after hostOps0 (W0 m ρ c) (Proc.devRef .tc main_v7) = _
  after_results
  rfl

theorem W1_v6 : W1 m ρ c (Proc.devRef .tc main_v6)
    = gatherI (W0 m ρ c (Proc.devRef .tc main_arg7)) (colI (normE 50000#32 (W0 m ρ c (Proc.devRef .tc main_arg1)))) := by
  show StableHlo.after hostOps0 (W0 m ρ c) (Proc.devRef .tc main_v6) = _
  after_results
  rfl

theorem W5_v20 : W5 m ρ c (Proc.devRef .tc main_v20)
    = shapeCast S3200000x1 (W4 m ρ c (Proc.devRef .tc main_arg3)) shapeCasts_S3200000_S3200000x1 := by
  show StableHlo.after hostOps2 (W4 m ρ c) (Proc.devRef .tc main_v20) = _
  after_results
  rfl

theorem W5_v19 : W5 m ρ c (Proc.devRef .tc main_v19)
    = gatherU (W4 m ρ c (Proc.devRef .tc main_arg6)) (colI (normE 100000#32 (W4 m ρ c (Proc.devRef .tc main_arg0)))) := by
  show StableHlo.after hostOps2 (W4 m ρ c) (Proc.devRef .tc main_v19) = _
  after_results
  rfl

theorem W9_v33 : W9 m ρ c (Proc.devRef .tc main_v33)
    = shapeCast S3200000x1 (W8 m ρ c (Proc.devRef .tc main_arg2)) shapeCasts_S3200000_S3200000x1 := by
  show StableHlo.after hostOps4 (W8 m ρ c) (Proc.devRef .tc main_v33) = _
  after_results
  rfl

theorem W9_v32 : W9 m ρ c (Proc.devRef .tc main_v32)
    = gatherI (W8 m ρ c (Proc.devRef .tc main_v25)) (colI (normE 50000#32 (W8 m ρ c (Proc.devRef .tc main_arg1)))) := by
  show StableHlo.after hostOps4 (W8 m ρ c) (Proc.devRef .tc main_v32) = _
  after_results
  rfl

theorem W13_v46 : W13 m ρ c (Proc.devRef .tc main_v46)
    = shapeCast S3200000x1 (W12 m ρ c (Proc.devRef .tc main_arg3)) shapeCasts_S3200000_S3200000x1 := by
  show StableHlo.after hostOps6 (W12 m ρ c) (Proc.devRef .tc main_v46) = _
  after_results
  rfl

theorem W13_v45 : W13 m ρ c (Proc.devRef .tc main_v45)
    = gatherU (W12 m ρ c (Proc.devRef .tc main_v12)) (colI (normE 100000#32 (W12 m ρ c (Proc.devRef .tc main_arg0)))) := by
  show StableHlo.after hostOps6 (W12 m ρ c) (Proc.devRef .tc main_v45) = _
  after_results
  rfl

theorem W17_v59 : W17 m ρ c (Proc.devRef .tc main_v59)
    = shapeCast S3200000x1 (W16 m ρ c (Proc.devRef .tc main_arg2)) shapeCasts_S3200000_S3200000x1 := by
  show StableHlo.after hostOps8 (W16 m ρ c) (Proc.devRef .tc main_v59) = _
  after_results
  rfl

theorem W17_v58 : W17 m ρ c (Proc.devRef .tc main_v58)
    = gatherI (W16 m ρ c (Proc.devRef .tc main_v51)) (colI (normE 50000#32 (W16 m ρ c (Proc.devRef .tc main_arg1)))) := by
  show StableHlo.after hostOps8 (W16 m ρ c) (Proc.devRef .tc main_v58) = _
  after_results
  rfl

theorem W21_v72 : W21 m ρ c (Proc.devRef .tc main_v72)
    = shapeCast S3200000x1 (W20 m ρ c (Proc.devRef .tc main_arg3)) shapeCasts_S3200000_S3200000x1 := by
  show StableHlo.after hostOps10 (W20 m ρ c) (Proc.devRef .tc main_v72) = _
  after_results
  rfl

theorem W21_v71 : W21 m ρ c (Proc.devRef .tc main_v71)
    = gatherU (W20 m ρ c (Proc.devRef .tc main_v38)) (colI (normE 100000#32 (W20 m ρ c (Proc.devRef .tc main_arg0)))) := by
  show StableHlo.after hostOps10 (W20 m ρ c) (Proc.devRef .tc main_v71) = _
  after_results
  rfl

theorem W3_v11 : W3 m ρ c (Proc.devRef .tc main_v11)
    = scatterU zerosU (colI (W2 m ρ c (Proc.devRef .tc main_arg0))) (W2 m ρ c (Proc.devRef .tc main_v8)) := by
  show StableHlo.after hostOps1 (W2 m ρ c) (Proc.devRef .tc main_v11) = _
  after_results
  rfl

theorem W7_v24 : W7 m ρ c (Proc.devRef .tc main_v24)
    = scatterI zerosI (colI (W6 m ρ c (Proc.devRef .tc main_arg1))) (W6 m ρ c (Proc.devRef .tc main_v21)) := by
  show StableHlo.after hostOps3 (W6 m ρ c) (Proc.devRef .tc main_v24) = _
  after_results
  rfl

theorem W11_v37 : W11 m ρ c (Proc.devRef .tc main_v37)
    = scatterU zerosU (colI (W10 m ρ c (Proc.devRef .tc main_arg0))) (W10 m ρ c (Proc.devRef .tc main_v34)) := by
  show StableHlo.after hostOps5 (W10 m ρ c) (Proc.devRef .tc main_v37) = _
  after_results
  rfl

theorem W15_v50 : W15 m ρ c (Proc.devRef .tc main_v50)
    = scatterI zerosI (colI (W14 m ρ c (Proc.devRef .tc main_arg1))) (W14 m ρ c (Proc.devRef .tc main_v47)) := by
  show StableHlo.after hostOps7 (W14 m ρ c) (Proc.devRef .tc main_v50) = _
  after_results
  rfl

theorem W19_v63 : W19 m ρ c (Proc.devRef .tc main_v63)
    = scatterU zerosU (colI (W18 m ρ c (Proc.devRef .tc main_arg0))) (W18 m ρ c (Proc.devRef .tc main_v60)) := by
  show StableHlo.after hostOps9 (W18 m ρ c) (Proc.devRef .tc main_v63) = _
  after_results
  rfl

theorem W23_v76 : W23 m ρ c (Proc.devRef .tc main_v76)
    = scatterI zerosI (colI (W22 m ρ c (Proc.devRef .tc main_arg1))) (W22 m ρ c (Proc.devRef .tc main_v73)) := by
  show StableHlo.after hostOps11 (W22 m ρ c) (Proc.devRef .tc main_v76) = _
  after_results
  rfl

theorem W2_v8 : W2 m ρ c (Proc.devRef .tc main_v8)
    = Cert.Layer.rowScale (W1 m ρ c (Proc.devRef .tc main_v7)) (W1 m ρ c (Proc.devRef .tc main_v6)) :=
  (W2_arr m ρ c 2).trans (final0 (V1 m ρ) c)

theorem W4_v12 : W4 m ρ c (Proc.devRef .tc main_v12)
    = Cert.Layer.resid (W3 m ρ c (Proc.devRef .tc main_v11)) (W3 m ρ c (Proc.devRef .tc main_arg6)) (W3 m ρ c (Proc.devRef .tc main_arg4)) :=
  (W4_arr m ρ c 3).trans (final1 (V3 m ρ) c)

theorem W6_v21 : W6 m ρ c (Proc.devRef .tc main_v21)
    = Cert.Layer.rowScale (W5 m ρ c (Proc.devRef .tc main_v20)) (W5 m ρ c (Proc.devRef .tc main_v19)) :=
  (W6_arr m ρ c 2).trans (final2 (V5 m ρ) c)

theorem W8_v25 : W8 m ρ c (Proc.devRef .tc main_v25)
    = Cert.Layer.resid (W7 m ρ c (Proc.devRef .tc main_v24)) (W7 m ρ c (Proc.devRef .tc main_arg7)) (W7 m ρ c (Proc.devRef .tc main_arg5)) :=
  (W8_arr m ρ c 3).trans (final3 (V7 m ρ) c)

theorem W10_v34 : W10 m ρ c (Proc.devRef .tc main_v34)
    = Cert.Layer.rowScale (W9 m ρ c (Proc.devRef .tc main_v33)) (W9 m ρ c (Proc.devRef .tc main_v32)) :=
  (W10_arr m ρ c 2).trans (final4 (V9 m ρ) c)

theorem W12_v38 : W12 m ρ c (Proc.devRef .tc main_v38)
    = Cert.Layer.resid (W11 m ρ c (Proc.devRef .tc main_v37)) (W11 m ρ c (Proc.devRef .tc main_v12)) (W11 m ρ c (Proc.devRef .tc main_arg4)) :=
  (W12_arr m ρ c 3).trans (final5 (V11 m ρ) c)

theorem W14_v47 : W14 m ρ c (Proc.devRef .tc main_v47)
    = Cert.Layer.rowScale (W13 m ρ c (Proc.devRef .tc main_v46)) (W13 m ρ c (Proc.devRef .tc main_v45)) :=
  (W14_arr m ρ c 2).trans (final6 (V13 m ρ) c)

theorem W16_v51 : W16 m ρ c (Proc.devRef .tc main_v51)
    = Cert.Layer.resid (W15 m ρ c (Proc.devRef .tc main_v50)) (W15 m ρ c (Proc.devRef .tc main_v25)) (W15 m ρ c (Proc.devRef .tc main_arg5)) :=
  (W16_arr m ρ c 3).trans (final7 (V15 m ρ) c)

theorem W18_v60 : W18 m ρ c (Proc.devRef .tc main_v60)
    = Cert.Layer.rowScale (W17 m ρ c (Proc.devRef .tc main_v59)) (W17 m ρ c (Proc.devRef .tc main_v58)) :=
  (W18_arr m ρ c 2).trans (final8 (V17 m ρ) c)

theorem W20_v64 : W20 m ρ c (Proc.devRef .tc main_v64)
    = Cert.Layer.resid (W19 m ρ c (Proc.devRef .tc main_v63)) (W19 m ρ c (Proc.devRef .tc main_v38)) (W19 m ρ c (Proc.devRef .tc main_arg4)) :=
  (W20_arr m ρ c 3).trans (final9 (V19 m ρ) c)

theorem W22_v73 : W22 m ρ c (Proc.devRef .tc main_v73)
    = Cert.Layer.rowScale (W21 m ρ c (Proc.devRef .tc main_v72)) (W21 m ρ c (Proc.devRef .tc main_v71)) :=
  (W22_arr m ρ c 2).trans (final10 (V21 m ρ) c)

theorem W24_v77 : W24 m ρ c (Proc.devRef .tc main_v77)
    = Cert.Layer.resid (W23 m ρ c (Proc.devRef .tc main_v76)) (W23 m ρ c (Proc.devRef .tc main_v51)) (W23 m ρ c (Proc.devRef .tc main_arg5)) :=
  (W24_arr m ρ c 3).trans (final11 (V23 m ρ) c)

end Cert.KernelIdeal.Hand

end
-- ==== Proof.KI.Tail.lean ====
/- The last host stretch: the four feature tables of each side laid side by side, and the three results gathered from the two wide tables at the
   batch's node numbers (negative numbers counted from the end). -/
import proofs.«166112_j80350248174014_2_alg».proof.Proof.KI.Fold
import proofs.«166112_j80350248174014_2_alg».proof.Proof.Ref.Spec
import Idealize.ShloMosaic.Lib.StableHlo.Run
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Cert.RefValue (normE normB colI colF colB zerosU zerosI gatherI gatherU scatterU scatterI catU catI pickU pickI)

variable (m : (ℓ : Loc nD τ sig) → Buf (Elt Ideal) ℓ) (ρ : Dev nD → PrngReg) (c : Dev nD)

set_option maxHeartbeats 4000000 in
theorem W25_v86 : W25 m ρ c (Proc.devRef .tc main_v86)
    = pickU (catU (W24 m ρ c (Proc.devRef .tc main_arg6)) (W24 m ρ c (Proc.devRef .tc main_v12)) (W24 m ρ c (Proc.devRef .tc main_v38)) (W24 m ρ c (Proc.devRef .tc main_v64))) (W24 m ρ c (Proc.devRef .tc main_arg8)) := by
  show StableHlo.after hostOps12 (W24 m ρ c) (Proc.devRef .tc main_v86) = _
  after_results_simp
  rfl

set_option maxHeartbeats 4000000 in
theorem W25_v93 : W25 m ρ c (Proc.devRef .tc main_v93)
    = pickI (catI (W24 m ρ c (Proc.devRef .tc main_arg7)) (W24 m ρ c (Proc.devRef .tc main_v25)) (W24 m ρ c (Proc.devRef .tc main_v51)) (W24 m ρ c (Proc.devRef .tc main_v77))) (W24 m ρ c (Proc.devRef .tc main_arg9)) := by
  show StableHlo.after hostOps12 (W24 m ρ c) (Proc.devRef .tc main_v93) = _
  after_results_simp
  rfl

set_option maxHeartbeats 4000000 in
theorem W25_v100 : W25 m ρ c (Proc.devRef .tc main_v100)
    = pickI (catI (W24 m ρ c (Proc.devRef .tc main_arg7)) (W24 m ρ c (Proc.devRef .tc main_v25)) (W24 m ρ c (Proc.devRef .tc main_v51)) (W24 m ρ c (Proc.devRef .tc main_v77))) (W24 m ρ c (Proc.devRef .tc main_arg10)) := by
  show StableHlo.after hostOps12 (W24 m ρ c) (Proc.devRef .tc main_v100) = _
  after_results_simp
  rfl

end Cert.KernelIdeal.Hand

end
-- ==== Proof.LibLayerBridge.lean ====
import proofs.«166112_j80350248174014_2_alg».proof.Proof.LibLayerStages
import proofs.«166112_j80350248174014_2_alg».proof.Proof.LibColumnLayouts

/-!
  A column spread along the rows of a matrix and then multiplied in elementwise is the row-wise scaling:
  the reference's `broadcast_in_dim` followed by `multiply` (and `add`) computes, entry by entry, the same
  product (and sum) as `Cert.Layer.rowScale` (and `Cert.Layer.resid`), in the same order of operands.
  A list laid out as a column by `broadcast_in_dim` and by a reshape is the same column.
-/

noncomputable section

namespace Cert.RefValue

open Idealize.ShloMosaic Idealize.ShloMosaic.ValueIdx

variable {α : Type}

/-- A column `[a, 1]` spread to `[a, b]` along axes (0, 1) reads, at `(p, c)`, the column's entry `(p, 0)`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- A list `[a]` laid out as a column `[a, 1]` along axis 0 reads, at `(i, u)`, the list's entry `i`. -/
theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- The spread column times the rows, entry by entry, is the row-wise scaling (the weight on the left). -/
theorem mulf_bcast_eq_rowScale {E D : ℕ} (h : (⟨2, ![E, 1]⟩ : Shape).BroadcastsInDim ⟨2, ![E, D]⟩ ![0, 1])
    (v : FVec Ideal ⟨2, ![E, 1]⟩ .f32) (f : FVec Ideal ⟨2, ![E, D]⟩ .f32) :
    mulf (broadcastInDim ⟨2, ![E, D]⟩ ![0, 1] h v) f = Cert.Layer.rowScale v f := by
  funext i
  obtain ⟨p, q, rfl⟩ : ∃ (p : Fin E) (q : Fin D), i = ix2 p q := ⟨i 0, i 1, eq_ix2 i⟩
  rw [mulf_apply, broadcastInDim_a1_ab_apply, Cert.Layer.rowScale_apply]

/-- The sums plus the previous rows times the spread degree column is the combine, entry by entry. -/
theorem addf_mulf_bcast_eq_resid {E D : ℕ} (h : (⟨2, ![E, 1]⟩ : Shape).BroadcastsInDim ⟨2, ![E, D]⟩ ![0, 1])
    (s p : FVec Ideal ⟨2, ![E, D]⟩ .f32) (d : FVec Ideal ⟨2, ![E, 1]⟩ .f32) :
    addf s (mulf p (broadcastInDim ⟨2, ![E, D]⟩ ![0, 1] h d)) = Cert.Layer.resid s p d := by
  funext i
  obtain ⟨r, q, rfl⟩ : ∃ (r : Fin E) (q : Fin D), i = ix2 r q := ⟨i 0, i 1, eq_ix2 i⟩
  rw [addf_apply, mulf_apply, broadcastInDim_a1_ab_apply, Cert.Layer.resid_apply]

/-- A list as a column: by `broadcast_in_dim` along axis 0 and by a reshape it is the same array. -/
theorem bcast_col_eq_shapeCast {a : ℕ} (x : (⟨1, ![a]⟩ : Shape).Idx → α)
    (hb : (⟨1, ![a]⟩ : Shape).BroadcastsInDim ⟨2, ![a, 1]⟩ ![0]) (hc : (⟨1, ![a]⟩ : Shape).ShapeCasts ⟨2, ![a, 1]⟩) :
    broadcastInDim ⟨2, ![a, 1]⟩ ![0] hb x = shapeCast ⟨2, ![a, 1]⟩ x hc := by
  funext j
  obtain ⟨i, u, rfl⟩ : ∃ (i : Fin a) (u : Fin 1), j = ix2 i u := ⟨j 0, j 1, eq_ix2 j⟩
  rw [broadcastInDim_a_a1_apply, Cert.ColumnLayouts.shapeCast_a_a1_apply]

end Cert.RefValue

end
-- ==== Proof.KI.Value.lean ====
/- The kernel's three results, and the node features after each layer, as the functions of the eleven argument arrays that the
   specification names (Ref/Spec.lean): layer by layer, the buffer a layer leaves is the specification's layer function of the buffers the
   previous layer left — the stage equations composed, each buffer carried from where it was written, the reshaped column of weights being
   the broadcast column. -/
import proofs.«166112_j80350248174014_2_alg».proof.Proof.KI.Keep
import proofs.«166112_j80350248174014_2_alg».proof.Proof.KI.Stages
import proofs.«166112_j80350248174014_2_alg».proof.Proof.KI.Tail
import proofs.«166112_j80350248174014_2_alg».proof.Proof.Ref.Spec
import proofs.«166112_j80350248174014_2_alg».proof.Proof.LibLayerBridge
import Idealize.ShloMosaic.Lib.StableHlo.Run
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Cert.RefValue (normE normB colI colF colB zerosU zerosI gatherI gatherU scatterU scatterI catU catI pickU pickI)

variable (m : (ℓ : Loc nD τ sig) → Buf (Elt Ideal) ℓ) (ρ : Dev nD → PrngReg) (c : Dev nD)
/-- Argument 0 as launched. -/
abbrev A0 := W0 m ρ c (Proc.devRef .tc main_arg0)
/-- Argument 1 as launched. -/
abbrev A1 := W0 m ρ c (Proc.devRef .tc main_arg1)
/-- Argument 2 as launched. -/
abbrev A2 := W0 m ρ c (Proc.devRef .tc main_arg2)
/-- Argument 3 as launched. -/
abbrev A3 := W0 m ρ c (Proc.devRef .tc main_arg3)
/-- Argument 4 as launched. -/
abbrev A4 := W0 m ρ c (Proc.devRef .tc main_arg4)
/-- Argument 5 as launched. -/
abbrev A5 := W0 m ρ c (Proc.devRef .tc main_arg5)
/-- Argument 6 as launched. -/
abbrev A6 := W0 m ρ c (Proc.devRef .tc main_arg6)
/-- Argument 7 as launched. -/
abbrev A7 := W0 m ρ c (Proc.devRef .tc main_arg7)
/-- Argument 8 as launched. -/
abbrev A8 := W0 m ρ c (Proc.devRef .tc main_arg8)
/-- Argument 9 as launched. -/
abbrev A9 := W0 m ρ c (Proc.devRef .tc main_arg9)
/-- Argument 10 as launched. -/
abbrev A10 := W0 m ρ c (Proc.devRef .tc main_arg10)

/-- The reshaped weights are the reference's broadcast column. -/
theorem col_eq (x : FVec Ideal S3200000 .f32) : shapeCast S3200000x1 x shapeCasts_S3200000_S3200000x1 = colF x :=
  (Cert.RefValue.bcast_col_eq_shapeCast _ _ _).symm

theorem K_u1 : W4 m ρ c (Proc.devRef .tc main_v12) = Cert.RefValue.u1 (A0 m ρ c) (A1 m ρ c) (A2 m ρ c) (A4 m ρ c) (A6 m ρ c) (A7 m ρ c) := by
  rw [W4_v12, W3_v11, W2_v8, W1_v7, W1_v6]
  rw [carry_arg6_3, carry_arg4_3, carry_arg0_2]
  rw [col_eq]
  rfl

theorem K_i1 : W8 m ρ c (Proc.devRef .tc main_v25) = Cert.RefValue.i1 (A0 m ρ c) (A1 m ρ c) (A3 m ρ c) (A5 m ρ c) (A6 m ρ c) (A7 m ρ c) := by
  rw [W8_v25, W7_v24, W6_v21, W5_v20, W5_v19]
  rw [carry_arg7_7, carry_arg5_7, carry_arg1_6, carry_arg3_4, carry_arg6_4, carry_arg0_4]
  rw [col_eq]
  rfl

theorem K_u2 : W12 m ρ c (Proc.devRef .tc main_v38) = Cert.RefValue.u2 (A0 m ρ c) (A1 m ρ c) (A2 m ρ c) (A3 m ρ c) (A4 m ρ c) (A5 m ρ c) (A6 m ρ c) (A7 m ρ c) := by
  rw [W12_v38, W11_v37, W10_v34, W9_v33, W9_v32]
  rw [carry_v12_11, carry_arg4_11, carry_arg0_10, carry_arg2_8, carry_arg1_8]
  rw [K_u1, K_i1]
  rw [col_eq]
  rfl

theorem K_i2 : W16 m ρ c (Proc.devRef .tc main_v51) = Cert.RefValue.i2 (A0 m ρ c) (A1 m ρ c) (A2 m ρ c) (A3 m ρ c) (A4 m ρ c) (A5 m ρ c) (A6 m ρ c) (A7 m ρ c) := by
  rw [W16_v51, W15_v50, W14_v47, W13_v46, W13_v45]
  rw [carry_v25_15, carry_arg5_15, carry_arg1_14, carry_arg3_12, carry_v12_12, carry_arg0_12]
  rw [K_u1, K_i1]
  rw [col_eq]
  rfl

theorem K_u3 : W20 m ρ c (Proc.devRef .tc main_v64) = Cert.RefValue.u3 (A0 m ρ c) (A1 m ρ c) (A2 m ρ c) (A3 m ρ c) (A4 m ρ c) (A5 m ρ c) (A6 m ρ c) (A7 m ρ c) := by
  rw [W20_v64, W19_v63, W18_v60, W17_v59, W17_v58]
  rw [carry_v38_19, carry_arg4_19, carry_arg0_18, carry_arg2_16, carry_arg1_16]
  rw [K_u2, K_i2]
  rw [col_eq]
  rfl

theorem K_i3 : W24 m ρ c (Proc.devRef .tc main_v77) = Cert.RefValue.i3 (A0 m ρ c) (A1 m ρ c) (A2 m ρ c) (A3 m ρ c) (A4 m ρ c) (A5 m ρ c) (A6 m ρ c) (A7 m ρ c) := by
  rw [W24_v77, W23_v76, W22_v73, W21_v72, W21_v71]
  rw [carry_v51_23, carry_arg5_23, carry_arg1_22, carry_arg3_20, carry_v38_20, carry_arg0_20]
  rw [K_u2, K_i2]
  rw [col_eq]
  rfl

theorem K_out0 : W25 m ρ c (Proc.devRef .tc main_v86) = Cert.RefValue.out0 (A0 m ρ c) (A1 m ρ c) (A2 m ρ c) (A3 m ρ c) (A4 m ρ c) (A5 m ρ c) (A6 m ρ c) (A7 m ρ c) (A8 m ρ c) := by
  rw [W25_v86]
  rw [carry_arg6_24, carry_v12_24, carry_v38_24, carry_v64_24, carry_arg8_24]
  rw [K_u1, K_u2, K_u3]
  rfl

theorem K_out1 : W25 m ρ c (Proc.devRef .tc main_v93) = Cert.RefValue.out1 (A0 m ρ c) (A1 m ρ c) (A2 m ρ c) (A3 m ρ c) (A4 m ρ c) (A5 m ρ c) (A6 m ρ c) (A7 m ρ c) (A9 m ρ c) := by
  rw [W25_v93]
  rw [carry_arg7_24, carry_v25_24, carry_v51_24, carry_arg9_24]
  rw [K_i1, K_i2, K_i3]
  rfl

theorem K_out2 : W25 m ρ c (Proc.devRef .tc main_v100) = Cert.RefValue.out2 (A0 m ρ c) (A1 m ρ c) (A2 m ρ c) (A3 m ρ c) (A4 m ρ c) (A5 m ρ c) (A6 m ρ c) (A7 m ρ c) (A10 m ρ c) := by
  rw [W25_v100]
  rw [carry_arg7_24, carry_v25_24, carry_v51_24, carry_arg10_24]
  rw [K_i1, K_i2, K_i3]
  rfl

end Cert.KernelIdeal.Hand

end
-- ==== Proof.KI.KernelRun.lean ====
/- The kernel half of the algebraic claim: every weakly fair execution of the idealized kernel's @main terminates, its three
   results hold the specification's three results of the argument arrays, and the argument arrays end as launched. Read off the
   run (every unscoped buffer ends at the fold's last contents): the results by the value of the fold at the three result
   buffers, the arguments by walking the fold back to the launch memory. -/
import proofs.«166112_j80350248174014_2_alg».proof.Proof.KI.Run
import proofs.«166112_j80350248174014_2_alg».proof.Proof.KI.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem

/-- Every weakly fair execution of the idealized kernel's @main from memory `m` (zero counters) terminates, nothing faulting; the
    three results hold the specification's results of the launch contents of the arguments, and every argument array ends as
    launched. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v86) = Cert.RefValue.out0 (A0 m ρ c) (A1 m ρ c) (A2 m ρ c) (A3 m ρ c) (A4 m ρ c) (A5 m ρ c) (A6 m ρ c) (A7 m ρ c) (A8 m ρ c)
      ∧ r.2.mem ((c.tc : Thread nD τ).loc main_v93) = Cert.RefValue.out1 (A0 m ρ c) (A1 m ρ c) (A2 m ρ c) (A3 m ρ c) (A4 m ρ c) (A5 m ρ c) (A6 m ρ c) (A7 m ρ c) (A9 m ρ c)
      ∧ r.2.mem ((c.tc : Thread nD τ).loc main_v100) = Cert.RefValue.out2 (A0 m ρ c) (A1 m ρ c) (A2 m ρ c) (A3 m ρ c) (A4 m ρ c) (A5 m ρ c) (A6 m ρ c) (A7 m ρ c) (A10 m ρ c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run (defs (F := Ideal)) _ _).mono (fun _ h c =>
    ⟨(h c _ (mem_uc main_v86 (by decide))).trans (K_out0 m ρ c),
     (h c _ (mem_uc main_v93 (by decide))).trans (K_out1 m ρ c),
     (h c _ (mem_uc main_v100 (by decide))).trans (K_out2 m ρ c),
     (h c _ (mem_uc main_arg0 (by decide))).trans (W25_main_arg0 m ρ c),
     (h c _ (mem_uc main_arg1 (by decide))).trans (W25_main_arg1 m ρ c),
     (h c _ (mem_uc main_arg2 (by decide))).trans (W25_main_arg2 m ρ c),
     (h c _ (mem_uc main_arg3 (by decide))).trans (W25_main_arg3 m ρ c),
     (h c _ (mem_uc main_arg4 (by decide))).trans (W25_main_arg4 m ρ c),
     (h c _ (mem_uc main_arg5 (by decide))).trans (W25_main_arg5 m ρ c),
     (h c _ (mem_uc main_arg6 (by decide))).trans (W25_main_arg6 m ρ c),
     (h c _ (mem_uc main_arg7 (by decide))).trans (W25_main_arg7 m ρ c),
     (h c _ (mem_uc main_arg8 (by decide))).trans (W25_main_arg8 m ρ c),
     (h c _ (mem_uc main_arg9 (by decide))).trans (W25_main_arg9 m ρ c),
     (h c _ (mem_uc main_arg10 (by decide))).trans (W25_main_arg10 m ρ c)⟩) (run_all (F := Ideal) m ρ)

end Cert.KernelIdeal.Hand

end
-- ==== Proof.Ref.Run.lean ====
import proofs.«166112_j80350248174014_2_alg».proof.Proof.Ref.Spec
import proofs.«166112_j80350248174014_2_alg».proof.Proof.LibLayerBridge

/-!
  The reference program computes the specification: every weakly fair execution of it terminates with its
  three results at `out0`, `out1`, `out2` of its eleven argument arrays, and the arguments unchanged.

  One round of the reference is a scatter-add of (spread weight column) × (gathered rows) plus
  (previous rows) × (spread degree column); by the two entrywise identities of the bridge this is
  `userStep` / `itemStep`. The reference's result terms are nests of such rounds over the arguments, and the
  specification's results are the same nests, so the two agree round by round.
-/

noncomputable section

namespace Cert.RefValue

open Idealize.ShloMosaic Idealize.ShloMosaic.TcCoe Idealize.SL.Sem Idealize.ShloMosaic.ValueIdx
open Cert.ReferenceIdeal Cert.ReferenceIdeal.Gen Cert.ReferenceIdeal.Value

/-- One round for the users, as the reference writes it, is `userStep`. -/
theorem userStep_spelled (eu ei : IVec S3200000 32) (w : FVec Ideal S3200000 .f32) (d : FVec Ideal S100000x1 .f32)
    (u : FVec Ideal S100000x64 .f32) (i : FVec Ideal S50000x64 .f32) :
    addf (Host.scatterAdd scatter_S100000x64_S3200000x1_S3200000x64_1_0_0_1 (broadcastInDim S100000x64 ![] bcast_S_S100000x64 (constant S_ .f32 0x00000000#32)) (broadcastInDim S3200000x1 ![0] bcast_S3200000_S3200000x1_0 eu)
        (mulf (broadcastInDim S3200000x64 ![0, 1] bcast_S3200000x1_S3200000x64_0_1 (broadcastInDim S3200000x1 ![0] bcast_S3200000_S3200000x1_0 w))
          (Host.gather gather_S50000x64_S3200000x1_S3200000x64_1_0_n_n_0_1_164 i (broadcastInDim S3200000x1 ![0] bcast_S3200000_S3200000x1_0 (select (cmpi .slt ei (broadcastInDim S3200000 ![] bcast_S_S3200000 (constantI S_ 32 0#32))) (addi ei (broadcastInDim S3200000 ![] bcast_S_S3200000 (constantI S_ 32 50000#32))) ei)))))
      (mulf u (broadcastInDim S100000x64 ![0, 1] bcast_S100000x1_S100000x64_0_1 d))
    = userStep eu ei w d u i := by
  rw [addf_mulf_bcast_eq_resid (E := 100000) (D := 64), mulf_bcast_eq_rowScale (E := 3200000) (D := 64)]
  rfl

/-- One round for the items, as the reference writes it, is `itemStep`. -/
theorem itemStep_spelled (eu ei : IVec S3200000 32) (w : FVec Ideal S3200000 .f32) (d : FVec Ideal S50000x1 .f32)
    (u : FVec Ideal S100000x64 .f32) (i : FVec Ideal S50000x64 .f32) :
    addf (Host.scatterAdd scatter_S50000x64_S3200000x1_S3200000x64_1_0_0_1 (broadcastInDim S50000x64 ![] bcast_S_S50000x64 (constant S_ .f32 0x00000000#32)) (broadcastInDim S3200000x1 ![0] bcast_S3200000_S3200000x1_0 ei)
        (mulf (broadcastInDim S3200000x64 ![0, 1] bcast_S3200000x1_S3200000x64_0_1 (broadcastInDim S3200000x1 ![0] bcast_S3200000_S3200000x1_0 w))
          (Host.gather gather_S100000x64_S3200000x1_S3200000x64_1_0_n_n_0_1_164 u (broadcastInDim S3200000x1 ![0] bcast_S3200000_S3200000x1_0 (select (cmpi .slt eu (broadcastInDim S3200000 ![] bcast_S_S3200000 (constantI S_ 32 0#32))) (addi eu (broadcastInDim S3200000 ![] bcast_S_S3200000 (constantI S_ 32 100000#32))) eu)))))
      (mulf i (broadcastInDim S50000x64 ![0, 1] bcast_S50000x1_S50000x64_0_1 d))
    = itemStep eu ei w d u i := by
  rw [addf_mulf_bcast_eq_resid (E := 50000) (D := 64), mulf_bcast_eq_rowScale (E := 3200000) (D := 64)]
  rfl

variable (m : (ℓ : Loc nD τ sig) → Buf (Elt Ideal) ℓ) (c : Dev nD)

/-- The first result's term is the specification's first result of the arguments. -/
theorem res0_eq : res_out0 (F := Ideal) m c = out0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  unfold res_out0 res_main_v104
  repeat (first | rw [userStep_spelled] | rw [itemStep_spelled])
  rfl

/-- The second result's term is the specification's second result of the arguments. -/
theorem res1_eq : res_out1 (F := Ideal) m c = out1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg9)) := by
  unfold res_out1 res_main_v111
  repeat (first | rw [userStep_spelled] | rw [itemStep_spelled])
  rfl

/-- The third result's term is the specification's third result of the arguments. -/
theorem res2_eq : res_out2 (F := Ideal) m c = out2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg10)) := by
  unfold res_out2 res_main_v118
  repeat (first | rw [userStep_spelled] | rw [itemStep_spelled])
  rfl

/-- Every weakly fair execution of the reference terminates with its three results at the specification's
    three results of the argument arrays, and the argument arrays unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v104) = out0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v111) = out1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg9))
      ∧ r.2.mem ((c.tc : Thread nD τ).loc main_v118) = out2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run (defs (F := Ideal)) _ _).mono
    (fun _ h c => ⟨(h c).1.trans (res0_eq m c), (h c).2.1.trans (res1_eq m c), (h c).2.2.1.trans (res2_eq m c), (h c).2.2.2⟩)
    (Cert.ReferenceIdeal.Value.run (F := Ideal) m ρ)

end Cert.RefValue

end
-- ==== Proof.Ref.Frame.lean ====
import proofs.«166112_j80350248174014_2_alg».proof.Defs
import proofs.«166112_j80350248174014_2_alg».proof.Proof.Gen.ReferenceIdeal.Run
import proofs.«166112_j80350248174014_2_alg».proof.Proof.Gen.Pre_finite_inputs

/-!
  The reference program has no kernel: it is a straight line of host operations, each of which reads its
  operands and writes one fresh buffer. Its run therefore terminates without a fault and leaves the eleven
  argument arrays as they were; this is its run read back, with the three results dropped.
-/

noncomputable section

namespace Cert.RefValue

open Idealize.ShloMosaic Idealize.SL.Sem

/-- Every weakly fair execution of the reference terminates, faults nowhere, and leaves its arguments unchanged. -/
theorem ref_frame :
    Cert.frame_ReferenceIdeal (hReferenceIdeal := Cert.ReferenceIdeal.Gen.facts)
      (hPre_finite_inputs := Cert.Pre_finite_inputs.Gen.facts) :=
  fun m ρ _ => (θ_run Cert.ReferenceIdeal.defs _ _).mono (fun _ h c => (h c).2.2.2)
    (Cert.ReferenceIdeal.Value.run (F := Ideal) m ρ)

end Cert.RefValue

end
-- ==== Proof.lean ====
/- Three layers of message passing on a bipartite graph: each layer sets a user's features to the weighted sum of its items' features over the
   edges plus its own features scaled by its degree, and symmetrically for the items; the results are rows of the four feature tables of
   each side laid side by side. The kernel computes the per-edge products and the degree-scaled sums in twelve tiled regions, each of which
   leaves, block by block, exactly the array the reference computes with whole-array operations: a gathered row times its edge's weight
   (the weight first), and a neighbourhood sum plus the previous feature times the degree. Gathers, scatter-adds, the concatenation and the
   final gathers are the same host operations in both programs and are carried along unopened. So at the extended reals the two programs
   compute the same function of their arguments, operation by operation, and no property of the inputs is used.
   The frames of the two kernel programs: every region is entered with its arrays whole, its body stores a value of its input blocks over the
   whole output block, its write-backs tile the output array; no host stretch and no region writes an argument. The reference's frame is
   its run with the results dropped. Nothing was rewritten on the way to the idealized kernel, so that conjunct is trivial. -/
import proofs.«166112_j80350248174014_2_alg».proof.Defs
import proofs.«166112_j80350248174014_2_alg».proof.Proof.Gen.Kernel
import proofs.«166112_j80350248174014_2_alg».proof.Proof.Gen.KernelIdeal
import proofs.«166112_j80350248174014_2_alg».proof.Proof.Gen.ReferenceIdeal
import proofs.«166112_j80350248174014_2_alg».proof.Proof.Gen.Pre_finite_inputs
import proofs.«166112_j80350248174014_2_alg».proof.Proof.K.Run
import proofs.«166112_j80350248174014_2_alg».proof.Proof.KI.Run
import proofs.«166112_j80350248174014_2_alg».proof.Proof.KI.KernelRun
import proofs.«166112_j80350248174014_2_alg».proof.Proof.Ref.Run
import proofs.«166112_j80350248174014_2_alg».proof.Proof.Ref.Frame
import Idealize.ShloMosaic.Adequacy
import Idealize.ShloMosaic.Init

noncomputable section

namespace Cert.Proof

open Idealize.ShloMosaic Idealize.SL.Sem

/-- The word-level kernel runs to the end and leaves its arguments as launched. -/
theorem frame_p : @Cert.frame_Kernel Cert.Kernel.Gen.facts Cert.Pre_finite_inputs.Gen.facts :=
  fun m ρ _ => Cert.Kernel.Hand.frame m ρ

/-- So does the idealized kernel. -/
theorem frame_pi : @Cert.frame_KernelIdeal Cert.KernelIdeal.Gen.facts Cert.Pre_finite_inputs.Gen.facts :=
  fun m ρ _ => Cert.KernelIdeal.Hand.frame m ρ

section
open Cert.KernelIdeal Cert.KernelIdeal.Gen Cert.KernelIdeal.Hand

/-- From memories that agree on the arguments both idealized programs end with the specification's three results of those arguments. -/
theorem algebraic : @Cert.algebraic_KernelIdeal_ReferenceIdeal Cert.KernelIdeal.Gen.facts Cert.ReferenceIdeal.Gen.facts Cert.Pre_finite_inputs.Gen.facts :=
  fun m ρ m' ρ' _ hagree =>
    ⟨fun c => Cert.RefValue.out0 (A0 m ρ c) (A1 m ρ c) (A2 m ρ c) (A3 m ρ c) (A4 m ρ c) (A5 m ρ c) (A6 m ρ c) (A7 m ρ c) (A8 m ρ c),
     fun c => Cert.RefValue.out1 (A0 m ρ c) (A1 m ρ c) (A2 m ρ c) (A3 m ρ c) (A4 m ρ c) (A5 m ρ c) (A6 m ρ c) (A7 m ρ c) (A9 m ρ c),
     fun c => Cert.RefValue.out2 (A0 m ρ c) (A1 m ρ c) (A2 m ρ c) (A3 m ρ c) (A4 m ρ c) (A5 m ρ c) (A6 m ρ c) (A7 m ρ c) (A10 m ρ c),
     kernel_run m ρ,
     (θ_run _ _ _).mono (fun _ h c => by
        obtain ⟨e0, e1, e2, e3, e4, e5, e6, e7, e8, e9, e10⟩ := hagree c
        obtain ⟨h0, h1, h2, hrest⟩ := h c
        refine ⟨?_, ?_, ?_, hrest⟩
        · rw [h0, e0, e1, e2, e3, e4, e5, e6, e7, e8]
        · rw [h1, e0, e1, e2, e3, e4, e5, e6, e7, e9]
        · rw [h2, e0, e1, e2, e3, e4, e5, e6, e7, e10]) (Cert.RefValue.ref_run m' ρ')⟩

end

theorem claim : Cert.Claim := ⟨Cert.Kernel.Gen.facts, Cert.KernelIdeal.Gen.facts, Cert.ReferenceIdeal.Gen.facts, Cert.Pre_finite_inputs.Gen.facts,
  frame_p, frame_pi, Cert.RefValue.ref_frame, trivial, algebraic⟩

end Cert.Proof

end
